-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x256x256 : Shape := ⟨4, ![64, 1, 256, 256]⟩
abbrev S64x2x256x256 : Shape := ⟨4, ![64, 2, 256, 256]⟩
abbrev S64x2048x2 : Shape := ⟨3, ![64, 2048, 2]⟩
abbrev S64x4096x4 : Shape := ⟨3, ![64, 4096, 4]⟩
abbrev S64x2048x2x4 : Shape := ⟨4, ![64, 2048, 2, 4]⟩
abbrev S64x2048x1 : Shape := ⟨3, ![64, 2048, 1]⟩
abbrev S_ : Shape := ⟨0, ![]⟩

class Facts : Prop where
  bcast_S_S64x1x256x256 : S_.BroadcastsInDim S64x1x256x256 (![] : Fin 0 → Fin S64x1x256x256.rank)
  reducesTo_S64x1x256x256_S_d0_1_2_3 : S64x1x256x256.ReducesTo [0, 1, 2, 3] S_
  h_S_ : 0 < S_.numel
  bcast_S_S64x2x256x256 : S_.BroadcastsInDim S64x2x256x256 (![] : Fin 0 → Fin S64x2x256x256.rank)
  reducesTo_S64x2x256x256_S_d0_1_2_3 : S64x2x256x256.ReducesTo [0, 1, 2, 3] S_
  bcast_S_S64x2048x2 : S_.BroadcastsInDim S64x2048x2 (![] : Fin 0 → Fin S64x2048x2.rank)
  reducesTo_S64x2048x2_S_d0_1_2 : S64x2048x2.ReducesTo [0, 1, 2] S_

variable [Facts]

def fn_part1 {F : FTy → Type} [FloatOps F] (main_arg4 : FVec F S64x2048x2 .f32) (main_v13 : IVec S_ 1) (main_v16 : IVec S64x2x256x256 1) : IVec S_ 1 :=
  let main_c_5 : IVec S_ 1 := constantI S_ 1 1#1
  let main_v17 : IVec S_ 1 := (fun x v => Host.reduce IntOp.andi x v reducesTo_S64x2x256x256_S_d0_1_2_3 h_S_) main_v16 main_c_5
  let main_v18 : IVec S_ 1 := andi main_v13 main_v17
  let main_v19 : FVec F S64x2048x2 .f32 := Host.absf main_arg4
  let main_cst_6 : FVec F S_ .f32 := constant S_ .f32 0x7F800000#32
  let main_v20 : FVec F S64x2048x2 .f32 := broadcastInDim S64x2048x2 ![] bcast_S_S64x2048x2 main_cst_6
  let main_v21 : IVec S64x2048x2 1 := cmpf .olt main_v19 main_v20
  let main_c_7 : IVec S_ 1 := constantI S_ 1 1#1
  let main_v22 : IVec S_ 1 := (fun x v => Host.reduce IntOp.andi x v reducesTo_S64x2048x2_S_d0_1_2 h_S_) main_v21 main_c_7
  let main_v23 : IVec S_ 1 := andi main_v18 main_v22
  main_v23

def fn {F : FTy → Type} [FloatOps F] (main_arg0 : FVec F S64x1x256x256 .f32) (main_arg1 : FVec F S64x2x256x256 .f32) (main_arg2 : FVec F S64x1x256x256 .f32) (main_arg3 : FVec F S64x2x256x256 .f32) (main_arg4 : FVec F S64x2048x2 .f32) (main_arg5 : IVec S64x4096x4 32) (main_arg6 : IVec S64x2048x2x4 32) (main_arg7 : IVec S64x4096x4 1) (main_arg8 : IVec S64x2048x1 1) : IVec S_ 1 :=
  let main_v0 : FVec F S64x1x256x256 .f32 := Host.absf main_arg0
  let main_cst : FVec F S_ .f32 := constant S_ .f32 0x7F800000#32
  let main_v1 : FVec F S64x1x256x256 .f32 := broadcastInDim S64x1x256x256 ![] bcast_S_S64x1x256x256 main_cst
  let main_v2 : IVec S64x1x256x256 1 := cmpf .olt main_v0 main_v1
  let main_c : IVec S_ 1 := constantI S_ 1 1#1
  let main_v3 : IVec S_ 1 := (fun x v => Host.reduce IntOp.andi x v reducesTo_S64x1x256x256_S_d0_1_2_3 h_S_) main_v2 main_c
  let main_v4 : FVec F S64x2x256x256 .f32 := Host.absf main_arg1
  let main_cst_0 : FVec F S_ .f32 := constant S_ .f32 0x7F800000#32
  let main_v5 : FVec F S64x2x256x256 .f32 := broadcastInDim S64x2x256x256 ![] bcast_S_S64x2x256x256 main_cst_0
  let main_v6 : IVec S64x2x256x256 1 := cmpf .olt main_v4 main_v5
  let main_c_1 : IVec S_ 1 := constantI S_ 1 1#1
  let main_v7 : IVec S_ 1 := (fun x v => Host.reduce IntOp.andi x v reducesTo_S64x2x256x256_S_d0_1_2_3 h_S_) main_v6 main_c_1
  let main_v8 : IVec S_ 1 := andi main_v3 main_v7
  let main_v9 : FVec F S64x1x256x256 .f32 := Host.absf main_arg2
  let main_cst_2 : FVec F S_ .f32 := constant S_ .f32 0x7F800000#32
  let main_v10 : FVec F S64x1x256x256 .f32 := broadcastInDim S64x1x256x256 ![] bcast_S_S64x1x256x256 main_cst_2
  let main_v11 : IVec S64x1x256x256 1 := cmpf .olt main_v9 main_v10
  let main_c_3 : IVec S_ 1 := constantI S_ 1 1#1
  let main_v12 : IVec S_ 1 := (fun x v => Host.reduce IntOp.andi x v reducesTo_S64x1x256x256_S_d0_1_2_3 h_S_) main_v11 main_c_3
  let main_v13 : IVec S_ 1 := andi main_v8 main_v12
  let main_v14 : FVec F S64x2x256x256 .f32 := Host.absf main_arg3
  let main_cst_4 : FVec F S_ .f32 := constant S_ .f32 0x7F800000#32
  let main_v15 : FVec F S64x2x256x256 .f32 := broadcastInDim S64x2x256x256 ![] bcast_S_S64x2x256x256 main_cst_4
  let main_v16 : IVec S64x2x256x256 1 := cmpf .olt main_v14 main_v15
  fn_part1 (F := F) main_arg4 main_v13 main_v16
-- ==== Kernel.lean ====
abbrev S64x1x256x256 : Shape := ⟨4, ![64, 1, 256, 256]⟩
abbrev S64x2x256x256 : Shape := ⟨4, ![64, 2, 256, 256]⟩
abbrev S64x2048x2 : Shape := ⟨3, ![64, 2048, 2]⟩
abbrev S64x4096x4 : Shape := ⟨3, ![64, 4096, 4]⟩
abbrev S64x2048x2x4 : Shape := ⟨4, ![64, 2048, 2, 4]⟩
abbrev S64x2048x1 : Shape := ⟨3, ![64, 2048, 1]⟩
abbrev S1x4x2x1 : Shape := ⟨4, ![1, 4, 2, 1]⟩
abbrev S1x1x4x2x1 : Shape := ⟨5, ![1, 1, 4, 2, 1]⟩
abbrev S64x16384 : Shape := ⟨2, ![64, 16384]⟩
abbrev S64x1x65536 : Shape := ⟨3, ![64, 1, 65536]⟩
abbrev S64x1x16384 : Shape := ⟨3, ![64, 1, 16384]⟩
abbrev S_ : Shape := ⟨0, ![]⟩
abbrev S64x16384x1 : Shape := ⟨3, ![64, 16384, 1]⟩
abbrev S1 : Shape := ⟨1, ![1]⟩
abbrev S1x1x1 : Shape := ⟨3, ![1, 1, 1]⟩
abbrev S64x2x65536 : Shape := ⟨3, ![64, 2, 65536]⟩
abbrev S64x2x16384 : Shape := ⟨3, ![64, 2, 16384]⟩
abbrev S64x2x16384x1 : Shape := ⟨4, ![64, 2, 16384, 1]⟩
abbrev S1x1x1x1 : Shape := ⟨4, ![1, 1, 1, 1]⟩
abbrev S64x1x4096x4 : Shape := ⟨4, ![64, 1, 4096, 4]⟩
abbrev S64x4x4096 : Shape := ⟨3, ![64, 4, 4096]⟩
abbrev S64x2x4096x4 : Shape := ⟨4, ![64, 2, 4096, 4]⟩
abbrev S64x4x2x4096 : Shape := ⟨4, ![64, 4, 2, 4096]⟩
abbrev S64x1x2048x2x4 : Shape := ⟨5, ![64, 1, 2048, 2, 4]⟩
abbrev S64x2x4x2048 : Shape := ⟨4, ![64, 2, 4, 2048]⟩
abbrev S64x8x2048 : Shape := ⟨3, ![64, 8, 2048]⟩
abbrev S64x2x2048x2x4 : Shape := ⟨5, ![64, 2, 2048, 2, 4]⟩
abbrev S64x2x4x2x2048 : Shape := ⟨5, ![64, 2, 4, 2, 2048]⟩
abbrev S64x8x2x2048 : Shape := ⟨4, ![64, 8, 2, 2048]⟩
abbrev S64x2048 : Shape := ⟨2, ![64, 2048]⟩
abbrev S64x1x2048 : Shape := ⟨3, ![64, 1, 2048]⟩
abbrev S64x2x2048 : Shape := ⟨3, ![64, 2, 2048]⟩
abbrev S1x1 : Shape := ⟨2, ![1, 1]⟩
abbrev S1x4x4096 : Shape := ⟨3, ![1, 4, 4096]⟩
abbrev S1x4x2x4096 : Shape := ⟨4, ![1, 4, 2, 4096]⟩
abbrev S4x4096 : Shape := ⟨2, ![4, 4096]⟩
abbrev S4x2x4096 : Shape := ⟨3, ![4, 2, 4096]⟩
abbrev S4096 : Shape := ⟨1, ![4096]⟩
abbrev S1x4096 : Shape := ⟨2, ![1, 4096]⟩
abbrev S2x4096 : Shape := ⟨2, ![2, 4096]⟩
abbrev S1x2x4096 : Shape := ⟨3, ![1, 2, 4096]⟩
abbrev S4x1x4096 : Shape := ⟨3, ![4, 1, 4096]⟩
abbrev S1x1x4096 : Shape := ⟨3, ![1, 1, 4096]⟩
abbrev S4 : Shape := ⟨1, ![4]⟩
abbrev S4x1 : Shape := ⟨2, ![4, 1]⟩
abbrev S1x8x2048 : Shape := ⟨3, ![1, 8, 2048]⟩
abbrev S1x8x2x2048 : Shape := ⟨4, ![1, 8, 2, 2048]⟩
abbrev S1x1x2048 : Shape := ⟨3, ![1, 1, 2048]⟩
abbrev S1x2x2048 : Shape := ⟨3, ![1, 2, 2048]⟩
abbrev S8x2048 : Shape := ⟨2, ![8, 2048]⟩
abbrev S8x2x2048 : Shape := ⟨3, ![8, 2, 2048]⟩
abbrev S1x2048 : Shape := ⟨2, ![1, 2048]⟩
abbrev S2x2048 : Shape := ⟨2, ![2, 2048]⟩
abbrev S2048 : Shape := ⟨1, ![2048]⟩

abbrev nBuf : Space → Nat
  | .hbm => 154
  | .vmem => 16
  | .smem => 0
  | _ => 0

abbrev hbmTy0_0 (i : Nat) : BufTy := match i % 128 with
  | 0 => ⟨S64x1x256x256, .f32⟩
  | 1 => ⟨S64x2x256x256, .f32⟩
  | 2 => ⟨S64x1x256x256, .f32⟩
  | 3 => ⟨S64x2x256x256, .f32⟩
  | 4 => ⟨S64x2048x2, .f32⟩
  | 5 => ⟨S64x4096x4, .i32⟩
  | 6 => ⟨S64x2048x2x4, .i32⟩
  | 7 => ⟨S64x4096x4, .i1⟩
  | 8 => ⟨S64x2048x1, .i1⟩
  | 9 => ⟨S1x4x2x1, .f32⟩
  | 10 => ⟨S1x1x4x2x1, .f32⟩
  | 11 => ⟨S64x16384, .i32⟩
  | 12 => ⟨S64x16384, .i32⟩
  | 13 => ⟨S64x1x65536, .f32⟩
  | 14 => ⟨S64x1x16384, .i32⟩
  | 15 => ⟨S_, .i32⟩
  | 16 => ⟨S64x1x16384, .i32⟩
  | 17 => ⟨S64x1x16384, .i1⟩
  | 18 => ⟨S_, .i32⟩
  | 19 => ⟨S64x1x16384, .i32⟩
  | 20 => ⟨S64x1x16384, .i32⟩
  | 21 => ⟨S64x1x16384, .i32⟩
  | 22 => ⟨S64x16384x1, .i32⟩
  | 23 => ⟨S1, .i32⟩
  | 24 => ⟨S_, .i32⟩
  | 25 => ⟨S64x16384x1, .i32⟩
  | 26 => ⟨S64x16384x1, .i1⟩
  | 27 => ⟨S1x1x1, .i32⟩
  | 28 => ⟨S64x16384x1, .i32⟩
  | 29 => ⟨S64x16384x1, .i1⟩
  | 30 => ⟨S64x16384x1, .i1⟩
  | 31 => ⟨S_, .i1⟩
  | 32 => ⟨S64x16384, .i1⟩
  | 33 => ⟨S64x1x16384, .f32⟩
  | 34 => ⟨S64x1x16384, .i1⟩
  | 35 => ⟨S_, .f32⟩
  | 36 => ⟨S64x1x16384, .f32⟩
  | 37 => ⟨S64x1x16384, .f32⟩
  | 38 => ⟨S64x2x65536, .f32⟩
  | 39 => ⟨S64x1x16384, .i32⟩
  | 40 => ⟨S64x2x16384, .i32⟩
  | 41 => ⟨S_, .i32⟩
  | 42 => ⟨S64x2x16384, .i32⟩
  | 43 => ⟨S64x2x16384, .i1⟩
  | 44 => ⟨S_, .i32⟩
  | 45 => ⟨S64x2x16384, .i32⟩
  | 46 => ⟨S64x2x16384, .i32⟩
  | 47 => ⟨S64x2x16384, .i32⟩
  | 48 => ⟨S64x2x16384x1, .i32⟩
  | 49 => ⟨S1, .i32⟩
  | 50 => ⟨S_, .i32⟩
  | 51 => ⟨S64x2x16384x1, .i32⟩
  | 52 => ⟨S64x2x16384x1, .i1⟩
  | 53 => ⟨S1x1x1x1, .i32⟩
  | 54 => ⟨S64x2x16384x1, .i32⟩
  | 55 => ⟨S64x2x16384x1, .i1⟩
  | 56 => ⟨S64x2x16384x1, .i1⟩
  | 57 => ⟨S_, .i1⟩
  | 58 => ⟨S64x2x16384, .i1⟩
  | 59 => ⟨S64x2x16384, .f32⟩
  | 60 => ⟨S_, .f32⟩
  | 61 => ⟨S64x2x16384, .f32⟩
  | 62 => ⟨S64x2x16384, .f32⟩
  | 63 => ⟨S64x1x4096x4, .f32⟩
  | 64 => ⟨S64x4096x4, .f32⟩
  | 65 => ⟨S64x4x4096, .f32⟩
  | 66 => ⟨S64x2x4096x4, .f32⟩
  | 67 => ⟨S64x4x2x4096, .f32⟩
  | 68 => ⟨S64x4x2x4096, .f32⟩
  | 69 => ⟨S64x4x2x4096, .f32⟩
  | 70 => ⟨S64x4096x4, .f32⟩
  | 71 => ⟨S64x4x4096, .f32⟩
  | 72 => ⟨S64x1x65536, .f32⟩
  | 73 => ⟨S64x1x16384, .i32⟩
  | 74 => ⟨S_, .i32⟩
  | 75 => ⟨S64x1x16384, .i32⟩
  | 76 => ⟨S64x1x16384, .i1⟩
  | 77 => ⟨S_, .i32⟩
  | 78 => ⟨S64x1x16384, .i32⟩
  | 79 => ⟨S64x1x16384, .i32⟩
  | 80 => ⟨S64x1x16384, .i32⟩
  | 81 => ⟨S64x16384x1, .i32⟩
  | 82 => ⟨S1, .i32⟩
  | 83 => ⟨S_, .i32⟩
  | 84 => ⟨S64x16384x1, .i32⟩
  | 85 => ⟨S64x16384x1, .i1⟩
  | 86 => ⟨S1x1x1, .i32⟩
  | 87 => ⟨S64x16384x1, .i32⟩
  | 88 => ⟨S64x16384x1, .i1⟩
  | 89 => ⟨S64x16384x1, .i1⟩
  | 90 => ⟨S_, .i1⟩
  | 91 => ⟨S64x16384, .i1⟩
  | 92 => ⟨S64x1x16384, .f32⟩
  | 93 => ⟨S64x1x16384, .i1⟩
  | 94 => ⟨S_, .f32⟩
  | 95 => ⟨S64x1x16384, .f32⟩
  | 96 => ⟨S64x1x16384, .f32⟩
  | 97 => ⟨S64x2x65536, .f32⟩
  | 98 => ⟨S64x1x16384, .i32⟩
  | 99 => ⟨S64x2x16384, .i32⟩
  | 100 => ⟨S_, .i32⟩
  | 101 => ⟨S64x2x16384, .i32⟩
  | 102 => ⟨S64x2x16384, .i1⟩
  | 103 => ⟨S_, .i32⟩
  | 104 => ⟨S64x2x16384, .i32⟩
  | 105 => ⟨S64x2x16384, .i32⟩
  | 106 => ⟨S64x2x16384, .i32⟩
  | 107 => ⟨S64x2x16384x1, .i32⟩
  | 108 => ⟨S1, .i32⟩
  | 109 => ⟨S_, .i32⟩
  | 110 => ⟨S64x2x16384x1, .i32⟩
  | 111 => ⟨S64x2x16384x1, .i1⟩
  | 112 => ⟨S1x1x1x1, .i32⟩
  | 113 => ⟨S64x2x16384x1, .i32⟩
  | 114 => ⟨S64x2x16384x1, .i1⟩
  | 115 => ⟨S64x2x16384x1, .i1⟩
  | 116 => ⟨S_, .i1⟩
  | 117 => ⟨S64x2x16384, .i1⟩
  | 118 => ⟨S64x2x16384, .f32⟩
  | 119 => ⟨S_, .f32⟩
  | 120 => ⟨S64x2x16384, .f32⟩
  | 121 => ⟨S64x2x16384, .f32⟩
  | 122 => ⟨S64x1x2048x2x4, .f32⟩
  | 123 => ⟨S64x2048x2x4, .f32⟩
  | 124 => ⟨S64x2x4x2048, .f32⟩
  | 125 => ⟨S64x8x2048, .f32⟩
  | 126 => ⟨S64x2x2048x2x4, .f32⟩
  | 127 => ⟨S64x2x4x2x2048, .f32⟩
  | _ => ⟨S64x1x256x256, .f32⟩

abbrev hbmTy0_1 (i : Nat) : BufTy := match i % 128 with
  | 0 => ⟨S64x2x4x2x2048, .f32⟩
  | 1 => ⟨S64x2x4x2x2048, .f32⟩
  | 2 => ⟨S64x8x2x2048, .f32⟩
  | 3 => ⟨S64x2048, .i1⟩
  | 4 => ⟨S64x2048, .f32⟩
  | 5 => ⟨S64x1x2048, .f32⟩
  | 6 => ⟨S64x2x2048, .f32⟩
  | 7 => ⟨S64x4096x4, .i32⟩
  | 8 => ⟨S_, .i32⟩
  | 9 => ⟨S_, .i32⟩
  | 10 => ⟨S_, .f32⟩
  | 11 => ⟨S64x2048x1, .i32⟩
  | 12 => ⟨S_, .i32⟩
  | 13 => ⟨S_, .i32⟩
  | 14 => ⟨S_, .f32⟩
  | 15 => ⟨S1x1, .f32⟩
  | 16 => ⟨S1x1, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S64x1x256x256, .f32⟩

abbrev hbmTy (i : Nat) : BufTy := match i / 128 with
  | 0 => hbmTy0_0 i
  | 1 => hbmTy0_1 i
  | _ => ⟨S64x1x256x256, .f32⟩

abbrev bufTy : (tb : Table) → Fin (tcTables nBuf tb) → BufTy
  | .hbm, ⟨i, _⟩ => hbmTy i
  | .local _ .vmem, ⟨0, _⟩ => ⟨S1x4x4096, .f32⟩
  | .local _ .vmem, ⟨1, _⟩ => ⟨S1x4x4096, .f32⟩
  | .local _ .vmem, ⟨2, _⟩ => ⟨S1x4x2x4096, .f32⟩
  | .local _ .vmem, ⟨3, _⟩ => ⟨S1x4x2x4096, .f32⟩
  | .local _ .vmem, ⟨4, _⟩ => ⟨S1x4x4096, .f32⟩
  | .local _ .vmem, ⟨5, _⟩ => ⟨S1x4x4096, .f32⟩
  | .local _ .vmem, ⟨6, _⟩ => ⟨S1x1, .f32⟩
  | .local _ .vmem, ⟨7, _⟩ => ⟨S1x8x2048, .f32⟩
  | .local _ .vmem, ⟨8, _⟩ => ⟨S1x8x2048, .f32⟩
  | .local _ .vmem, ⟨9, _⟩ => ⟨S1x8x2x2048, .f32⟩
  | .local _ .vmem, ⟨10, _⟩ => ⟨S1x8x2x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2x2048, .f32⟩
  | .local _ .vmem, ⟨14, _⟩ => ⟨S1x2x2048, .f32⟩
  | .local _ .vmem, ⟨15, _⟩ => ⟨S1x1, .f32⟩
  | _, _ => ⟨S64x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_cst : Ref sig .tc := ⟨.hbm, 119, rfl⟩
abbrev main_call3_v14 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_c : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_c_1 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_cst_2 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_cst_3 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x2x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S64x4096x4_S64x16384 : S64x4096x4.ShapeCasts S64x16384
  shapeCasts_S64x2048x2x4_S64x16384 : S64x2048x2x4.ShapeCasts S64x16384
  shapeCasts_S64x1x256x256_S64x1x65536 : S64x1x256x256.ShapeCasts S64x1x65536
  bcast_S64x16384_S64x1x16384_0_2 : S64x16384.BroadcastsInDim S64x1x16384 (![0, 2] : Fin 2 → Fin S64x1x16384.rank)
  bcast_S_S64x1x16384 : S_.BroadcastsInDim S64x1x16384 (![] : Fin 0 → Fin S64x1x16384.rank)
  shapeCasts_S64x1x16384_S64x16384x1 : S64x1x16384.ShapeCasts S64x16384x1
  bcast_S_S64x16384x1 : S_.BroadcastsInDim S64x16384x1 (![] : Fin 0 → Fin S64x16384x1.rank)
  bcast_S1_S1x1x1_2 : S1.BroadcastsInDim S1x1x1 (![2] : Fin 1 → Fin S1x1x1.rank)
  bcast_S1x1x1_S64x16384x1_0_1_2 : S1x1x1.BroadcastsInDim S64x16384x1 (![0, 1, 2] : Fin 3 → Fin S64x16384x1.rank)
  reducesTo_S64x16384x1_S64x16384_d2 : S64x16384x1.ReducesTo [2] S64x16384
  h_S_ : 0 < S_.numel
  shapeCasts_S64x2x256x256_S64x2x65536 : S64x2x256x256.ShapeCasts S64x2x65536
  bcast_S64x1x16384_S64x2x16384_0_1_2 : S64x1x16384.BroadcastsInDim S64x2x16384 (![0, 1, 2] : Fin 3 → Fin S64x2x16384.rank)
  bcast_S_S64x2x16384 : S_.BroadcastsInDim S64x2x16384 (![] : Fin 0 → Fin S64x2x16384.rank)
  shapeCasts_S64x2x16384_S64x2x16384x1 : S64x2x16384.ShapeCasts S64x2x16384x1
  bcast_S_S64x2x16384x1 : S_.BroadcastsInDim S64x2x16384x1 (![] : Fin 0 → Fin S64x2x16384x1.rank)
  bcast_S1_S1x1x1x1_3 : S1.BroadcastsInDim S1x1x1x1 (![3] : Fin 1 → Fin S1x1x1x1.rank)
  bcast_S1x1x1x1_S64x2x16384x1_0_1_2_3 : S1x1x1x1.BroadcastsInDim S64x2x16384x1 (![0, 1, 2, 3] : Fin 4 → Fin S64x2x16384x1.rank)
  reducesTo_S64x2x16384x1_S64x2x16384_d3 : S64x2x16384x1.ReducesTo [3] S64x2x16384
  shapeCasts_S64x1x16384_S64x1x4096x4 : S64x1x16384.ShapeCasts S64x1x4096x4
  shapeCasts_S64x1x4096x4_S64x4096x4 : S64x1x4096x4.ShapeCasts S64x4096x4
  transposes_S64x4096x4_S64x4x4096_0_2_1 : S64x4096x4.Transposes [0, 2, 1] S64x4x4096
  shapeCasts_S64x2x16384_S64x2x4096x4 : S64x2x16384.ShapeCasts S64x2x4096x4
  transposes_S64x2x4096x4_S64x4x2x4096_0_3_1_2 : S64x2x4096x4.Transposes [0, 3, 1, 2] S64x4x2x4096
  bcast_S1x4x2x1_S64x4x2x4096_0_1_2_3 : S1x4x2x1.BroadcastsInDim S64x4x2x4096 (![0, 1, 2, 3] : Fin 4 → Fin S64x4x2x4096.rank)
  shapeCasts_S64x1x16384_S64x1x2048x2x4 : S64x1x16384.ShapeCasts S64x1x2048x2x4
  shapeCasts_S64x1x2048x2x4_S64x2048x2x4 : S64x1x2048x2x4.ShapeCasts S64x2048x2x4
  transposes_S64x2048x2x4_S64x2x4x2048_0_2_3_1 : S64x2048x2x4.Transposes [0, 2, 3, 1] S64x2x4x2048
  shapeCasts_S64x2x4x2048_S64x8x2048 : S64x2x4x2048.ShapeCasts S64x8x2048
  shapeCasts_S64x2x16384_S64x2x2048x2x4 : S64x2x16384.ShapeCasts S64x2x2048x2x4
  transposes_S64x2x2048x2x4_S64x2x4x2x2048_0_3_4_1_2 : S64x2x2048x2x4.Transposes [0, 3, 4, 1, 2] S64x2x4x2x2048
  bcast_S1x1x4x2x1_S64x2x4x2x2048_0_1_2_3_4 : S1x1x4x2x1.BroadcastsInDim S64x2x4x2x2048 (![0, 1, 2, 3, 4] : Fin 5 → Fin S64x2x4x2x2048.rank)
  shapeCasts_S64x2x4x2x2048_S64x8x2x2048 : S64x2x4x2x2048.ShapeCasts S64x8x2x2048
  shapeCasts_S64x2048x1_S64x2048 : S64x2048x1.ShapeCasts S64x2048
  bcast_S64x2048_S64x1x2048_0_2 : S64x2048.BroadcastsInDim S64x1x2048 (![0, 2] : Fin 2 → Fin S64x1x2048.rank)
  transposes_S64x2048x2_S64x2x2048_0_2_1 : S64x2048x2.Transposes [0, 2, 1] S64x2x2048
  natLt_1_32 : 1 < 32
  reducesTo_S64x4096x4_S_d0_1_2 : S64x4096x4.ReducesTo [0, 1, 2] S_
  reducesTo_S64x2048x1_S_d0_1_2 : S64x2048x1.ReducesTo [0, 1, 2] S_
  inb_S1x1_S1x1_0_0 : ∀ a, (![0, 0] : Fin 2 → Nat) a + S1x1.size a ≤ S1x1.size a
  h_S1x1 : 0 < S1x1.numel
  inb_S1x4x4096_S1x4x4096_0_0_0 : ∀ a, (![0, 0, 0] : Fin 3 → Nat) a + S1x4x4096.size a ≤ S1x4x4096.size a
  h_S1x4x4096 : 0 < S1x4x4096.numel
  shapeCasts_S1x4x4096_S4x4096 : S1x4x4096.ShapeCasts S4x4096
  inb_S1x4x2x4096_S1x4x2x4096_0_0_0_0 : ∀ a, (![0, 0, 0, 0] : Fin 4 → Nat) a + S1x4x2x4096.size a ≤ S1x4x2x4096.size a
  h_S1x4x2x4096 : 0 < S1x4x2x4096.numel
  shapeCasts_S1x4x2x4096_S4x2x4096 : S1x4x2x4096.ShapeCasts S4x2x4096
  reduces_S4x4096_S4096 : S4x4096.Reduces [0] S4096
  shapeCasts_S4096_S1x4096 : S4096.ShapeCasts S1x4096
  reduces_S4x2x4096_S2x4096 : S4x2x4096.Reduces [0] S2x4096
  shapeCasts_S2x4096_S1x2x4096 : S2x4096.ShapeCasts S1x2x4096
  slices_S4x2x4096_o0_0_0_S4x1x4096 : S4x2x4096.Slices ![0, 0, 0] S4x1x4096
  shapeCasts_S4x1x4096_S4x4096 : S4x1x4096.ShapeCasts S4x4096
  slices_S4x2x4096_o0_1_0_S4x1x4096 : S4x2x4096.Slices ![0, 1, 0] S4x1x4096
  slices_S1x2x4096_o0_0_0_S1x1x4096 : S1x2x4096.Slices ![0, 0, 0] S1x1x4096
  shapeCasts_S1x1x4096_S1x4096 : S1x1x4096.ShapeCasts S1x4096
  slices_S1x2x4096_o0_1_0_S1x1x4096 : S1x2x4096.Slices ![0, 1, 0] S1x1x4096
  broadcasts_S1x4096_S4x4096 : S1x4096.Broadcasts S4x4096
  reduces_S4x4096_S4 : S4x4096.Reduces [1] S4
  shapeCasts_S4_S4x1 : S4.ShapeCasts S4x1
  reduces_S4x1_S1 : S4x1.Reduces [0] S1
  shapeCasts_S1_S1x1 : S1.ShapeCasts S1x1
  shapeCasts_S1x1_S1x1 : S1x1.ShapeCasts S1x1
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  inb_S1x8x2x2048_S1x8x2x2048_0_0_0_0 : ∀ a, (![0, 0, 0, 0] : Fin 4 → Nat) a + S1x8x2x2048.size a ≤ S1x8x2x2048.size a
  h_S1x8x2x2048 : 0 < S1x8x2x2048.numel
  shapeCasts_S1x8x2x2048_S8x2x2048 : S1x8x2x2048.ShapeCasts S8x2x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2x2048_S1x2x2048_0_0_0 : ∀ a, (![0, 0, 0] : Fin 3 → Nat) a + S1x2x2048.size a ≤ S1x2x2048.size a
  h_S1x2x2048 : 0 < S1x2x2048.numel
  shapeCasts_S1x2x2048_S2x2048 : S1x2x2048.ShapeCasts S2x2048
  slices_S8x2048_o0_0_S1x2048 : S8x2048.Slices ![0, 0] S1x2048
  shapeCasts_S1x2048_S2048 : S1x2048.ShapeCasts S2048
  slices_S8x2048_o1_0_S1x2048 : S8x2048.Slices ![1, 0] S1x2048
  slices_S8x2048_o2_0_S1x2048 : S8x2048.Slices ![2, 0] S1x2048
  slices_S8x2048_o3_0_S1x2048 : S8x2048.Slices ![3, 0] S1x2048
  shapeCasts_S2048_S1x2048 : S2048.ShapeCasts S1x2048
  slices_S8x2048_o4_0_S1x2048 : S8x2048.Slices ![4, 0] S1x2048
  slices_S8x2048_o5_0_S1x2048 : S8x2048.Slices ![5, 0] S1x2048
  slices_S8x2048_o6_0_S1x2048 : S8x2048.Slices ![6, 0] S1x2048
  slices_S8x2048_o7_0_S1x2048 : S8x2048.Slices ![7, 0] S1x2048
  slices_S8x2x2048_o0_0_0_S1x1x2048 : S8x2x2048.Slices ![0, 0, 0] S1x1x2048
  shapeCasts_S1x1x2048_S2048 : S1x1x2048.ShapeCasts S2048
  slices_S8x2x2048_o1_0_0_S1x1x2048 : S8x2x2048.Slices ![1, 0, 0] S1x1x2048
  slices_S8x2x2048_o2_0_0_S1x1x2048 : S8x2x2048.Slices ![2, 0, 0] S1x1x2048
  slices_S8x2x2048_o3_0_0_S1x1x2048 : S8x2x2048.Slices ![3, 0, 0] S1x1x2048
  slices_S8x2x2048_o0_1_0_S1x1x2048 : S8x2x2048.Slices ![0, 1, 0] S1x1x2048
  slices_S8x2x2048_o1_1_0_S1x1x2048 : S8x2x2048.Slices ![1, 1, 0] S1x1x2048
  slices_S8x2x2048_o2_1_0_S1x1x2048 : S8x2x2048.Slices ![2, 1, 0] S1x1x2048
  slices_S8x2x2048_o3_1_0_S1x1x2048 : S8x2x2048.Slices ![3, 1, 0] S1x1x2048
  slices_S8x2x2048_o4_0_0_S1x1x2048 : S8x2x2048.Slices ![4, 0, 0] S1x1x2048
  slices_S8x2x2048_o5_0_0_S1x1x2048 : S8x2x2048.Slices ![5, 0, 0] S1x1x2048
  slices_S8x2x2048_o6_0_0_S1x1x2048 : S8x2x2048.Slices ![6, 0, 0] S1x1x2048
  slices_S8x2x2048_o7_0_0_S1x1x2048 : S8x2x2048.Slices ![7, 0, 0] S1x1x2048
  slices_S2x2048_o0_0_S1x2048 : S2x2048.Slices ![0, 0] S1x2048
  slices_S8x2x2048_o4_1_0_S1x1x2048 : S8x2x2048.Slices ![4, 1, 0] S1x1x2048
  slices_S8x2x2048_o5_1_0_S1x1x2048 : S8x2x2048.Slices ![5, 1, 0] S1x1x2048
  slices_S8x2x2048_o6_1_0_S1x1x2048 : S8x2x2048.Slices ![6, 1, 0] S1x1x2048
  slices_S8x2x2048_o7_1_0_S1x1x2048 : S8x2x2048.Slices ![7, 1, 0] S1x1x2048
  slices_S2x2048_o1_0_S1x2048 : S2x2048.Slices ![1, 0] S1x2048
  reduces_S1x2048_S1 : S1x2048.Reduces [1] S1
  shapeCasts_S1x1_S_ : S1x1.ShapeCasts S_
  gather_S64x1x65536_S64x16384x1_S64x1x16384_1_2_0_0_2_2_111_wf : GatherDims.WF S64x1x65536 S64x16384x1 S64x1x16384 [1] [2] [0] [2] [0] 2 ![1, 1, 1]
  gather_S64x2x65536_S64x2x16384x1_S64x2x16384_n_2_01_01_2_3_111_wf : GatherDims.WF S64x2x65536 S64x2x16384x1 S64x2x16384 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x4096.size a ≤ S64x4x4096.size a
  hwx0_0 : ∀ i : grid0.Coords, EltTy.bits .f32 = 32 ∨ (Rect.block (s := S64x4x4096) S1x4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x2x4096.size a ≤ S64x4x2x4096.size a
  hwx0_1 : ∀ i : grid0.Coords, EltTy.bits .f32 = 32 ∨ (Rect.block (s := S64x4x2x4096) S1x4x2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4096.size a ≤ S64x4x4096.size a
  hwx0_2 : ∀ i : grid0.Coords, EltTy.bits .f32 = 32 ∨ (Rect.block (s := S64x4x4096) S1x4x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x2048.size a ≤ S64x8x2048.size a
  hwx1_0 : ∀ i : grid1.Coords, EltTy.bits .f32 = 32 ∨ (Rect.block (s := S64x8x2048) S1x8x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x2x2048.size a ≤ S64x8x2x2048.size a
  hwx1_1 : ∀ i : grid1.Coords, EltTy.bits .f32 = 32 ∨ (Rect.block (s := S64x8x2x2048) S1x8x2x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S64x1x2048.size a
  hwx1_2 : ∀ i : grid1.Coords, EltTy.bits .f32 = 32 ∨ (Rect.block (s := S64x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x2048.size a ≤ S64x2x2048.size a
  hwx1_3 : ∀ i : grid1.Coords, EltTy.bits .f32 = 32 ∨ (Rect.block (s := S64x2x2048) S1x2x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def gather_S64x1x65536_S64x16384x1_S64x1x16384_1_2_0_0_2_2_111 : GatherDims S64x1x65536 S64x16384x1 S64x1x16384 where
  offsetDims := [1]
  collapsedSliceDims := [2]
  operandBatchingDims := [0]
  startIndicesBatchingDims := [0]
  startIndexMap := [2]
  indexVectorDim := 2
  sliceSizes := ![1, 1, 1]
  wf := gather_S64x1x65536_S64x16384x1_S64x1x16384_1_2_0_0_2_2_111_wf
def gather_S64x2x65536_S64x2x16384x1_S64x2x16384_n_2_01_01_2_3_111 : GatherDims S64x2x65536 S64x2x16384x1 S64x2x16384 where
  offsetDims := []
  collapsedSliceDims := [2]
  operandBatchingDims := [0, 1]
  startIndicesBatchingDims := [0, 1]
  startIndexMap := [2]
  indexVectorDim := 3
  sliceSizes := ![1, 1, 1]
  wf := gather_S64x2x65536_S64x2x16384x1_S64x2x16384_n_2_01_01_2_3_111_wf

abbrev win0_0 : Pipeline.Window sig grid0 :=
  Pipeline.Window.ofSpec (Memref.whole main_v11) S1x4x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x4x2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x4x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S1x8x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x8x2x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x2x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x1x256x256 : Shape := ⟨4, ![64, 1, 256, 256]⟩
abbrev S64x2x256x256 : Shape := ⟨4, ![64, 2, 256, 256]⟩
abbrev S64x2048x2 : Shape := ⟨3, ![64, 2048, 2]⟩
abbrev S64x4096x4 : Shape := ⟨3, ![64, 4096, 4]⟩
abbrev S64x2048x2x4 : Shape := ⟨4, ![64, 2048, 2, 4]⟩
abbrev S64x2048x1 : Shape := ⟨3, ![64, 2048, 1]⟩
abbrev S4x2 : Shape := ⟨2, ![4, 2]⟩
abbrev S_ : Shape := ⟨0, ![]⟩
abbrev S64x16384 : Shape := ⟨2, ![64, 16384]⟩
abbrev S64x1x65536 : Shape := ⟨3, ![64, 1, 65536]⟩
abbrev S64x65536x1 : Shape := ⟨3, ![64, 65536, 1]⟩
abbrev S64x16384x1 : Shape := ⟨3, ![64, 16384, 1]⟩
abbrev S1 : Shape := ⟨1, ![1]⟩
abbrev S1x1x1 : Shape := ⟨3, ![1, 1, 1]⟩
abbrev S64x4096x4x1 : Shape := ⟨4, ![64, 4096, 4, 1]⟩
abbrev S64x4096x1 : Shape := ⟨3, ![64, 4096, 1]⟩
abbrev S64x4096x1x1 : Shape := ⟨4, ![64, 4096, 1, 1]⟩
abbrev S64x2x65536 : Shape := ⟨3, ![64, 2, 65536]⟩
abbrev S64x65536x2 : Shape := ⟨3, ![64, 65536, 2]⟩
abbrev S64x16384x2 : Shape := ⟨3, ![64, 16384, 2]⟩
abbrev S64x4096x4x2 : Shape := ⟨4, ![64, 4096, 4, 2]⟩
abbrev S1x1x4x2 : Shape := ⟨4, ![1, 1, 4, 2]⟩
abbrev S64x4096x2 : Shape := ⟨3, ![64, 4096, 2]⟩
abbrev S64x4096x1x2 : Shape := ⟨4, ![64, 4096, 1, 2]⟩
abbrev S64x4096x4x3 : Shape := ⟨4, ![64, 4096, 4, 3]⟩
abbrev S64x4096x1x3 : Shape := ⟨4, ![64, 4096, 1, 3]⟩
abbrev S64x2048x2x4x1 : Shape := ⟨5, ![64, 2048, 2, 4, 1]⟩
abbrev S64x2048x2x1 : Shape := ⟨4, ![64, 2048, 2, 1]⟩
abbrev S64x2048x2x1x1 : Shape := ⟨5, ![64, 2048, 2, 1, 1]⟩
abbrev S64x2048x2x4x2 : Shape := ⟨5, ![64, 2048, 2, 4, 2]⟩
abbrev S1x1x1x4x2 : Shape := ⟨5, ![1, 1, 1, 4, 2]⟩
abbrev S64x2048x2x2 : Shape := ⟨4, ![64, 2048, 2, 2]⟩
abbrev S64x2048x2x1x2 : Shape := ⟨5, ![64, 2048, 2, 1, 2]⟩
abbrev S64x2048x1x2 : Shape := ⟨4, ![64, 2048, 1, 2]⟩
abbrev S64x2048x2x1x3 : Shape := ⟨5, ![64, 2048, 2, 1, 3]⟩
abbrev S64x2048x1x1x3 : Shape := ⟨5, ![64, 2048, 1, 1, 3]⟩
abbrev S64x2048x1x3 : Shape := ⟨4, ![64, 2048, 1, 3]⟩
abbrev S64x2048x1x1 : Shape := ⟨4, ![64, 2048, 1, 1]⟩

abbrev nBuf : Space → Nat
  | .hbm => 369
  | .vmem => 0
  | .smem => 0
  | _ => 0

abbrev hbmTy0_0 (i : Nat) : BufTy := match i % 128 with
  | 0 => ⟨S64x1x256x256, .f32⟩
  | 1 => ⟨S64x2x256x256, .f32⟩
  | 2 => ⟨S64x1x256x256, .f32⟩
  | 3 => ⟨S64x2x256x256, .f32⟩
  | 4 => ⟨S64x2048x2, .f32⟩
  | 5 => ⟨S64x4096x4, .i32⟩
  | 6 => ⟨S64x2048x2x4, .i32⟩
  | 7 => ⟨S64x4096x4, .i1⟩
  | 8 => ⟨S64x2048x1, .i1⟩
  | 9 => ⟨S4x2, .f32⟩
  | 10 => ⟨S64x4096x4, .i32⟩
  | 11 => ⟨S_, .i32⟩
  | 12 => ⟨S_, .i32⟩
  | 13 => ⟨S_, .f32⟩
  | 14 => ⟨S64x16384, .i32⟩
  | 15 => ⟨S64x1x65536, .f32⟩
  | 16 => ⟨S64x65536x1, .f32⟩
  | 17 => ⟨S64x16384x1, .i32⟩
  | 18 => ⟨S_, .i32⟩
  | 19 => ⟨S64x16384x1, .i32⟩
  | 20 => ⟨S64x16384x1, .i1⟩
  | 21 => ⟨S_, .i32⟩
  | 22 => ⟨S64x16384x1, .i32⟩
  | 23 => ⟨S64x16384x1, .i32⟩
  | 24 => ⟨S64x16384x1, .i32⟩
  | 25 => ⟨S1, .i32⟩
  | 26 => ⟨S_, .i32⟩
  | 27 => ⟨S64x16384x1, .i32⟩
  | 28 => ⟨S64x16384x1, .i1⟩
  | 29 => ⟨S1x1x1, .i32⟩
  | 30 => ⟨S64x16384x1, .i32⟩
  | 31 => ⟨S64x16384x1, .i1⟩
  | 32 => ⟨S64x16384x1, .i1⟩
  | 33 => ⟨S_, .i1⟩
  | 34 => ⟨S64x16384, .i1⟩
  | 35 => ⟨S64x16384x1, .f32⟩
  | 36 => ⟨S64x16384x1, .i1⟩
  | 37 => ⟨S_, .f32⟩
  | 38 => ⟨S64x16384x1, .f32⟩
  | 39 => ⟨S64x16384x1, .f32⟩
  | 40 => ⟨S64x4096x4x1, .f32⟩
  | 41 => ⟨S_, .f32⟩
  | 42 => ⟨S64x4096x1, .f32⟩
  | 43 => ⟨S64x4096x1x1, .f32⟩
  | 44 => ⟨S_, .f32⟩
  | 45 => ⟨S64x4096x1x1, .f32⟩
  | 46 => ⟨S64x4096x1x1, .f32⟩
  | 47 => ⟨S64x16384, .i32⟩
  | 48 => ⟨S64x2x65536, .f32⟩
  | 49 => ⟨S64x65536x2, .f32⟩
  | 50 => ⟨S64x16384x1, .i32⟩
  | 51 => ⟨S_, .i32⟩
  | 52 => ⟨S64x16384x1, .i32⟩
  | 53 => ⟨S64x16384x1, .i1⟩
  | 54 => ⟨S_, .i32⟩
  | 55 => ⟨S64x16384x1, .i32⟩
  | 56 => ⟨S64x16384x1, .i32⟩
  | 57 => ⟨S64x16384x1, .i32⟩
  | 58 => ⟨S1, .i32⟩
  | 59 => ⟨S_, .i32⟩
  | 60 => ⟨S64x16384x1, .i32⟩
  | 61 => ⟨S64x16384x1, .i1⟩
  | 62 => ⟨S1x1x1, .i32⟩
  | 63 => ⟨S64x16384x1, .i32⟩
  | 64 => ⟨S64x16384x1, .i1⟩
  | 65 => ⟨S64x16384x1, .i1⟩
  | 66 => ⟨S_, .i1⟩
  | 67 => ⟨S64x16384, .i1⟩
  | 68 => ⟨S64x16384x2, .f32⟩
  | 69 => ⟨S64x16384x2, .i1⟩
  | 70 => ⟨S_, .f32⟩
  | 71 => ⟨S64x16384x2, .f32⟩
  | 72 => ⟨S64x16384x2, .f32⟩
  | 73 => ⟨S64x4096x4x2, .f32⟩
  | 74 => ⟨S1x1x4x2, .f32⟩
  | 75 => ⟨S64x4096x4x2, .f32⟩
  | 76 => ⟨S64x4096x4x2, .f32⟩
  | 77 => ⟨S_, .f32⟩
  | 78 => ⟨S64x4096x2, .f32⟩
  | 79 => ⟨S64x4096x1x2, .f32⟩
  | 80 => ⟨S_, .f32⟩
  | 81 => ⟨S64x4096x1x2, .f32⟩
  | 82 => ⟨S64x4096x1x2, .f32⟩
  | 83 => ⟨S64x4096x4x1, .f32⟩
  | 84 => ⟨S64x4096x4x3, .f32⟩
  | 85 => ⟨S64x4096x1x1, .f32⟩
  | 86 => ⟨S64x4096x1x3, .f32⟩
  | 87 => ⟨S64x4096x4x1, .f32⟩
  | 88 => ⟨S64x4096x4, .f32⟩
  | 89 => ⟨S64x4096x4x1, .f32⟩
  | 90 => ⟨S64x4096x4, .f32⟩
  | 91 => ⟨S64x4096x4x1, .f32⟩
  | 92 => ⟨S64x4096x4, .f32⟩
  | 93 => ⟨S64x4096x1x1, .f32⟩
  | 94 => ⟨S64x4096x1, .f32⟩
  | 95 => ⟨S64x4096x1x1, .f32⟩
  | 96 => ⟨S64x4096x1, .f32⟩
  | 97 => ⟨S64x4096x1x1, .f32⟩
  | 98 => ⟨S64x4096x1, .f32⟩
  | 99 => ⟨S64x4096x4, .f32⟩
  | 100 => ⟨S_, .f32⟩
  | 101 => ⟨S64x4096x4, .f32⟩
  | 102 => ⟨S64x4096x4, .f32⟩
  | 103 => ⟨S64x4096x1, .f32⟩
  | 104 => ⟨S_, .f32⟩
  | 105 => ⟨S64x4096x1, .f32⟩
  | 106 => ⟨S64x4096x1, .f32⟩
  | 107 => ⟨S_, .f32⟩
  | 108 => ⟨S64x4096x4, .f32⟩
  | 109 => ⟨S64x4096x4, .f32⟩
  | 110 => ⟨S64x4096x4, .f32⟩
  | 111 => ⟨S_, .f32⟩
  | 112 => ⟨S64x4096x1, .f32⟩
  | 113 => ⟨S64x4096x1, .f32⟩
  | 114 => ⟨S64x4096x1, .f32⟩
  | 115 => ⟨S64x4096x4, .f32⟩
  | 116 => ⟨S64x4096x4, .f32⟩
  | 117 => ⟨S_, .f32⟩
  | 118 => ⟨S64x4096x4, .f32⟩
  | 119 => ⟨S64x4096x4, .f32⟩
  | 120 => ⟨S_, .f32⟩
  | 121 => ⟨S64x4096x4, .f32⟩
  | 122 => ⟨S64x4096x4, .f32⟩
  | 123 => ⟨S64x4096x4, .f32⟩
  | 124 => ⟨S_, .f32⟩
  | 125 => ⟨S64x4096x1, .f32⟩
  | 126 => ⟨S64x4096x1, .f32⟩
  | 127 => ⟨S_, .f32⟩
  | _ => ⟨S64x1x256x256, .f32⟩

abbrev hbmTy0_1 (i : Nat) : BufTy := match i % 128 with
  | 0 => ⟨S64x4096x1, .f32⟩
  | 1 => ⟨S64x4096x1, .f32⟩
  | 2 => ⟨S64x4096x1, .f32⟩
  | 3 => ⟨S64x4096x4, .f32⟩
  | 4 => ⟨S64x4096x4, .f32⟩
  | 5 => ⟨S_, .f32⟩
  | 6 => ⟨S64x4096x4, .f32⟩
  | 7 => ⟨S64x4096x4, .f32⟩
  | 8 => ⟨S64x4096x4, .f32⟩
  | 9 => ⟨S_, .f32⟩
  | 10 => ⟨S64x4096x1, .f32⟩
  | 11 => ⟨S64x4096x1, .f32⟩
  | 12 => ⟨S64x4096x1, .f32⟩
  | 13 => ⟨S64x4096x4, .f32⟩
  | 14 => ⟨S64x4096x4, .f32⟩
  | 15 => ⟨S_, .f32⟩
  | 16 => ⟨S64x4096x4, .f32⟩
  | 17 => ⟨S64x4096x4, .f32⟩
  | 18 => ⟨S_, .f32⟩
  | 19 => ⟨S64x4096x4, .f32⟩
  | 20 => ⟨S64x4096x4, .f32⟩
  | 21 => ⟨S64x4096x4, .f32⟩
  | 22 => ⟨S_, .f32⟩
  | 23 => ⟨S64x4096x1, .f32⟩
  | 24 => ⟨S64x4096x1, .f32⟩
  | 25 => ⟨S_, .f32⟩
  | 26 => ⟨S64x4096x1, .f32⟩
  | 27 => ⟨S64x4096x1, .f32⟩
  | 28 => ⟨S64x4096x1, .f32⟩
  | 29 => ⟨S64x4096x4, .f32⟩
  | 30 => ⟨S64x4096x4, .f32⟩
  | 31 => ⟨S64x4096x4, .f32⟩
  | 32 => ⟨S_, .i32⟩
  | 33 => ⟨S_, .f32⟩
  | 34 => ⟨S64x4096x4, .f32⟩
  | 35 => ⟨S64x4096x4, .f32⟩
  | 36 => ⟨S64x4096x4, .f32⟩
  | 37 => ⟨S_, .i32⟩
  | 38 => ⟨S_, .f32⟩
  | 39 => ⟨S64x4096x4, .f32⟩
  | 40 => ⟨S64x4096x4, .f32⟩
  | 41 => ⟨S64x4096x4, .f32⟩
  | 42 => ⟨S64x4096x4, .f32⟩
  | 43 => ⟨S64x4096x4, .f32⟩
  | 44 => ⟨S64x4096x4, .f32⟩
  | 45 => ⟨S_, .f32⟩
  | 46 => ⟨S64x4096x4, .f32⟩
  | 47 => ⟨S64x4096x4, .f32⟩
  | 48 => ⟨S64x4096x4, .f32⟩
  | 49 => ⟨S_, .f32⟩
  | 50 => ⟨S64x4096x4, .f32⟩
  | 51 => ⟨S64x4096x4, .f32⟩
  | 52 => ⟨S_, .f32⟩
  | 53 => ⟨S_, .f32⟩
  | 54 => ⟨S64x4096x4, .f32⟩
  | 55 => ⟨S64x4096x4, .f32⟩
  | 56 => ⟨S_, .f32⟩
  | 57 => ⟨S_, .f32⟩
  | 58 => ⟨S64x4096x4, .f32⟩
  | 59 => ⟨S64x4096x4, .f32⟩
  | 60 => ⟨S_, .f32⟩
  | 61 => ⟨S_, .f32⟩
  | 62 => ⟨S64x2048x1, .i32⟩
  | 63 => ⟨S_, .i32⟩
  | 64 => ⟨S_, .i32⟩
  | 65 => ⟨S_, .f32⟩
  | 66 => ⟨S64x16384, .i32⟩
  | 67 => ⟨S64x1x65536, .f32⟩
  | 68 => ⟨S64x65536x1, .f32⟩
  | 69 => ⟨S64x16384x1, .i32⟩
  | 70 => ⟨S_, .i32⟩
  | 71 => ⟨S64x16384x1, .i32⟩
  | 72 => ⟨S64x16384x1, .i1⟩
  | 73 => ⟨S_, .i32⟩
  | 74 => ⟨S64x16384x1, .i32⟩
  | 75 => ⟨S64x16384x1, .i32⟩
  | 76 => ⟨S64x16384x1, .i32⟩
  | 77 => ⟨S1, .i32⟩
  | 78 => ⟨S_, .i32⟩
  | 79 => ⟨S64x16384x1, .i32⟩
  | 80 => ⟨S64x16384x1, .i1⟩
  | 81 => ⟨S1x1x1, .i32⟩
  | 82 => ⟨S64x16384x1, .i32⟩
  | 83 => ⟨S64x16384x1, .i1⟩
  | 84 => ⟨S64x16384x1, .i1⟩
  | 85 => ⟨S_, .i1⟩
  | 86 => ⟨S64x16384, .i1⟩
  | 87 => ⟨S64x16384x1, .f32⟩
  | 88 => ⟨S64x16384x1, .i1⟩
  | 89 => ⟨S_, .f32⟩
  | 90 => ⟨S64x16384x1, .f32⟩
  | 91 => ⟨S64x16384x1, .f32⟩
  | 92 => ⟨S64x2048x2x4x1, .f32⟩
  | 93 => ⟨S_, .f32⟩
  | 94 => ⟨S64x2048x2x1, .f32⟩
  | 95 => ⟨S64x2048x2x1x1, .f32⟩
  | 96 => ⟨S_, .f32⟩
  | 97 => ⟨S64x2048x2x1x1, .f32⟩
  | 98 => ⟨S64x2048x2x1x1, .f32⟩
  | 99 => ⟨S64x16384, .i32⟩
  | 100 => ⟨S64x2x65536, .f32⟩
  | 101 => ⟨S64x65536x2, .f32⟩
  | 102 => ⟨S64x16384x1, .i32⟩
  | 103 => ⟨S_, .i32⟩
  | 104 => ⟨S64x16384x1, .i32⟩
  | 105 => ⟨S64x16384x1, .i1⟩
  | 106 => ⟨S_, .i32⟩
  | 107 => ⟨S64x16384x1, .i32⟩
  | 108 => ⟨S64x16384x1, .i32⟩
  | 109 => ⟨S64x16384x1, .i32⟩
  | 110 => ⟨S1, .i32⟩
  | 111 => ⟨S_, .i32⟩
  | 112 => ⟨S64x16384x1, .i32⟩
  | 113 => ⟨S64x16384x1, .i1⟩
  | 114 => ⟨S1x1x1, .i32⟩
  | 115 => ⟨S64x16384x1, .i32⟩
  | 116 => ⟨S64x16384x1, .i1⟩
  | 117 => ⟨S64x16384x1, .i1⟩
  | 118 => ⟨S_, .i1⟩
  | 119 => ⟨S64x16384, .i1⟩
  | 120 => ⟨S64x16384x2, .f32⟩
  | 121 => ⟨S64x16384x2, .i1⟩
  | 122 => ⟨S_, .f32⟩
  | 123 => ⟨S64x16384x2, .f32⟩
  | 124 => ⟨S64x16384x2, .f32⟩
  | 125 => ⟨S64x2048x2x4x2, .f32⟩
  | 126 => ⟨S1x1x1x4x2, .f32⟩
  | 127 => ⟨S64x2048x2x4x2, .f32⟩
  | _ => ⟨S64x1x256x256, .f32⟩

abbrev hbmTy0_2 (i : Nat) : BufTy := match i % 128 with
  | 0 => ⟨S64x2048x2x4x2, .f32⟩
  | 1 => ⟨S_, .f32⟩
  | 2 => ⟨S64x2048x2x2, .f32⟩
  | 3 => ⟨S64x2048x2x1x2, .f32⟩
  | 4 => ⟨S_, .f32⟩
  | 5 => ⟨S64x2048x2x1x2, .f32⟩
  | 6 => ⟨S64x2048x2x1x2, .f32⟩
  | 7 => ⟨S64x2048x1x2, .f32⟩
  | 8 => ⟨S_, .i32⟩
  | 9 => ⟨S1, .i32⟩
  | 10 => ⟨S64x2048x2x1x2, .f32⟩
  | 11 => ⟨S64x2048x2x1x1, .f32⟩
  | 12 => ⟨S64x2048x2x1x3, .f32⟩
  | 13 => ⟨S64x2048x1x1x3, .f32⟩
  | 14 => ⟨S64x2048x1x3, .f32⟩
  | 15 => ⟨S64x2048x1x1x3, .f32⟩
  | 16 => ⟨S64x2048x1x3, .f32⟩
  | 17 => ⟨S64x2048x1x1, .f32⟩
  | 18 => ⟨S64x2048x1, .f32⟩
  | 19 => ⟨S64x2048x1x1, .f32⟩
  | 20 => ⟨S64x2048x1, .f32⟩
  | 21 => ⟨S64x2048x1x1, .f32⟩
  | 22 => ⟨S64x2048x1, .f32⟩
  | 23 => ⟨S64x2048x1x1, .f32⟩
  | 24 => ⟨S64x2048x1, .f32⟩
  | 25 => ⟨S64x2048x1x1, .f32⟩
  | 26 => ⟨S64x2048x1, .f32⟩
  | 27 => ⟨S64x2048x1x1, .f32⟩
  | 28 => ⟨S64x2048x1, .f32⟩
  | 29 => ⟨S64x2048x1, .f32⟩
  | 30 => ⟨S_, .f32⟩
  | 31 => ⟨S64x2048x1, .f32⟩
  | 32 => ⟨S64x2048x1, .f32⟩
  | 33 => ⟨S64x2048x1, .f32⟩
  | 34 => ⟨S_, .f32⟩
  | 35 => ⟨S64x2048x1, .f32⟩
  | 36 => ⟨S64x2048x1, .f32⟩
  | 37 => ⟨S_, .f32⟩
  | 38 => ⟨S64x2048x1, .f32⟩
  | 39 => ⟨S64x2048x1, .f32⟩
  | 40 => ⟨S64x2048x1, .f32⟩
  | 41 => ⟨S_, .f32⟩
  | 42 => ⟨S64x2048x1, .f32⟩
  | 43 => ⟨S64x2048x1, .f32⟩
  | 44 => ⟨S64x2048x1, .f32⟩
  | 45 => ⟨S64x2048x1, .f32⟩
  | 46 => ⟨S_, .f32⟩
  | 47 => ⟨S64x2048x1, .f32⟩
  | 48 => ⟨S64x2048x1, .f32⟩
  | 49 => ⟨S_, .f32⟩
  | 50 => ⟨S64x2048x1, .f32⟩
  | 51 => ⟨S64x2048x1, .f32⟩
  | 52 => ⟨S64x2048x1, .f32⟩
  | 53 => ⟨S_, .f32⟩
  | 54 => ⟨S64x2048x1, .f32⟩
  | 55 => ⟨S64x2048x1, .f32⟩
  | 56 => ⟨S_, .f32⟩
  | 57 => ⟨S64x2048x1, .f32⟩
  | 58 => ⟨S64x2048x1, .f32⟩
  | 59 => ⟨S64x2048x1, .f32⟩
  | 60 => ⟨S64x2048x1, .f32⟩
  | 61 => ⟨S_, .f32⟩
  | 62 => ⟨S64x2048x1, .f32⟩
  | 63 => ⟨S64x2048x1, .f32⟩
  | 64 => ⟨S64x2048x1, .f32⟩
  | 65 => ⟨S_, .f32⟩
  | 66 => ⟨S64x2048x1, .f32⟩
  | 67 => ⟨S64x2048x1, .f32⟩
  | 68 => ⟨S64x2048x1, .f32⟩
  | 69 => ⟨S64x2048x1, .f32⟩
  | 70 => ⟨S_, .f32⟩
  | 71 => ⟨S64x2048x1, .f32⟩
  | 72 => ⟨S64x2048x1, .f32⟩
  | 73 => ⟨S_, .f32⟩
  | 74 => ⟨S64x2048x1, .f32⟩
  | 75 => ⟨S64x2048x1, .f32⟩
  | 76 => ⟨S64x2048x1, .f32⟩
  | 77 => ⟨S_, .f32⟩
  | 78 => ⟨S64x2048x1, .f32⟩
  | 79 => ⟨S64x2048x1, .f32⟩
  | 80 => ⟨S_, .f32⟩
  | 81 => ⟨S64x2048x1, .f32⟩
  | 82 => ⟨S64x2048x1, .f32⟩
  | 83 => ⟨S64x2048x1, .f32⟩
  | 84 => ⟨S64x2048x1, .f32⟩
  | 85 => ⟨S64x2048x1, .f32⟩
  | 86 => ⟨S_, .i32⟩
  | 87 => ⟨S_, .f32⟩
  | 88 => ⟨S64x2048x1, .f32⟩
  | 89 => ⟨S64x2048x1, .f32⟩
  | 90 => ⟨S64x2048x1, .f32⟩
  | 91 => ⟨S_, .i32⟩
  | 92 => ⟨S_, .f32⟩
  | 93 => ⟨S64x2048x1, .f32⟩
  | 94 => ⟨S64x2048x1, .f32⟩
  | 95 => ⟨S64x2048x1, .f32⟩
  | 96 => ⟨S64x2048x1, .f32⟩
  | 97 => ⟨S64x2048x1, .f32⟩
  | 98 => ⟨S_, .f32⟩
  | 99 => ⟨S64x2048x1, .f32⟩
  | 100 => ⟨S64x2048x1, .f32⟩
  | 101 => ⟨S64x2048x1, .f32⟩
  | 102 => ⟨S_, .f32⟩
  | 103 => ⟨S_, .f32⟩
  | 104 => ⟨S64x2048x1, .f32⟩
  | 105 => ⟨S64x2048x1, .f32⟩
  | 106 => ⟨S_, .f32⟩
  | 107 => ⟨S_, .f32⟩
  | 108 => ⟨S64x2048x1, .f32⟩
  | 109 => ⟨S64x2048x1, .f32⟩
  | 110 => ⟨S_, .f32⟩
  | 111 => ⟨S_, .f32⟩
  | 112 => ⟨S_, .f32⟩
  | _ => ⟨S64x1x256x256, .f32⟩

abbrev hbmTy (i : Nat) : BufTy := match i / 128 with
  | 0 => hbmTy0_0 i
  | 1 => hbmTy0_1 i
  | 2 => hbmTy0_2 i
  | _ => ⟨S64x1x256x256, .f32⟩

abbrev bufTy : (tb : Table) → Fin (tcTables nBuf tb) → BufTy
  | .hbm, ⟨i, _⟩ => hbmTy i
  | _, _ => ⟨S64x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_c_2 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_c_3 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v7 : Ref sig .tc := ⟨.hbm, 39, rfl⟩
abbrev main_v8 : Ref sig .tc := ⟨.hbm, 40, rfl⟩
abbrev main_cst_0 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_c_2 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_c_3 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_cst_2 : Ref sig .tc := ⟨.hbm, 77, rfl⟩
abbrev main_v22 : Ref sig .tc := ⟨.hbm, 78, rfl⟩
abbrev main_v23 : Ref sig .tc := ⟨.hbm, 79, rfl⟩
abbrev main_cst_3 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_cst_4 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_cst_5 : Ref sig .tc := ⟨.hbm, 104, rfl⟩
abbrev main_v46 : Ref sig .tc := ⟨.hbm, 105, rfl⟩
abbrev main_v47 : Ref sig .tc := ⟨.hbm, 106, rfl⟩
abbrev main_cst_6 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_cst_7 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_8 : Ref sig .tc := ⟨.hbm, 117, rfl⟩
abbrev main_v56 : Ref sig .tc := ⟨.hbm, 118, rfl⟩
abbrev main_v57 : Ref sig .tc := ⟨.hbm, 119, rfl⟩
abbrev main_cst_9 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_10 : Ref sig .tc := ⟨.hbm, 124, rfl⟩
abbrev main_v61 : Ref sig .tc := ⟨.hbm, 125, rfl⟩
abbrev main_v62 : Ref sig .tc := ⟨.hbm, 126, rfl⟩
abbrev main_cst_11 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_12 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_cst_13 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_14 : Ref sig .tc := ⟨.hbm, 143, rfl⟩
abbrev main_v76 : Ref sig .tc := ⟨.hbm, 144, rfl⟩
abbrev main_v77 : Ref sig .tc := ⟨.hbm, 145, rfl⟩
abbrev main_cst_15 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_16 : Ref sig .tc := ⟨.hbm, 150, rfl⟩
abbrev main_v81 : Ref sig .tc := ⟨.hbm, 151, rfl⟩
abbrev main_v82 : Ref sig .tc := ⟨.hbm, 152, rfl⟩
abbrev main_cst_17 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_c_18 : Ref sig .tc := ⟨.hbm, 160, rfl⟩
abbrev main_call2_v0 : Ref sig .tc := ⟨.hbm, 161, rfl⟩
abbrev main_call2_v1 : Ref sig .tc := ⟨.hbm, 162, rfl⟩
abbrev main_v89 : Ref sig .tc := ⟨.hbm, 163, rfl⟩
abbrev main_v90 : Ref sig .tc := ⟨.hbm, 164, rfl⟩
abbrev main_c_19 : Ref sig .tc := ⟨.hbm, 165, rfl⟩
abbrev main_call3_v0 : Ref sig .tc := ⟨.hbm, 166, rfl⟩
abbrev main_call3_v1 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_cst_20 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_cst_21 : Ref sig .tc := ⟨.hbm, 177, rfl⟩
abbrev main_v99 : Ref sig .tc := ⟨.hbm, 178, rfl⟩
abbrev main_v100 : Ref sig .tc := ⟨.hbm, 179, rfl⟩
abbrev main_cst_22 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_cst_23 : Ref sig .tc := ⟨.hbm, 184, rfl⟩
abbrev main_call4_v0 : Ref sig .tc := ⟨.hbm, 185, rfl⟩
abbrev main_call4_v1 : Ref sig .tc := ⟨.hbm, 186, rfl⟩
abbrev main_v104 : Ref sig .tc := ⟨.hbm, 187, rfl⟩
abbrev main_cst_24 : Ref sig .tc := ⟨.hbm, 188, rfl⟩
abbrev main_v105 : Ref sig .tc := ⟨.hbm, 189, rfl⟩
abbrev main_v106 : Ref sig .tc := ⟨.hbm, 190, rfl⟩
abbrev main_c_25 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_call5_c : Ref sig .tc := ⟨.hbm, 198, rfl⟩
abbrev main_call5_v0 : Ref sig .tc := ⟨.hbm, 199, rfl⟩
abbrev main_call5_v1 : Ref sig .tc := ⟨.hbm, 200, rfl⟩
abbrev main_call5_c_0 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_c_1 : Ref sig .tc := ⟨.hbm, 205, rfl⟩
abbrev main_call5_c_2 : Ref sig .tc := ⟨.hbm, 206, rfl⟩
abbrev main_call5_v5 : Ref sig .tc := ⟨.hbm, 207, rfl⟩
abbrev main_call5_v6 : Ref sig .tc := ⟨.hbm, 208, rfl⟩
abbrev main_call5_v7 : Ref sig .tc := ⟨.hbm, 209, rfl⟩
abbrev main_call5_v8 : Ref sig .tc := ⟨.hbm, 210, rfl⟩
abbrev main_call5_v9 : Ref sig .tc := ⟨.hbm, 211, rfl⟩
abbrev main_call5_v10 : Ref sig .tc := ⟨.hbm, 212, rfl⟩
abbrev main_call5_c_3 : Ref sig .tc := ⟨.hbm, 213, rfl⟩
abbrev main_call5_v11 : Ref sig .tc := ⟨.hbm, 214, rfl⟩
abbrev main_call5_v12 : Ref sig .tc := ⟨.hbm, 215, rfl⟩
abbrev main_call5_v13 : Ref sig .tc := ⟨.hbm, 216, rfl⟩
abbrev main_call5_cst : Ref sig .tc := ⟨.hbm, 217, rfl⟩
abbrev main_call5_v14 : Ref sig .tc := ⟨.hbm, 218, rfl⟩
abbrev main_v113 : Ref sig .tc := ⟨.hbm, 219, rfl⟩
abbrev main_v114 : Ref sig .tc := ⟨.hbm, 220, rfl⟩
abbrev main_cst_26 : Ref sig .tc := ⟨.hbm, 221, rfl⟩
abbrev main_v115 : Ref sig .tc := ⟨.hbm, 222, rfl⟩
abbrev main_v116 : Ref sig .tc := ⟨.hbm, 223, rfl⟩
abbrev main_cst_27 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_call6_c : Ref sig .tc := ⟨.hbm, 231, rfl⟩
abbrev main_call6_v0 : Ref sig .tc := ⟨.hbm, 232, rfl⟩
abbrev main_call6_v1 : Ref sig .tc := ⟨.hbm, 233, rfl⟩
abbrev main_call6_c_0 : Ref sig .tc := ⟨.hbm, 234, rfl⟩
abbrev main_call6_v2 : Ref sig .tc := ⟨.hbm, 235, rfl⟩
abbrev main_call6_v3 : Ref sig .tc := ⟨.hbm, 236, rfl⟩
abbrev main_call6_v4 : Ref sig .tc := ⟨.hbm, 237, rfl⟩
abbrev main_call6_c_1 : Ref sig .tc := ⟨.hbm, 238, rfl⟩
abbrev main_call6_c_2 : Ref sig .tc := ⟨.hbm, 239, rfl⟩
abbrev main_call6_v5 : Ref sig .tc := ⟨.hbm, 240, rfl⟩
abbrev main_call6_v6 : Ref sig .tc := ⟨.hbm, 241, rfl⟩
abbrev main_call6_v7 : Ref sig .tc := ⟨.hbm, 242, rfl⟩
abbrev main_call6_v8 : Ref sig .tc := ⟨.hbm, 243, rfl⟩
abbrev main_call6_v9 : Ref sig .tc := ⟨.hbm, 244, rfl⟩
abbrev main_call6_v10 : Ref sig .tc := ⟨.hbm, 245, rfl⟩
abbrev main_call6_c_3 : Ref sig .tc := ⟨.hbm, 246, rfl⟩
abbrev main_call6_v11 : Ref sig .tc := ⟨.hbm, 247, rfl⟩
abbrev main_call6_v12 : Ref sig .tc := ⟨.hbm, 248, rfl⟩
abbrev main_call6_v13 : Ref sig .tc := ⟨.hbm, 249, rfl⟩
abbrev main_call6_cst : Ref sig .tc := ⟨.hbm, 250, rfl⟩
abbrev main_call6_v14 : Ref sig .tc := ⟨.hbm, 251, rfl⟩
abbrev main_v123 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_cst_28 : Ref sig .tc := ⟨.hbm, 257, rfl⟩
abbrev main_v128 : Ref sig .tc := ⟨.hbm, 258, rfl⟩
abbrev main_v129 : Ref sig .tc := ⟨.hbm, 259, rfl⟩
abbrev main_cst_29 : Ref sig .tc := ⟨.hbm, 260, rfl⟩
abbrev main_v130 : Ref sig .tc := ⟨.hbm, 261, rfl⟩
abbrev main_v131 : Ref sig .tc := ⟨.hbm, 262, rfl⟩
abbrev main_v132 : Ref sig .tc := ⟨.hbm, 263, rfl⟩
abbrev main_c_30 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_v151 : Ref sig .tc := ⟨.hbm, 283, rfl⟩
abbrev main_v152 : Ref sig .tc := ⟨.hbm, 284, rfl⟩
abbrev main_v153 : Ref sig .tc := ⟨.hbm, 285, rfl⟩
abbrev main_cst_31 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_cst_32 : Ref sig .tc := ⟨.hbm, 290, rfl⟩
abbrev main_v157 : Ref sig .tc := ⟨.hbm, 291, rfl⟩
abbrev main_v158 : Ref sig .tc := ⟨.hbm, 292, rfl⟩
abbrev main_cst_33 : Ref sig .tc := ⟨.hbm, 293, rfl⟩
abbrev main_v159 : Ref sig .tc := ⟨.hbm, 294, rfl⟩
abbrev main_v160 : Ref sig .tc := ⟨.hbm, 295, rfl⟩
abbrev main_v161 : Ref sig .tc := ⟨.hbm, 296, rfl⟩
abbrev main_cst_34 : Ref sig .tc := ⟨.hbm, 297, rfl⟩
abbrev main_v162 : Ref sig .tc := ⟨.hbm, 298, rfl⟩
abbrev main_v163 : Ref sig .tc := ⟨.hbm, 299, rfl⟩
abbrev main_v164 : Ref sig .tc := ⟨.hbm, 300, rfl⟩
abbrev main_v165 : Ref sig .tc := ⟨.hbm, 301, rfl⟩
abbrev main_cst_35 : Ref sig .tc := ⟨.hbm, 302, rfl⟩
abbrev main_v166 : Ref sig .tc := ⟨.hbm, 303, rfl⟩
abbrev main_v167 : Ref sig .tc := ⟨.hbm, 304, rfl⟩
abbrev main_cst_36 : Ref sig .tc := ⟨.hbm, 305, rfl⟩
abbrev main_v168 : Ref sig .tc := ⟨.hbm, 306, rfl⟩
abbrev main_v169 : Ref sig .tc := ⟨.hbm, 307, rfl⟩
abbrev main_v170 : Ref sig .tc := ⟨.hbm, 308, rfl⟩
abbrev main_cst_37 : Ref sig .tc := ⟨.hbm, 309, rfl⟩
abbrev main_v171 : Ref sig .tc := ⟨.hbm, 310, rfl⟩
abbrev main_v172 : Ref sig .tc := ⟨.hbm, 311, rfl⟩
abbrev main_cst_38 : Ref sig .tc := ⟨.hbm, 312, rfl⟩
abbrev main_v173 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_cst_39 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_cst_40 : Ref sig .tc := ⟨.hbm, 321, rfl⟩
abbrev main_v180 : Ref sig .tc := ⟨.hbm, 322, rfl⟩
abbrev main_v181 : Ref sig .tc := ⟨.hbm, 323, rfl⟩
abbrev main_v182 : Ref sig .tc := ⟨.hbm, 324, rfl⟩
abbrev main_v183 : Ref sig .tc := ⟨.hbm, 325, rfl⟩
abbrev main_cst_41 : Ref sig .tc := ⟨.hbm, 326, rfl⟩
abbrev main_v184 : Ref sig .tc := ⟨.hbm, 327, rfl⟩
abbrev main_v185 : Ref sig .tc := ⟨.hbm, 328, rfl⟩
abbrev main_cst_42 : Ref sig .tc := ⟨.hbm, 329, rfl⟩
abbrev main_v186 : Ref sig .tc := ⟨.hbm, 330, rfl⟩
abbrev main_v187 : Ref sig .tc := ⟨.hbm, 331, rfl⟩
abbrev main_v188 : Ref sig .tc := ⟨.hbm, 332, rfl⟩
abbrev main_cst_43 : Ref sig .tc := ⟨.hbm, 333, rfl⟩
abbrev main_v189 : Ref sig .tc := ⟨.hbm, 334, rfl⟩
abbrev main_v190 : Ref sig .tc := ⟨.hbm, 335, rfl⟩
abbrev main_cst_44 : Ref sig .tc := ⟨.hbm, 336, rfl⟩
abbrev main_v191 : Ref sig .tc := ⟨.hbm, 337, rfl⟩
abbrev main_v192 : Ref sig .tc := ⟨.hbm, 338, rfl⟩
abbrev main_v193 : Ref sig .tc := ⟨.hbm, 339, rfl⟩
abbrev main_v194 : Ref sig .tc := ⟨.hbm, 340, rfl⟩
abbrev main_v195 : Ref sig .tc := ⟨.hbm, 341, rfl⟩
abbrev main_c_45 : Ref sig .tc := ⟨.hbm, 342, rfl⟩
abbrev main_call7_v0 : Ref sig .tc := ⟨.hbm, 343, rfl⟩
abbrev main_call7_v1 : Ref sig .tc := ⟨.hbm, 344, rfl⟩
abbrev main_v196 : Ref sig .tc := ⟨.hbm, 345, rfl⟩
abbrev main_v197 : Ref sig .tc := ⟨.hbm, 346, rfl⟩
abbrev main_c_46 : Ref sig .tc := ⟨.hbm, 347, rfl⟩
abbrev main_call8_v0 : Ref sig .tc := ⟨.hbm, 348, rfl⟩
abbrev main_call8_v1 : Ref sig .tc := ⟨.hbm, 349, rfl⟩
abbrev main_v198 : Ref sig .tc := ⟨.hbm, 350, rfl⟩
abbrev main_v199 : Ref sig .tc := ⟨.hbm, 351, rfl⟩
abbrev main_v200 : Ref sig .tc := ⟨.hbm, 352, rfl⟩
abbrev main_v201 : Ref sig .tc := ⟨.hbm, 353, rfl⟩
abbrev main_cst_47 : Ref sig .tc := ⟨.hbm, 354, rfl⟩
abbrev main_v202 : Ref sig .tc := ⟨.hbm, 355, rfl⟩
abbrev main_v203 : Ref sig .tc := ⟨.hbm, 356, rfl⟩
abbrev main_v204 : Ref sig .tc := ⟨.hbm, 357, rfl⟩
abbrev main_cst_48 : Ref sig .tc := ⟨.hbm, 358, rfl⟩
abbrev main_v205 : Ref sig .tc := ⟨.hbm, 359, rfl⟩
abbrev main_v206 : Ref sig .tc := ⟨.hbm, 360, rfl⟩
abbrev main_v207 : Ref sig .tc := ⟨.hbm, 361, rfl⟩
abbrev main_cst_49 : Ref sig .tc := ⟨.hbm, 362, rfl⟩
abbrev main_call9_v0 : Ref sig .tc := ⟨.hbm, 363, rfl⟩
abbrev main_call9_v1 : Ref sig .tc := ⟨.hbm, 364, rfl⟩
abbrev main_v208 : Ref sig .tc := ⟨.hbm, 365, rfl⟩
abbrev main_cst_50 : Ref sig .tc := ⟨.hbm, 366, rfl⟩
abbrev main_v209 : Ref sig .tc := ⟨.hbm, 367, rfl⟩
abbrev main_v210 : Ref sig .tc := ⟨.hbm, 368, rfl⟩

abbrev nD : Nat := 1
abbrev τ : Topo := Topo.v7x

variable {F : FTy → Type} [FloatOps F]

class Facts₀ : Prop where
  natLt_1_32 : 1 < 32
  reducesTo_S64x4096x4_S_d0_1_2 : S64x4096x4.ReducesTo [0, 1, 2] S_
  h_S_ : 0 < S_.numel
  shapeCasts_S64x4096x4_S64x16384 : S64x4096x4.ShapeCasts S64x16384
  shapeCasts_S64x1x256x256_S64x1x65536 : S64x1x256x256.ShapeCasts S64x1x65536
  transposes_S64x1x65536_S64x65536x1_0_2_1 : S64x1x65536.Transposes [0, 2, 1] S64x65536x1
  bcast_S64x16384_S64x16384x1_0_1 : S64x16384.BroadcastsInDim S64x16384x1 (![0, 1] : Fin 2 → Fin S64x16384x1.rank)
  bcast_S_S64x16384x1 : S_.BroadcastsInDim S64x16384x1 (![] : Fin 0 → Fin S64x16384x1.rank)
  bcast_S1_S1x1x1_2 : S1.BroadcastsInDim S1x1x1 (![2] : Fin 1 → Fin S1x1x1.rank)
  bcast_S1x1x1_S64x16384x1_0_1_2 : S1x1x1.BroadcastsInDim S64x16384x1 (![0, 1, 2] : Fin 3 → Fin S64x16384x1.rank)
  reducesTo_S64x16384x1_S64x16384_d2 : S64x16384x1.ReducesTo [2] S64x16384
  shapeCasts_S64x16384x1_S64x4096x4x1 : S64x16384x1.ShapeCasts S64x4096x4x1
  reducesTo_S64x4096x4x1_S64x4096x1_d2 : S64x4096x4x1.ReducesTo [2] S64x4096x1
  bcast_S64x4096x1_S64x4096x1x1_0_1_3 : S64x4096x1.BroadcastsInDim S64x4096x1x1 (![0, 1, 3] : Fin 3 → Fin S64x4096x1x1.rank)
  bcast_S_S64x4096x1x1 : S_.BroadcastsInDim S64x4096x1x1 (![] : Fin 0 → Fin S64x4096x1x1.rank)
  shapeCasts_S64x2x256x256_S64x2x65536 : S64x2x256x256.ShapeCasts S64x2x65536
  transposes_S64x2x65536_S64x65536x2_0_2_1 : S64x2x65536.Transposes [0, 2, 1] S64x65536x2
  bcast_S64x16384_S64x16384x2_0_1 : S64x16384.BroadcastsInDim S64x16384x2 (![0, 1] : Fin 2 → Fin S64x16384x2.rank)
  bcast_S_S64x16384x2 : S_.BroadcastsInDim S64x16384x2 (![] : Fin 0 → Fin S64x16384x2.rank)
  shapeCasts_S64x16384x2_S64x4096x4x2 : S64x16384x2.ShapeCasts S64x4096x4x2
  shapeCasts_S4x2_S1x1x4x2 : S4x2.ShapeCasts S1x1x4x2
  bcast_S1x1x4x2_S64x4096x4x2_0_1_2_3 : S1x1x4x2.BroadcastsInDim S64x4096x4x2 (![0, 1, 2, 3] : Fin 4 → Fin S64x4096x4x2.rank)
  reducesTo_S64x4096x4x2_S64x4096x2_d2 : S64x4096x4x2.ReducesTo [2] S64x4096x2
  bcast_S64x4096x2_S64x4096x1x2_0_1_3 : S64x4096x2.BroadcastsInDim S64x4096x1x2 (![0, 1, 3] : Fin 3 → Fin S64x4096x1x2.rank)
  bcast_S_S64x4096x1x2 : S_.BroadcastsInDim S64x4096x1x2 (![] : Fin 0 → Fin S64x4096x1x2.rank)
  concatenates_S64x4096x4x1_S64x4096x4x2_S64x4096x4x3_d3 : Shape.Concatenates [S64x4096x4x1, S64x4096x4x2] S64x4096x4x3 3
  concatenates_S64x4096x1x1_S64x4096x1x2_S64x4096x1x3_d3 : Shape.Concatenates [S64x4096x1x1, S64x4096x1x2] S64x4096x1x3 3
  slices_S64x4096x4x3_S64x4096x4x1_0_0_0_0 : S64x4096x4x3.Slices ![0, 0, 0, 0] S64x4096x4x1
  shapeCasts_S64x4096x4x1_S64x4096x4 : S64x4096x4x1.ShapeCasts S64x4096x4
  slices_S64x4096x4x3_S64x4096x4x1_0_0_0_1 : S64x4096x4x3.Slices ![0, 0, 0, 1] S64x4096x4x1
  slices_S64x4096x4x3_S64x4096x4x1_0_0_0_2 : S64x4096x4x3.Slices ![0, 0, 0, 2] S64x4096x4x1
  slices_S64x4096x1x3_S64x4096x1x1_0_0_0_0 : S64x4096x1x3.Slices ![0, 0, 0, 0] S64x4096x1x1
  shapeCasts_S64x4096x1x1_S64x4096x1 : S64x4096x1x1.ShapeCasts S64x4096x1
  slices_S64x4096x1x3_S64x4096x1x1_0_0_0_1 : S64x4096x1x3.Slices ![0, 0, 0, 1] S64x4096x1x1
  slices_S64x4096x1x3_S64x4096x1x1_0_0_0_2 : S64x4096x1x3.Slices ![0, 0, 0, 2] S64x4096x1x1
  bcast_S_S64x4096x4 : S_.BroadcastsInDim S64x4096x4 (![] : Fin 0 → Fin S64x4096x4.rank)
  bcast_S_S64x4096x1 : S_.BroadcastsInDim S64x4096x1 (![] : Fin 0 → Fin S64x4096x1.rank)
  bcast_S64x4096x1_S64x4096x4_0_1_2 : S64x4096x1.BroadcastsInDim S64x4096x4 (![0, 1, 2] : Fin 3 → Fin S64x4096x4.rank)
  reducesTo_S64x2048x1_S_d0_1_2 : S64x2048x1.ReducesTo [0, 1, 2] S_
  shapeCasts_S64x2048x2x4_S64x16384 : S64x2048x2x4.ShapeCasts S64x16384
  shapeCasts_S64x16384x1_S64x2048x2x4x1 : S64x16384x1.ShapeCasts S64x2048x2x4x1
  reducesTo_S64x2048x2x4x1_S64x2048x2x1_d3 : S64x2048x2x4x1.ReducesTo [3] S64x2048x2x1
  bcast_S64x2048x2x1_S64x2048x2x1x1_0_1_2_4 : S64x2048x2x1.BroadcastsInDim S64x2048x2x1x1 (![0, 1, 2, 4] : Fin 4 → Fin S64x2048x2x1x1.rank)
  bcast_S_S64x2048x2x1x1 : S_.BroadcastsInDim S64x2048x2x1x1 (![] : Fin 0 → Fin S64x2048x2x1x1.rank)
  shapeCasts_S64x16384x2_S64x2048x2x4x2 : S64x16384x2.ShapeCasts S64x2048x2x4x2
  shapeCasts_S4x2_S1x1x1x4x2 : S4x2.ShapeCasts S1x1x1x4x2
  bcast_S1x1x1x4x2_S64x2048x2x4x2_0_1_2_3_4 : S1x1x1x4x2.BroadcastsInDim S64x2048x2x4x2 (![0, 1, 2, 3, 4] : Fin 5 → Fin S64x2048x2x4x2.rank)
  reducesTo_S64x2048x2x4x2_S64x2048x2x2_d3 : S64x2048x2x4x2.ReducesTo [3] S64x2048x2x2
  bcast_S64x2048x2x2_S64x2048x2x1x2_0_1_2_4 : S64x2048x2x2.BroadcastsInDim S64x2048x2x1x2 (![0, 1, 2, 4] : Fin 4 → Fin S64x2048x2x1x2.rank)
  bcast_S_S64x2048x2x1x2 : S_.BroadcastsInDim S64x2048x2x1x2 (![] : Fin 0 → Fin S64x2048x2x1x2.rank)
  bcast_S64x2048x2_S64x2048x1x2_0_1_3 : S64x2048x2.BroadcastsInDim S64x2048x1x2 (![0, 1, 3] : Fin 3 → Fin S64x2048x1x2.rank)
  bcast_S_S1 : S_.BroadcastsInDim S1 (![] : Fin 0 → Fin S1.rank)
  concatenates_S64x2048x2x1x1_S64x2048x2x1x2_S64x2048x2x1x3_d4 : Shape.Concatenates [S64x2048x2x1x1, S64x2048x2x1x2] S64x2048x2x1x3 4
  slices_S64x2048x2x1x3_S64x2048x1x1x3_0_0_0_0_0 : S64x2048x2x1x3.Slices ![0, 0, 0, 0, 0] S64x2048x1x1x3
  shapeCasts_S64x2048x1x1x3_S64x2048x1x3 : S64x2048x1x1x3.ShapeCasts S64x2048x1x3
  slices_S64x2048x2x1x3_S64x2048x1x1x3_0_0_1_0_0 : S64x2048x2x1x3.Slices ![0, 0, 1, 0, 0] S64x2048x1x1x3
  slices_S64x2048x1x3_S64x2048x1x1_0_0_0_0 : S64x2048x1x3.Slices ![0, 0, 0, 0] S64x2048x1x1
  shapeCasts_S64x2048x1x1_S64x2048x1 : S64x2048x1x1.ShapeCasts S64x2048x1
  slices_S64x2048x1x3_S64x2048x1x1_0_0_0_1 : S64x2048x1x3.Slices ![0, 0, 0, 1] S64x2048x1x1
  slices_S64x2048x1x3_S64x2048x1x1_0_0_0_2 : S64x2048x1x3.Slices ![0, 0, 0, 2] S64x2048x1x1
  bcast_S_S64x2048x1 : S_.BroadcastsInDim S64x2048x1 (![] : Fin 0 → Fin S64x2048x1.rank)
  gather_S64x65536x1_S64x16384x1_S64x16384x1_2_1_0_0_1_2_111_wf : GatherDims.WF S64x65536x1 S64x16384x1 S64x16384x1 [2] [1] [0] [1] [0] 2 ![1, 1, 1]
  gather_S64x65536x2_S64x16384x1_S64x16384x2_2_1_0_0_1_2_112_wf : GatherDims.WF S64x65536x2 S64x16384x1 S64x16384x2 [2] [1] [0] [1] [0] 2 ![1, 1, 2]
  scatter_S64x2048x2x1x2_S1_S64x2048x1x2_0123_2_2_0_wf : ScatterDims.WF S64x2048x2x1x2 S1 S64x2048x1x2 [0, 1, 2, 3] [2] [2] 0

variable [Facts₀]

def gather_S64x65536x1_S64x16384x1_S64x16384x1_2_1_0_0_1_2_111 : GatherDims S64x65536x1 S64x16384x1 S64x16384x1 where
  offsetDims := [2]
  collapsedSliceDims := [1]
  operandBatchingDims := [0]
  startIndicesBatchingDims := [0]
  startIndexMap := [1]
  indexVectorDim := 2
  sliceSizes := ![1, 1, 1]
  wf := gather_S64x65536x1_S64x16384x1_S64x16384x1_2_1_0_0_1_2_111_wf
def gather_S64x65536x2_S64x16384x1_S64x16384x2_2_1_0_0_1_2_112 : GatherDims S64x65536x2 S64x16384x1 S64x16384x2 where
  offsetDims := [2]
  collapsedSliceDims := [1]
  operandBatchingDims := [0]
  startIndicesBatchingDims := [0]
  startIndexMap := [1]
  indexVectorDim := 2
  sliceSizes := ![1, 1, 2]
  wf := gather_S64x65536x2_S64x16384x1_S64x16384x2_2_1_0_0_1_2_112_wf
def scatter_S64x2048x2x1x2_S1_S64x2048x1x2_0123_2_2_0 : ScatterDims S64x2048x2x1x2 S1 S64x2048x1x2 where
  updateWindowDims := [0, 1, 2, 3]
  insertedWindowDims := [2]
  scatterDimsToOperandDims := [2]
  indexVectorDim := 0
  wf := scatter_S64x2048x2x1x2_S1_S64x2048x1x2_0123_2_2_0_wf

class Facts : Prop extends Facts₀ where

variable [Facts]
-- ==== Proof.KerRun.lean ====
/-
  The kernel program's run with its result named.  Every weakly fair execution of @main ends with the result buffer
  at the contents the last boundary valuation gives it: the launch valuation pushed through the nine stretches of host
  operations, the two regions' write-backs and the closing stretch.  The argument arrays end as launched.
-/
import proofs.«139320_j2216203125376_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary valuation's contents, the arguments as launched. -/
theorem run : θ_run defs (onTc (τ := τ) (main (F := F))) ⟨m, fun _ => 0, ρ⟩ (fun r => ∀ c : Dev nD,
      r.2.mem ((c.tc : Thread nD τ).loc main_v52) = W12 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v52 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.KerRun

end
-- ==== Proof.RefRunLib.lean ====
/-
  Shared lemmas for reading the reference program as a list of host operations: the fold over two lists in a row,
  a buffer that no operation of a list writes keeps its contents, and the side conditions of the run theorem
  over a concatenation of lists.
-/
import proofs.«139320_j2216203125376_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lists in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation whose one written buffer is `y`, a member of the list `W`, writes inside `W`. -/
theorem writes_sub_of {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- A reference outside the list of the references a list of operations writes keeps its contents. -/
theorem keep {W : List (Ref sig .tc)} {ops : List (HloOp τ sig (Elt F))}
    (hW : ops.Forall fun op => op.writes ⊆ (W.map (Proc.devRef (τ := τ) .tc)).toFinset)
    (r : Ref sig .tc) (hr : r ∉ W) (V : Valuation τ sig (Elt F)) :
    after ops V (Proc.devRef .tc r) = V (Proc.devRef .tc r) :=
  after_of_writes_sub ops V hW hr

/-- The written-inside fact over two lists in a row. -/
theorem writes_app {W₁ W₂ : List (Ref sig .tc)} {l₁ l₂ : List (HloOp τ sig (Elt F))}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  rw [List.forall_append]
  constructor
  · refine List.forall_iff_forall_mem.2 fun op hop => (List.forall_iff_forall_mem.1 h₁ op hop).trans ?_
    intro b hb
    rw [List.mem_toFinset, List.map_append, List.mem_append]
    exact Or.inl (List.mem_toFinset.1 hb)
  · refine List.forall_iff_forall_mem.2 fun op hop => (List.forall_iff_forall_mem.1 h₂ op hop).trans ?_
    intro b hb
    rw [List.mem_toFinset, List.map_append, List.mem_append]
    exact Or.inr (List.mem_toFinset.1 hb)

/-- A property of every operation of two lists holds of every operation of the two in a row. -/
theorem forall_app {p : HloOp τ sig (Elt F) → Prop} {l₁ l₂ : List (HloOp τ sig (Elt F))}
    (h₁ : l₁.Forall p) (h₂ : l₂.Forall p) : (l₁ ++ l₂).Forall p :=
  List.forall_append.2 ⟨h₁, h₂⟩

end Cert.ReferenceIdeal.RefRun

end
-- ==== Proof.RefRunA1.lean ====
/-
  The reference program's first operations: the table of corner offsets, the count of the attract mask, the heights gathered at the attract indices (the first call of the row-gather function) and their mean over the four corners.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 38 operations, in program order (a called function's operations inline, over the call's buffers). -/
abbrev opsA1 : List (HloOp τ sig (Elt F)) :=
  [ StableHlo.nullary main_cst (fun i => FloatOps.ofBits .f32 (lit0 (S4x2.rowMajor i))),
    StableHlo.unary main_arg7 main_v0 ((extui 32 · natLt_1_32) : (⟨S64x4096x4, .i1⟩ : BufTy).Contents (Elt F) → (⟨S64x4096x4, .i32⟩ : BufTy).Contents (Elt F)),
    StableHlo.nullary main_c (constantI S_ 32 0#32),
    StableHlo.binary main_v0 main_c main_v1 ((fun x v => Host.reduce IntOp.addi x v reducesTo_S64x4096x4_S_d0_1_2 h_S_) : (⟨S64x4096x4, .i32⟩ : BufTy).Contents (Elt F) → (⟨S_, .i32⟩ : BufTy).Contents (Elt F) → (⟨S_, .i32⟩ : BufTy).Contents (Elt F)),
    StableHlo.unary main_v1 main_v2 (sitofp .f32 : (⟨S_, .i32⟩ : BufTy).Contents (Elt F) → (⟨S_, .f32⟩ : BufTy).Contents (Elt F)),
    StableHlo.reshape main_arg5 main_v3 rfl shapeCasts_S64x4096x4_S64x16384,
    StableHlo.reshape main_arg0 main_v4 rfl shapeCasts_S64x1x256x256_S64x1x65536,
    StableHlo.unary main_v4 main_v5 ((transpose S64x65536x1 [0, 2, 1] · transposes_S64x1x65536_S64x65536x1_0_2_1) : (⟨S64x1x65536, .f32⟩ : BufTy).Contents (Elt F) → (⟨S64x65536x1, .f32⟩ : BufTy).Contents (Elt F)),
    StableHlo.unary main_v3 main_v6 (broadcastInDim S64x16384x1 ![0, 1] bcast_S64x16384_S64x16384x1_0_1 : (⟨S64x16384, .i32⟩ : BufTy).Contents (Elt F) → (⟨S64x16384x1, .i32⟩ : BufTy).Contents (Elt F)),
    StableHlo.TRef.nullary main_call0.c (constantI S_ 32 0#32),
    StableHlo.TRef.unary main_call0.c main_call0.v0 (broadcastInDim S64x16384x1 ![] bcast_S_S64x16384x1),
    StableHlo.TRef.binary (.of main_v6) main_call0.v0 main_call0.v1 (cmpi .slt),
    StableHlo.TRef.nullary main_call0.c_0 (constantI S_ 32 65536#32),
    StableHlo.TRef.unary main_call0.c_0 main_call0.v2 (broadcastInDim S64x16384x1 ![] bcast_S_S64x16384x1),
    StableHlo.TRef.binary (.of main_v6) main_call0.v2 main_call0.v3 addi,
    StableHlo.TRef.ternary main_call0.v1 main_call0.v3 (.of main_v6) main_call0.v4 select,
    StableHlo.TRef.nullary main_call0.c_1 (constantI S1 32 65535#32),
    StableHlo.TRef.nullary main_call0.c_2 (constantI S_ 32 0#32),
    StableHlo.TRef.unary main_call0.c_2 main_call0.v5 (broadcastInDim S64x16384x1 ![] bcast_S_S64x16384x1),
    StableHlo.TRef.binary main_call0.v4 main_call0.v5 main_call0.v6 (cmpi .sge),
    StableHlo.TRef.unary main_call0.c_1 main_call0.v7 (broadcastInDim S1x1x1 ![2] bcast_S1_S1x1x1_2),
    StableHlo.TRef.unary main_call0.v7 main_call0.v8 (broadcastInDim S64x16384x1 ![0, 1, 2] bcast_S1x1x1_S64x16384x1_0_1_2),
    StableHlo.TRef.binary main_call0.v4 main_call0.v8 main_call0.v9 (cmpi .sle),
    StableHlo.TRef.binary main_call0.v6 main_call0.v9 main_call0.v10 andi,
    StableHlo.TRef.nullary main_call0.c_3 (constantI S_ 1 1#1),
    StableHlo.TRef.binary main_call0.v10 main_call0.c_3 main_call0.v11 (fun x v => Host.reduce IntOp.andi x v reducesTo_S64x16384x1_S64x16384_d2 h_S_),
    StableHlo.TRef.binary (.of main_v5) main_call0.v4 main_call0.v12 (fun x i => Host.gather gather_S64x65536x1_S64x16384x1_S64x16384x1_2_1_0_0_1_2_111 x i),
    StableHlo.TRef.unary main_call0.v11 main_call0.v13 (broadcastInDim S64x16384x1 ![0, 1] bcast_S64x16384_S64x16384x1_0_1),
    StableHlo.TRef.nullary main_call0.cst (constant S_ .f32 0x7FC00000#32),
    StableHlo.TRef.unary main_call0.cst main_call0.v14 (broadcastInDim S64x16384x1 ![] bcast_S_S64x16384x1),
    StableHlo.TRef.ternary main_call0.v13 main_call0.v12 main_call0.v14 main_call0.v15 select,
    StableHlo.reshape main_v7 main_v8 rfl shapeCasts_S64x16384x1_S64x4096x4x1,
    StableHlo.nullary main_cst_0 (constant S_ .f32 0x00000000#32),
    StableHlo.binary main_v8 main_cst_0 main_v9 ((fun x v => Host.reduceAdd x v reducesTo_S64x4096x4x1_S64x4096x1_d2 h_S_) : (⟨S64x4096x4x1, .f32⟩ : BufTy).Contents (Elt F) → (⟨S_, .f32⟩ : BufTy).Contents (Elt F) → (⟨S64x4096x1, .f32⟩ : BufTy).Contents (Elt F)),
    StableHlo.unary main_v9 main_v10 (broadcastInDim S64x4096x1x1 ![0, 1, 3] bcast_S64x4096x1_S64x4096x1x1_0_1_3 : (⟨S64x4096x1, .f32⟩ : BufTy).Contents (Elt F) → (⟨S64x4096x1x1, .f32⟩ : BufTy).Contents (Elt F)),
    StableHlo.nullary main_cst_1 (constant S_ .f32 0x40800000#32),
    StableHlo.unary main_cst_1 main_v11 (broadcastInDim S64x4096x1x1 ![] bcast_S_S64x4096x1x1 : (⟨S_, .f32⟩ : BufTy).Contents (Elt F) → (⟨S64x4096x1x1, .f32⟩ : BufTy).Contents (Elt F)),
    StableHlo.binary main_v10 main_v11 main_v12 (Host.divf : (⟨S64x4096x1x1, .f32⟩ : BufTy).Contents (Elt F) → (⟨S64x4096x1x1, .f32⟩ : BufTy).Contents (Elt F) → (⟨S64x4096x1x1, .f32⟩ : BufTy).Contents (Elt F)) ]

/-- The references the operations write, in order. -/
abbrev WA1 : List (Ref sig .tc) :=
  [ main_cst, main_v0, main_c, main_v1, main_v2, main_v3, main_v4, main_v5,
    main_v6, main_call0_c, main_call0_v0, main_call0_v1, main_call0_c_0, main_call0_v2, main_call0_v3, main_call0_v4,
    main_call0_c_1, main_call0_c_2, main_call0_v5, main_call0_v6, main_call0_v7, main_call0_v8, main_call0_v9, main_call0_v10,
    main_call0_c_3, main_call0_v11, main_call0_v12, main_call0_v13, main_call0_cst, main_call0_v14, main_v7, main_v8,
    main_cst_0, main_v9, main_v10, main_cst_1, main_v11, main_v12 ]

theorem opsA1_sub : (opsA1 : List (HloOp τ sig (Elt F))).Forall fun op => op.bufs ⊆ tcRefs τ sig :=
  ⟨nullary_bufs_sub .., unary_bufs_sub .., nullary_bufs_sub .., binary_bufs_sub .., unary_bufs_sub .., reshape_bufs_sub ..,
    reshape_bufs_sub .., unary_bufs_sub .., unary_bufs_sub .., nullary_bufs_sub .., unary_bufs_sub .., binary_bufs_sub ..,
    nullary_bufs_sub .., unary_bufs_sub .., binary_bufs_sub .., ternary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., reshape_bufs_sub .., nullary_bufs_sub .., binary_bufs_sub .., unary_bufs_sub .., nullary_bufs_sub ..,
    unary_bufs_sub .., binary_bufs_sub ..⟩

theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem opsA1_writes : (opsA1 : List (HloOp τ sig (Elt F))).Forall fun op => op.writes ⊆ ((WA1).map (Proc.devRef (τ := τ) .tc)).toFinset :=
  ⟨writes_sub_of (y := main_cst) rfl (by decide), writes_sub_of (y := main_v0) rfl (by decide),
    writes_sub_of (y := main_c) rfl (by decide), writes_sub_of (y := main_v1) rfl (by decide),
    writes_sub_of (y := main_v2) rfl (by decide), writes_sub_of (y := main_v3) rfl (by decide),
    writes_sub_of (y := main_v4) rfl (by decide), writes_sub_of (y := main_v5) rfl (by decide),
    writes_sub_of (y := main_v6) rfl (by decide), writes_sub_of (y := main_call0_c) rfl (by decide),
    writes_sub_of (y := main_call0_v0) rfl (by decide), writes_sub_of (y := main_call0_v1) rfl (by decide),
    writes_sub_of (y := main_call0_c_0) rfl (by decide), writes_sub_of (y := main_call0_v2) rfl (by decide),
    writes_sub_of (y := main_call0_v3) rfl (by decide), writes_sub_of (y := main_call0_v4) rfl (by decide),
    writes_sub_of (y := main_call0_c_1) rfl (by decide), writes_sub_of (y := main_call0_c_2) rfl (by decide),
    writes_sub_of (y := main_call0_v5) rfl (by decide), writes_sub_of (y := main_call0_v6) rfl (by decide),
    writes_sub_of (y := main_call0_v7) rfl (by decide), writes_sub_of (y := main_call0_v8) rfl (by decide),
    writes_sub_of (y := main_call0_v9) rfl (by decide), writes_sub_of (y := main_call0_v10) rfl (by decide),
    writes_sub_of (y := main_call0_c_3) rfl (by decide), writes_sub_of (y := main_call0_v11) rfl (by decide),
    writes_sub_of (y := main_call0_v12) rfl (by decide), writes_sub_of (y := main_call0_v13) rfl (by decide),
    writes_sub_of (y := main_call0_cst) rfl (by decide), writes_sub_of (y := main_call0_v14) rfl (by decide),
    writes_sub_of (y := main_v7) rfl (by decide), writes_sub_of (y := main_v8) rfl (by decide),
    writes_sub_of (y := main_cst_0) rfl (by decide), writes_sub_of (y := main_v9) rfl (by decide),
    writes_sub_of (y := main_v10) rfl (by decide), writes_sub_of (y := main_cst_1) rfl (by decide),
    writes_sub_of (y := main_v11) rfl (by decide), writes_sub_of (y := main_v12) rfl (by decide)⟩

end Cert.ReferenceIdeal.RefRun

end
-- ==== Proof.RefRunA2.lean ====
/-
  The offsets gathered at the attract indices (the call of the two-channel row-gather function), the corner offsets added, and their mean over the four corners.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 36 operations, in program order (a called function's operations inline, over the call's buffers). -/
abbrev opsA2 : List (HloOp τ sig (Elt F)) :=
  [ StableHlo.reshape main_arg5 main_v13 rfl shapeCasts_S64x4096x4_S64x16384,
    StableHlo.reshape main_arg1 main_v14 rfl shapeCasts_S64x2x256x256_S64x2x65536,
    StableHlo.unary main_v14 main_v15 ((transpose S64x65536x2 [0, 2, 1] · transposes_S64x2x65536_S64x65536x2_0_2_1) : (⟨S64x2x65536, .f32⟩ : BufTy).Contents (Elt F) → (⟨S64x65536x2, .f32⟩ : BufTy).Contents (Elt F)),
    StableHlo.unary main_v13 main_v16 (broadcastInDim S64x16384x1 ![0, 1] bcast_S64x16384_S64x16384x1_0_1 : (⟨S64x16384, .i32⟩ : BufTy).Contents (Elt F) → (⟨S64x16384x1, .i32⟩ : BufTy).Contents (Elt F)),
    StableHlo.TRef.nullary main_call1.c (constantI S_ 32 0#32),
    StableHlo.TRef.unary main_call1.c main_call1.v0 (broadcastInDim S64x16384x1 ![] bcast_S_S64x16384x1),
    StableHlo.TRef.binary (.of main_v16) main_call1.v0 main_call1.v1 (cmpi .slt),
    StableHlo.TRef.nullary main_call1.c_0 (constantI S_ 32 65536#32),
    StableHlo.TRef.unary main_call1.c_0 main_call1.v2 (broadcastInDim S64x16384x1 ![] bcast_S_S64x16384x1),
    StableHlo.TRef.binary (.of main_v16) main_call1.v2 main_call1.v3 addi,
    StableHlo.TRef.ternary main_call1.v1 main_call1.v3 (.of main_v16) main_call1.v4 select,
    StableHlo.TRef.nullary main_call1.c_1 (constantI S1 32 65535#32),
    StableHlo.TRef.nullary main_call1.c_2 (constantI S_ 32 0#32),
    StableHlo.TRef.unary main_call1.c_2 main_call1.v5 (broadcastInDim S64x16384x1 ![] bcast_S_S64x16384x1),
    StableHlo.TRef.binary main_call1.v4 main_call1.v5 main_call1.v6 (cmpi .sge),
    StableHlo.TRef.unary main_call1.c_1 main_call1.v7 (broadcastInDim S1x1x1 ![2] bcast_S1_S1x1x1_2),
    StableHlo.TRef.unary main_call1.v7 main_call1.v8 (broadcastInDim S64x16384x1 ![0, 1, 2] bcast_S1x1x1_S64x16384x1_0_1_2),
    StableHlo.TRef.binary main_call1.v4 main_call1.v8 main_call1.v9 (cmpi .sle),
    StableHlo.TRef.binary main_call1.v6 main_call1.v9 main_call1.v10 andi,
    StableHlo.TRef.nullary main_call1.c_3 (constantI S_ 1 1#1),
    StableHlo.TRef.binary main_call1.v10 main_call1.c_3 main_call1.v11 (fun x v => Host.reduce IntOp.andi x v reducesTo_S64x16384x1_S64x16384_d2 h_S_),
    StableHlo.TRef.binary (.of main_v15) main_call1.v4 main_call1.v12 (fun x i => Host.gather gather_S64x65536x2_S64x16384x1_S64x16384x2_2_1_0_0_1_2_112 x i),
    StableHlo.TRef.unary main_call1.v11 main_call1.v13 (broadcastInDim S64x16384x2 ![0, 1] bcast_S64x16384_S64x16384x2_0_1),
    StableHlo.TRef.nullary main_call1.cst (constant S_ .f32 0x7FC00000#32),
    StableHlo.TRef.unary main_call1.cst main_call1.v14 (broadcastInDim S64x16384x2 ![] bcast_S_S64x16384x2),
    StableHlo.TRef.ternary main_call1.v13 main_call1.v12 main_call1.v14 main_call1.v15 select,
    StableHlo.reshape main_v17 main_v18 rfl shapeCasts_S64x16384x2_S64x4096x4x2,
    StableHlo.reshape main_cst main_v19 rfl shapeCasts_S4x2_S1x1x4x2,
    StableHlo.unary main_v19 main_v20 (broadcastInDim S64x4096x4x2 ![0, 1, 2, 3] bcast_S1x1x4x2_S64x4096x4x2_0_1_2_3 : (⟨S1x1x4x2, .f32⟩ : BufTy).Contents (Elt F) → (⟨S64x4096x4x2, .f32⟩ : BufTy).Contents (Elt F)),
    StableHlo.binary main_v18 main_v20 main_v21 (addf : (⟨S64x4096x4x2, .f32⟩ : BufTy).Contents (Elt F) → (⟨S64x4096x4x2, .f32⟩ : BufTy).Contents (Elt F) → (⟨S64x4096x4x2, .f32⟩ : BufTy).Contents (Elt F)),
    StableHlo.nullary main_cst_2 (constant S_ .f32 0x00000000#32),
    StableHlo.binary main_v21 main_cst_2 main_v22 ((fun x v => Host.reduceAdd x v reducesTo_S64x4096x4x2_S64x4096x2_d2 h_S_) : (⟨S64x4096x4x2, .f32⟩ : BufTy).Contents (Elt F) → (⟨S_, .f32⟩ : BufTy).Contents (Elt F) → (⟨S64x4096x2, .f32⟩ : BufTy).Contents (Elt F)),
    StableHlo.unary main_v22 main_v23 (broadcastInDim S64x4096x1x2 ![0, 1, 3] bcast_S64x4096x2_S64x4096x1x2_0_1_3 : (⟨S64x4096x2, .f32⟩ : BufTy).Contents (Elt F) → (⟨S64x4096x1x2, .f32⟩ : BufTy).Contents (Elt F)),
    StableHlo.nullary main_cst_3 (constant S_ .f32 0x40800000#32),
    StableHlo.unary main_cst_3 main_v24 (broadcastInDim S64x4096x1x2 ![] bcast_S_S64x4096x1x2 : (⟨S_, .f32⟩ : BufTy).Contents (Elt F) → (⟨S64x4096x1x2, .f32⟩ : BufTy).Contents (Elt F)),
    StableHlo.binary main_v23 main_v24 main_v25 (Host.divf : (⟨S64x4096x1x2, .f32⟩ : BufTy).Contents (Elt F) → (⟨S64x4096x1x2, .f32⟩ : BufTy).Contents (Elt F) → (⟨S64x4096x1x2, .f32⟩ : BufTy).Contents (Elt F)) ]

/-- The references the operations write, in order. -/
abbrev WA2 : List (Ref sig .tc) :=
  [ main_v13, main_v14, main_v15, main_v16, main_call1_c, main_call1_v0, main_call1_v1, main_call1_c_0,
    main_call1_v2, main_call1_v3, main_call1_v4, main_call1_c_1, main_call1_c_2, main_call1_v5, main_call1_v6, main_call1_v7,
    main_call1_v8, main_call1_v9, main_call1_v10, main_call1_c_3, main_call1_v11, main_call1_v12, main_call1_v13, main_call1_cst,
    main_call1_v14, main_v17, main_v18, main_v19, main_v20, main_v21, main_cst_2, main_v22,
    main_v23, main_cst_3, main_v24, main_v25 ]

theorem opsA2_sub : (opsA2 : List (HloOp τ sig (Elt F))).Forall fun op => op.bufs ⊆ tcRefs τ sig :=
  ⟨reshape_bufs_sub .., reshape_bufs_sub .., unary_bufs_sub .., unary_bufs_sub .., nullary_bufs_sub .., unary_bufs_sub ..,
    binary_bufs_sub .., nullary_bufs_sub .., unary_bufs_sub .., binary_bufs_sub .., ternary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., reshape_bufs_sub .., reshape_bufs_sub .., unary_bufs_sub .., binary_bufs_sub ..,
    nullary_bufs_sub .., binary_bufs_sub .., unary_bufs_sub .., nullary_bufs_sub .., unary_bufs_sub .., binary_bufs_sub ..⟩

theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem opsA2_writes : (opsA2 : List (HloOp τ sig (Elt F))).Forall fun op => op.writes ⊆ ((WA2).map (Proc.devRef (τ := τ) .tc)).toFinset :=
  ⟨writes_sub_of (y := main_v13) rfl (by decide), writes_sub_of (y := main_v14) rfl (by decide),
    writes_sub_of (y := main_v15) rfl (by decide), writes_sub_of (y := main_v16) rfl (by decide),
    writes_sub_of (y := main_call1_c) rfl (by decide), writes_sub_of (y := main_call1_v0) rfl (by decide),
    writes_sub_of (y := main_call1_v1) rfl (by decide), writes_sub_of (y := main_call1_c_0) rfl (by decide),
    writes_sub_of (y := main_call1_v2) rfl (by decide), writes_sub_of (y := main_call1_v3) rfl (by decide),
    writes_sub_of (y := main_call1_v4) rfl (by decide), writes_sub_of (y := main_call1_c_1) rfl (by decide),
    writes_sub_of (y := main_call1_c_2) rfl (by decide), writes_sub_of (y := main_call1_v5) rfl (by decide),
    writes_sub_of (y := main_call1_v6) rfl (by decide), writes_sub_of (y := main_call1_v7) rfl (by decide),
    writes_sub_of (y := main_call1_v8) rfl (by decide), writes_sub_of (y := main_call1_v9) rfl (by decide),
    writes_sub_of (y := main_call1_v10) rfl (by decide), writes_sub_of (y := main_call1_c_3) rfl (by decide),
    writes_sub_of (y := main_call1_v11) rfl (by decide), writes_sub_of (y := main_call1_v12) rfl (by decide),
    writes_sub_of (y := main_call1_v13) rfl (by decide), writes_sub_of (y := main_call1_cst) rfl (by decide),
    writes_sub_of (y := main_call1_v14) rfl (by decide), writes_sub_of (y := main_v17) rfl (by decide),
    writes_sub_of (y := main_v18) rfl (by decide), writes_sub_of (y := main_v19) rfl (by decide),
    writes_sub_of (y := main_v20) rfl (by decide), writes_sub_of (y := main_v21) rfl (by decide),
    writes_sub_of (y := main_cst_2) rfl (by decide), writes_sub_of (y := main_v22) rfl (by decide),
    writes_sub_of (y := main_v23) rfl (by decide), writes_sub_of (y := main_cst_3) rfl (by decide),
    writes_sub_of (y := main_v24) rfl (by decide), writes_sub_of (y := main_v25) rfl (by decide)⟩

end Cert.ReferenceIdeal.RefRun

end
-- ==== Proof.RefRunA3.lean ====
/-
  The attract boxes: the exponential of the heights, the boxes assembled and taken apart again by channel, the areas and the first edge.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 28 operations, in program order (a called function's operations inline, over the call's buffers). -/
abbrev opsA3 : List (HloOp τ sig (Elt F)) :=
  [ StableHlo.unary main_v8 main_v26 (Host.exp : (⟨S64x4096x4x1, .f32⟩ : BufTy).Contents (Elt F) → (⟨S64x4096x4x1, .f32⟩ : BufTy).Contents (Elt F)),
    StableHlo.binary main_v26 main_v21 main_v27 ((fun a b => concatenate S64x4096x4x3 3 [⟨S64x4096x4x1, a⟩, ⟨S64x4096x4x2, b⟩] concatenates_S64x4096x4x1_S64x4096x4x2_S64x4096x4x3_d3) : (⟨S64x4096x4x1, .f32⟩ : BufTy).Contents (Elt F) → (⟨S64x4096x4x2, .f32⟩ : BufTy).Contents (Elt F) → (⟨S64x4096x4x3, .f32⟩ : BufTy).Contents (Elt F)),
    StableHlo.unary main_v12 main_v28 (Host.exp : (⟨S64x4096x1x1, .f32⟩ : BufTy).Contents (Elt F) → (⟨S64x4096x1x1, .f32⟩ : BufTy).Contents (Elt F)),
    StableHlo.binary main_v28 main_v25 main_v29 ((fun a b => concatenate S64x4096x1x3 3 [⟨S64x4096x1x1, a⟩, ⟨S64x4096x1x2, b⟩] concatenates_S64x4096x1x1_S64x4096x1x2_S64x4096x1x3_d3) : (⟨S64x4096x1x1, .f32⟩ : BufTy).Contents (Elt F) → (⟨S64x4096x1x2, .f32⟩ : BufTy).Contents (Elt F) → (⟨S64x4096x1x3, .f32⟩ : BufTy).Contents (Elt F)),
    StableHlo.unary main_v27 main_v30 ((extractStridedSlice S64x4096x4x1 ![0, 0, 0, 0] · slices_S64x4096x4x3_S64x4096x4x1_0_0_0_0) : (⟨S64x4096x4x3, .f32⟩ : BufTy).Contents (Elt F) → (⟨S64x4096x4x1, .f32⟩ : BufTy).Contents (Elt F)),
    StableHlo.reshape main_v30 main_v31 rfl shapeCasts_S64x4096x4x1_S64x4096x4,
    StableHlo.unary main_v27 main_v32 ((extractStridedSlice S64x4096x4x1 ![0, 0, 0, 1] · slices_S64x4096x4x3_S64x4096x4x1_0_0_0_1) : (⟨S64x4096x4x3, .f32⟩ : BufTy).Contents (Elt F) → (⟨S64x4096x4x1, .f32⟩ : BufTy).Contents (Elt F)),
    StableHlo.reshape main_v32 main_v33 rfl shapeCasts_S64x4096x4x1_S64x4096x4,
    StableHlo.unary main_v27 main_v34 ((extractStridedSlice S64x4096x4x1 ![0, 0, 0, 2] · slices_S64x4096x4x3_S64x4096x4x1_0_0_0_2) : (⟨S64x4096x4x3, .f32⟩ : BufTy).Contents (Elt F) → (⟨S64x4096x4x1, .f32⟩ : BufTy).Contents (Elt F)),
    StableHlo.reshape main_v34 main_v35 rfl shapeCasts_S64x4096x4x1_S64x4096x4,
    StableHlo.unary main_v29 main_v36 ((extractStridedSlice S64x4096x1x1 ![0, 0, 0, 0] · slices_S64x4096x1x3_S64x4096x1x1_0_0_0_0) : (⟨S64x4096x1x3, .f32⟩ : BufTy).Contents (Elt F) → (⟨S64x4096x1x1, .f32⟩ : BufTy).Contents (Elt F)),
    StableHlo.reshape main_v36 main_v37 rfl shapeCasts_S64x4096x1x1_S64x4096x1,
    StableHlo.unary main_v29 main_v38 ((extractStridedSlice S64x4096x1x1 ![0, 0, 0, 1] · slices_S64x4096x1x3_S64x4096x1x1_0_0_0_1) : (⟨S64x4096x1x3, .f32⟩ : BufTy).Contents (Elt F) → (⟨S64x4096x1x1, .f32⟩ : BufTy).Contents (Elt F)),
    StableHlo.reshape main_v38 main_v39 rfl shapeCasts_S64x4096x1x1_S64x4096x1,
    StableHlo.unary main_v29 main_v40 ((extractStridedSlice S64x4096x1x1 ![0, 0, 0, 2] · slices_S64x4096x1x3_S64x4096x1x1_0_0_0_2) : (⟨S64x4096x1x3, .f32⟩ : BufTy).Contents (Elt F) → (⟨S64x4096x1x1, .f32⟩ : BufTy).Contents (Elt F)),
    StableHlo.reshape main_v40 main_v41 rfl shapeCasts_S64x4096x1x1_S64x4096x1,
    StableHlo.binary main_v31 main_v31 main_v42 (mulf : (⟨S64x4096x4, .f32⟩ : BufTy).Contents (Elt F) → (⟨S64x4096x4, .f32⟩ : BufTy).Contents (Elt F) → (⟨S64x4096x4, .f32⟩ : BufTy).Contents (Elt F)),
    StableHlo.nullary main_cst_4 (constant S_ .f32 0x3ED1EB85#32),
    StableHlo.unary main_cst_4 main_v43 (broadcastInDim S64x4096x4 ![] bcast_S_S64x4096x4 : (⟨S_, .f32⟩ : BufTy).Contents (Elt F) → (⟨S64x4096x4, .f32⟩ : BufTy).Contents (Elt F)),
    StableHlo.binary main_v42 main_v43 main_v44 (mulf : (⟨S64x4096x4, .f32⟩ : BufTy).Contents (Elt F) → (⟨S64x4096x4, .f32⟩ : BufTy).Contents (Elt F) → (⟨S64x4096x4, .f32⟩ : BufTy).Contents (Elt F)),
    StableHlo.binary main_v37 main_v37 main_v45 (mulf : (⟨S64x4096x1, .f32⟩ : BufTy).Contents (Elt F) → (⟨S64x4096x1, .f32⟩ : BufTy).Contents (Elt F) → (⟨S64x4096x1, .f32⟩ : BufTy).Contents (Elt F)),
    StableHlo.nullary main_cst_5 (constant S_ .f32 0x3ED1EB85#32),
    StableHlo.unary main_cst_5 main_v46 (broadcastInDim S64x4096x1 ![] bcast_S_S64x4096x1 : (⟨S_, .f32⟩ : BufTy).Contents (Elt F) → (⟨S64x4096x1, .f32⟩ : BufTy).Contents (Elt F)),
    StableHlo.binary main_v45 main_v46 main_v47 (mulf : (⟨S64x4096x1, .f32⟩ : BufTy).Contents (Elt F) → (⟨S64x4096x1, .f32⟩ : BufTy).Contents (Elt F) → (⟨S64x4096x1, .f32⟩ : BufTy).Contents (Elt F)),
    StableHlo.nullary main_cst_6 (constant S_ .f32 0x40000000#32),
    StableHlo.unary main_cst_6 main_v48 (broadcastInDim S64x4096x4 ![] bcast_S_S64x4096x4 : (⟨S_, .f32⟩ : BufTy).Contents (Elt F) → (⟨S64x4096x4, .f32⟩ : BufTy).Contents (Elt F)),
    StableHlo.binary main_v31 main_v48 main_v49 (Host.divf : (⟨S64x4096x4, .f32⟩ : BufTy).Contents (Elt F) → (⟨S64x4096x4, .f32⟩ : BufTy).Contents (Elt F) → (⟨S64x4096x4, .f32⟩ : BufTy).Contents (Elt F)),
    StableHlo.binary main_v33 main_v49 main_v50 (subf : (⟨S64x4096x4, .f32⟩ : BufTy).Contents (Elt F) → (⟨S64x4096x4, .f32⟩ : BufTy).Contents (Elt F) → (⟨S64x4096x4, .f32⟩ : BufTy).Contents (Elt F)) ]

/-- The references the operations write, in order. -/
abbrev WA3 : List (Ref sig .tc) :=
  [ main_v26, main_v27, main_v28, main_v29, main_v30, main_v31, main_v32, main_v33,
    main_v34, main_v35, main_v36, main_v37, main_v38, main_v39, main_v40, main_v41,
    main_v42, main_cst_4, main_v43, main_v44, main_v45, main_cst_5, main_v46, main_v47,
    main_cst_6, main_v48, main_v49, main_v50 ]

theorem opsA3_sub : (opsA3 : List (HloOp τ sig (Elt F))).Forall fun op => op.bufs ⊆ tcRefs τ sig :=
  ⟨unary_bufs_sub .., binary_bufs_sub .., unary_bufs_sub .., binary_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub ..⟩

theorem opsA3_fresh : (opsA3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl⟩

theorem opsA3_writes : (opsA3 : List (HloOp τ sig (Elt F))).Forall fun op => op.writes ⊆ ((WA3).map (Proc.devRef (τ := τ) .tc)).toFinset :=
  ⟨writes_sub_of (y := main_v26) rfl (by decide), writes_sub_of (y := main_v27) rfl (by decide),
    writes_sub_of (y := main_v28) rfl (by decide), writes_sub_of (y := main_v29) rfl (by decide),
    writes_sub_of (y := main_v30) rfl (by decide), writes_sub_of (y := main_v31) rfl (by decide),
    writes_sub_of (y := main_v32) rfl (by decide), writes_sub_of (y := main_v33) rfl (by decide),
    writes_sub_of (y := main_v34) rfl (by decide), writes_sub_of (y := main_v35) rfl (by decide),
    writes_sub_of (y := main_v36) rfl (by decide), writes_sub_of (y := main_v37) rfl (by decide),
    writes_sub_of (y := main_v38) rfl (by decide), writes_sub_of (y := main_v39) rfl (by decide),
    writes_sub_of (y := main_v40) rfl (by decide), writes_sub_of (y := main_v41) rfl (by decide),
    writes_sub_of (y := main_v42) rfl (by decide), writes_sub_of (y := main_cst_4) rfl (by decide),
    writes_sub_of (y := main_v43) rfl (by decide), writes_sub_of (y := main_v44) rfl (by decide),
    writes_sub_of (y := main_v45) rfl (by decide), writes_sub_of (y := main_cst_5) rfl (by decide),
    writes_sub_of (y := main_v46) rfl (by decide), writes_sub_of (y := main_v47) rfl (by decide),
    writes_sub_of (y := main_cst_6) rfl (by decide), writes_sub_of (y := main_v48) rfl (by decide),
    writes_sub_of (y := main_v49) rfl (by decide), writes_sub_of (y := main_v50) rfl (by decide)⟩

end Cert.ReferenceIdeal.RefRun

end
-- ==== Proof.RefRunP0.lean ====
/-
  Window 0 of the reference program is the straight line of its chunks' operations.
-/
import proofs.«139320_j2216203125376_2_alg».proof.Proof.RefRunLib
import proofs.«139320_j2216203125376_2_alg».proof.Proof.RefRunA1
import proofs.«139320_j2216203125376_2_alg».proof.Proof.RefRunA2
import proofs.«139320_j2216203125376_2_alg».proof.Proof.RefRunA3
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0, in program order. -/
def opsP0 : List (HloOp τ sig (Elt F)) := opsA1 ++ opsA2 ++ opsA3

/-- The references window 0 writes. -/
def WP0 : List (Ref sig .tc) := WA1 ++ WA2 ++ WA3

/-- Window 0 of @main is the straight line of these operations: both sides unfold to one chain of steps. -/
theorem main_part0_eq (c : Dev nD) : main_part0 (F := F) c = seq opsP0 := by
  chain_rfl

theorem opsP0_sub : (opsP0 : List (HloOp τ sig (Elt F))).Forall fun op => op.bufs ⊆ tcRefs τ sig :=
  forall_app (forall_app (opsA1_sub) opsA2_sub) opsA3_sub

theorem opsP0_fresh : (opsP0 : List (HloOp τ sig (Elt F))).Forall fun op => op.fresh = ∅ :=
  forall_app (forall_app (opsA1_fresh) opsA2_fresh) opsA3_fresh

theorem opsP0_writes : (opsP0 : List (HloOp τ sig (Elt F))).Forall fun op => op.writes ⊆ (WP0.map (Proc.devRef (τ := τ) .tc)).toFinset :=
  writes_app (writes_app (opsA1_writes) opsA2_writes) opsA3_writes

end Cert.ReferenceIdeal.RefRun

end
-- ==== Proof.RefRunB.lean ====
/-
  The attract term's intersection over union, edge by edge, up to the intersection and the union's constant.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 64 operations, in program order (a called function's operations inline, over the call's buffers). -/
abbrev opsB : List (HloOp τ sig (Elt F)) :=
  [ StableHlo.nullary main_cst_7 (constant S_ .f32 0x40000000#32),
    StableHlo.unary main_cst_7 main_v51 (broadcastInDim S64x4096x1 ![] bcast_S_S64x4096x1 : (⟨S_, .f32⟩ : BufTy).Contents (Elt F) → (⟨S64x4096x1, .f32⟩ : BufTy).Contents (Elt F)),
    StableHlo.binary main_v37 main_v51 main_v52 (Host.divf : (⟨S64x4096x1, .f32⟩ : BufTy).Contents (Elt F) → (⟨S64x4096x1, .f32⟩ : BufTy).Contents (Elt F) → (⟨S64x4096x1, .f32⟩ : BufTy).Contents (Elt F)),
    StableHlo.binary main_v39 main_v52 main_v53 (subf : (⟨S64x4096x1, .f32⟩ : BufTy).Contents (Elt F) → (⟨S64x4096x1, .f32⟩ : BufTy).Contents (Elt F) → (⟨S64x4096x1, .f32⟩ : BufTy).Contents (Elt F)),
    StableHlo.unary main_v53 main_v54 (broadcastInDim S64x4096x4 ![0, 1, 2] bcast_S64x4096x1_S64x4096x4_0_1_2 : (⟨S64x4096x1, .f32⟩ : BufTy).Contents (Elt F) → (⟨S64x4096x4, .f32⟩ : BufTy).Contents (Elt F)),
    StableHlo.binary main_v50 main_v54 main_v55 (maximumf : (⟨S64x4096x4, .f32⟩ : BufTy).Contents (Elt F) → (⟨S64x4096x4, .f32⟩ : BufTy).Contents (Elt F) → (⟨S64x4096x4, .f32⟩ : BufTy).Contents (Elt F)),
    StableHlo.nullary main_cst_8 (constant S_ .f32 0x3ED1EB85#32),
    StableHlo.unary main_cst_8 main_v56 (broadcastInDim S64x4096x4 ![] bcast_S_S64x4096x4 : (⟨S_, .f32⟩ : BufTy).Contents (Elt F) → (⟨S64x4096x4, .f32⟩ : BufTy).Contents (Elt F)),
    StableHlo.binary main_v56 main_v31 main_v57 (mulf : (⟨S64x4096x4, .f32⟩ : BufTy).Contents (Elt F) → (⟨S64x4096x4, .f32⟩ : BufTy).Contents (Elt F) → (⟨S64x4096x4, .f32⟩ : BufTy).Contents (Elt F)),
    StableHlo.nullary main_cst_9 (constant S_ .f32 0x40000000#32),
    StableHlo.unary main_cst_9 main_v58 (broadcastInDim S64x4096x4 ![] bcast_S_S64x4096x4 : (⟨S_, .f32⟩ : BufTy).Contents (Elt F) → (⟨S64x4096x4, .f32⟩ : BufTy).Contents (Elt F)),
    StableHlo.binary main_v57 main_v58 main_v59 (Host.divf : (⟨S64x4096x4, .f32⟩ : BufTy).Contents (Elt F) → (⟨S64x4096x4, .f32⟩ : BufTy).Contents (Elt F) → (⟨S64x4096x4, .f32⟩ : BufTy).Contents (Elt F)),
    StableHlo.binary main_v35 main_v59 main_v60 (subf : (⟨S64x4096x4, .f32⟩ : BufTy).Contents (Elt F) → (⟨S64x4096x4, .f32⟩ : BufTy).Contents (Elt F) → (⟨S64x4096x4, .f32⟩ : BufTy).Contents (Elt F)),
    StableHlo.nullary main_cst_10 (constant S_ .f32 0x3ED1EB85#32),
    StableHlo.unary main_cst_10 main_v61 (broadcastInDim S64x4096x1 ![] bcast_S_S64x4096x1 : (⟨S_, .f32⟩ : BufTy).Contents (Elt F) → (⟨S64x4096x1, .f32⟩ : BufTy).Contents (Elt F)),
    StableHlo.binary main_v61 main_v37 main_v62 (mulf : (⟨S64x4096x1, .f32⟩ : BufTy).Contents (Elt F) → (⟨S64x4096x1, .f32⟩ : BufTy).Contents (Elt F) → (⟨S64x4096x1, .f32⟩ : BufTy).Contents (Elt F)),
    StableHlo.nullary main_cst_11 (constant S_ .f32 0x40000000#32),
    StableHlo.unary main_cst_11 main_v63 (broadcastInDim S64x4096x1 ![] bcast_S_S64x4096x1 : (⟨S_, .f32⟩ : BufTy).Contents (Elt F) → (⟨S64x4096x1, .f32⟩ : BufTy).Contents (Elt F)),
    StableHlo.binary main_v62 main_v63 main_v64 (Host.divf : (⟨S64x4096x1, .f32⟩ : BufTy).Contents (Elt F) → (⟨S64x4096x1, .f32⟩ : BufTy).Contents (Elt F) → (⟨S64x4096x1, .f32⟩ : BufTy).Contents (Elt F)),
    StableHlo.binary main_v41 main_v64 main_v65 (subf : (⟨S64x4096x1, .f32⟩ : BufTy).Contents (Elt F) → (⟨S64x4096x1, .f32⟩ : BufTy).Contents (Elt F) → (⟨S64x4096x1, .f32⟩ : BufTy).Contents (Elt F)),
    StableHlo.unary main_v65 main_v66 (broadcastInDim S64x4096x4 ![0, 1, 2] bcast_S64x4096x1_S64x4096x4_0_1_2 : (⟨S64x4096x1, .f32⟩ : BufTy).Contents (Elt F) → (⟨S64x4096x4, .f32⟩ : BufTy).Contents (Elt F)),
    StableHlo.binary main_v60 main_v66 main_v67 (maximumf : (⟨S64x4096x4, .f32⟩ : BufTy).Contents (Elt F) → (⟨S64x4096x4, .f32⟩ : BufTy).Contents (Elt F) → (⟨S64x4096x4, .f32⟩ : BufTy).Contents (Elt F)),
    StableHlo.nullary main_cst_12 (constant S_ .f32 0x40000000#32),
    StableHlo.unary main_cst_12 main_v68 (broadcastInDim S64x4096x4 ![] bcast_S_S64x4096x4 : (⟨S_, .f32⟩ : BufTy).Contents (Elt F) → (⟨S64x4096x4, .f32⟩ : BufTy).Contents (Elt F)),
    StableHlo.binary main_v31 main_v68 main_v69 (Host.divf : (⟨S64x4096x4, .f32⟩ : BufTy).Contents (Elt F) → (⟨S64x4096x4, .f32⟩ : BufTy).Contents (Elt F) → (⟨S64x4096x4, .f32⟩ : BufTy).Contents (Elt F)),
    StableHlo.binary main_v33 main_v69 main_v70 (addf : (⟨S64x4096x4, .f32⟩ : BufTy).Contents (Elt F) → (⟨S64x4096x4, .f32⟩ : BufTy).Contents (Elt F) → (⟨S64x4096x4, .f32⟩ : BufTy).Contents (Elt F)),
    StableHlo.nullary main_cst_13 (constant S_ .f32 0x40000000#32),
    StableHlo.unary main_cst_13 main_v71 (broadcastInDim S64x4096x1 ![] bcast_S_S64x4096x1 : (⟨S_, .f32⟩ : BufTy).Contents (Elt F) → (⟨S64x4096x1, .f32⟩ : BufTy).Contents (Elt F)),
    StableHlo.binary main_v37 main_v71 main_v72 (Host.divf : (⟨S64x4096x1, .f32⟩ : BufTy).Contents (Elt F) → (⟨S64x4096x1, .f32⟩ : BufTy).Contents (Elt F) → (⟨S64x4096x1, .f32⟩ : BufTy).Contents (Elt F)),
    StableHlo.binary main_v39 main_v72 main_v73 (addf : (⟨S64x4096x1, .f32⟩ : BufTy).Contents (Elt F) → (⟨S64x4096x1, .f32⟩ : BufTy).Contents (Elt F) → (⟨S64x4096x1, .f32⟩ : BufTy).Contents (Elt F)),
    StableHlo.unary main_v73 main_v74 (broadcastInDim S64x4096x4 ![0, 1, 2] bcast_S64x4096x1_S64x4096x4_0_1_2 : (⟨S64x4096x1, .f32⟩ : BufTy).Contents (Elt F) → (⟨S64x4096x4, .f32⟩ : BufTy).Contents (Elt F)),
    StableHlo.binary main_v70 main_v74 main_v75 (minimumf : (⟨S64x4096x4, .f32⟩ : BufTy).Contents (Elt F) → (⟨S64x4096x4, .f32⟩ : BufTy).Contents (Elt F) → (⟨S64x4096x4, .f32⟩ : BufTy).Contents (Elt F)),
    StableHlo.nullary main_cst_14 (constant S_ .f32 0x3ED1EB85#32),
    StableHlo.unary main_cst_14 main_v76 (broadcastInDim S64x4096x4 ![] bcast_S_S64x4096x4 : (⟨S_, .f32⟩ : BufTy).Contents (Elt F) → (⟨S64x4096x4, .f32⟩ : BufTy).Contents (Elt F)),
    StableHlo.binary main_v76 main_v31 main_v77 (mulf : (⟨S64x4096x4, .f32⟩ : BufTy).Contents (Elt F) → (⟨S64x4096x4, .f32⟩ : BufTy).Contents (Elt F) → (⟨S64x4096x4, .f32⟩ : BufTy).Contents (Elt F)),
    StableHlo.nullary main_cst_15 (constant S_ .f32 0x40000000#32),
    StableHlo.unary main_cst_15 main_v78 (broadcastInDim S64x4096x4 ![] bcast_S_S64x4096x4 : (⟨S_, .f32⟩ : BufTy).Contents (Elt F) → (⟨S64x4096x4, .f32⟩ : BufTy).Contents (Elt F)),
    StableHlo.binary main_v77 main_v78 main_v79 (Host.divf : (⟨S64x4096x4, .f32⟩ : BufTy).Contents (Elt F) → (⟨S64x4096x4, .f32⟩ : BufTy).Contents (Elt F) → (⟨S64x4096x4, .f32⟩ : BufTy).Contents (Elt F)),
    StableHlo.binary main_v35 main_v79 main_v80 (addf : (⟨S64x4096x4, .f32⟩ : BufTy).Contents (Elt F) → (⟨S64x4096x4, .f32⟩ : BufTy).Contents (Elt F) → (⟨S64x4096x4, .f32⟩ : BufTy).Contents (Elt F)),
    StableHlo.nullary main_cst_16 (constant S_ .f32 0x3ED1EB85#32),
    StableHlo.unary main_cst_16 main_v81 (broadcastInDim S64x4096x1 ![] bcast_S_S64x4096x1 : (⟨S_, .f32⟩ : BufTy).Contents (Elt F) → (⟨S64x4096x1, .f32⟩ : BufTy).Contents (Elt F)),
    StableHlo.binary main_v81 main_v37 main_v82 (mulf : (⟨S64x4096x1, .f32⟩ : BufTy).Contents (Elt F) → (⟨S64x4096x1, .f32⟩ : BufTy).Contents (Elt F) → (⟨S64x4096x1, .f32⟩ : BufTy).Contents (Elt F)),
    StableHlo.nullary main_cst_17 (constant S_ .f32 0x40000000#32),
    StableHlo.unary main_cst_17 main_v83 (broadcastInDim S64x4096x1 ![] bcast_S_S64x4096x1 : (⟨S_, .f32⟩ : BufTy).Contents (Elt F) → (⟨S64x4096x1, .f32⟩ : BufTy).Contents (Elt F)),
    StableHlo.binary main_v82 main_v83 main_v84 (Host.divf : (⟨S64x4096x1, .f32⟩ : BufTy).Contents (Elt F) → (⟨S64x4096x1, .f32⟩ : BufTy).Contents (Elt F) → (⟨S64x4096x1, .f32⟩ : BufTy).Contents (Elt F)),
    StableHlo.binary main_v41 main_v84 main_v85 (addf : (⟨S64x4096x1, .f32⟩ : BufTy).Contents (Elt F) → (⟨S64x4096x1, .f32⟩ : BufTy).Contents (Elt F) → (⟨S64x4096x1, .f32⟩ : BufTy).Contents (Elt F)),
    StableHlo.unary main_v85 main_v86 (broadcastInDim S64x4096x4 ![0, 1, 2] bcast_S64x4096x1_S64x4096x4_0_1_2 : (⟨S64x4096x1, .f32⟩ : BufTy).Contents (Elt F) → (⟨S64x4096x4, .f32⟩ : BufTy).Contents (Elt F)),
    StableHlo.binary main_v80 main_v86 main_v87 (minimumf : (⟨S64x4096x4, .f32⟩ : BufTy).Contents (Elt F) → (⟨S64x4096x4, .f32⟩ : BufTy).Contents (Elt F) → (⟨S64x4096x4, .f32⟩ : BufTy).Contents (Elt F)),
    StableHlo.binary main_v75 main_v55 main_v88 (subf : (⟨S64x4096x4, .f32⟩ : BufTy).Contents (Elt F) → (⟨S64x4096x4, .f32⟩ : BufTy).Contents (Elt F) → (⟨S64x4096x4, .f32⟩ : BufTy).Contents (Elt F)),
    StableHlo.nullary main_c_18 (constantI S_ 32 0#32),
    StableHlo.TRef.unary (.of main_c_18) main_call2.v0 (sitofp .f32),
    StableHlo.TRef.unary main_call2.v0 main_call2.v1 (broadcastInDim S64x4096x4 ![] bcast_S_S64x4096x4),
    StableHlo.TRef.binary main_call2.v1 (.of main_v88) main_call2.v2 maximumf,
    StableHlo.binary main_v87 main_v67 main_v90 (subf : (⟨S64x4096x4, .f32⟩ : BufTy).Contents (Elt F) → (⟨S64x4096x4, .f32⟩ : BufTy).Contents (Elt F) → (⟨S64x4096x4, .f32⟩ : BufTy).Contents (Elt F)),
    StableHlo.nullary main_c_19 (constantI S_ 32 0#32),
    StableHlo.TRef.unary (.of main_c_19) main_call3.v0 (sitofp .f32),
    StableHlo.TRef.unary main_call3.v0 main_call3.v1 (broadcastInDim S64x4096x4 ![] bcast_S_S64x4096x4),
    StableHlo.TRef.binary main_call3.v1 (.of main_v90) main_call3.v2 maximumf,
    StableHlo.binary main_v89 main_v91 main_v92 (mulf : (⟨S64x4096x4, .f32⟩ : BufTy).Contents (Elt F) → (⟨S64x4096x4, .f32⟩ : BufTy).Contents (Elt F) → (⟨S64x4096x4, .f32⟩ : BufTy).Contents (Elt F)),
    StableHlo.unary main_v47 main_v93 (broadcastInDim S64x4096x4 ![0, 1, 2] bcast_S64x4096x1_S64x4096x4_0_1_2 : (⟨S64x4096x1, .f32⟩ : BufTy).Contents (Elt F) → (⟨S64x4096x4, .f32⟩ : BufTy).Contents (Elt F)),
    StableHlo.binary main_v44 main_v93 main_v94 (addf : (⟨S64x4096x4, .f32⟩ : BufTy).Contents (Elt F) → (⟨S64x4096x4, .f32⟩ : BufTy).Contents (Elt F) → (⟨S64x4096x4, .f32⟩ : BufTy).Contents (Elt F)),
    StableHlo.binary main_v94 main_v92 main_v95 (subf : (⟨S64x4096x4, .f32⟩ : BufTy).Contents (Elt F) → (⟨S64x4096x4, .f32⟩ : BufTy).Contents (Elt F) → (⟨S64x4096x4, .f32⟩ : BufTy).Contents (Elt F)),
    StableHlo.nullary main_cst_20 (constant S_ .f32 0x358637BD#32),
    StableHlo.unary main_cst_20 main_v96 (broadcastInDim S64x4096x4 ![] bcast_S_S64x4096x4 : (⟨S_, .f32⟩ : BufTy).Contents (Elt F) → (⟨S64x4096x4, .f32⟩ : BufTy).Contents (Elt F)) ]

/-- The references the operations write, in order. -/
abbrev WB : List (Ref sig .tc) :=
  [ main_cst_7, main_v51, main_v52, main_v53, main_v54, main_v55, main_cst_8, main_v56,
    main_v57, main_cst_9, main_v58, main_v59, main_v60, main_cst_10, main_v61, main_v62,
    main_cst_11, main_v63, main_v64, main_v65, main_v66, main_v67, main_cst_12, main_v68,
    main_v69, main_v70, main_cst_13, main_v71, main_v72, main_v73, main_v74, main_v75,
    main_cst_14, main_v76, main_v77, main_cst_15, main_v78, main_v79, main_v80, main_cst_16,
    main_v81, main_v82, main_cst_17, main_v83, main_v84, main_v85, main_v86, main_v87,
    main_v88, main_c_18, main_call2_v0, main_call2_v1, main_v89, main_v90, main_c_19, main_call3_v0,
    main_call3_v1, main_v91, main_v92, main_v93, main_v94, main_v95, main_cst_20, main_v96 ]

theorem opsB_sub : (opsB : List (HloOp τ sig (Elt F))).Forall fun op => op.bufs ⊆ tcRefs τ sig :=
  ⟨nullary_bufs_sub .., unary_bufs_sub .., binary_bufs_sub .., binary_bufs_sub .., unary_bufs_sub .., binary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., binary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., unary_bufs_sub .., binary_bufs_sub ..,
    binary_bufs_sub .., nullary_bufs_sub .., unary_bufs_sub .., unary_bufs_sub .., binary_bufs_sub .., binary_bufs_sub ..,
    nullary_bufs_sub .., unary_bufs_sub .., unary_bufs_sub .., binary_bufs_sub .., binary_bufs_sub .., unary_bufs_sub ..,
    binary_bufs_sub .., binary_bufs_sub .., nullary_bufs_sub .., unary_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem opsB_writes : (opsB : List (HloOp τ sig (Elt F))).Forall fun op => op.writes ⊆ ((WB).map (Proc.devRef (τ := τ) .tc)).toFinset :=
  ⟨writes_sub_of (y := main_cst_7) rfl (by decide), writes_sub_of (y := main_v51) rfl (by decide),
    writes_sub_of (y := main_v52) rfl (by decide), writes_sub_of (y := main_v53) rfl (by decide),
    writes_sub_of (y := main_v54) rfl (by decide), writes_sub_of (y := main_v55) rfl (by decide),
    writes_sub_of (y := main_cst_8) rfl (by decide), writes_sub_of (y := main_v56) rfl (by decide),
    writes_sub_of (y := main_v57) rfl (by decide), writes_sub_of (y := main_cst_9) rfl (by decide),
    writes_sub_of (y := main_v58) rfl (by decide), writes_sub_of (y := main_v59) rfl (by decide),
    writes_sub_of (y := main_v60) rfl (by decide), writes_sub_of (y := main_cst_10) rfl (by decide),
    writes_sub_of (y := main_v61) rfl (by decide), writes_sub_of (y := main_v62) rfl (by decide),
    writes_sub_of (y := main_cst_11) rfl (by decide), writes_sub_of (y := main_v63) rfl (by decide),
    writes_sub_of (y := main_v64) rfl (by decide), writes_sub_of (y := main_v65) rfl (by decide),
    writes_sub_of (y := main_v66) rfl (by decide), writes_sub_of (y := main_v67) rfl (by decide),
    writes_sub_of (y := main_cst_12) rfl (by decide), writes_sub_of (y := main_v68) rfl (by decide),
    writes_sub_of (y := main_v69) rfl (by decide), writes_sub_of (y := main_v70) rfl (by decide),
    writes_sub_of (y := main_cst_13) rfl (by decide), writes_sub_of (y := main_v71) rfl (by decide),
    writes_sub_of (y := main_v72) rfl (by decide), writes_sub_of (y := main_v73) rfl (by decide),
    writes_sub_of (y := main_v74) rfl (by decide), writes_sub_of (y := main_v75) rfl (by decide),
    writes_sub_of (y := main_cst_14) rfl (by decide), writes_sub_of (y := main_v76) rfl (by decide),
    writes_sub_of (y := main_v77) rfl (by decide), writes_sub_of (y := main_cst_15) rfl (by decide),
    writes_sub_of (y := main_v78) rfl (by decide), writes_sub_of (y := main_v79) rfl (by decide),
    writes_sub_of (y := main_v80) rfl (by decide), writes_sub_of (y := main_cst_16) rfl (by decide),
    writes_sub_of (y := main_v81) rfl (by decide), writes_sub_of (y := main_v82) rfl (by decide),
    writes_sub_of (y := main_cst_17) rfl (by decide), writes_sub_of (y := main_v83) rfl (by decide),
    writes_sub_of (y := main_v84) rfl (by decide), writes_sub_of (y := main_v85) rfl (by decide),
    writes_sub_of (y := main_v86) rfl (by decide), writes_sub_of (y := main_v87) rfl (by decide),
    writes_sub_of (y := main_v88) rfl (by decide), writes_sub_of (y := main_c_18) rfl (by decide),
    writes_sub_of (y := main_call2_v0) rfl (by decide), writes_sub_of (y := main_call2_v1) rfl (by decide),
    writes_sub_of (y := main_v89) rfl (by decide), writes_sub_of (y := main_v90) rfl (by decide),
    writes_sub_of (y := main_c_19) rfl (by decide), writes_sub_of (y := main_call3_v0) rfl (by decide),
    writes_sub_of (y := main_call3_v1) rfl (by decide), writes_sub_of (y := main_v91) rfl (by decide),
    writes_sub_of (y := main_v92) rfl (by decide), writes_sub_of (y := main_v93) rfl (by decide),
    writes_sub_of (y := main_v94) rfl (by decide), writes_sub_of (y := main_v95) rfl (by decide),
    writes_sub_of (y := main_cst_20) rfl (by decide), writes_sub_of (y := main_v96) rfl (by decide)⟩

end Cert.ReferenceIdeal.RefRun

end
-- ==== Proof.RefRunP1.lean ====
/-
  Window 1 of the reference program is the straight line of its chunks' operations.
-/
import proofs.«139320_j2216203125376_2_alg».proof.Proof.RefRunLib
import proofs.«139320_j2216203125376_2_alg».proof.Proof.RefRunB
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 1, in program order. -/
def opsP1 : List (HloOp τ sig (Elt F)) := opsB

/-- The references window 1 writes. -/
def WP1 : List (Ref sig .tc) := WB

/-- Window 1 of @main is the straight line of these operations: both sides unfold to one chain of steps. -/
theorem main_part1_eq (c : Dev nD) : main_part1 (F := F) c = seq opsP1 := by
  chain_rfl

theorem opsP1_sub : (opsP1 : List (HloOp τ sig (Elt F))).Forall fun op => op.bufs ⊆ tcRefs τ sig :=
  opsB_sub

theorem opsP1_fresh : (opsP1 : List (HloOp τ sig (Elt F))).Forall fun op => op.fresh = ∅ :=
  opsB_fresh

theorem opsP1_writes : (opsP1 : List (HloOp τ sig (Elt F))).Forall fun op => op.writes ⊆ (WP1.map (Proc.devRef (τ := τ) .tc)).toFinset :=
  opsB_writes

end Cert.ReferenceIdeal.RefRun

end
-- ==== Proof.RefRunC1.lean ====
/-
  The attract term closed: the quotient, one minus it, the division by the count, the mask, the sum.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 15 operations, in program order (a called function's operations inline, over the call's buffers). -/
abbrev opsC1 : List (HloOp τ sig (Elt F)) :=
  [ StableHlo.binary main_v95 main_v96 main_v97 (addf : (⟨S64x4096x4, .f32⟩ : BufTy).Contents (Elt F) → (⟨S64x4096x4, .f32⟩ : BufTy).Contents (Elt F) → (⟨S64x4096x4, .f32⟩ : BufTy).Contents (Elt F)),
    StableHlo.binary main_v92 main_v97 main_v98 (Host.divf : (⟨S64x4096x4, .f32⟩ : BufTy).Contents (Elt F) → (⟨S64x4096x4, .f32⟩ : BufTy).Contents (Elt F) → (⟨S64x4096x4, .f32⟩ : BufTy).Contents (Elt F)),
    StableHlo.nullary main_cst_21 (constant S_ .f32 0x3F800000#32),
    StableHlo.unary main_cst_21 main_v99 (broadcastInDim S64x4096x4 ![] bcast_S_S64x4096x4 : (⟨S_, .f32⟩ : BufTy).Contents (Elt F) → (⟨S64x4096x4, .f32⟩ : BufTy).Contents (Elt F)),
    StableHlo.binary main_v99 main_v98 main_v100 (subf : (⟨S64x4096x4, .f32⟩ : BufTy).Contents (Elt F) → (⟨S64x4096x4, .f32⟩ : BufTy).Contents (Elt F) → (⟨S64x4096x4, .f32⟩ : BufTy).Contents (Elt F)),
    StableHlo.nullary main_cst_22 (constant S_ .f32 0x38D1B717#32),
    StableHlo.binary main_v2 main_cst_22 main_v101 (addf : (⟨S_, .f32⟩ : BufTy).Contents (Elt F) → (⟨S_, .f32⟩ : BufTy).Contents (Elt F) → (⟨S_, .f32⟩ : BufTy).Contents (Elt F)),
    StableHlo.unary main_v101 main_v102 (broadcastInDim S64x4096x4 ![] bcast_S_S64x4096x4 : (⟨S_, .f32⟩ : BufTy).Contents (Elt F) → (⟨S64x4096x4, .f32⟩ : BufTy).Contents (Elt F)),
    StableHlo.binary main_v100 main_v102 main_v103 (Host.divf : (⟨S64x4096x4, .f32⟩ : BufTy).Contents (Elt F) → (⟨S64x4096x4, .f32⟩ : BufTy).Contents (Elt F) → (⟨S64x4096x4, .f32⟩ : BufTy).Contents (Elt F)),
    StableHlo.nullary main_cst_23 (constant S_ .f32 0x00000000#32),
    StableHlo.TRef.unary (.of main_cst_23) main_call4.v0 id,
    StableHlo.TRef.unary main_call4.v0 main_call4.v1 (broadcastInDim S64x4096x4 ![] bcast_S_S64x4096x4),
    StableHlo.TRef.ternary (.of main_arg7) (.of main_v103) main_call4.v1 main_call4.v2 select,
    StableHlo.nullary main_cst_24 (constant S_ .f32 0x00000000#32),
    StableHlo.binary main_v104 main_cst_24 main_v105 ((fun x v => Host.reduceAdd x v reducesTo_S64x4096x4_S_d0_1_2 h_S_) : (⟨S64x4096x4, .f32⟩ : BufTy).Contents (Elt F) → (⟨S_, .f32⟩ : BufTy).Contents (Elt F) → (⟨S_, .f32⟩ : BufTy).Contents (Elt F)) ]

/-- The references the operations write, in order. -/
abbrev WC1 : List (Ref sig .tc) :=
  [ main_v97, main_v98, main_cst_21, main_v99, main_v100, main_cst_22, main_v101, main_v102,
    main_v103, main_cst_23, main_call4_v0, main_call4_v1, main_v104, main_cst_24, main_v105 ]

theorem opsC1_sub : (opsC1 : List (HloOp τ sig (Elt F))).Forall fun op => op.bufs ⊆ tcRefs τ sig :=
  ⟨binary_bufs_sub .., binary_bufs_sub .., nullary_bufs_sub .., unary_bufs_sub .., binary_bufs_sub .., nullary_bufs_sub ..,
    binary_bufs_sub .., unary_bufs_sub .., binary_bufs_sub .., nullary_bufs_sub .., unary_bufs_sub .., unary_bufs_sub ..,
    ternary_bufs_sub .., nullary_bufs_sub .., binary_bufs_sub ..⟩

theorem opsC1_fresh : (opsC1 : List (HloOp τ sig (Elt F))).Forall fun op => op.fresh = ∅ :=
  ⟨rfl, rfl, rfl, rfl, rfl, rfl, rfl, rfl, rfl, rfl, rfl, rfl, rfl, rfl, rfl⟩

theorem opsC1_writes : (opsC1 : List (HloOp τ sig (Elt F))).Forall fun op => op.writes ⊆ ((WC1).map (Proc.devRef (τ := τ) .tc)).toFinset :=
  ⟨writes_sub_of (y := main_v97) rfl (by decide), writes_sub_of (y := main_v98) rfl (by decide),
    writes_sub_of (y := main_cst_21) rfl (by decide), writes_sub_of (y := main_v99) rfl (by decide),
    writes_sub_of (y := main_v100) rfl (by decide), writes_sub_of (y := main_cst_22) rfl (by decide),
    writes_sub_of (y := main_v101) rfl (by decide), writes_sub_of (y := main_v102) rfl (by decide),
    writes_sub_of (y := main_v103) rfl (by decide), writes_sub_of (y := main_cst_23) rfl (by decide),
    writes_sub_of (y := main_call4_v0) rfl (by decide), writes_sub_of (y := main_call4_v1) rfl (by decide),
    writes_sub_of (y := main_v104) rfl (by decide), writes_sub_of (y := main_cst_24) rfl (by decide),
    writes_sub_of (y := main_v105) rfl (by decide)⟩

end Cert.ReferenceIdeal.RefRun

end
-- ==== Proof.RefRunC2.lean ====
/-
  The count of the repel mask.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 4 operations, in program order (a called function's operations inline, over the call's buffers). -/
abbrev opsC2 : List (HloOp τ sig (Elt F)) :=
  [ StableHlo.unary main_arg8 main_v106 ((extui 32 · natLt_1_32) : (⟨S64x2048x1, .i1⟩ : BufTy).Contents (Elt F) → (⟨S64x2048x1, .i32⟩ : BufTy).Contents (Elt F)),
    StableHlo.nullary main_c_25 (constantI S_ 32 0#32),
    StableHlo.binary main_v106 main_c_25 main_v107 ((fun x v => Host.reduce IntOp.addi x v reducesTo_S64x2048x1_S_d0_1_2 h_S_) : (⟨S64x2048x1, .i32⟩ : BufTy).Contents (Elt F) → (⟨S_, .i32⟩ : BufTy).Contents (Elt F) → (⟨S_, .i32⟩ : BufTy).Contents (Elt F)),
    StableHlo.unary main_v107 main_v108 (sitofp .f32 : (⟨S_, .i32⟩ : BufTy).Contents (Elt F) → (⟨S_, .f32⟩ : BufTy).Contents (Elt F)) ]

/-- The references the operations write, in order. -/
abbrev WC2 : List (Ref sig .tc) :=
  [ main_v106, main_c_25, main_v107, main_v108 ]

theorem opsC2_sub : (opsC2 : List (HloOp τ sig (Elt F))).Forall fun op => op.bufs ⊆ tcRefs τ sig :=
  ⟨unary_bufs_sub .., nullary_bufs_sub .., binary_bufs_sub .., unary_bufs_sub ..⟩

theorem opsC2_fresh : (opsC2 : List (HloOp τ sig (Elt F))).Forall fun op => op.fresh = ∅ :=
  ⟨rfl, rfl, rfl, rfl⟩

theorem opsC2_writes : (opsC2 : List (HloOp τ sig (Elt F))).Forall fun op => op.writes ⊆ ((WC2).map (Proc.devRef (τ := τ) .tc)).toFinset :=
  ⟨writes_sub_of (y := main_v106) rfl (by decide), writes_sub_of (y := main_c_25) rfl (by decide),
    writes_sub_of (y := main_v107) rfl (by decide), writes_sub_of (y := main_v108) rfl (by decide)⟩

end Cert.ReferenceIdeal.RefRun

end
-- ==== Proof.RefRunC3.lean ====
/-
  The heights gathered at the repel indices and their mean over the four corners.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 33 operations, in program order (a called function's operations inline, over the call's buffers). -/
abbrev opsC3 : List (HloOp τ sig (Elt F)) :=
  [ StableHlo.reshape main_arg6 main_v109 rfl shapeCasts_S64x2048x2x4_S64x16384,
    StableHlo.reshape main_arg0 main_v110 rfl shapeCasts_S64x1x256x256_S64x1x65536,
    StableHlo.unary main_v110 main_v111 ((transpose S64x65536x1 [0, 2, 1] · transposes_S64x1x65536_S64x65536x1_0_2_1) : (⟨S64x1x65536, .f32⟩ : BufTy).Contents (Elt F) → (⟨S64x65536x1, .f32⟩ : BufTy).Contents (Elt F)),
    StableHlo.unary main_v109 main_v112 (broadcastInDim S64x16384x1 ![0, 1] bcast_S64x16384_S64x16384x1_0_1 : (⟨S64x16384, .i32⟩ : BufTy).Contents (Elt F) → (⟨S64x16384x1, .i32⟩ : BufTy).Contents (Elt F)),
    StableHlo.TRef.nullary main_call5.c (constantI S_ 32 0#32),
    StableHlo.TRef.unary main_call5.c main_call5.v0 (broadcastInDim S64x16384x1 ![] bcast_S_S64x16384x1),
    StableHlo.TRef.binary (.of main_v112) main_call5.v0 main_call5.v1 (cmpi .slt),
    StableHlo.TRef.nullary main_call5.c_0 (constantI S_ 32 65536#32),
    StableHlo.TRef.unary main_call5.c_0 main_call5.v2 (broadcastInDim S64x16384x1 ![] bcast_S_S64x16384x1),
    StableHlo.TRef.binary (.of main_v112) main_call5.v2 main_call5.v3 addi,
    StableHlo.TRef.ternary main_call5.v1 main_call5.v3 (.of main_v112) main_call5.v4 select,
    StableHlo.TRef.nullary main_call5.c_1 (constantI S1 32 65535#32),
    StableHlo.TRef.nullary main_call5.c_2 (constantI S_ 32 0#32),
    StableHlo.TRef.unary main_call5.c_2 main_call5.v5 (broadcastInDim S64x16384x1 ![] bcast_S_S64x16384x1),
    StableHlo.TRef.binary main_call5.v4 main_call5.v5 main_call5.v6 (cmpi .sge),
    StableHlo.TRef.unary main_call5.c_1 main_call5.v7 (broadcastInDim S1x1x1 ![2] bcast_S1_S1x1x1_2),
    StableHlo.TRef.unary main_call5.v7 main_call5.v8 (broadcastInDim S64x16384x1 ![0, 1, 2] bcast_S1x1x1_S64x16384x1_0_1_2),
    StableHlo.TRef.binary main_call5.v4 main_call5.v8 main_call5.v9 (cmpi .sle),
    StableHlo.TRef.binary main_call5.v6 main_call5.v9 main_call5.v10 andi,
    StableHlo.TRef.nullary main_call5.c_3 (constantI S_ 1 1#1),
    StableHlo.TRef.binary main_call5.v10 main_call5.c_3 main_call5.v11 (fun x v => Host.reduce IntOp.andi x v reducesTo_S64x16384x1_S64x16384_d2 h_S_),
    StableHlo.TRef.binary (.of main_v111) main_call5.v4 main_call5.v12 (fun x i => Host.gather gather_S64x65536x1_S64x16384x1_S64x16384x1_2_1_0_0_1_2_111 x i),
    StableHlo.TRef.unary main_call5.v11 main_call5.v13 (broadcastInDim S64x16384x1 ![0, 1] bcast_S64x16384_S64x16384x1_0_1),
    StableHlo.TRef.nullary main_call5.cst (constant S_ .f32 0x7FC00000#32),
    StableHlo.TRef.unary main_call5.cst main_call5.v14 (broadcastInDim S64x16384x1 ![] bcast_S_S64x16384x1),
    StableHlo.TRef.ternary main_call5.v13 main_call5.v12 main_call5.v14 main_call5.v15 select,
    StableHlo.reshape main_v113 main_v114 rfl shapeCasts_S64x16384x1_S64x2048x2x4x1,
    StableHlo.nullary main_cst_26 (constant S_ .f32 0x00000000#32),
    StableHlo.binary main_v114 main_cst_26 main_v115 ((fun x v => Host.reduceAdd x v reducesTo_S64x2048x2x4x1_S64x2048x2x1_d3 h_S_) : (⟨S64x2048x2x4x1, .f32⟩ : BufTy).Contents (Elt F) → (⟨S_, .f32⟩ : BufTy).Contents (Elt F) → (⟨S64x2048x2x1, .f32⟩ : BufTy).Contents (Elt F)),
    StableHlo.unary main_v115 main_v116 (broadcastInDim S64x2048x2x1x1 ![0, 1, 2, 4] bcast_S64x2048x2x1_S64x2048x2x1x1_0_1_2_4 : (⟨S64x2048x2x1, .f32⟩ : BufTy).Contents (Elt F) → (⟨S64x2048x2x1x1, .f32⟩ : BufTy).Contents (Elt F)),
    StableHlo.nullary main_cst_27 (constant S_ .f32 0x40800000#32),
    StableHlo.unary main_cst_27 main_v117 (broadcastInDim S64x2048x2x1x1 ![] bcast_S_S64x2048x2x1x1 : (⟨S_, .f32⟩ : BufTy).Contents (Elt F) → (⟨S64x2048x2x1x1, .f32⟩ : BufTy).Contents (Elt F)),
    StableHlo.binary main_v116 main_v117 main_v118 (Host.divf : (⟨S64x2048x2x1x1, .f32⟩ : BufTy).Contents (Elt F) → (⟨S64x2048x2x1x1, .f32⟩ : BufTy).Contents (Elt F) → (⟨S64x2048x2x1x1, .f32⟩ : BufTy).Contents (Elt F)) ]

/-- The references the operations write, in order. -/
abbrev WC3 : List (Ref sig .tc) :=
  [ main_v109, main_v110, main_v111, main_v112, main_call5_c, main_call5_v0, main_call5_v1, main_call5_c_0,
    main_call5_v2, main_call5_v3, main_call5_v4, main_call5_c_1, main_call5_c_2, main_call5_v5, main_call5_v6, main_call5_v7,
    main_call5_v8, main_call5_v9, main_call5_v10, main_call5_c_3, main_call5_v11, main_call5_v12, main_call5_v13, main_call5_cst,
    main_call5_v14, main_v113, main_v114, main_cst_26, main_v115, main_v116, main_cst_27, main_v117,
    main_v118 ]

theorem opsC3_sub : (opsC3 : List (HloOp τ sig (Elt F))).Forall fun op => op.bufs ⊆ tcRefs τ sig :=
  ⟨reshape_bufs_sub .., reshape_bufs_sub .., unary_bufs_sub .., unary_bufs_sub .., nullary_bufs_sub .., unary_bufs_sub ..,
    binary_bufs_sub .., nullary_bufs_sub .., unary_bufs_sub .., binary_bufs_sub .., ternary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., reshape_bufs_sub .., nullary_bufs_sub .., binary_bufs_sub .., unary_bufs_sub ..,
    nullary_bufs_sub .., unary_bufs_sub .., binary_bufs_sub ..⟩

theorem opsC3_fresh : (opsC3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem opsC3_writes : (opsC3 : List (HloOp τ sig (Elt F))).Forall fun op => op.writes ⊆ ((WC3).map (Proc.devRef (τ := τ) .tc)).toFinset :=
  ⟨writes_sub_of (y := main_v109) rfl (by decide), writes_sub_of (y := main_v110) rfl (by decide),
    writes_sub_of (y := main_v111) rfl (by decide), writes_sub_of (y := main_v112) rfl (by decide),
    writes_sub_of (y := main_call5_c) rfl (by decide), writes_sub_of (y := main_call5_v0) rfl (by decide),
    writes_sub_of (y := main_call5_v1) rfl (by decide), writes_sub_of (y := main_call5_c_0) rfl (by decide),
    writes_sub_of (y := main_call5_v2) rfl (by decide), writes_sub_of (y := main_call5_v3) rfl (by decide),
    writes_sub_of (y := main_call5_v4) rfl (by decide), writes_sub_of (y := main_call5_c_1) rfl (by decide),
    writes_sub_of (y := main_call5_c_2) rfl (by decide), writes_sub_of (y := main_call5_v5) rfl (by decide),
    writes_sub_of (y := main_call5_v6) rfl (by decide), writes_sub_of (y := main_call5_v7) rfl (by decide),
    writes_sub_of (y := main_call5_v8) rfl (by decide), writes_sub_of (y := main_call5_v9) rfl (by decide),
    writes_sub_of (y := main_call5_v10) rfl (by decide), writes_sub_of (y := main_call5_c_3) rfl (by decide),
    writes_sub_of (y := main_call5_v11) rfl (by decide), writes_sub_of (y := main_call5_v12) rfl (by decide),
    writes_sub_of (y := main_call5_v13) rfl (by decide), writes_sub_of (y := main_call5_cst) rfl (by decide),
    writes_sub_of (y := main_call5_v14) rfl (by decide), writes_sub_of (y := main_v113) rfl (by decide),
    writes_sub_of (y := main_v114) rfl (by decide), writes_sub_of (y := main_cst_26) rfl (by decide),
    writes_sub_of (y := main_v115) rfl (by decide), writes_sub_of (y := main_v116) rfl (by decide),
    writes_sub_of (y := main_cst_27) rfl (by decide), writes_sub_of (y := main_v117) rfl (by decide),
    writes_sub_of (y := main_v118) rfl (by decide)⟩

end Cert.ReferenceIdeal.RefRun

end
-- ==== Proof.RefRunC4.lean ====
/-
  The offsets gathered at the repel indices, the corner offsets added, and their mean over the four corners.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 36 operations, in program order (a called function's operations inline, over the call's buffers). -/
abbrev opsC4 : List (HloOp τ sig (Elt F)) :=
  [ StableHlo.reshape main_arg6 main_v119 rfl shapeCasts_S64x2048x2x4_S64x16384,
    StableHlo.reshape main_arg1 main_v120 rfl shapeCasts_S64x2x256x256_S64x2x65536,
    StableHlo.unary main_v120 main_v121 ((transpose S64x65536x2 [0, 2, 1] · transposes_S64x2x65536_S64x65536x2_0_2_1) : (⟨S64x2x65536, .f32⟩ : BufTy).Contents (Elt F) → (⟨S64x65536x2, .f32⟩ : BufTy).Contents (Elt F)),
    StableHlo.unary main_v119 main_v122 (broadcastInDim S64x16384x1 ![0, 1] bcast_S64x16384_S64x16384x1_0_1 : (⟨S64x16384, .i32⟩ : BufTy).Contents (Elt F) → (⟨S64x16384x1, .i32⟩ : BufTy).Contents (Elt F)),
    StableHlo.TRef.nullary main_call6.c (constantI S_ 32 0#32),
    StableHlo.TRef.unary main_call6.c main_call6.v0 (broadcastInDim S64x16384x1 ![] bcast_S_S64x16384x1),
    StableHlo.TRef.binary (.of main_v122) main_call6.v0 main_call6.v1 (cmpi .slt),
    StableHlo.TRef.nullary main_call6.c_0 (constantI S_ 32 65536#32),
    StableHlo.TRef.unary main_call6.c_0 main_call6.v2 (broadcastInDim S64x16384x1 ![] bcast_S_S64x16384x1),
    StableHlo.TRef.binary (.of main_v122) main_call6.v2 main_call6.v3 addi,
    StableHlo.TRef.ternary main_call6.v1 main_call6.v3 (.of main_v122) main_call6.v4 select,
    StableHlo.TRef.nullary main_call6.c_1 (constantI S1 32 65535#32),
    StableHlo.TRef.nullary main_call6.c_2 (constantI S_ 32 0#32),
    StableHlo.TRef.unary main_call6.c_2 main_call6.v5 (broadcastInDim S64x16384x1 ![] bcast_S_S64x16384x1),
    StableHlo.TRef.binary main_call6.v4 main_call6.v5 main_call6.v6 (cmpi .sge),
    StableHlo.TRef.unary main_call6.c_1 main_call6.v7 (broadcastInDim S1x1x1 ![2] bcast_S1_S1x1x1_2),
    StableHlo.TRef.unary main_call6.v7 main_call6.v8 (broadcastInDim S64x16384x1 ![0, 1, 2] bcast_S1x1x1_S64x16384x1_0_1_2),
    StableHlo.TRef.binary main_call6.v4 main_call6.v8 main_call6.v9 (cmpi .sle),
    StableHlo.TRef.binary main_call6.v6 main_call6.v9 main_call6.v10 andi,
    StableHlo.TRef.nullary main_call6.c_3 (constantI S_ 1 1#1),
    StableHlo.TRef.binary main_call6.v10 main_call6.c_3 main_call6.v11 (fun x v => Host.reduce IntOp.andi x v reducesTo_S64x16384x1_S64x16384_d2 h_S_),
    StableHlo.TRef.binary (.of main_v121) main_call6.v4 main_call6.v12 (fun x i => Host.gather gather_S64x65536x2_S64x16384x1_S64x16384x2_2_1_0_0_1_2_112 x i),
    StableHlo.TRef.unary main_call6.v11 main_call6.v13 (broadcastInDim S64x16384x2 ![0, 1] bcast_S64x16384_S64x16384x2_0_1),
    StableHlo.TRef.nullary main_call6.cst (constant S_ .f32 0x7FC00000#32),
    StableHlo.TRef.unary main_call6.cst main_call6.v14 (broadcastInDim S64x16384x2 ![] bcast_S_S64x16384x2),
    StableHlo.TRef.ternary main_call6.v13 main_call6.v12 main_call6.v14 main_call6.v15 select,
    StableHlo.reshape main_v123 main_v124 rfl shapeCasts_S64x16384x2_S64x2048x2x4x2,
    StableHlo.reshape main_cst main_v125 rfl shapeCasts_S4x2_S1x1x1x4x2,
    StableHlo.unary main_v125 main_v126 (broadcastInDim S64x2048x2x4x2 ![0, 1, 2, 3, 4] bcast_S1x1x1x4x2_S64x2048x2x4x2_0_1_2_3_4 : (⟨S1x1x1x4x2, .f32⟩ : BufTy).Contents (Elt F) → (⟨S64x2048x2x4x2, .f32⟩ : BufTy).Contents (Elt F)),
    StableHlo.binary main_v124 main_v126 main_v127 (addf : (⟨S64x2048x2x4x2, .f32⟩ : BufTy).Contents (Elt F) → (⟨S64x2048x2x4x2, .f32⟩ : BufTy).Contents (Elt F) → (⟨S64x2048x2x4x2, .f32⟩ : BufTy).Contents (Elt F)),
    StableHlo.nullary main_cst_28 (constant S_ .f32 0x00000000#32),
    StableHlo.binary main_v127 main_cst_28 main_v128 ((fun x v => Host.reduceAdd x v reducesTo_S64x2048x2x4x2_S64x2048x2x2_d3 h_S_) : (⟨S64x2048x2x4x2, .f32⟩ : BufTy).Contents (Elt F) → (⟨S_, .f32⟩ : BufTy).Contents (Elt F) → (⟨S64x2048x2x2, .f32⟩ : BufTy).Contents (Elt F)),
    StableHlo.unary main_v128 main_v129 (broadcastInDim S64x2048x2x1x2 ![0, 1, 2, 4] bcast_S64x2048x2x2_S64x2048x2x1x2_0_1_2_4 : (⟨S64x2048x2x2, .f32⟩ : BufTy).Contents (Elt F) → (⟨S64x2048x2x1x2, .f32⟩ : BufTy).Contents (Elt F)),
    StableHlo.nullary main_cst_29 (constant S_ .f32 0x40800000#32),
    StableHlo.unary main_cst_29 main_v130 (broadcastInDim S64x2048x2x1x2 ![] bcast_S_S64x2048x2x1x2 : (⟨S_, .f32⟩ : BufTy).Contents (Elt F) → (⟨S64x2048x2x1x2, .f32⟩ : BufTy).Contents (Elt F)),
    StableHlo.binary main_v129 main_v130 main_v131 (Host.divf : (⟨S64x2048x2x1x2, .f32⟩ : BufTy).Contents (Elt F) → (⟨S64x2048x2x1x2, .f32⟩ : BufTy).Contents (Elt F) → (⟨S64x2048x2x1x2, .f32⟩ : BufTy).Contents (Elt F)) ]

/-- The references the operations write, in order. -/
abbrev WC4 : List (Ref sig .tc) :=
  [ main_v119, main_v120, main_v121, main_v122, main_call6_c, main_call6_v0, main_call6_v1, main_call6_c_0,
    main_call6_v2, main_call6_v3, main_call6_v4, main_call6_c_1, main_call6_c_2, main_call6_v5, main_call6_v6, main_call6_v7,
    main_call6_v8, main_call6_v9, main_call6_v10, main_call6_c_3, main_call6_v11, main_call6_v12, main_call6_v13, main_call6_cst,
    main_call6_v14, main_v123, main_v124, main_v125, main_v126, main_v127, main_cst_28, main_v128,
    main_v129, main_cst_29, main_v130, main_v131 ]

theorem opsC4_sub : (opsC4 : List (HloOp τ sig (Elt F))).Forall fun op => op.bufs ⊆ tcRefs τ sig :=
  ⟨reshape_bufs_sub .., reshape_bufs_sub .., unary_bufs_sub .., unary_bufs_sub .., nullary_bufs_sub .., unary_bufs_sub ..,
    binary_bufs_sub .., nullary_bufs_sub .., unary_bufs_sub .., binary_bufs_sub .., ternary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., reshape_bufs_sub .., reshape_bufs_sub .., unary_bufs_sub .., binary_bufs_sub ..,
    nullary_bufs_sub .., binary_bufs_sub .., unary_bufs_sub .., nullary_bufs_sub .., unary_bufs_sub .., binary_bufs_sub ..⟩

theorem opsC4_fresh : (opsC4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem opsC4_writes : (opsC4 : List (HloOp τ sig (Elt F))).Forall fun op => op.writes ⊆ ((WC4).map (Proc.devRef (τ := τ) .tc)).toFinset :=
  ⟨writes_sub_of (y := main_v119) rfl (by decide), writes_sub_of (y := main_v120) rfl (by decide),
    writes_sub_of (y := main_v121) rfl (by decide), writes_sub_of (y := main_v122) rfl (by decide),
    writes_sub_of (y := main_call6_c) rfl (by decide), writes_sub_of (y := main_call6_v0) rfl (by decide),
    writes_sub_of (y := main_call6_v1) rfl (by decide), writes_sub_of (y := main_call6_c_0) rfl (by decide),
    writes_sub_of (y := main_call6_v2) rfl (by decide), writes_sub_of (y := main_call6_v3) rfl (by decide),
    writes_sub_of (y := main_call6_v4) rfl (by decide), writes_sub_of (y := main_call6_c_1) rfl (by decide),
    writes_sub_of (y := main_call6_c_2) rfl (by decide), writes_sub_of (y := main_call6_v5) rfl (by decide),
    writes_sub_of (y := main_call6_v6) rfl (by decide), writes_sub_of (y := main_call6_v7) rfl (by decide),
    writes_sub_of (y := main_call6_v8) rfl (by decide), writes_sub_of (y := main_call6_v9) rfl (by decide),
    writes_sub_of (y := main_call6_v10) rfl (by decide), writes_sub_of (y := main_call6_c_3) rfl (by decide),
    writes_sub_of (y := main_call6_v11) rfl (by decide), writes_sub_of (y := main_call6_v12) rfl (by decide),
    writes_sub_of (y := main_call6_v13) rfl (by decide), writes_sub_of (y := main_call6_cst) rfl (by decide),
    writes_sub_of (y := main_call6_v14) rfl (by decide), writes_sub_of (y := main_v123) rfl (by decide),
    writes_sub_of (y := main_v124) rfl (by decide), writes_sub_of (y := main_v125) rfl (by decide),
    writes_sub_of (y := main_v126) rfl (by decide), writes_sub_of (y := main_v127) rfl (by decide),
    writes_sub_of (y := main_cst_28) rfl (by decide), writes_sub_of (y := main_v128) rfl (by decide),
    writes_sub_of (y := main_v129) rfl (by decide), writes_sub_of (y := main_cst_29) rfl (by decide),
    writes_sub_of (y := main_v130) rfl (by decide), writes_sub_of (y := main_v131) rfl (by decide)⟩

end Cert.ReferenceIdeal.RefRun

end
-- ==== Proof.RefRunC5.lean ====
/-
  The second group's centre shifted by the given offset, the mean boxes assembled and the first box taken apart by channel.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 16 operations, in program order (a called function's operations inline, over the call's buffers). -/
abbrev opsC5 : List (HloOp τ sig (Elt F)) :=
  [ StableHlo.unary main_arg4 main_v132 (broadcastInDim S64x2048x1x2 ![0, 1, 3] bcast_S64x2048x2_S64x2048x1x2_0_1_3 : (⟨S64x2048x2, .f32⟩ : BufTy).Contents (Elt F) → (⟨S64x2048x1x2, .f32⟩ : BufTy).Contents (Elt F)),
    StableHlo.nullary main_c_30 (constantI S_ 32 1#32),
    StableHlo.unary main_c_30 main_v133 (broadcastInDim S1 ![] bcast_S_S1 : (⟨S_, .i32⟩ : BufTy).Contents (Elt F) → (⟨S1, .i32⟩ : BufTy).Contents (Elt F)),
    StableHlo.ternary main_v131 main_v133 main_v132 main_v134 ((fun x i u => Host.scatter scatter_S64x2048x2x1x2_S1_S64x2048x1x2_0123_2_2_0 FloatOps.addf x i u) : (⟨S64x2048x2x1x2, .f32⟩ : BufTy).Contents (Elt F) → (⟨S1, .i32⟩ : BufTy).Contents (Elt F) → (⟨S64x2048x1x2, .f32⟩ : BufTy).Contents (Elt F) → (⟨S64x2048x2x1x2, .f32⟩ : BufTy).Contents (Elt F)),
    StableHlo.unary main_v118 main_v135 (Host.exp : (⟨S64x2048x2x1x1, .f32⟩ : BufTy).Contents (Elt F) → (⟨S64x2048x2x1x1, .f32⟩ : BufTy).Contents (Elt F)),
    StableHlo.binary main_v135 main_v134 main_v136 ((fun a b => concatenate S64x2048x2x1x3 4 [⟨S64x2048x2x1x1, a⟩, ⟨S64x2048x2x1x2, b⟩] concatenates_S64x2048x2x1x1_S64x2048x2x1x2_S64x2048x2x1x3_d4) : (⟨S64x2048x2x1x1, .f32⟩ : BufTy).Contents (Elt F) → (⟨S64x2048x2x1x2, .f32⟩ : BufTy).Contents (Elt F) → (⟨S64x2048x2x1x3, .f32⟩ : BufTy).Contents (Elt F)),
    StableHlo.unary main_v136 main_v137 ((extractStridedSlice S64x2048x1x1x3 ![0, 0, 0, 0, 0] · slices_S64x2048x2x1x3_S64x2048x1x1x3_0_0_0_0_0) : (⟨S64x2048x2x1x3, .f32⟩ : BufTy).Contents (Elt F) → (⟨S64x2048x1x1x3, .f32⟩ : BufTy).Contents (Elt F)),
    StableHlo.reshape main_v137 main_v138 rfl shapeCasts_S64x2048x1x1x3_S64x2048x1x3,
    StableHlo.unary main_v136 main_v139 ((extractStridedSlice S64x2048x1x1x3 ![0, 0, 1, 0, 0] · slices_S64x2048x2x1x3_S64x2048x1x1x3_0_0_1_0_0) : (⟨S64x2048x2x1x3, .f32⟩ : BufTy).Contents (Elt F) → (⟨S64x2048x1x1x3, .f32⟩ : BufTy).Contents (Elt F)),
    StableHlo.reshape main_v139 main_v140 rfl shapeCasts_S64x2048x1x1x3_S64x2048x1x3,
    StableHlo.unary main_v138 main_v141 ((extractStridedSlice S64x2048x1x1 ![0, 0, 0, 0] · slices_S64x2048x1x3_S64x2048x1x1_0_0_0_0) : (⟨S64x2048x1x3, .f32⟩ : BufTy).Contents (Elt F) → (⟨S64x2048x1x1, .f32⟩ : BufTy).Contents (Elt F)),
    StableHlo.reshape main_v141 main_v142 rfl shapeCasts_S64x2048x1x1_S64x2048x1,
    StableHlo.unary main_v138 main_v143 ((extractStridedSlice S64x2048x1x1 ![0, 0, 0, 1] · slices_S64x2048x1x3_S64x2048x1x1_0_0_0_1) : (⟨S64x2048x1x3, .f32⟩ : BufTy).Contents (Elt F) → (⟨S64x2048x1x1, .f32⟩ : BufTy).Contents (Elt F)),
    StableHlo.reshape main_v143 main_v144 rfl shapeCasts_S64x2048x1x1_S64x2048x1,
    StableHlo.unary main_v138 main_v145 ((extractStridedSlice S64x2048x1x1 ![0, 0, 0, 2] · slices_S64x2048x1x3_S64x2048x1x1_0_0_0_2) : (⟨S64x2048x1x3, .f32⟩ : BufTy).Contents (Elt F) → (⟨S64x2048x1x1, .f32⟩ : BufTy).Contents (Elt F)),
    StableHlo.reshape main_v145 main_v146 rfl shapeCasts_S64x2048x1x1_S64x2048x1 ]

/-- The references the operations write, in order. -/
abbrev WC5 : List (Ref sig .tc) :=
  [ main_v132, main_c_30, main_v133, main_v134, main_v135, main_v136, main_v137, main_v138,
    main_v139, main_v140, main_v141, main_v142, main_v143, main_v144, main_v145, main_v146 ]

theorem opsC5_sub : (opsC5 : List (HloOp τ sig (Elt F))).Forall fun op => op.bufs ⊆ tcRefs τ sig :=
  ⟨unary_bufs_sub .., nullary_bufs_sub .., unary_bufs_sub .., ternary_bufs_sub .., unary_bufs_sub .., binary_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub ..⟩

theorem opsC5_fresh : (opsC5 : List (HloOp τ sig (Elt F))).Forall fun op => op.fresh = ∅ :=
  ⟨rfl, rfl, rfl, rfl, rfl, rfl, rfl, rfl, rfl, rfl, rfl, rfl, rfl, rfl, rfl, rfl⟩

theorem opsC5_writes : (opsC5 : List (HloOp τ sig (Elt F))).Forall fun op => op.writes ⊆ ((WC5).map (Proc.devRef (τ := τ) .tc)).toFinset :=
  ⟨writes_sub_of (y := main_v132) rfl (by decide), writes_sub_of (y := main_c_30) rfl (by decide),
    writes_sub_of (y := main_v133) rfl (by decide), writes_sub_of (y := main_v134) rfl (by decide),
    writes_sub_of (y := main_v135) rfl (by decide), writes_sub_of (y := main_v136) rfl (by decide),
    writes_sub_of (y := main_v137) rfl (by decide), writes_sub_of (y := main_v138) rfl (by decide),
    writes_sub_of (y := main_v139) rfl (by decide), writes_sub_of (y := main_v140) rfl (by decide),
    writes_sub_of (y := main_v141) rfl (by decide), writes_sub_of (y := main_v142) rfl (by decide),
    writes_sub_of (y := main_v143) rfl (by decide), writes_sub_of (y := main_v144) rfl (by decide),
    writes_sub_of (y := main_v145) rfl (by decide), writes_sub_of (y := main_v146) rfl (by decide)⟩

end Cert.ReferenceIdeal.RefRun

end
-- ==== Proof.RefRunP2.lean ====
/-
  Window 2 of the reference program is the straight line of its chunks' operations.
-/
import proofs.«139320_j2216203125376_2_alg».proof.Proof.RefRunLib
import proofs.«139320_j2216203125376_2_alg».proof.Proof.RefRunC1
import proofs.«139320_j2216203125376_2_alg».proof.Proof.RefRunC2
import proofs.«139320_j2216203125376_2_alg».proof.Proof.RefRunC3
import proofs.«139320_j2216203125376_2_alg».proof.Proof.RefRunC4
import proofs.«139320_j2216203125376_2_alg».proof.Proof.RefRunC5
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 2, in program order. -/
def opsP2 : List (HloOp τ sig (Elt F)) := opsC1 ++ opsC2 ++ opsC3 ++ opsC4 ++ opsC5

/-- The references window 2 writes. -/
def WP2 : List (Ref sig .tc) := WC1 ++ WC2 ++ WC3 ++ WC4 ++ WC5

/-- Window 2 of @main is the straight line of these operations: both sides unfold to one chain of steps. -/
theorem main_part2_eq (c : Dev nD) : main_part2 (F := F) c = seq opsP2 := by
  chain_rfl

theorem opsP2_sub : (opsP2 : List (HloOp τ sig (Elt F))).Forall fun op => op.bufs ⊆ tcRefs τ sig :=
  forall_app (forall_app (forall_app (forall_app (opsC1_sub) opsC2_sub) opsC3_sub) opsC4_sub) opsC5_sub

theorem opsP2_fresh : (opsP2 : List (HloOp τ sig (Elt F))).Forall fun op => op.fresh = ∅ :=
  forall_app (forall_app (forall_app (forall_app (opsC1_fresh) opsC2_fresh) opsC3_fresh) opsC4_fresh) opsC5_fresh

theorem opsP2_writes : (opsP2 : List (HloOp τ sig (Elt F))).Forall fun op => op.writes ⊆ (WP2.map (Proc.devRef (τ := τ) .tc)).toFinset :=
  writes_app (writes_app (writes_app (writes_app (opsC1_writes) opsC2_writes) opsC3_writes) opsC4_writes) opsC5_writes

end Cert.ReferenceIdeal.RefRun

end
-- ==== Proof.RefRunD.lean ====
/-
  The second box taken apart by channel and the repel term's edges.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 60 operations, in program order (a called function's operations inline, over the call's buffers). -/
abbrev opsD : List (HloOp τ sig (Elt F)) :=
  [ StableHlo.unary main_v140 main_v147 ((extractStridedSlice S64x2048x1x1 ![0, 0, 0, 0] · slices_S64x2048x1x3_S64x2048x1x1_0_0_0_0) : (⟨S64x2048x1x3, .f32⟩ : BufTy).Contents (Elt F) → (⟨S64x2048x1x1, .f32⟩ : BufTy).Contents (Elt F)),
    StableHlo.reshape main_v147 main_v148 rfl shapeCasts_S64x2048x1x1_S64x2048x1,
    StableHlo.unary main_v140 main_v149 ((extractStridedSlice S64x2048x1x1 ![0, 0, 0, 1] · slices_S64x2048x1x3_S64x2048x1x1_0_0_0_1) : (⟨S64x2048x1x3, .f32⟩ : BufTy).Contents (Elt F) → (⟨S64x2048x1x1, .f32⟩ : BufTy).Contents (Elt F)),
    StableHlo.reshape main_v149 main_v150 rfl shapeCasts_S64x2048x1x1_S64x2048x1,
    StableHlo.unary main_v140 main_v151 ((extractStridedSlice S64x2048x1x1 ![0, 0, 0, 2] · slices_S64x2048x1x3_S64x2048x1x1_0_0_0_2) : (⟨S64x2048x1x3, .f32⟩ : BufTy).Contents (Elt F) → (⟨S64x2048x1x1, .f32⟩ : BufTy).Contents (Elt F)),
    StableHlo.reshape main_v151 main_v152 rfl shapeCasts_S64x2048x1x1_S64x2048x1,
    StableHlo.binary main_v142 main_v142 main_v153 (mulf : (⟨S64x2048x1, .f32⟩ : BufTy).Contents (Elt F) → (⟨S64x2048x1, .f32⟩ : BufTy).Contents (Elt F) → (⟨S64x2048x1, .f32⟩ : BufTy).Contents (Elt F)),
    StableHlo.nullary main_cst_31 (constant S_ .f32 0x3ED1EB85#32),
    StableHlo.unary main_cst_31 main_v154 (broadcastInDim S64x2048x1 ![] bcast_S_S64x2048x1 : (⟨S_, .f32⟩ : BufTy).Contents (Elt F) → (⟨S64x2048x1, .f32⟩ : BufTy).Contents (Elt F)),
    StableHlo.binary main_v153 main_v154 main_v155 (mulf : (⟨S64x2048x1, .f32⟩ : BufTy).Contents (Elt F) → (⟨S64x2048x1, .f32⟩ : BufTy).Contents (Elt F) → (⟨S64x2048x1, .f32⟩ : BufTy).Contents (Elt F)),
    StableHlo.binary main_v148 main_v148 main_v156 (mulf : (⟨S64x2048x1, .f32⟩ : BufTy).Contents (Elt F) → (⟨S64x2048x1, .f32⟩ : BufTy).Contents (Elt F) → (⟨S64x2048x1, .f32⟩ : BufTy).Contents (Elt F)),
    StableHlo.nullary main_cst_32 (constant S_ .f32 0x3ED1EB85#32),
    StableHlo.unary main_cst_32 main_v157 (broadcastInDim S64x2048x1 ![] bcast_S_S64x2048x1 : (⟨S_, .f32⟩ : BufTy).Contents (Elt F) → (⟨S64x2048x1, .f32⟩ : BufTy).Contents (Elt F)),
    StableHlo.binary main_v156 main_v157 main_v158 (mulf : (⟨S64x2048x1, .f32⟩ : BufTy).Contents (Elt F) → (⟨S64x2048x1, .f32⟩ : BufTy).Contents (Elt F) → (⟨S64x2048x1, .f32⟩ : BufTy).Contents (Elt F)),
    StableHlo.nullary main_cst_33 (constant S_ .f32 0x40000000#32),
    StableHlo.unary main_cst_33 main_v159 (broadcastInDim S64x2048x1 ![] bcast_S_S64x2048x1 : (⟨S_, .f32⟩ : BufTy).Contents (Elt F) → (⟨S64x2048x1, .f32⟩ : BufTy).Contents (Elt F)),
    StableHlo.binary main_v142 main_v159 main_v160 (Host.divf : (⟨S64x2048x1, .f32⟩ : BufTy).Contents (Elt F) → (⟨S64x2048x1, .f32⟩ : BufTy).Contents (Elt F) → (⟨S64x2048x1, .f32⟩ : BufTy).Contents (Elt F)),
    StableHlo.binary main_v144 main_v160 main_v161 (subf : (⟨S64x2048x1, .f32⟩ : BufTy).Contents (Elt F) → (⟨S64x2048x1, .f32⟩ : BufTy).Contents (Elt F) → (⟨S64x2048x1, .f32⟩ : BufTy).Contents (Elt F)),
    StableHlo.nullary main_cst_34 (constant S_ .f32 0x40000000#32),
    StableHlo.unary main_cst_34 main_v162 (broadcastInDim S64x2048x1 ![] bcast_S_S64x2048x1 : (⟨S_, .f32⟩ : BufTy).Contents (Elt F) → (⟨S64x2048x1, .f32⟩ : BufTy).Contents (Elt F)),
    StableHlo.binary main_v148 main_v162 main_v163 (Host.divf : (⟨S64x2048x1, .f32⟩ : BufTy).Contents (Elt F) → (⟨S64x2048x1, .f32⟩ : BufTy).Contents (Elt F) → (⟨S64x2048x1, .f32⟩ : BufTy).Contents (Elt F)),
    StableHlo.binary main_v150 main_v163 main_v164 (subf : (⟨S64x2048x1, .f32⟩ : BufTy).Contents (Elt F) → (⟨S64x2048x1, .f32⟩ : BufTy).Contents (Elt F) → (⟨S64x2048x1, .f32⟩ : BufTy).Contents (Elt F)),
    StableHlo.binary main_v161 main_v164 main_v165 (maximumf : (⟨S64x2048x1, .f32⟩ : BufTy).Contents (Elt F) → (⟨S64x2048x1, .f32⟩ : BufTy).Contents (Elt F) → (⟨S64x2048x1, .f32⟩ : BufTy).Contents (Elt F)),
    StableHlo.nullary main_cst_35 (constant S_ .f32 0x3ED1EB85#32),
    StableHlo.unary main_cst_35 main_v166 (broadcastInDim S64x2048x1 ![] bcast_S_S64x2048x1 : (⟨S_, .f32⟩ : BufTy).Contents (Elt F) → (⟨S64x2048x1, .f32⟩ : BufTy).Contents (Elt F)),
    StableHlo.binary main_v166 main_v142 main_v167 (mulf : (⟨S64x2048x1, .f32⟩ : BufTy).Contents (Elt F) → (⟨S64x2048x1, .f32⟩ : BufTy).Contents (Elt F) → (⟨S64x2048x1, .f32⟩ : BufTy).Contents (Elt F)),
    StableHlo.nullary main_cst_36 (constant S_ .f32 0x40000000#32),
    StableHlo.unary main_cst_36 main_v168 (broadcastInDim S64x2048x1 ![] bcast_S_S64x2048x1 : (⟨S_, .f32⟩ : BufTy).Contents (Elt F) → (⟨S64x2048x1, .f32⟩ : BufTy).Contents (Elt F)),
    StableHlo.binary main_v167 main_v168 main_v169 (Host.divf : (⟨S64x2048x1, .f32⟩ : BufTy).Contents (Elt F) → (⟨S64x2048x1, .f32⟩ : BufTy).Contents (Elt F) → (⟨S64x2048x1, .f32⟩ : BufTy).Contents (Elt F)),
    StableHlo.binary main_v146 main_v169 main_v170 (subf : (⟨S64x2048x1, .f32⟩ : BufTy).Contents (Elt F) → (⟨S64x2048x1, .f32⟩ : BufTy).Contents (Elt F) → (⟨S64x2048x1, .f32⟩ : BufTy).Contents (Elt F)),
    StableHlo.nullary main_cst_37 (constant S_ .f32 0x3ED1EB85#32),
    StableHlo.unary main_cst_37 main_v171 (broadcastInDim S64x2048x1 ![] bcast_S_S64x2048x1 : (⟨S_, .f32⟩ : BufTy).Contents (Elt F) → (⟨S64x2048x1, .f32⟩ : BufTy).Contents (Elt F)),
    StableHlo.binary main_v171 main_v148 main_v172 (mulf : (⟨S64x2048x1, .f32⟩ : BufTy).Contents (Elt F) → (⟨S64x2048x1, .f32⟩ : BufTy).Contents (Elt F) → (⟨S64x2048x1, .f32⟩ : BufTy).Contents (Elt F)),
    StableHlo.nullary main_cst_38 (constant S_ .f32 0x40000000#32),
    StableHlo.unary main_cst_38 main_v173 (broadcastInDim S64x2048x1 ![] bcast_S_S64x2048x1 : (⟨S_, .f32⟩ : BufTy).Contents (Elt F) → (⟨S64x2048x1, .f32⟩ : BufTy).Contents (Elt F)),
    StableHlo.binary main_v172 main_v173 main_v174 (Host.divf : (⟨S64x2048x1, .f32⟩ : BufTy).Contents (Elt F) → (⟨S64x2048x1, .f32⟩ : BufTy).Contents (Elt F) → (⟨S64x2048x1, .f32⟩ : BufTy).Contents (Elt F)),
    StableHlo.binary main_v152 main_v174 main_v175 (subf : (⟨S64x2048x1, .f32⟩ : BufTy).Contents (Elt F) → (⟨S64x2048x1, .f32⟩ : BufTy).Contents (Elt F) → (⟨S64x2048x1, .f32⟩ : BufTy).Contents (Elt F)),
    StableHlo.binary main_v170 main_v175 main_v176 (maximumf : (⟨S64x2048x1, .f32⟩ : BufTy).Contents (Elt F) → (⟨S64x2048x1, .f32⟩ : BufTy).Contents (Elt F) → (⟨S64x2048x1, .f32⟩ : BufTy).Contents (Elt F)),
    StableHlo.nullary main_cst_39 (constant S_ .f32 0x40000000#32),
    StableHlo.unary main_cst_39 main_v177 (broadcastInDim S64x2048x1 ![] bcast_S_S64x2048x1 : (⟨S_, .f32⟩ : BufTy).Contents (Elt F) → (⟨S64x2048x1, .f32⟩ : BufTy).Contents (Elt F)),
    StableHlo.binary main_v142 main_v177 main_v178 (Host.divf : (⟨S64x2048x1, .f32⟩ : BufTy).Contents (Elt F) → (⟨S64x2048x1, .f32⟩ : BufTy).Contents (Elt F) → (⟨S64x2048x1, .f32⟩ : BufTy).Contents (Elt F)),
    StableHlo.binary main_v144 main_v178 main_v179 (addf : (⟨S64x2048x1, .f32⟩ : BufTy).Contents (Elt F) → (⟨S64x2048x1, .f32⟩ : BufTy).Contents (Elt F) → (⟨S64x2048x1, .f32⟩ : BufTy).Contents (Elt F)),
    StableHlo.nullary main_cst_40 (constant S_ .f32 0x40000000#32),
    StableHlo.unary main_cst_40 main_v180 (broadcastInDim S64x2048x1 ![] bcast_S_S64x2048x1 : (⟨S_, .f32⟩ : BufTy).Contents (Elt F) → (⟨S64x2048x1, .f32⟩ : BufTy).Contents (Elt F)),
    StableHlo.binary main_v148 main_v180 main_v181 (Host.divf : (⟨S64x2048x1, .f32⟩ : BufTy).Contents (Elt F) → (⟨S64x2048x1, .f32⟩ : BufTy).Contents (Elt F) → (⟨S64x2048x1, .f32⟩ : BufTy).Contents (Elt F)),
    StableHlo.binary main_v150 main_v181 main_v182 (addf : (⟨S64x2048x1, .f32⟩ : BufTy).Contents (Elt F) → (⟨S64x2048x1, .f32⟩ : BufTy).Contents (Elt F) → (⟨S64x2048x1, .f32⟩ : BufTy).Contents (Elt F)),
    StableHlo.binary main_v179 main_v182 main_v183 (minimumf : (⟨S64x2048x1, .f32⟩ : BufTy).Contents (Elt F) → (⟨S64x2048x1, .f32⟩ : BufTy).Contents (Elt F) → (⟨S64x2048x1, .f32⟩ : BufTy).Contents (Elt F)),
    StableHlo.nullary main_cst_41 (constant S_ .f32 0x3ED1EB85#32),
    StableHlo.unary main_cst_41 main_v184 (broadcastInDim S64x2048x1 ![] bcast_S_S64x2048x1 : (⟨S_, .f32⟩ : BufTy).Contents (Elt F) → (⟨S64x2048x1, .f32⟩ : BufTy).Contents (Elt F)),
    StableHlo.binary main_v184 main_v142 main_v185 (mulf : (⟨S64x2048x1, .f32⟩ : BufTy).Contents (Elt F) → (⟨S64x2048x1, .f32⟩ : BufTy).Contents (Elt F) → (⟨S64x2048x1, .f32⟩ : BufTy).Contents (Elt F)),
    StableHlo.nullary main_cst_42 (constant S_ .f32 0x40000000#32),
    StableHlo.unary main_cst_42 main_v186 (broadcastInDim S64x2048x1 ![] bcast_S_S64x2048x1 : (⟨S_, .f32⟩ : BufTy).Contents (Elt F) → (⟨S64x2048x1, .f32⟩ : BufTy).Contents (Elt F)),
    StableHlo.binary main_v185 main_v186 main_v187 (Host.divf : (⟨S64x2048x1, .f32⟩ : BufTy).Contents (Elt F) → (⟨S64x2048x1, .f32⟩ : BufTy).Contents (Elt F) → (⟨S64x2048x1, .f32⟩ : BufTy).Contents (Elt F)),
    StableHlo.binary main_v146 main_v187 main_v188 (addf : (⟨S64x2048x1, .f32⟩ : BufTy).Contents (Elt F) → (⟨S64x2048x1, .f32⟩ : BufTy).Contents (Elt F) → (⟨S64x2048x1, .f32⟩ : BufTy).Contents (Elt F)),
    StableHlo.nullary main_cst_43 (constant S_ .f32 0x3ED1EB85#32),
    StableHlo.unary main_cst_43 main_v189 (broadcastInDim S64x2048x1 ![] bcast_S_S64x2048x1 : (⟨S_, .f32⟩ : BufTy).Contents (Elt F) → (⟨S64x2048x1, .f32⟩ : BufTy).Contents (Elt F)),
    StableHlo.binary main_v189 main_v148 main_v190 (mulf : (⟨S64x2048x1, .f32⟩ : BufTy).Contents (Elt F) → (⟨S64x2048x1, .f32⟩ : BufTy).Contents (Elt F) → (⟨S64x2048x1, .f32⟩ : BufTy).Contents (Elt F)),
    StableHlo.nullary main_cst_44 (constant S_ .f32 0x40000000#32),
    StableHlo.unary main_cst_44 main_v191 (broadcastInDim S64x2048x1 ![] bcast_S_S64x2048x1 : (⟨S_, .f32⟩ : BufTy).Contents (Elt F) → (⟨S64x2048x1, .f32⟩ : BufTy).Contents (Elt F)),
    StableHlo.binary main_v190 main_v191 main_v192 (Host.divf : (⟨S64x2048x1, .f32⟩ : BufTy).Contents (Elt F) → (⟨S64x2048x1, .f32⟩ : BufTy).Contents (Elt F) → (⟨S64x2048x1, .f32⟩ : BufTy).Contents (Elt F)) ]

/-- The references the operations write, in order. -/
abbrev WD : List (Ref sig .tc) :=
  [ main_v147, main_v148, main_v149, main_v150, main_v151, main_v152, main_v153, main_cst_31,
    main_v154, main_v155, main_v156, main_cst_32, main_v157, main_v158, main_cst_33, main_v159,
    main_v160, main_v161, main_cst_34, main_v162, main_v163, main_v164, main_v165, main_cst_35,
    main_v166, main_v167, main_cst_36, main_v168, main_v169, main_v170, main_cst_37, main_v171,
    main_v172, main_cst_38, main_v173, main_v174, main_v175, main_v176, main_cst_39, main_v177,
    main_v178, main_v179, main_cst_40, main_v180, main_v181, main_v182, main_v183, main_cst_41,
    main_v184, main_v185, main_cst_42, main_v186, main_v187, main_v188, main_cst_43, main_v189,
    main_v190, main_cst_44, main_v191, main_v192 ]

theorem opsD_sub : (opsD : List (HloOp τ sig (Elt F))).Forall fun op => op.bufs ⊆ tcRefs τ sig :=
  ⟨unary_bufs_sub .., reshape_bufs_sub .., unary_bufs_sub .., reshape_bufs_sub .., unary_bufs_sub .., reshape_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., binary_bufs_sub ..,
    nullary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem opsD_writes : (opsD : List (HloOp τ sig (Elt F))).Forall fun op => op.writes ⊆ ((WD).map (Proc.devRef (τ := τ) .tc)).toFinset :=
  ⟨writes_sub_of (y := main_v147) rfl (by decide), writes_sub_of (y := main_v148) rfl (by decide),
    writes_sub_of (y := main_v149) rfl (by decide), writes_sub_of (y := main_v150) rfl (by decide),
    writes_sub_of (y := main_v151) rfl (by decide), writes_sub_of (y := main_v152) rfl (by decide),
    writes_sub_of (y := main_v153) rfl (by decide), writes_sub_of (y := main_cst_31) rfl (by decide),
    writes_sub_of (y := main_v154) rfl (by decide), writes_sub_of (y := main_v155) rfl (by decide),
    writes_sub_of (y := main_v156) rfl (by decide), writes_sub_of (y := main_cst_32) rfl (by decide),
    writes_sub_of (y := main_v157) rfl (by decide), writes_sub_of (y := main_v158) rfl (by decide),
    writes_sub_of (y := main_cst_33) rfl (by decide), writes_sub_of (y := main_v159) rfl (by decide),
    writes_sub_of (y := main_v160) rfl (by decide), writes_sub_of (y := main_v161) rfl (by decide),
    writes_sub_of (y := main_cst_34) rfl (by decide), writes_sub_of (y := main_v162) rfl (by decide),
    writes_sub_of (y := main_v163) rfl (by decide), writes_sub_of (y := main_v164) rfl (by decide),
    writes_sub_of (y := main_v165) rfl (by decide), writes_sub_of (y := main_cst_35) rfl (by decide),
    writes_sub_of (y := main_v166) rfl (by decide), writes_sub_of (y := main_v167) rfl (by decide),
    writes_sub_of (y := main_cst_36) rfl (by decide), writes_sub_of (y := main_v168) rfl (by decide),
    writes_sub_of (y := main_v169) rfl (by decide), writes_sub_of (y := main_v170) rfl (by decide),
    writes_sub_of (y := main_cst_37) rfl (by decide), writes_sub_of (y := main_v171) rfl (by decide),
    writes_sub_of (y := main_v172) rfl (by decide), writes_sub_of (y := main_cst_38) rfl (by decide),
    writes_sub_of (y := main_v173) rfl (by decide), writes_sub_of (y := main_v174) rfl (by decide),
    writes_sub_of (y := main_v175) rfl (by decide), writes_sub_of (y := main_v176) rfl (by decide),
    writes_sub_of (y := main_cst_39) rfl (by decide), writes_sub_of (y := main_v177) rfl (by decide),
    writes_sub_of (y := main_v178) rfl (by decide), writes_sub_of (y := main_v179) rfl (by decide),
    writes_sub_of (y := main_cst_40) rfl (by decide), writes_sub_of (y := main_v180) rfl (by decide),
    writes_sub_of (y := main_v181) rfl (by decide), writes_sub_of (y := main_v182) rfl (by decide),
    writes_sub_of (y := main_v183) rfl (by decide), writes_sub_of (y := main_cst_41) rfl (by decide),
    writes_sub_of (y := main_v184) rfl (by decide), writes_sub_of (y := main_v185) rfl (by decide),
    writes_sub_of (y := main_cst_42) rfl (by decide), writes_sub_of (y := main_v186) rfl (by decide),
    writes_sub_of (y := main_v187) rfl (by decide), writes_sub_of (y := main_v188) rfl (by decide),
    writes_sub_of (y := main_cst_43) rfl (by decide), writes_sub_of (y := main_v189) rfl (by decide),
    writes_sub_of (y := main_v190) rfl (by decide), writes_sub_of (y := main_cst_44) rfl (by decide),
    writes_sub_of (y := main_v191) rfl (by decide), writes_sub_of (y := main_v192) rfl (by decide)⟩

end Cert.ReferenceIdeal.RefRun

end
-- ==== Proof.RefRunP3.lean ====
/-
  Window 3 of the reference program is the straight line of its chunks' operations.
-/
import proofs.«139320_j2216203125376_2_alg».proof.Proof.RefRunLib
import proofs.«139320_j2216203125376_2_alg».proof.Proof.RefRunD
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 3, in program order. -/
def opsP3 : List (HloOp τ sig (Elt F)) := opsD

/-- The references window 3 writes. -/
def WP3 : List (Ref sig .tc) := WD

/-- Window 3 of @main is the straight line of these operations: both sides unfold to one chain of steps. -/
theorem main_part3_eq (c : Dev nD) : main_part3 (F := F) c = seq opsP3 := by
  chain_rfl

theorem opsP3_sub : (opsP3 : List (HloOp τ sig (Elt F))).Forall fun op => op.bufs ⊆ tcRefs τ sig :=
  opsD_sub

theorem opsP3_fresh : (opsP3 : List (HloOp τ sig (Elt F))).Forall fun op => op.fresh = ∅ :=
  opsD_fresh

theorem opsP3_writes : (opsP3 : List (HloOp τ sig (Elt F))).Forall fun op => op.writes ⊆ (WP3.map (Proc.devRef (τ := τ) .tc)).toFinset :=
  opsD_writes

end Cert.ReferenceIdeal.RefRun

end
-- ==== Proof.RefRunE.lean ====
/-
  The repel term closed — intersection, union, quotient, division by the count, the mask, the sum — and the two sums added.
-/
import proofs.«139320_j2216203125376_2_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 30 operations, in program order (a called function's operations inline, over the call's buffers). -/
abbrev opsE : List (HloOp τ sig (Elt F)) :=
  [ StableHlo.binary main_v152 main_v192 main_v193 (addf : (⟨S64x2048x1, .f32⟩ : BufTy).Contents (Elt F) → (⟨S64x2048x1, .f32⟩ : BufTy).Contents (Elt F) → (⟨S64x2048x1, .f32⟩ : BufTy).Contents (Elt F)),
    StableHlo.binary main_v188 main_v193 main_v194 (minimumf : (⟨S64x2048x1, .f32⟩ : BufTy).Contents (Elt F) → (⟨S64x2048x1, .f32⟩ : BufTy).Contents (Elt F) → (⟨S64x2048x1, .f32⟩ : BufTy).Contents (Elt F)),
    StableHlo.binary main_v183 main_v165 main_v195 (subf : (⟨S64x2048x1, .f32⟩ : BufTy).Contents (Elt F) → (⟨S64x2048x1, .f32⟩ : BufTy).Contents (Elt F) → (⟨S64x2048x1, .f32⟩ : BufTy).Contents (Elt F)),
    StableHlo.nullary main_c_45 (constantI S_ 32 0#32),
    StableHlo.TRef.unary (.of main_c_45) main_call7.v0 (sitofp .f32),
    StableHlo.TRef.unary main_call7.v0 main_call7.v1 (broadcastInDim S64x2048x1 ![] bcast_S_S64x2048x1),
    StableHlo.TRef.binary main_call7.v1 (.of main_v195) main_call7.v2 maximumf,
    StableHlo.binary main_v194 main_v176 main_v197 (subf : (⟨S64x2048x1, .f32⟩ : BufTy).Contents (Elt F) → (⟨S64x2048x1, .f32⟩ : BufTy).Contents (Elt F) → (⟨S64x2048x1, .f32⟩ : BufTy).Contents (Elt F)),
    StableHlo.nullary main_c_46 (constantI S_ 32 0#32),
    StableHlo.TRef.unary (.of main_c_46) main_call8.v0 (sitofp .f32),
    StableHlo.TRef.unary main_call8.v0 main_call8.v1 (broadcastInDim S64x2048x1 ![] bcast_S_S64x2048x1),
    StableHlo.TRef.binary main_call8.v1 (.of main_v197) main_call8.v2 maximumf,
    StableHlo.binary main_v196 main_v198 main_v199 (mulf : (⟨S64x2048x1, .f32⟩ : BufTy).Contents (Elt F) → (⟨S64x2048x1, .f32⟩ : BufTy).Contents (Elt F) → (⟨S64x2048x1, .f32⟩ : BufTy).Contents (Elt F)),
    StableHlo.binary main_v155 main_v158 main_v200 (addf : (⟨S64x2048x1, .f32⟩ : BufTy).Contents (Elt F) → (⟨S64x2048x1, .f32⟩ : BufTy).Contents (Elt F) → (⟨S64x2048x1, .f32⟩ : BufTy).Contents (Elt F)),
    StableHlo.binary main_v200 main_v199 main_v201 (subf : (⟨S64x2048x1, .f32⟩ : BufTy).Contents (Elt F) → (⟨S64x2048x1, .f32⟩ : BufTy).Contents (Elt F) → (⟨S64x2048x1, .f32⟩ : BufTy).Contents (Elt F)),
    StableHlo.nullary main_cst_47 (constant S_ .f32 0x358637BD#32),
    StableHlo.unary main_cst_47 main_v202 (broadcastInDim S64x2048x1 ![] bcast_S_S64x2048x1 : (⟨S_, .f32⟩ : BufTy).Contents (Elt F) → (⟨S64x2048x1, .f32⟩ : BufTy).Contents (Elt F)),
    StableHlo.binary main_v201 main_v202 main_v203 (addf : (⟨S64x2048x1, .f32⟩ : BufTy).Contents (Elt F) → (⟨S64x2048x1, .f32⟩ : BufTy).Contents (Elt F) → (⟨S64x2048x1, .f32⟩ : BufTy).Contents (Elt F)),
    StableHlo.binary main_v199 main_v203 main_v204 (Host.divf : (⟨S64x2048x1, .f32⟩ : BufTy).Contents (Elt F) → (⟨S64x2048x1, .f32⟩ : BufTy).Contents (Elt F) → (⟨S64x2048x1, .f32⟩ : BufTy).Contents (Elt F)),
    StableHlo.nullary main_cst_48 (constant S_ .f32 0x38D1B717#32),
    StableHlo.binary main_v108 main_cst_48 main_v205 (addf : (⟨S_, .f32⟩ : BufTy).Contents (Elt F) → (⟨S_, .f32⟩ : BufTy).Contents (Elt F) → (⟨S_, .f32⟩ : BufTy).Contents (Elt F)),
    StableHlo.unary main_v205 main_v206 (broadcastInDim S64x2048x1 ![] bcast_S_S64x2048x1 : (⟨S_, .f32⟩ : BufTy).Contents (Elt F) → (⟨S64x2048x1, .f32⟩ : BufTy).Contents (Elt F)),
    StableHlo.binary main_v204 main_v206 main_v207 (Host.divf : (⟨S64x2048x1, .f32⟩ : BufTy).Contents (Elt F) → (⟨S64x2048x1, .f32⟩ : BufTy).Contents (Elt F) → (⟨S64x2048x1, .f32⟩ : BufTy).Contents (Elt F)),
    StableHlo.nullary main_cst_49 (constant S_ .f32 0x00000000#32),
    StableHlo.TRef.unary (.of main_cst_49) main_call9.v0 id,
    StableHlo.TRef.unary main_call9.v0 main_call9.v1 (broadcastInDim S64x2048x1 ![] bcast_S_S64x2048x1),
    StableHlo.TRef.ternary (.of main_arg8) (.of main_v207) main_call9.v1 main_call9.v2 select,
    StableHlo.nullary main_cst_50 (constant S_ .f32 0x00000000#32),
    StableHlo.binary main_v208 main_cst_50 main_v209 ((fun x v => Host.reduceAdd x v reducesTo_S64x2048x1_S_d0_1_2 h_S_) : (⟨S64x2048x1, .f32⟩ : BufTy).Contents (Elt F) → (⟨S_, .f32⟩ : BufTy).Contents (Elt F) → (⟨S_, .f32⟩ : BufTy).Contents (Elt F)),
    StableHlo.binary main_v105 main_v209 main_v210 (addf : (⟨S_, .f32⟩ : BufTy).Contents (Elt F) → (⟨S_, .f32⟩ : BufTy).Contents (Elt F) → (⟨S_, .f32⟩ : BufTy).Contents (Elt F)) ]

/-- The references the operations write, in order. -/
abbrev WE : List (Ref sig .tc) :=
  [ main_v193, main_v194, main_v195, main_c_45, main_call7_v0, main_call7_v1, main_v196, main_v197,
    main_c_46, main_call8_v0, main_call8_v1, main_v198, main_v199, main_v200, main_v201, main_cst_47,
    main_v202, main_v203, main_v204, main_cst_48, main_v205, main_v206, main_v207, main_cst_49,
    main_call9_v0, main_call9_v1, main_v208, main_cst_50, main_v209, main_v210 ]

theorem opsE_sub : (opsE : List (HloOp τ sig (Elt F))).Forall fun op => op.bufs ⊆ tcRefs τ sig :=
  ⟨binary_bufs_sub .., binary_bufs_sub .., binary_bufs_sub .., nullary_bufs_sub .., unary_bufs_sub .., unary_bufs_sub ..,
    binary_bufs_sub .., binary_bufs_sub .., nullary_bufs_sub .., unary_bufs_sub .., unary_bufs_sub .., binary_bufs_sub ..,
    binary_bufs_sub .., binary_bufs_sub .., binary_bufs_sub .., nullary_bufs_sub .., unary_bufs_sub .., binary_bufs_sub ..,
    binary_bufs_sub .., nullary_bufs_sub .., binary_bufs_sub .., unary_bufs_sub .., binary_bufs_sub .., nullary_bufs_sub ..,
    unary_bufs_sub .., unary_bufs_sub .., ternary_bufs_sub .., nullary_bufs_sub .., binary_bufs_sub .., binary_bufs_sub ..⟩

theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem opsE_writes : (opsE : List (HloOp τ sig (Elt F))).Forall fun op => op.writes ⊆ ((WE).map (Proc.devRef (τ := τ) .tc)).toFinset :=
  ⟨writes_sub_of (y := main_v193) rfl (by decide), writes_sub_of (y := main_v194) rfl (by decide),
    writes_sub_of (y := main_v195) rfl (by decide), writes_sub_of (y := main_c_45) rfl (by decide),
    writes_sub_of (y := main_call7_v0) rfl (by decide), writes_sub_of (y := main_call7_v1) rfl (by decide),
    writes_sub_of (y := main_v196) rfl (by decide), writes_sub_of (y := main_v197) rfl (by decide),
    writes_sub_of (y := main_c_46) rfl (by decide), writes_sub_of (y := main_call8_v0) rfl (by decide),
    writes_sub_of (y := main_call8_v1) rfl (by decide), writes_sub_of (y := main_v198) rfl (by decide),
    writes_sub_of (y := main_v199) rfl (by decide), writes_sub_of (y := main_v200) rfl (by decide),
    writes_sub_of (y := main_v201) rfl (by decide), writes_sub_of (y := main_cst_47) rfl (by decide),
    writes_sub_of (y := main_v202) rfl (by decide), writes_sub_of (y := main_v203) rfl (by decide),
    writes_sub_of (y := main_v204) rfl (by decide), writes_sub_of (y := main_cst_48) rfl (by decide),
    writes_sub_of (y := main_v205) rfl (by decide), writes_sub_of (y := main_v206) rfl (by decide),
    writes_sub_of (y := main_v207) rfl (by decide), writes_sub_of (y := main_cst_49) rfl (by decide),
    writes_sub_of (y := main_call9_v0) rfl (by decide), writes_sub_of (y := main_call9_v1) rfl (by decide),
    writes_sub_of (y := main_v208) rfl (by decide), writes_sub_of (y := main_cst_50) rfl (by decide),
    writes_sub_of (y := main_v209) rfl (by decide), writes_sub_of (y := main_v210) rfl (by decide)⟩

end Cert.ReferenceIdeal.RefRun

end
-- ==== Proof.RefRunP4.lean ====
/-
  Window 4 of the reference program is the straight line of its chunks' operations.
-/
import proofs.«139320_j2216203125376_2_alg».proof.Proof.RefRunLib
import proofs.«139320_j2216203125376_2_alg».proof.Proof.RefRunE
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 4, in program order. -/
def opsP4 : List (HloOp τ sig (Elt F)) := opsE

/-- The references window 4 writes. -/
def WP4 : List (Ref sig .tc) := WE

/-- Window 4 of @main is the straight line of these operations: both sides unfold to one chain of steps. -/
theorem main_part4_eq (c : Dev nD) : main_part4 (F := F) c = seq opsP4 := by
  chain_rfl

theorem opsP4_sub : (opsP4 : List (HloOp τ sig (Elt F))).Forall fun op => op.bufs ⊆ tcRefs τ sig :=
  opsE_sub

theorem opsP4_fresh : (opsP4 : List (HloOp τ sig (Elt F))).Forall fun op => op.fresh = ∅ :=
  opsE_fresh

theorem opsP4_writes : (opsP4 : List (HloOp τ sig (Elt F))).Forall fun op => op.writes ⊆ (WP4.map (Proc.devRef (τ := τ) .tc)).toFinset :=
  opsE_writes

end Cert.ReferenceIdeal.RefRun

end
-- ==== Proof.RefRun.lean ====
/-
  The run of the reference program: @main is the straight line of its 360 host operations (the called functions'
  operations inline), so every weakly fair execution terminates with each buffer at the fold of the operations over
  the launch contents; the result buffer is kept as that fold, the nine argument buffers are written by no operation.
-/
import proofs.«139320_j2216203125376_2_alg».proof.Proof.RefRunLib
import proofs.«139320_j2216203125376_2_alg».proof.Proof.RefRunP0
import proofs.«139320_j2216203125376_2_alg».proof.Proof.RefRunP1
import proofs.«139320_j2216203125376_2_alg».proof.Proof.RefRunP2
import proofs.«139320_j2216203125376_2_alg».proof.Proof.RefRunP3
import proofs.«139320_j2216203125376_2_alg».proof.Proof.RefRunP4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in program order: the five windows in a row. -/
def ops : List (HloOp τ sig (Elt F)) := opsP0 ++ (opsP1 ++ (opsP2 ++ (opsP3 ++ opsP4)))

/-- The references @main writes. -/
def W : List (Ref sig .tc) := WP0 ++ (WP1 ++ (WP2 ++ (WP3 ++ WP4)))

/-- @main is the straight line of its operations. -/
theorem main_eq (c : Dev nD) : main (F := F) c = seq ops := by
  show (main_part0 c >>= fun _ => main_part1 c >>= fun _ => main_part2 c >>= fun _ => main_part3 c >>= fun _ => main_part4 c) = _
  rw [main_part0_eq, main_part1_eq, main_part2_eq, main_part3_eq, main_part4_eq]
  unfold ops
  rw [seq_append opsP0, seq_append opsP1, seq_append opsP2, seq_append opsP3]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app opsP0_sub (forall_app opsP1_sub (forall_app opsP2_sub (forall_app opsP3_sub opsP4_sub)))

theorem ops_fresh : (ops : List (HloOp τ sig (Elt F))).Forall fun op => op.fresh = ∅ :=
  forall_app opsP0_fresh (forall_app opsP1_fresh (forall_app opsP2_fresh (forall_app opsP3_fresh opsP4_fresh)))

theorem ops_writes : (ops : List (HloOp τ sig (Elt F))).Forall fun op => op.writes ⊆ (W.map (Proc.devRef (τ := τ) .tc)).toFinset :=
  writes_app opsP0_writes (writes_app opsP1_writes (writes_app opsP2_writes (writes_app opsP3_writes opsP4_writes)))

/-- The fold over @main's operations is the folds over the five windows in a row. -/
theorem after_ops (V : Valuation τ sig (Elt F)) :
    after ops V = after opsP4 (after opsP3 (after opsP2 (after opsP1 (after opsP0 V)))) := by
  unfold ops
  rw [after_app, after_app, after_app, after_app]

/-- What the result buffer holds after the run, on core `c` from the memory `m`: the fold of the operations over the
    core's launch contents, read at the result buffer. -/
def RES (m : (ℓ : Loc nD τ sig) → Buf (Elt F) ℓ) (c : Dev nD) : (main_v210 : Ref sig .tc).ty.Contents (Elt F) :=
  after ops (launchContents m c) (Proc.devRef .tc main_v210)

/-- A reference no operation writes holds after the run what the launch dealt it. -/
theorem arg_keep (r : Ref sig .tc) (hr : r ∉ W) (m : (ℓ : Loc nD τ sig) → Buf (Elt F) ℓ) (c : Dev nD) :
    after ops (launchContents m c) (Proc.devRef .tc r) = m ((c.tc : Thread nD τ).loc r) :=
  keep ops_writes r hr (launchContents m c)

/-- On every core, for any float values, from any memory with zero counters: every weakly fair execution of @main
    terminates with the result buffer at the fold of the operations over the launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v210) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v210,
      (h c main_arg0).trans (arg_keep main_arg0 (by decide) m c),
      (h c main_arg1).trans (arg_keep main_arg1 (by decide) m c),
      (h c main_arg2).trans (arg_keep main_arg2 (by decide) m c),
      (h c main_arg3).trans (arg_keep main_arg3 (by decide) m c),
      (h c main_arg4).trans (arg_keep main_arg4 (by decide) m c),
      (h c main_arg5).trans (arg_keep main_arg5 (by decide) m c),
      (h c main_arg6).trans (arg_keep main_arg6 (by decide) m c),
      (h c main_arg7).trans (arg_keep main_arg7 (by decide) m c),
      (h c main_arg8).trans (arg_keep main_arg8 (by decide) m c)⟩)
    (run_seq scopedRefs_eq scopedSems_eq defs main (fun _ => ops) main_eq (fun _ => ops_sub) m ρ
      (fun _ => List.forall_iff_forall_mem.1 ops_fresh))

end Cert.ReferenceIdeal.RefRun

end
-- ==== Proof.KerAttractPiece.lean ====
/-
  Region 0 of the kernel program: what one run of the body leaves in the one-element output block, as ONE pure term
  `body x0 x1 x2 acc` of the three input blocks and the block's earlier contents.  At the first grid point the body
  first stores the zero block and reads it back (`acc` is then the zero block); at every other point it reads what the
  point before left.
-/
import proofs.«139320_j2216203125376_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KerAttract

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The intersection area of each corner's box with the mean box, from the height block `x0` and the offset block `x1`. -/
def inter (x0 : Vec F S1x4x4096 .f32) (x1 : Vec F S1x4x2x4096 .f32) : FVec F S4x4096 .f32 :=
  k0_pay17 (k0_pay7 x0) (k0_pay8 x0) (k0_pay9 x1) (k0_pay10 x1) (k0_pay11 x1) (k0_pay12 x1) (k0_pay15 x0 x1) (k0_pay16 x0)

/-- The denominator: the two areas, minus the intersection, plus the small constant. -/
def denom (x0 : Vec F S1x4x4096 .f32) (x1 : Vec F S1x4x2x4096 .f32) : FVec F S4x4096 .f32 :=
  k0_pay18 (k0_pay7 x0) (k0_pay8 x0) (k0_pay9 x1) (k0_pay10 x1) (k0_pay11 x1) (k0_pay12 x1) (k0_pay13 x0) (k0_pay14 x0)
    (k0_pay15 x0 x1) (k0_pay16 x0)

/-- One run of the body: the masked sum of `1 - iou` over the block, added to the earlier contents `acc`. -/
def body (x0 : Vec F S1x4x4096 .f32) (x1 : Vec F S1x4x2x4096 .f32) (x2 : Vec F S1x4x4096 .f32) (acc : Vec F S1x1 .f32) :
    Vec F S1x1 .f32 :=
  k0_pay1 (k0_pay5 x2) (inter x0 x1) (denom x0 x1) acc

/-- The zero block the first point stores. -/
abbrev zero : Vec F S1x1 .f32 := k0_pay2

/-- At a point other than the first the body leaves `body` over what the point before left. -/
theorem out_B (c : Dev nD) (i : grid0.Coords) (a1 : Memref sig .tc .vmem S1x4x4096 .f32) (h1 : a1.IsWhole)
    (a2 : Memref sig .tc .vmem S1x4x2x4096 .f32) (h2 : a2.IsWhole) (a3 : Memref sig .tc .vmem S1x4x4096 .f32) (h3 : a3.IsWhole)
    (a4 : Memref sig .tc .vmem S1x1 .f32) (h4 : a4.IsWhole) (hc : ¬cond0_0 i)
    (x0 : Vec F S1x4x4096 .f32) (x1 : Vec F S1x4x2x4096 .f32) (x2 : Vec F S1x4x4096 .f32) (xo : Vec F S1x1 .f32) :
    out0_B_3 c i a1 h1 a2 h2 a3 h3 a4 h4 hc x0 x1 x2 xo = body x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero (S := S1x1) hz2]
  simp only [View.readAt_eq_ld, h1.read_unread, h2.read_unread, h3.read_unread, h4.read_unread,
    View.ld_unit_zero (S := S1x4x4096) hz3, View.ld_unit_zero (S := S1x4x2x4096) hz4, View.ld_unit_zero (S := S1x1) hz2]
  rfl

/-- At the first point the body leaves `body` over the zero block. -/
theorem out_A (c : Dev nD) (i : grid0.Coords) (a1 : Memref sig .tc .vmem S1x4x4096 .f32) (h1 : a1.IsWhole)
    (a2 : Memref sig .tc .vmem S1x4x2x4096 .f32) (h2 : a2.IsWhole) (a3 : Memref sig .tc .vmem S1x4x4096 .f32) (h3 : a3.IsWhole)
    (a4 : Memref sig .tc .vmem S1x1 .f32) (h4 : a4.IsWhole) (hc : cond0_0 i)
    (x0 : Vec F S1x4x4096 .f32) (x1 : Vec F S1x4x2x4096 .f32) (x2 : Vec F S1x4x4096 .f32) :
    out0_A_3 c i a1 h1 a2 h2 a3 h3 a4 h4 hc x0 x1 x2 = body x0 x1 x2 zero := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread,
    View.ld_unit_zero (S := S1x4x4096) hz3, View.ld_unit_zero (S := S1x4x2x4096) hz4]
  rfl

end Cert.KerAttract
-- ==== Proof.Spec.lean ====
/-
  The mathematics both programs compute, stated once over the extended reals.

  A table row is read at an index word the way `take_along_axis` reads it: a negative word counts from the end of the
  row, and a word that is still outside the row selects nothing, the result being the value the fill pattern denotes
  (`pick`).  Four corners of a box carry a height `h` and two offsets `y, x`; a box is `(exp h, y, x)`, and `iou`
  is the intersection over union of two such boxes of aspect 0.41, with the small constant 1e-6 in the denominator.
  The attract term compares each corner's box with the box of the corners' means; the repel term compares the mean
  boxes of two groups of four corners, the second shifted by a given offset.
-/
import Idealize.ShloMosaic.PureOps.Ideal
import Idealize.ShloMosaic.Lib.ValueIdx

noncomputable section

namespace Cert.Spec

open Idealize.ShloMosaic Idealize.ShloMosaic.ValueIdx

/-- 0.41 as the binary32 value both programs use. -/
def c41 : EReal := Ideal.ofBits .f32 0x3ED1EB85#32
/-- 1e-6 as binary32. -/
def e6 : EReal := Ideal.ofBits .f32 0x358637BD#32
/-- 1e-4 as binary32. -/
def e4 : EReal := Ideal.ofBits .f32 0x38D1B717#32
/-- 2 and 4 as binary32. -/
def k2 : EReal := Ideal.ofBits .f32 0x40000000#32
def k4 : EReal := Ideal.ofBits .f32 0x40800000#32
/-- 1 as binary32. -/
def k1 : EReal := Ideal.ofBits .f32 0x3F800000#32

/-- The signed value of an index word after the wrap of negative words: `v + 65536` for `v < 0`. -/
def wrapped (v : BitVec 32) : Int := if v.toInt < 0 then v.toInt + 65536 else v.toInt

/-- A row of 65536 entries read at an index word: the entry at the wrapped word when that lies in the row, else `⊥`
    (the value the fill pattern `0x7FC00000` denotes). -/
def pick (row : Fin 65536 → EReal) (v : BitVec 32) : EReal :=
  if h : 0 ≤ wrapped v ∧ wrapped v ≤ 65535 then row ⟨(wrapped v).toNat, by omega⟩ else ⊥

/-- The corner offsets `[[0,0],[1,0],[0,1],[1,1]]`: corner `c`, channel `ch`. -/
def off (c : Fin 4) (ch : Fin 2) : EReal :=
  if (ch.val = 0 ∧ c.val % 2 = 1) ∨ (ch.val = 1 ∧ 2 ≤ c.val) then k1 else 0

/-- Intersection over union of the boxes `(hA, yA, xA)` and `(hB, yB, xB)` (height, centre), width 0.41 · height. -/
def iou (hA yA xA hB yB xB : EReal) : EReal :=
  let ylo := max (yA - Ideal.div hA k2) (yB - Ideal.div hB k2)
  let xlo := max (xA - Ideal.div (c41 * hA) k2) (xB - Ideal.div (c41 * hB) k2)
  let yhi := min (yA + Ideal.div hA k2) (yB + Ideal.div hB k2)
  let xhi := min (xA + Ideal.div (c41 * hA) k2) (xB + Ideal.div (c41 * hB) k2)
  let I := max 0 (yhi - ylo) * max 0 (xhi - xlo)
  Ideal.div I (hA * hA * c41 + hB * hB * c41 - I + e6)

/-- The mean of four values. -/
def mean4 (f : Fin 4 → EReal) : EReal := Ideal.div (∑ k, f k) k4

/-- Corner `c` of four against the box of the four corners' means: `h, y, x` are the corners' heights and offsets. -/
def attractIou (h y x : Fin 4 → EReal) (c : Fin 4) : EReal :=
  iou (Ideal.exp (h c)) (y c) (x c) (Ideal.exp (mean4 h)) (mean4 y) (mean4 x)

/-- The mean boxes of two groups of four corners, the second group's centre shifted by `(py, px)`. -/
def repelIou (hA yA xA hB yB xB : Fin 4 → EReal) (py px : EReal) : EReal :=
  iou (Ideal.exp (mean4 hA)) (mean4 yA) (mean4 xA) (Ideal.exp (mean4 hB)) (mean4 yB + py) (mean4 xB + px)

end Cert.Spec

end
-- ==== Proof.KerAttractVal1.lean ====
/-
  Region 0 of the kernel program, read at the extended reals: the values the body computes from its three input
  blocks before the box arithmetic, each at an index given by explicit coordinates (corner `c`, lane `n`).
-/
import proofs.«139320_j2216203125376_2_alg».proof.Proof.KerAttractPiece
import proofs.«139320_j2216203125376_2_alg».proof.Proof.Spec
import Idealize.ShloMosaic.Lib.ValueLayout
import Idealize.ShloMosaic.PureOps.Ideal.Laws

noncomputable section

open Idealize.ShloMosaic Idealize.ShloMosaic.ValueIdx

namespace Cert.KerAttract

open Cert.KernelIdeal Cert.KernelIdeal.Gen

variable (x0 : Vec Ideal S1x4x4096 .f32) (x1 : Vec Ideal S1x4x2x4096 .f32) (x2 : Vec Ideal S1x4x4096 .f32)

/-- The heights of the four corners at lane `n`, and their two offsets. -/
def hs (n : Fin 4096) : Fin 4 → EReal := fun k => x0 (ix3 (0 : Fin 1) k n)
def ys (n : Fin 4096) : Fin 4 → EReal := fun k => x1 (ix4 (0 : Fin 1) k (0 : Fin 2) n)
def xs (n : Fin 4096) : Fin 4 → EReal := fun k => x1 (ix4 (0 : Fin 1) k (1 : Fin 2) n)

theorem pay3_apply (c : Fin 4) (n : Fin 4096) : k0_pay3 x0 (ix2 c n) = hs x0 n c :=
  shapeCast_1ab_ab_apply x0 _ c n

theorem pay5_apply (c : Fin 4) (n : Fin 4096) : k0_pay5 x2 (ix2 c n) = x2 (ix3 (0 : Fin 1) c n) :=
  shapeCast_1ab_ab_apply x2 _ c n

theorem pay4_apply (c : Fin 4) (k : Fin 2) (n : Fin 4096) : k0_pay4 x1 (ix3 c k n) = x1 (ix4 (0 : Fin 1) c k n) :=
  shapeCast_1abc_abc_apply x1 _ c k n

theorem pay7_apply (c : Fin 4) (n : Fin 4096) : k0_pay7 x0 (ix2 c n) = Ideal.exp (hs x0 n c) :=
  congrArg Ideal.exp (pay3_apply x0 c n)

/-- The sum over the four corners of the heights at lane `n`. -/
theorem sum_pay3 (n : Fin 4096) :
    multiReduction (F := Ideal) .add [0] S4096 (k0_pay3 x0) 0x00000000#32 reduces_S4x4096_S4096 (.inl rfl) rfl (ix1 n)
      = ∑ k : Fin 4, hs x0 n k := by
  refine (Ideal.multiReduction_add_single (k0_pay3 x0) _ reduces_S4x4096_S4096 (.inl rfl) rfl (ix1 n)).trans ?_
  show ∑ k : Fin 4, k0_pay3 x0 (reduces_S4x4096_S4096.lift (ix1 n) k) = _
  refine Finset.sum_congr rfl fun k _ => ?_
  have e : reduces_S4x4096_S4096.lift (ix1 n) k = ix2 k n := by
    funext a; apply Fin.ext
    match a with
    | ⟨0, _⟩ => rfl
    | ⟨1, _⟩ => rfl
  rw [e]; exact pay3_apply x0 k n

theorem pay8_apply (n : Fin 4096) : k0_pay8 x0 (ix2 (0 : Fin 1) n) = Ideal.exp (Spec.mean4 (hs x0 n)) := by
  unfold k0_pay8
  show Ideal.exp (Ideal.div (shapeCast S1x4096 (multiReduction (F := Ideal) .add [0] S4096 (k0_pay3 x0) 0x00000000#32 reduces_S4x4096_S4096 (.inl rfl) rfl) shapeCasts_S4096_S1x4096 (ix2 (0 : Fin 1) n)) (Ideal.ofBits .f32 0x40800000#32)) = _
  rw [shapeCast_a_1a_apply _ _ (0 : Fin 1) n, sum_pay3]
  rfl

/-- A middle unit axis dropped by a shape cast: `[a, 1, b]` read as `[a, b]`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

theorem pay9_apply (c : Fin 4) (n : Fin 4096) : k0_pay9 x1 (ix2 c n) = ys x1 n c := by
  unfold k0_pay9
  show shapeCast S4x4096 (extractStridedSlice S4x1x4096 ![0, 0, 0] (k0_pay4 x1) slices_S4x2x4096_o0_0_0_S4x1x4096)
    shapeCasts_S4x1x4096_S4x4096 (ix2 c n) = _
  rw [shapeCast_a1b_ab_apply _ _ c n, slice3_axis1_apply 0 (k0_pay4 x1) _ c (0 : Fin 1) n (0 : Fin 2) rfl]
  exact pay4_apply x1 c 0 n

theorem pay10_apply (c : Fin 4) (n : Fin 4096) : k0_pay10 x1 (ix2 c n) = xs x1 n c := by
  unfold k0_pay10
  show shapeCast S4x4096 (extractStridedSlice S4x1x4096 ![0, 1, 0] (k0_pay4 x1) slices_S4x2x4096_o0_1_0_S4x1x4096)
    shapeCasts_S4x1x4096_S4x4096 (ix2 c n) = _
  rw [shapeCast_a1b_ab_apply _ _ c n, slice3_axis1_apply 1 (k0_pay4 x1) _ c (0 : Fin 1) n (1 : Fin 2) rfl]
  exact pay4_apply x1 c 1 n

/-- The sum over the four corners of one offset channel at lane `n`. -/
theorem sum_pay4 (k : Fin 2) (n : Fin 4096) :
    multiReduction (F := Ideal) .add [0] S2x4096 (k0_pay4 x1) 0x00000000#32 reduces_S4x2x4096_S2x4096 (.inl rfl) rfl (ix2 k n)
      = ∑ c : Fin 4, x1 (ix4 (0 : Fin 1) c k n) := by
  refine (Ideal.multiReduction_add_single (k0_pay4 x1) _ reduces_S4x2x4096_S2x4096 (.inl rfl) rfl (ix2 k n)).trans ?_
  show ∑ c : Fin 4, k0_pay4 x1 (reduces_S4x2x4096_S2x4096.lift (ix2 k n) c) = _
  refine Finset.sum_congr rfl fun c _ => ?_
  have e : reduces_S4x2x4096_S2x4096.lift (ix2 k n) c = ix3 c k n := by
    funext a; apply Fin.ext
    match a with
    | ⟨0, _⟩ => rfl
    | ⟨1, _⟩ => rfl
    | ⟨2, _⟩ => rfl
  rw [e]; exact pay4_apply x1 c k n

theorem pay6_apply (k : Fin 2) (n : Fin 4096) :
    k0_pay6 x1 (ix3 (0 : Fin 1) k n) = Spec.mean4 (fun c => x1 (ix4 (0 : Fin 1) c k n)) := by
  unfold k0_pay6
  show Ideal.div (shapeCast S1x2x4096 (multiReduction (F := Ideal) .add [0] S2x4096 (k0_pay4 x1) 0x00000000#32 reduces_S4x2x4096_S2x4096 (.inl rfl) rfl) shapeCasts_S2x4096_S1x2x4096 (ix3 (0 : Fin 1) k n)) (Ideal.ofBits .f32 0x40800000#32) = _
  rw [shapeCast_ab_1ab_apply _ _ (0 : Fin 1) k n, sum_pay4]
  rfl

theorem pay11_apply (n : Fin 4096) : k0_pay11 x1 (ix2 (0 : Fin 1) n) = Spec.mean4 (ys x1 n) := by
  unfold k0_pay11
  show shapeCast S1x4096 (extractStridedSlice S1x1x4096 ![0, 0, 0] (k0_pay6 x1) slices_S1x2x4096_o0_0_0_S1x1x4096)
    shapeCasts_S1x1x4096_S1x4096 (ix2 (0 : Fin 1) n) = _
  rw [shapeCast_1ab_ab_apply _ _ (0 : Fin 1) n, slice3_axis1_apply 0 (k0_pay6 x1) _ (0 : Fin 1) (0 : Fin 1) n (0 : Fin 2) rfl]
  exact pay6_apply x1 0 n

theorem pay12_apply (n : Fin 4096) : k0_pay12 x1 (ix2 (0 : Fin 1) n) = Spec.mean4 (xs x1 n) := by
  unfold k0_pay12
  show shapeCast S1x4096 (extractStridedSlice S1x1x4096 ![0, 1, 0] (k0_pay6 x1) slices_S1x2x4096_o0_1_0_S1x1x4096)
    shapeCasts_S1x1x4096_S1x4096 (ix2 (0 : Fin 1) n) = _
  rw [shapeCast_1ab_ab_apply _ _ (0 : Fin 1) n, slice3_axis1_apply 1 (k0_pay6 x1) _ (0 : Fin 1) (0 : Fin 1) n (1 : Fin 2) rfl]
  exact pay6_apply x1 1 n

end Cert.KerAttract
-- ==== Proof.LibHalves.lean ====
/-
  A few binary32 patterns as reals, and the two identities that let a product with 1/2 or 1/4 meet a quotient by 2 or
  4 on every extended real, the infinities included: division by a nonzero real is the product with its reciprocal.
-/
import Mathlib
import Idealize.ShloMosaic.PureOps.Ideal

noncomputable section

namespace Cert.LibHalves

open Idealize.ShloMosaic

/-- The pattern of 0.5. -/
theorem ofBits_half : Ideal.ofBits .f32 0x3F000000#32 = ((1 / 2 : ℝ) : EReal) := by
  simp [Ideal.ofBits, Ideal.ieee, -EReal.coe_mul] <;> norm_num

/-- The pattern of 0.25. -/
theorem ofBits_quarter : Ideal.ofBits .f32 0x3E800000#32 = ((1 / 4 : ℝ) : EReal) := by
  simp [Ideal.ofBits, Ideal.ieee, -EReal.coe_mul] <;> norm_num

/-- The pattern of 2. -/
theorem ofBits_two : Ideal.ofBits .f32 0x40000000#32 = ((2 : ℝ) : EReal) := by
  simp [Ideal.ofBits, Ideal.ieee, -EReal.coe_mul] <;> norm_num

/-- The pattern of 4. -/
theorem ofBits_four : Ideal.ofBits .f32 0x40800000#32 = ((4 : ℝ) : EReal) := by
  simp [Ideal.ofBits, Ideal.ieee, -EReal.coe_mul] <;> norm_num

/-- The pattern of 1. -/
theorem ofBits_one : Ideal.ofBits .f32 0x3F800000#32 = ((1 : ℝ) : EReal) := by
  simp [Ideal.ofBits, Ideal.ieee, -EReal.coe_mul] <;> norm_num

/-- The pattern of +0. -/
theorem ofBits_zero : Ideal.ofBits .f32 0x00000000#32 = 0 := by
  simp [Ideal.ofBits, Ideal.ieee]

/-- A product with the pattern of 1/2 is the quotient by the pattern of 2, for every extended real. -/
theorem mul_half_eq_div_two (x : EReal) :
    x * Ideal.ofBits .f32 0x3F000000#32 = Ideal.div x (Ideal.ofBits .f32 0x40000000#32) := by
  rw [ofBits_half, ofBits_two, Ideal.div_coe (by norm_num : (2 : ℝ) ≠ 0)]

/-- A product with the pattern of 1/4 is the quotient by the pattern of 4, for every extended real. -/
theorem mul_quarter_eq_div_four (x : EReal) :
    x * Ideal.ofBits .f32 0x3E800000#32 = Ideal.div x (Ideal.ofBits .f32 0x40800000#32) := by
  rw [ofBits_quarter, ofBits_four, Ideal.div_coe (by norm_num : (4 : ℝ) ≠ 0)]

/-- The pattern `0x38D1B717` (1e-4 rounded to binary32) is a positive real. -/
theorem ofBits_e4_pos : ∃ r : ℝ, 0 < r ∧ Ideal.ofBits .f32 0x38D1B717#32 = (r : EReal) := by
  refine ⟨13743895 * (2 : ℝ) ^ (-37 : ℤ), by positivity, ?_⟩
  simp [Ideal.ofBits, Ideal.ieee, -EReal.coe_mul] <;> norm_num

end Cert.LibHalves

end
-- ==== Proof.KerAttractVal2.lean ====
/-
  Region 0 of the kernel program, read at the extended reals: the box arithmetic of one corner at one lane is the
  specification's intersection over union, and one run of the body adds the masked sum of `1 - iou` over the four
  corners and the 4096 lanes to the block's earlier contents.
-/
import proofs.«139320_j2216203125376_2_alg».proof.Proof.KerAttractVal1
import proofs.«139320_j2216203125376_2_alg».proof.Proof.LibHalves

noncomputable section

open Idealize.ShloMosaic Idealize.ShloMosaic.ValueIdx

namespace Cert.KerAttract

open Cert.KernelIdeal Cert.KernelIdeal.Gen

/-- The patterns of 1/2 and +0 the kernel spells. -/
abbrev H : EReal := Ideal.ofBits .f32 0x3F000000#32
abbrev Z : EReal := Ideal.ofBits .f32 0x00000000#32

/-- The intersection of the two boxes as the kernel spells it: halves as products with 1/2, the clip as `max d 0`. -/
def kI (hA yA xA hB yB xB : EReal) : EReal :=
  max (min (yA + hA * H) (yB + hB * H) - max (yA - hA * H) (yB - hB * H)) Z
    * max (min (xA + Ideal.ofBits .f32 0x3ED1EB85#32 * hA * H) (xB + Ideal.ofBits .f32 0x3ED1EB85#32 * hB * H)
        - max (xA - Ideal.ofBits .f32 0x3ED1EB85#32 * hA * H) (xB - Ideal.ofBits .f32 0x3ED1EB85#32 * hB * H)) Z

/-- The union plus the small constant, as the kernel spells it. -/
def kU (hA yA xA hB yB xB : EReal) : EReal :=
  hA * hA * Ideal.ofBits .f32 0x3ED1EB85#32 + hB * hB * Ideal.ofBits .f32 0x3ED1EB85#32 - kI hA yA xA hB yB xB
    + Ideal.ofBits .f32 0x358637BD#32

/-- The kernel's quotient is the specification's intersection over union, for all extended reals. -/
theorem kIou_eq (hA yA xA hB yB xB : EReal) :
    Ideal.div (kI hA yA xA hB yB xB) (kU hA yA xA hB yB xB) = Spec.iou hA yA xA hB yB xB := by
  unfold kU kI Spec.iou Spec.k2 Spec.c41 Spec.e6
  simp only [LibHalves.mul_half_eq_div_two, LibHalves.ofBits_zero, max_comm _ (0 : EReal)]

variable (x0 : Vec Ideal S1x4x4096 .f32) (x1 : Vec Ideal S1x4x2x4096 .f32) (x2 : Vec Ideal S1x4x4096 .f32)

/-- The intersection payload at corner `c`, lane `n`, over any operands. -/
theorem pay17_apply (v17 v20 v22 v35 : FVec Ideal S4x4096 .f32) (v18 v24 v26 v37 : FVec Ideal S1x4096 .f32) (c : Fin 4) (n : Fin 4096) :
    k0_pay17 v17 v18 v20 v22 v24 v26 v35 v37 (ix2 c n)
      = max (min (v20 (ix2 c n) + v17 (ix2 c n) * H) (v24 (ix2 (0 : Fin 1) n) + v18 (ix2 (0 : Fin 1) n) * H)
            - max (v35 (ix2 c n)) (v24 (ix2 (0 : Fin 1) n) - v37 (ix2 (0 : Fin 1) n))) Z
        * max (min (v22 (ix2 c n) + Ideal.ofBits .f32 0x3ED1EB85#32 * v17 (ix2 c n) * H)
                (v26 (ix2 (0 : Fin 1) n) + Ideal.ofBits .f32 0x3ED1EB85#32 * v18 (ix2 (0 : Fin 1) n) * H)
            - max (v22 (ix2 c n) - Ideal.ofBits .f32 0x3ED1EB85#32 * v17 (ix2 c n) * H)
                (v26 (ix2 (0 : Fin 1) n) - Ideal.ofBits .f32 0x3ED1EB85#32 * v18 (ix2 (0 : Fin 1) n) * H)) Z := by
  unfold k0_pay17
  simp only [mulf_apply, maximumf_apply, minimumf_apply, subf_apply, addf_apply, broadcast_apply, broadcastTo_1b_ab_apply]
  rfl

theorem pay13_apply (c : Fin 4) (n : Fin 4096) :
    k0_pay13 x0 (ix2 c n) = Ideal.exp (hs x0 n c) * Ideal.exp (hs x0 n c) * Ideal.ofBits .f32 0x3ED1EB85#32 := by
  unfold k0_pay13
  show k0_pay7 x0 (ix2 c n) * k0_pay7 x0 (ix2 c n) * Ideal.ofBits .f32 0x3ED1EB85#32 = _
  rw [pay7_apply]

theorem pay14_apply (n : Fin 4096) :
    k0_pay14 x0 (ix2 (0 : Fin 1) n)
      = Ideal.exp (Spec.mean4 (hs x0 n)) * Ideal.exp (Spec.mean4 (hs x0 n)) * Ideal.ofBits .f32 0x3ED1EB85#32 := by
  unfold k0_pay14
  show k0_pay8 x0 (ix2 (0 : Fin 1) n) * k0_pay8 x0 (ix2 (0 : Fin 1) n) * Ideal.ofBits .f32 0x3ED1EB85#32 = _
  rw [pay8_apply]

theorem pay15_apply (c : Fin 4) (n : Fin 4096) : k0_pay15 x0 x1 (ix2 c n) = ys x1 n c - Ideal.exp (hs x0 n c) * H := by
  unfold k0_pay15
  show k0_pay9 x1 (ix2 c n) - k0_pay7 x0 (ix2 c n) * H = _
  rw [pay9_apply, pay7_apply]

theorem pay16_apply (n : Fin 4096) : k0_pay16 x0 (ix2 (0 : Fin 1) n) = Ideal.exp (Spec.mean4 (hs x0 n)) * H := by
  unfold k0_pay16
  show k0_pay8 x0 (ix2 (0 : Fin 1) n) * H = _
  rw [pay8_apply]

/-- The intersection of corner `c`'s box with the mean box at lane `n`. -/
theorem inter_apply (c : Fin 4) (n : Fin 4096) :
    inter x0 x1 (ix2 c n)
      = kI (Ideal.exp (hs x0 n c)) (ys x1 n c) (xs x1 n c)
          (Ideal.exp (Spec.mean4 (hs x0 n))) (Spec.mean4 (ys x1 n)) (Spec.mean4 (xs x1 n)) := by
  unfold inter
  rw [pay17_apply, pay7_apply, pay8_apply, pay9_apply, pay10_apply, pay11_apply, pay12_apply, pay15_apply, pay16_apply]
  rfl

/-- The denominator payload at corner `c`, lane `n`, over any operands. -/
theorem pay18_apply (v17 v20 v22 v29 v35 : FVec Ideal S4x4096 .f32) (v18 v24 v26 v32 v37 : FVec Ideal S1x4096 .f32) (c : Fin 4) (n : Fin 4096) :
    k0_pay18 v17 v18 v20 v22 v24 v26 v29 v32 v35 v37 (ix2 c n)
      = v29 (ix2 c n) + v32 (ix2 (0 : Fin 1) n) - k0_pay17 v17 v18 v20 v22 v24 v26 v35 v37 (ix2 c n)
          + Ideal.ofBits .f32 0x358637BD#32 := by
  unfold k0_pay18
  simp only [subf_apply, addf_apply, broadcast_apply, broadcastTo_1b_ab_apply]
  rfl

theorem denom_apply (c : Fin 4) (n : Fin 4096) :
    denom x0 x1 (ix2 c n)
      = kU (Ideal.exp (hs x0 n c)) (ys x1 n c) (xs x1 n c)
          (Ideal.exp (Spec.mean4 (hs x0 n))) (Spec.mean4 (ys x1 n)) (Spec.mean4 (xs x1 n)) := by
  unfold denom
  rw [pay18_apply]
  show k0_pay13 x0 (ix2 c n) + k0_pay14 x0 (ix2 (0 : Fin 1) n) - inter x0 x1 (ix2 c n) + Ideal.ofBits .f32 0x358637BD#32 = _
  rw [pay13_apply, pay14_apply, inter_apply]
  rfl

end Cert.KerAttract
-- ==== Proof.KerAttractVal3.lean ====
/-
  Region 0 of the kernel program, read at the extended reals: one run of the body leaves, in the one-element block,
  the block's earlier contents plus the sum over the four corners and the 4096 lanes of the masked `1 - iou`.
-/
import proofs.«139320_j2216203125376_2_alg».proof.Proof.KerAttractVal2

noncomputable section

open Idealize.ShloMosaic Idealize.ShloMosaic.ValueIdx

namespace Cert.KerAttract

open Cert.KernelIdeal Cert.KernelIdeal.Gen

/-- A vector made a one-column matrix: `[a]` read as `[a, 1]`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the lanes of a `[4, 4096]` array, at corner `c`. -/
theorem sum_lanes (L : FVec Ideal S4x4096 .f32) (c : Fin 4) :
    multiReduction (F := Ideal) .add [1] S4 L 0x00000000#32 reduces_S4x4096_S4 (.inl rfl) rfl (ix1 c)
      = ∑ n : Fin 4096, L (ix2 c n) := by
  refine (Ideal.multiReduction_add_single L _ reduces_S4x4096_S4 (.inl rfl) rfl (ix1 c)).trans ?_
  show ∑ n : Fin 4096, L (reduces_S4x4096_S4.lift (ix1 c) n) = _
  refine Finset.sum_congr rfl fun n _ => ?_
  have e : reduces_S4x4096_S4.lift (ix1 c) n = ix2 c n := by
    funext a; apply Fin.ext
    match a with
    | ⟨0, _⟩ => rfl
    | ⟨1, _⟩ => rfl
  rw [e]

/-- The sum over the corners of a `[4, 1]` array. -/
theorem sum_corners (M : FVec Ideal S4x1 .f32) :
    multiReduction (F := Ideal) .add [0] S1 M 0x00000000#32 reduces_S4x1_S1 (.inl rfl) rfl (ix1 (0 : Fin 1))
      = ∑ c : Fin 4, M (ix2 c (0 : Fin 1)) := by
  refine (Ideal.multiReduction_add_single M _ reduces_S4x1_S1 (.inl rfl) rfl (ix1 (0 : Fin 1))).trans ?_
  show ∑ c : Fin 4, M (reduces_S4x1_S1.lift (ix1 (0 : Fin 1)) c) = _
  refine Finset.sum_congr rfl fun c _ => ?_
  have e : reduces_S4x1_S1.lift (ix1 (0 : Fin 1)) c = ix2 c (0 : Fin 1) := by
    funext a; apply Fin.ext
    match a with
    | ⟨0, _⟩ => rfl
    | ⟨1, _⟩ => rfl
  rw [e]

/-- The masked term of one corner at one lane, over any operands: `1 - I / U` where the mask exceeds 1/2, else +0. -/
def loss (v8 v79 v84 : FVec Ideal S4x4096 .f32) : FVec Ideal S4x4096 .f32 :=
  fun i => Scalar.select (Ideal.cmp .ogt (v8 i) H) (Spec.k1 - Ideal.div (v79 i) (v84 i)) Z

/-- The store's payload at its one index, over any operands. -/
theorem pay1_apply (v8 v79 v84 : FVec Ideal S4x4096 .f32) (v96 : Vec Ideal S1x1 .f32) :
    k0_pay1 v8 v79 v84 v96 (ix2 (0 : Fin 1) (0 : Fin 1))
      = v96 (ix2 (0 : Fin 1) (0 : Fin 1)) + ∑ c : Fin 4, ∑ n : Fin 4096, loss v8 v79 v84 (ix2 c n) := by
  unfold k0_pay1
  show shapeCast S1x1 v96 shapeCasts_S1x1_S1x1 (ix2 (0 : Fin 1) (0 : Fin 1))
      + shapeCast S1x1 (multiReduction (F := Ideal) .add [0] S1
          (shapeCast S4x1 (multiReduction (F := Ideal) .add [1] S4 (loss v8 v79 v84) 0x00000000#32 reduces_S4x4096_S4 (.inl rfl) rfl)
            shapeCasts_S4_S4x1) 0x00000000#32 reduces_S4x1_S1 (.inl rfl) rfl) shapeCasts_S1_S1x1 (ix2 (0 : Fin 1) (0 : Fin 1)) = _
  rw [shapeCast_self, shapeCast_a_1a_apply _ _ (0 : Fin 1) (0 : Fin 1), sum_corners]
  refine congrArg (v96 (ix2 (0 : Fin 1) (0 : Fin 1)) + ·) (Finset.sum_congr rfl fun c _ => ?_)
  rw [shapeCast_a_a1_apply _ _ c (0 : Fin 1), sum_lanes]

variable (x0 : Vec Ideal S1x4x4096 .f32) (x1 : Vec Ideal S1x4x2x4096 .f32) (x2 : Vec Ideal S1x4x4096 .f32)

/-- What one block contributes: over the four corners and the lanes, `1 - iou` of the corner's box against the box of
    the corners' means where the mask exceeds 1/2, else 0. -/
def blockSum : EReal :=
  ∑ c : Fin 4, ∑ n : Fin 4096,
    Scalar.select (Ideal.cmp .ogt (x2 (ix3 (0 : Fin 1) c n)) (Ideal.ofBits .f32 0x3F000000#32))
      (Spec.k1 - Spec.attractIou (hs x0 n) (ys x1 n) (xs x1 n) c) 0

/-- One run of the body adds the block's contribution to the earlier contents. -/
theorem body_apply (acc : Vec Ideal S1x1 .f32) :
    body x0 x1 x2 acc (ix2 (0 : Fin 1) (0 : Fin 1)) = acc (ix2 (0 : Fin 1) (0 : Fin 1)) + blockSum x0 x1 x2 := by
  unfold body blockSum
  rw [pay1_apply]
  refine congrArg (acc (ix2 (0 : Fin 1) (0 : Fin 1)) + ·) (Finset.sum_congr rfl fun c _ => Finset.sum_congr rfl fun n _ => ?_)
  unfold loss
  have hZ : Z = 0 := LibHalves.ofBits_zero
  rw [pay5_apply, inter_apply, denom_apply, kIou_eq, hZ]
  rfl

/-- The zero block at its index. -/
theorem zero_apply : (zero : Vec Ideal S1x1 .f32) (ix2 (0 : Fin 1) (0 : Fin 1)) = 0 := by
  show Ideal.ofBits .f32 0x00000000#32 = 0
  exact LibHalves.ofBits_zero

end Cert.KerAttract
-- ==== Proof.KerAttractAcc.lean ====
/-
  Region 0 of the kernel program: what the one-element output block holds after each grid point.  Point `t` finds in
  its three input windows batch `t` of the three arrays the region finds, so the block after point `n` holds the sum
  over the batches `0 … n` of each batch's masked sum; after the last point, the sum over all 64 batches.
-/
import proofs.«139320_j2216203125376_2_alg».proof.Proof.KerAttractVal3
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KerAttract

open Cert.KernelIdeal Cert.KernelIdeal.Gen

/-- What batch `b` contributes: over the four corners and the 4096 lanes, `1 - iou` of the corner's box against the
    box of the four corners' means where the mask exceeds 1/2, else 0. -/
def partA (X0 : S64x4x4096.Idx → EReal) (X1 : S64x4x2x4096.Idx → EReal) (X2 : S64x4x4096.Idx → EReal) (b : Fin 64) : EReal :=
  ∑ c : Fin 4, ∑ n : Fin 4096,
    Scalar.select (Ideal.cmp .ogt (X2 (ix3 b c n)) (Ideal.ofBits .f32 0x3F000000#32))
      (Spec.k1 - Spec.attractIou (fun k => X0 (ix3 b k n)) (fun k => X1 (ix4 b k (0 : Fin 2) n))
        (fun k => X1 (ix4 b k (1 : Fin 2) n)) c) 0

variable (V : (c : Dev nD) → (b : Ref sig .tc) → Buf (Elt Ideal) ((c : Thread nD τ).loc b))

/-- The three arrays the region finds. -/
abbrev X0 (c : Dev nD) : S64x4x4096.Idx → EReal := V c (Pipeline.arrRef spec0 0)
abbrev X1 (c : Dev nD) : S64x4x2x4096.Idx → EReal := V c (Pipeline.arrRef spec0 1)
abbrev X2 (c : Dev nD) : S64x4x4096.Idx → EReal := V c (Pipeline.arrRef spec0 2)

/-- The block index of each input window at a point is the point's number on the batch axis, zero elsewhere. -/
theorem index0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index0_1 : ∀ t : Fin cfg0.N,
    win0_1.index t 0 = t.val ∧ win0_1.index t 1 = 0 ∧ win0_1.index t 2 = 0 ∧ win0_1.index t 3 = 0 :=
  (by decide +kernel : ∀ t : Fin grid0.N,
    win0_1.index t 0 = t.val ∧ win0_1.index t 1 = 0 ∧ win0_1.index t 2 = 0 ∧ win0_1.index t 3 = 0)
theorem index0_2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- Window 0's block at point `t` is batch `t` of the first array. -/
theorem iblk0_0_apply (c : Dev nD) (t : Fin cfg0.N) (b : Fin 64) (hb : b.val = t.val) (k : Fin 4) (n : Fin 4096) :
    (iblk0 V c 0 t : Vec Ideal S1x4x4096 .f32) (ix3 (0 : Fin 1) k n) = X0 V c (ix3 b k n) := by
  obtain ⟨i0, i1, i2⟩ := index0_0 t
  unfold iblk0
  rw [View.read_apply]
  refine congrArg (V c (Pipeline.arrRef spec0 0)) ?_
  funext a
  apply Fin.ext
  match a with
  | ⟨0, _⟩ => show win0_0.index t 0 * 1 + 1 * 0 = b.val; rw [i0, hb]; omega
  | ⟨1, _⟩ => show win0_0.index t 1 * 4 + 1 * k.val = k.val; rw [i1]; omega
  | ⟨2, _⟩ => show win0_0.index t 2 * 4096 + 1 * n.val = n.val; rw [i2]; omega

/-- Window 1's block at point `t` is batch `t` of the second array. -/
theorem iblk0_1_apply (c : Dev nD) (t : Fin cfg0.N) (b : Fin 64) (hb : b.val = t.val) (k : Fin 4) (ch : Fin 2) (n : Fin 4096) :
    (iblk0 V c 1 t : Vec Ideal S1x4x2x4096 .f32) (ix4 (0 : Fin 1) k ch n) = X1 V c (ix4 b k ch n) := by
  obtain ⟨i0, i1, i2, i3⟩ := index0_1 t
  unfold iblk0
  rw [View.read_apply]
  refine congrArg (V c (Pipeline.arrRef spec0 1)) ?_
  funext a
  apply Fin.ext
  match a with
  | ⟨0, _⟩ => show win0_1.index t 0 * 1 + 1 * 0 = b.val; rw [i0, hb]; omega
  | ⟨1, _⟩ => show win0_1.index t 1 * 4 + 1 * k.val = k.val; rw [i1]; omega
  | ⟨2, _⟩ => show win0_1.index t 2 * 2 + 1 * ch.val = ch.val; rw [i2]; omega
  | ⟨3, _⟩ => show win0_1.index t 3 * 4096 + 1 * n.val = n.val; rw [i3]; omega

/-- Window 2's block at point `t` is batch `t` of the third array. -/
theorem iblk0_2_apply (c : Dev nD) (t : Fin cfg0.N) (b : Fin 64) (hb : b.val = t.val) (k : Fin 4) (n : Fin 4096) :
    (iblk0 V c 2 t : Vec Ideal S1x4x4096 .f32) (ix3 (0 : Fin 1) k n) = X2 V c (ix3 b k n) := by
  obtain ⟨i0, i1, i2⟩ := index0_2 t
  unfold iblk0
  rw [View.read_apply]
  refine congrArg (V c (Pipeline.arrRef spec0 2)) ?_
  funext a
  apply Fin.ext
  match a with
  | ⟨0, _⟩ => show win0_2.index t 0 * 1 + 1 * 0 = b.val; rw [i0, hb]; omega
  | ⟨1, _⟩ => show win0_2.index t 1 * 4 + 1 * k.val = k.val; rw [i1]; omega
  | ⟨2, _⟩ => show win0_2.index t 2 * 4096 + 1 * n.val = n.val; rw [i2]; omega

/-- So the contribution of point `t`'s blocks is batch `t`'s. -/
theorem blockSum_iblk (c : Dev nD) (t : Fin cfg0.N) (b : Fin 64) (hb : b.val = t.val) :
    blockSum (iblk0 V c 0 t) (iblk0 V c 1 t) (iblk0 V c 2 t) = partA (X0 V c) (X1 V c) (X2 V c) b := by
  unfold blockSum partA
  refine Finset.sum_congr rfl fun k _ => Finset.sum_congr rfl fun n _ => ?_
  have e0 : hs (iblk0 V c 0 t) n = fun k => X0 V c (ix3 b k n) := funext fun k => iblk0_0_apply V c t b hb k n
  have e1 : ys (iblk0 V c 1 t) n = fun k => X1 V c (ix4 b k (0 : Fin 2) n) := funext fun k => iblk0_1_apply V c t b hb k 0 n
  have e2 : xs (iblk0 V c 1 t) n = fun k => X1 V c (ix4 b k (1 : Fin 2) n) := funext fun k => iblk0_1_apply V c t b hb k 1 n
  rw [e0, e1, e2, iblk0_2_apply V c t b hb k n]

/-- The first point leaves its batch's contribution. -/
theorem step_A (c : Dev nD) (t : Fin cfg0.N) (h0 : t.val % 64 = 0) :
    outsAt0 V c t.val t.isLt (ix2 (0 : Fin 1) (0 : Fin 1)) = blockSum (iblk0 V c 0 t) (iblk0 V c 1 t) (iblk0 V c 2 t) := by
  rw [outsAt0_A V c t h0]
  refine (congrFun (out_A (F := Ideal) c (grid0.coords t) (ms0_0 t) (hs0_0 t) (ms0_1 t) (hs0_1 t) (ms0_2 t) (hs0_2 t)
    (ms0_3 t) (hs0_3 t) ((hcond0_0 t).mpr h0) (iblk0 V c 0 t) (iblk0 V c 1 t) (iblk0 V c 2 t)) _).trans ?_
  rw [body_apply, zero_apply, zero_add]

/-- Every other point adds its batch's contribution to what the point before left. -/
theorem step_B (c : Dev nD) (t : Fin cfg0.N) (h0 : ¬t.val % 64 = 0) :
    outsAt0 V c t.val t.isLt (ix2 (0 : Fin 1) (0 : Fin 1))
      = outsAt0 V c (t.val - 1) (Nat.lt_of_le_of_lt (Nat.sub_le _ _) t.isLt) (ix2 (0 : Fin 1) (0 : Fin 1))
        + blockSum (iblk0 V c 0 t) (iblk0 V c 1 t) (iblk0 V c 2 t) := by
  rw [outsAt0_B V c t h0]
  refine (congrFun (out_B (F := Ideal) c (grid0.coords t) (ms0_0 t) (hs0_0 t) (ms0_1 t) (hs0_1 t) (ms0_2 t) (hs0_2 t)
    (ms0_3 t) (hs0_3 t) (fun h => h0 ((hcond0_0 t).mp h)) (iblk0 V c 0 t) (iblk0 V c 1 t) (iblk0 V c 2 t)
    (outsAt0 V c (t.val - 1) (Nat.lt_of_le_of_lt (Nat.sub_le _ _) t.isLt))) _).trans ?_
  rw [body_apply]

/-- After point `n` the block holds the sum of the contributions of the batches `0 … n`. -/
theorem outsAt_apply (c : Dev nD) : ∀ (n : ℕ) (h : n < cfg0.N),
    outsAt0 V c n h (ix2 (0 : Fin 1) (0 : Fin 1))
      = ∑ b : Fin (n + 1), partA (X0 V c) (X1 V c) (X2 V c) (Fin.castLE (Nat.succ_le_of_lt (lt_of_lt_of_eq h N_0)) b)
  | 0, h => by
    rw [step_A V c ⟨0, h⟩ rfl, blockSum_iblk V c ⟨0, h⟩ (0 : Fin 64) rfl, Fin.sum_univ_one]
    rfl
  | n + 1, h => by
    have hN : n + 1 < 64 := lt_of_lt_of_eq h N_0
    have hB : ¬(⟨n + 1, h⟩ : Fin cfg0.N).val % 64 = 0 := by dsimp only; omega
    rw [step_B V c ⟨n + 1, h⟩ hB, blockSum_iblk V c ⟨n + 1, h⟩ ⟨n + 1, hN⟩ rfl, Fin.sum_univ_castSucc]
    show outsAt0 V c n _ (ix2 (0 : Fin 1) (0 : Fin 1)) + _ = _
    rw [outsAt_apply c n]
    rfl

/-- After the last point the block holds the sum over all 64 batches. -/
theorem outsAt_last (c : Dev nD) (h : 63 < cfg0.N) :
    outsAt0 V c 63 h = fun _ => ∑ b : Fin 64, partA (X0 V c) (X1 V c) (X2 V c) b := by
  funext j
  have hj : j = ix2 (0 : Fin 1) (0 : Fin 1) := by
    have h0 : (j 0).val < 1 := idx2_lt0 (n0 := 1) (n1 := 1) j
    have h1 : (j 1).val < 1 := idx2_lt1 (n0 := 1) (n1 := 1) j
    funext a; apply Fin.ext
    match a with
    | ⟨0, _⟩ => show (j 0).val = 0; omega
    | ⟨1, _⟩ => show (j 1).val = 0; omega
  rw [hj, outsAt_apply V c 63 h]
  rfl

end Cert.KerAttract
-- ==== Proof.KerAttract.lean ====
/-
  Region 0 of the kernel program: its one-element result array after the region holds the sum, over all 64 batches,
  of each batch's masked sum of `1 - iou`.  The output window's block index never moves and the block is written back
  after the last grid point only, so the array ends holding what the last point leaves.
-/
import proofs.«139320_j2216203125376_2_alg».proof.Proof.KerAttractAcc

noncomputable section

open Idealize.ShloMosaic Idealize.ShloMosaic.TcCoe Idealize.SL.Sem Idealize.ShloMosaic.ValueIdx
open Idealize.ShloMosaic.Pipeline (Dat)

namespace Cert.KerAttract

open Cert.KernelIdeal Cert.KernelIdeal.Gen

variable (V : (c : Dev nD) → (b : Ref sig .tc) → Buf (Elt Ideal) ((c : Thread nD τ).loc b))

/-- The last grid point. -/
theorem lt63 : 63 < cfg0.N := by rw [show cfg0.N = 64 from N_0]; decide
abbrev tLast : Fin cfg0.N := ⟨63, lt63⟩

/-- The sum over all batches. -/
def total (c : Dev nD) : EReal := ∑ b : Fin 64, partA (X0 V c) (X1 V c) (X2 V c) b

/-- The one write-back, after the last point, writes the total. -/
theorem flushed_eq (c : Dev nD) (t : Fin cfg0.N) (hf : (cfg0.win 3).flush t = true) :
    (dat0 V c).flushed 3 t = ((cfg0.win 3).blk t).view.read (Elt Ideal) (fun _ => total V c) := by
  have hN : cfg0.N = 64 := N_0
  have h63 : t.val = 63 := by have := (flush0_3 t).mp hf; have := t.isLt; omega
  obtain rfl : t = tLast := Fin.ext h63
  show (cfg0.win 3).cut (grid0.coords tLast) ((dat0 V c).after 3 tLast) = _
  rw [after0_3]
  show (cfg0.win 3).cut (grid0.coords tLast) (outsAt0 V c 63 lt63) = _
  rw [outsAt_last V c lt63]
  rfl

/-- So the result array ends holding the total at its one index. -/
theorem region0_total (c : Dev nD) : (dat0 V c).arrAt 3 cfg0.N = fun _ => total V c :=
  (dat0 V c).arrAt_eq_of_cover 3 (fun _ => total V c) (flushed_eq V c) fun i =>
    ⟨tLast, (flush0_3 tLast).mpr rfl, by
      show i ∈ ((View.whole main_v44).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The same with the sum written out. -/
theorem region0_out (c : Dev nD) :
    (dat0 V c).arrAt 3 cfg0.N = fun _ => ∑ b : Fin 64, partA (X0 V c) (X1 V c) (X2 V c) b :=
  region0_total V c

end Cert.KerAttract
-- ==== Proof.KerRepelOut.lean ====
/-
  Region 1 (the repel kernel): what the two control cases of its body leave in the one-element output block,
  as ONE pure term `body` over the blocks the body loads — the masked sum of the block's intersection-over-union
  values added to what the block held (`xo`), or to the zero the first point stores.
-/
import proofs.«139320_j2216203125376_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KerRepel

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's one store, over the four loaded blocks and the value `xo` the output block held: the payloads composed
    as the body composes them. -/
def body (x0 : Vec F S1x8x2048 .f32) (x1 : Vec F S1x8x2x2048 .f32) (x2 : Vec F S1x1x2048 .f32)
    (x3 : Vec F S1x2x2048 .f32) (xo : Vec F S1x1 .f32) : Vec F S1x1 .f32 :=
  k1_pay1 (k1_pay5 x2) (k1_pay17 (k1_pay7 x0)) (k1_pay18 (k1_pay8 x0))
    (k1_pay19 (k1_pay7 x0) (k1_pay8 x0) (k1_pay10 (k1_pay4 x1) (k1_pay9 x1)) (k1_pay12 (k1_pay4 x1) (k1_pay6 x3)))
    (k1_pay20 (k1_pay6 x3) (k1_pay7 x0) (k1_pay8 x0) (k1_pay11 (k1_pay4 x1)) (k1_pay13 (k1_pay4 x1)))
    (k1_pay21 (k1_pay7 x0) (k1_pay8 x0) (k1_pay10 (k1_pay4 x1) (k1_pay9 x1)) (k1_pay12 (k1_pay4 x1) (k1_pay6 x3)))
    (k1_pay22 (k1_pay6 x3) (k1_pay7 x0) (k1_pay8 x0) (k1_pay11 (k1_pay4 x1)) (k1_pay13 (k1_pay4 x1)))
    xo

/-- Every point but the first: the block holding `xo` is left at `body … xo`. -/
theorem out_B (c : Dev nD) (i : grid1.Coords) (a1 : Memref sig .tc .vmem S1x8x2048 .f32) (h1 : a1.IsWhole)
    (a2 : Memref sig .tc .vmem S1x8x2x2048 .f32) (h2 : a2.IsWhole) (a3 : Memref sig .tc .vmem S1x1x2048 .f32) (h3 : a3.IsWhole)
    (a4 : Memref sig .tc .vmem S1x2x2048 .f32) (h4 : a4.IsWhole) (a5 : Memref sig .tc .vmem S1x1 .f32) (h5 : a5.IsWhole)
    (hc : ¬cond1_0 i) (x0 : Vec F S1x8x2048 .f32) (x1 : Vec F S1x8x2x2048 .f32) (x2 : Vec F S1x1x2048 .f32)
    (x3 : Vec F S1x2x2048 .f32) (xo : Vec F S1x1 .f32) :
    out1_B_4 c i a1 h1 a2 h2 a3 h3 a4 h4 a5 h5 hc x0 x1 x2 x3 xo = body x0 x1 x2 x3 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz2]
  simp only [View.readAt_eq_ld, h1.read_unread, h2.read_unread, h3.read_unread, h4.read_unread, h5.read_unread,
    View.ld_unit_zero (S := S1x8x2048) hz3, View.ld_unit_zero (S := S1x8x2x2048) hz4,
    View.ld_unit_zero (S := S1x1x2048) hz3, View.ld_unit_zero (S := S1x2x2048) hz3, View.ld_unit_zero (S := S1x1) hz2]
  rfl

/-- The first point: the block is zeroed (`k1_pay2`), read back, and left at `body … 0`. -/
theorem out_A (c : Dev nD) (i : grid1.Coords) (a1 : Memref sig .tc .vmem S1x8x2048 .f32) (h1 : a1.IsWhole)
    (a2 : Memref sig .tc .vmem S1x8x2x2048 .f32) (h2 : a2.IsWhole) (a3 : Memref sig .tc .vmem S1x1x2048 .f32) (h3 : a3.IsWhole)
    (a4 : Memref sig .tc .vmem S1x2x2048 .f32) (h4 : a4.IsWhole) (a5 : Memref sig .tc .vmem S1x1 .f32) (h5 : a5.IsWhole)
    (hc : cond1_0 i) (x0 : Vec F S1x8x2048 .f32) (x1 : Vec F S1x8x2x2048 .f32) (x2 : Vec F S1x1x2048 .f32)
    (x3 : Vec F S1x2x2048 .f32) :
    out1_A_4 c i a1 h1 a2 h2 a3 h3 a4 h4 a5 h5 hc x0 x1 x2 x3 = body x0 x1 x2 x3 (k1_pay2 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S1x8x2048) hz3, View.ld_unit_zero (S := S1x8x2x2048) hz4,
    View.ld_unit_zero (S := S1x1x2048) hz3, View.ld_unit_zero (S := S1x2x2048) hz3, View.ld_unit_zero (S := S1x1) hz2]
  rfl

end Cert.KerRepel

end
-- ==== Proof.KerRepelIou.lean ====
/-
  The repel kernel's arithmetic at one lane, over the extended reals: the kernel writes a mean as a four-term sum
  times 1/4, a half as a product with 1/2, and the clip as `max d 0`; the specification divides by 4 and by 2 and
  writes `max 0 d`. The two spellings are one value for every extended real.
-/
import proofs.«139320_j2216203125376_2_alg».proof.Proof.Spec
import proofs.«139320_j2216203125376_2_alg».proof.Proof.LibHalves

noncomputable section

namespace Cert.KerRepel

open Idealize.ShloMosaic

/-- The patterns of 1/2, 1/4 and +0 the kernel spells. -/
abbrev H : EReal := Ideal.ofBits .f32 0x3F000000#32
abbrev Q : EReal := Ideal.ofBits .f32 0x3E800000#32
abbrev Z : EReal := Ideal.ofBits .f32 0x00000000#32

/-- The intersection of the two boxes as the kernel spells it. -/
def kI (hA yA xA hB yB xB : EReal) : EReal :=
  max (min (yA + hA * H) (yB + hB * H) - max (yA - hA * H) (yB - hB * H)) Z
    * max (min (xA + Ideal.ofBits .f32 0x3ED1EB85#32 * hA * H) (xB + Ideal.ofBits .f32 0x3ED1EB85#32 * hB * H)
        - max (xA - Ideal.ofBits .f32 0x3ED1EB85#32 * hA * H) (xB - Ideal.ofBits .f32 0x3ED1EB85#32 * hB * H)) Z

/-- The intersection over union as the kernel spells it. -/
def kIou (hA yA xA hB yB xB : EReal) : EReal :=
  Ideal.div (kI hA yA xA hB yB xB)
    (hA * hA * Ideal.ofBits .f32 0x3ED1EB85#32 + hB * hB * Ideal.ofBits .f32 0x3ED1EB85#32 - kI hA yA xA hB yB xB
      + Ideal.ofBits .f32 0x358637BD#32)

theorem kIou_eq (hA yA xA hB yB xB : EReal) : kIou hA yA xA hB yB xB = Spec.iou hA yA xA hB yB xB := by
  unfold kIou kI Spec.iou Spec.k2 Spec.c41 Spec.e6
  simp only [LibHalves.mul_half_eq_div_two, LibHalves.ofBits_zero, max_comm _ (0 : EReal)]

/-- A four-term sum times 1/4 is the mean. -/
theorem kMean_eq (f : Fin 4 → EReal) : (f 0 + f 1 + f 2 + f 3) * Q = Spec.mean4 f := by
  unfold Spec.mean4 Spec.k4
  rw [Fin.sum_univ_four, LibHalves.mul_quarter_eq_div_four]

/-- The repel term at one lane as the kernel spells it, over the eight heights and sixteen offsets of the lane. -/
def kRepel (hA yA xA hB yB xB : Fin 4 → EReal) (py px : EReal) : EReal :=
  kIou (Ideal.exp ((hA 0 + hA 1 + hA 2 + hA 3) * Q)) ((yA 0 + yA 1 + yA 2 + yA 3) * Q) ((xA 0 + xA 1 + xA 2 + xA 3) * Q)
    (Ideal.exp ((hB 0 + hB 1 + hB 2 + hB 3) * Q)) ((yB 0 + yB 1 + yB 2 + yB 3) * Q + py) ((xB 0 + xB 1 + xB 2 + xB 3) * Q + px)

theorem kRepel_eq (hA yA xA hB yB xB : Fin 4 → EReal) (py px : EReal) :
    kRepel hA yA xA hB yB xB py px = Spec.repelIou hA yA xA hB yB xB py px := by
  unfold kRepel Spec.repelIou
  rw [kIou_eq, kMean_eq, kMean_eq, kMean_eq, kMean_eq, kMean_eq, kMean_eq]

end Cert.KerRepel

end
-- ==== Proof.KerRepelPoint.lean ====
/-
  Region 1 (the repel kernel): the body's one store read at an index, at the ideal instance. Each payload is read
  lane by lane over the block's coordinates: the reshapes and one-row slices name an element of a loaded block, the
  arithmetic is definitional at a lane, and the `multi_reduction` over the 2048 lanes is a sum over them.
-/
import proofs.«139320_j2216203125376_2_alg».proof.Proof.KerRepelOut
import proofs.«139320_j2216203125376_2_alg».proof.Proof.KerRepelIou
import Idealize.ShloMosaic.Lib.ValueIdx
import Idealize.ShloMosaic.Lib.ValueLayout
import Idealize.ShloMosaic.Lib.Pipeline.Value
import Idealize.ShloMosaic.PureOps.Ideal.Laws

noncomputable section

namespace Cert.KerRepel

open Idealize.ShloMosaic Idealize.ShloMosaic.ValueIdx
open Cert.KernelIdeal Cert.KernelIdeal.Gen

/-! ## Layout: a row of a block as a vector of lanes -/

section Layout
variable {α : Type}

/-- Row `o` of an `[8, 2048]` array, sliced out and cast to a vector, read at lane `mm`. -/
theorem row2_apply (x : S8x2048.Idx → α) (o : Nat) (r : Fin 8) (hr : r.val = o)
    (h2 : S8x2048.Slices ![o, 0] S1x2048) (h3 : S1x2048.ShapeCasts S2048) (mm : Fin 2048) :
    shapeCast S2048 (extractStridedSlice S1x2048 ![o, 0] x h2) h3 (ix1 mm) = x (ix2 r mm) :=
  (shapeCast_1a_a_apply _ h3 mm).trans
    (slice2_axis0_apply o x h2 (0 : Fin 1) mm r (by rw [hr]; rfl))

/-- Row `(o, p)` of an `[8, 2, 2048]` array, sliced out and cast to a vector, read at lane `mm`. -/
theorem row3_apply (x : S8x2x2048.Idx → α) (o p : Nat) (r : Fin 8) (ch : Fin 2) (hr : r.val = o) (hc : ch.val = p)
    (h2 : S8x2x2048.Slices ![o, p, 0] S1x1x2048) (h3 : S1x1x2048.ShapeCasts S2048) (mm : Fin 2048) :
    shapeCast S2048 (extractStridedSlice S1x1x2048 ![o, p, 0] x h2) h3 (ix1 mm) = x (ix3 r ch mm) :=
  (shapeCast_apply _ h3 (ix1 mm) (ix3 (0 : Fin 1) (0 : Fin 1) mm) (by
      rw [Shape.rowMajor_val_three, Shape.rowMajor_val_one]
      show (0 * 1 + 0) * 2048 + mm.val = mm.val
      omega)).trans
    (extractStridedSlice_apply _ x h2 (ix3 (0 : Fin 1) (0 : Fin 1) mm) (ix3 r ch mm) (fun a => by
      match a with
      | ⟨0, _⟩ => show r.val = o + 0; omega
      | ⟨1, _⟩ => show ch.val = p + 0; omega
      | ⟨2, _⟩ => show mm.val = 0 + mm.val; omega))

end Layout

/-! ## The payloads at a lane -/

/-- The pattern of 0.41. -/
abbrev C : EReal := Ideal.ofBits .f32 0x3ED1EB85#32

theorem pay3_apply (x0 : Vec Ideal S1x8x2048 .f32) (r : Fin 8) (mm : Fin 2048) :
    k1_pay3 x0 (ix2 r mm) = x0 (ix3 (0 : Fin 1) r mm) := by
  unfold k1_pay3
  exact shapeCast_1ab_ab_apply x0 _ r mm

theorem pay4_apply (x1 : Vec Ideal S1x8x2x2048 .f32) (r : Fin 8) (ch : Fin 2) (mm : Fin 2048) :
    k1_pay4 x1 (ix3 r ch mm) = x1 (ix4 (0 : Fin 1) r ch mm) := by
  unfold k1_pay4
  exact shapeCast_1abc_abc_apply x1 _ r ch mm

theorem pay5_apply (x2 : Vec Ideal S1x1x2048 .f32) (u : Fin 1) (mm : Fin 2048) :
    k1_pay5 x2 (ix2 u mm) = x2 (ix3 (0 : Fin 1) u mm) := by
  unfold k1_pay5
  exact shapeCast_1ab_ab_apply x2 _ u mm

theorem pay6_apply (x3 : Vec Ideal S1x2x2048 .f32) (ch : Fin 2) (mm : Fin 2048) :
    k1_pay6 x3 (ix2 ch mm) = x3 (ix3 (0 : Fin 1) ch mm) := by
  unfold k1_pay6
  exact shapeCast_1ab_ab_apply x3 _ ch mm

theorem pay7_apply (x0 : Vec Ideal S1x8x2048 .f32) (u : Fin 1) (mm : Fin 2048) :
    k1_pay7 x0 (ix2 u mm)
      = (k1_pay3 x0 (ix2 (0 : Fin 8) mm) + k1_pay3 x0 (ix2 (1 : Fin 8) mm) + k1_pay3 x0 (ix2 (2 : Fin 8) mm)
          + k1_pay3 x0 (ix2 (3 : Fin 8) mm)) * Q := by
  unfold k1_pay7
  show shapeCast S1x2048 _ _ (ix2 u mm) * Q = _
  refine congrArg (· * Q) ((shapeCast_a_1a_apply _ _ u mm).trans ?_)
  exact congrArg₂ (· + ·) (congrArg₂ (· + ·) (congrArg₂ (· + ·)
    (row2_apply (k1_pay3 x0) 0 0 rfl _ _ mm) (row2_apply (k1_pay3 x0) 1 1 rfl _ _ mm))
    (row2_apply (k1_pay3 x0) 2 2 rfl _ _ mm)) (row2_apply (k1_pay3 x0) 3 3 rfl _ _ mm)

theorem pay8_apply (x0 : Vec Ideal S1x8x2048 .f32) (u : Fin 1) (mm : Fin 2048) :
    k1_pay8 x0 (ix2 u mm)
      = (k1_pay3 x0 (ix2 (4 : Fin 8) mm) + k1_pay3 x0 (ix2 (5 : Fin 8) mm) + k1_pay3 x0 (ix2 (6 : Fin 8) mm)
          + k1_pay3 x0 (ix2 (7 : Fin 8) mm)) * Q := by
  unfold k1_pay8
  show shapeCast S1x2048 _ _ (ix2 u mm) * Q = _
  refine congrArg (· * Q) ((shapeCast_a_1a_apply _ _ u mm).trans ?_)
  exact congrArg₂ (· + ·) (congrArg₂ (· + ·) (congrArg₂ (· + ·)
    (row2_apply (k1_pay3 x0) 4 4 rfl _ _ mm) (row2_apply (k1_pay3 x0) 5 5 rfl _ _ mm))
    (row2_apply (k1_pay3 x0) 6 6 rfl _ _ mm)) (row2_apply (k1_pay3 x0) 7 7 rfl _ _ mm)

theorem pay9_apply (x1 : Vec Ideal S1x8x2x2048 .f32) (mm : Fin 2048) :
    k1_pay9 x1 (ix1 mm) = k1_pay4 x1 (ix3 (0 : Fin 8) (0 : Fin 2) mm) := by
  unfold k1_pay9
  exact row3_apply (k1_pay4 x1) 0 0 0 0 rfl rfl _ _ mm

theorem pay10_apply (v6 : FVec Ideal S8x2x2048 .f32) (v40 : FVec Ideal S2048 .f32) (u : Fin 1) (mm : Fin 2048) :
    k1_pay10 v6 v40 (ix2 u mm)
      = (v40 (ix1 mm) + v6 (ix3 (1 : Fin 8) (0 : Fin 2) mm) + v6 (ix3 (2 : Fin 8) (0 : Fin 2) mm)
          + v6 (ix3 (3 : Fin 8) (0 : Fin 2) mm)) * Q := by
  unfold k1_pay10
  show shapeCast S1x2048 _ _ (ix2 u mm) * Q = _
  refine congrArg (· * Q) ((shapeCast_a_1a_apply _ _ u mm).trans ?_)
  exact congrArg₂ (· + ·) (congrArg₂ (· + ·) (congrArg (v40 (ix1 mm) + ·)
    (row3_apply v6 1 0 1 0 rfl rfl _ _ mm)) (row3_apply v6 2 0 2 0 rfl rfl _ _ mm)) (row3_apply v6 3 0 3 0 rfl rfl _ _ mm)

theorem pay11_apply (v6 : FVec Ideal S8x2x2048 .f32) (u : Fin 1) (mm : Fin 2048) :
    k1_pay11 v6 (ix2 u mm)
      = (v6 (ix3 (0 : Fin 8) (1 : Fin 2) mm) + v6 (ix3 (1 : Fin 8) (1 : Fin 2) mm) + v6 (ix3 (2 : Fin 8) (1 : Fin 2) mm)
          + v6 (ix3 (3 : Fin 8) (1 : Fin 2) mm)) * Q := by
  unfold k1_pay11
  show shapeCast S1x2048 _ _ (ix2 u mm) * Q = _
  refine congrArg (· * Q) ((shapeCast_a_1a_apply _ _ u mm).trans ?_)
  exact congrArg₂ (· + ·) (congrArg₂ (· + ·) (congrArg₂ (· + ·)
    (row3_apply v6 0 1 0 1 rfl rfl _ _ mm) (row3_apply v6 1 1 1 1 rfl rfl _ _ mm))
    (row3_apply v6 2 1 2 1 rfl rfl _ _ mm)) (row3_apply v6 3 1 3 1 rfl rfl _ _ mm)

theorem pay12_apply (v6 : FVec Ideal S8x2x2048 .f32) (v10 : FVec Ideal S2x2048 .f32) (u : Fin 1) (mm : Fin 2048) :
    k1_pay12 v6 v10 (ix2 u mm)
      = (v6 (ix3 (4 : Fin 8) (0 : Fin 2) mm) + v6 (ix3 (5 : Fin 8) (0 : Fin 2) mm) + v6 (ix3 (6 : Fin 8) (0 : Fin 2) mm)
          + v6 (ix3 (7 : Fin 8) (0 : Fin 2) mm)) * Q + v10 (ix2 (0 : Fin 2) mm) := by
  unfold k1_pay12
  show shapeCast S1x2048 _ _ (ix2 u mm) * Q + extractStridedSlice S1x2048 ![0, 0] v10 _ (ix2 u mm) = _
  refine congrArg₂ (· + ·) (congrArg (· * Q) ((shapeCast_a_1a_apply _ _ u mm).trans ?_))
    (slice2_axis0_apply 0 v10 _ u mm (0 : Fin 2) (by have h0 : u.val = 0 := (by omega); rw [h0]; rfl))
  exact congrArg₂ (· + ·) (congrArg₂ (· + ·) (congrArg₂ (· + ·)
    (row3_apply v6 4 0 4 0 rfl rfl _ _ mm) (row3_apply v6 5 0 5 0 rfl rfl _ _ mm))
    (row3_apply v6 6 0 6 0 rfl rfl _ _ mm)) (row3_apply v6 7 0 7 0 rfl rfl _ _ mm)

theorem pay13_apply (v6 : FVec Ideal S8x2x2048 .f32) (u : Fin 1) (mm : Fin 2048) :
    k1_pay13 v6 (ix2 u mm)
      = (v6 (ix3 (4 : Fin 8) (1 : Fin 2) mm) + v6 (ix3 (5 : Fin 8) (1 : Fin 2) mm) + v6 (ix3 (6 : Fin 8) (1 : Fin 2) mm)
          + v6 (ix3 (7 : Fin 8) (1 : Fin 2) mm)) * Q := by
  unfold k1_pay13
  show shapeCast S1x2048 _ _ (ix2 u mm) * Q = _
  refine congrArg (· * Q) ((shapeCast_a_1a_apply _ _ u mm).trans ?_)
  exact congrArg₂ (· + ·) (congrArg₂ (· + ·) (congrArg₂ (· + ·)
    (row3_apply v6 4 1 4 1 rfl rfl _ _ mm) (row3_apply v6 5 1 5 1 rfl rfl _ _ mm))
    (row3_apply v6 6 1 6 1 rfl rfl _ _ mm)) (row3_apply v6 7 1 7 1 rfl rfl _ _ mm)

theorem pay14_apply (v10 : FVec Ideal S2x2048 .f32) (v96 : FVec Ideal S1x2048 .f32) (u : Fin 1) (mm : Fin 2048) :
    k1_pay14 v10 v96 (ix2 u mm) = v96 (ix2 u mm) + v10 (ix2 (1 : Fin 2) mm) := by
  unfold k1_pay14
  show v96 (ix2 u mm) + extractStridedSlice S1x2048 ![1, 0] v10 _ (ix2 u mm) = _
  exact congrArg (v96 (ix2 u mm) + ·) (slice2_axis0_apply 1 v10 _ u mm (1 : Fin 2) (by have h0 : u.val = 0 := (by omega); rw [h0]; rfl))

/-- The arithmetic payloads are definitional at a lane. -/
theorem pay17_apply (v24 : FVec Ideal S1x2048 .f32) (i : S1x2048.Idx) :
    k1_pay17 v24 i = Ideal.exp (v24 i) * Ideal.exp (v24 i) * C := rfl
theorem pay18_apply (v38 : FVec Ideal S1x2048 .f32) (i : S1x2048.Idx) :
    k1_pay18 v38 i = Ideal.exp (v38 i) * Ideal.exp (v38 i) * C := rfl
theorem pay19_apply (v24 v38 v52 v82 : FVec Ideal S1x2048 .f32) (i : S1x2048.Idx) :
    k1_pay19 v24 v38 v52 v82 i = max (v52 i - Ideal.exp (v24 i) * H) (v82 i - Ideal.exp (v38 i) * H) := rfl
theorem pay20_apply (v10 : FVec Ideal S2x2048 .f32) (v24 v38 v66 v96 : FVec Ideal S1x2048 .f32) (i : S1x2048.Idx) :
    k1_pay20 v10 v24 v38 v66 v96 i
      = max (v66 i - C * Ideal.exp (v24 i) * H) (k1_pay14 v10 v96 i - C * Ideal.exp (v38 i) * H) := rfl
theorem pay21_apply (v24 v38 v52 v82 : FVec Ideal S1x2048 .f32) (i : S1x2048.Idx) :
    k1_pay21 v24 v38 v52 v82 i = min (v52 i + Ideal.exp (v24 i) * H) (v82 i + Ideal.exp (v38 i) * H) := rfl
theorem pay22_apply (v10 : FVec Ideal S2x2048 .f32) (v24 v38 v66 v96 : FVec Ideal S1x2048 .f32) (i : S1x2048.Idx) :
    k1_pay22 v10 v24 v38 v66 v96 i
      = min (v66 i + C * Ideal.exp (v24 i) * H) (k1_pay14 v10 v96 i + C * Ideal.exp (v38 i) * H) := rfl

/-! ## The store's value at its one index -/

/-- The masked sum over the 2048 lanes, added to what the block held. -/
theorem pay1_apply (v8 v103 v106 v113 v124 v131 v142 : FVec Ideal S1x2048 .f32) (xo : Vec Ideal S1x1 .f32) (j : S1x1.Idx) :
    k1_pay1 v8 v103 v106 v113 v124 v131 v142 xo j = xo j + ∑ k : Fin 2048,
      Scalar.select (Ideal.cmp .ogt (v8 (ix2 (0 : Fin 1) k)) H)
        (Ideal.div (max (v131 (ix2 (0 : Fin 1) k) - v113 (ix2 (0 : Fin 1) k)) Z * max (v142 (ix2 (0 : Fin 1) k) - v124 (ix2 (0 : Fin 1) k)) Z)
          (v103 (ix2 (0 : Fin 1) k) + v106 (ix2 (0 : Fin 1) k)
            - max (v131 (ix2 (0 : Fin 1) k) - v113 (ix2 (0 : Fin 1) k)) Z * max (v142 (ix2 (0 : Fin 1) k) - v124 (ix2 (0 : Fin 1) k)) Z
            + Ideal.ofBits .f32 0x358637BD#32)) Z := by
  unfold k1_pay1
  refine (addf_apply _ _ j).trans ?_
  refine congrArg₂ (· + ·) (congrFun (shapeCast_self xo _) j) ?_
  refine (shapeCast_apply _ _ j (ix1 (0 : Fin 1)) ?_).trans ?_
  · rw [Shape.rowMajor_val_two, Shape.rowMajor_val_one]
    have h0 : (j 0).val < 1 := (j 0).isLt
    have h1 : (j 1).val < 1 := (j 1).isLt
    show 0 = (j 0).val * 1 + (j 1).val
    omega
  refine (Ideal.multiReduction_add_single _ _ _ _ _ (ix1 (0 : Fin 1))).trans ?_
  show ∑ k : Fin 2048, _ = _
  refine Finset.sum_congr rfl fun k _ => ?_
  have e : (Facts₀.reduces_S1x2048_S1).lift (ix1 (0 : Fin 1)) k = ix2 (0 : Fin 1) k := by
    funext a; apply Fin.ext
    match a with
    | ⟨0, _⟩ => rfl
    | ⟨1, _⟩ => rfl
  rw [e]
  rfl

/-- One lane of the repel term: the mask decides between the intersection over union of the two mean boxes and
    zero. `h`, `o0`, `o1` are the lane's eight heights and its eight offsets on each channel (the first four
    corners are box A's, the last four box B's), `m` its mask value, `(p0, p1)` the shift of box B. -/
def laneG (h o0 o1 : Fin 8 → EReal) (m p0 p1 : EReal) : EReal :=
  Scalar.select (Ideal.cmp .ogt m H)
    (Spec.repelIou (fun k : Fin 4 => h ⟨k.val, by have := k.isLt; omega⟩) (fun k : Fin 4 => o0 ⟨k.val, by have := k.isLt; omega⟩)
      (fun k : Fin 4 => o1 ⟨k.val, by have := k.isLt; omega⟩) (fun k : Fin 4 => h ⟨4 + k.val, by have := k.isLt; omega⟩)
      (fun k : Fin 4 => o0 ⟨4 + k.val, by have := k.isLt; omega⟩) (fun k : Fin 4 => o1 ⟨4 + k.val, by have := k.isLt; omega⟩) p0 p1)
    0

/-- The body's store at its one index: what the block held plus the sum of the 2048 lanes' terms. -/
theorem body_apply (x0 : Vec Ideal S1x8x2048 .f32) (x1 : Vec Ideal S1x8x2x2048 .f32) (x2 : Vec Ideal S1x1x2048 .f32)
    (x3 : Vec Ideal S1x2x2048 .f32) (xo : Vec Ideal S1x1 .f32) (j : S1x1.Idx) :
    body x0 x1 x2 x3 xo j = xo j + ∑ mm : Fin 2048,
      laneG (fun r => x0 (ix3 (0 : Fin 1) r mm)) (fun r => x1 (ix4 (0 : Fin 1) r (0 : Fin 2) mm))
        (fun r => x1 (ix4 (0 : Fin 1) r (1 : Fin 2) mm)) (x2 (ix3 (0 : Fin 1) (0 : Fin 1) mm))
        (x3 (ix3 (0 : Fin 1) (0 : Fin 2) mm)) (x3 (ix3 (0 : Fin 1) (1 : Fin 2) mm)) := by
  unfold body
  rw [pay1_apply]
  refine congrArg (xo j + ·) (Finset.sum_congr rfl fun mm _ => ?_)
  rw [pay5_apply, pay17_apply, pay18_apply, pay19_apply, pay20_apply, pay21_apply, pay22_apply, pay14_apply,
    pay7_apply, pay8_apply, pay10_apply, pay11_apply, pay12_apply, pay13_apply, pay9_apply]
  simp only [pay3_apply, pay4_apply, pay6_apply]
  unfold laneG
  rw [← kRepel_eq, ← LibHalves.ofBits_zero]
  rfl

end Cert.KerRepel

end
-- ==== Proof.KerRepelAcc.lean ====
/-
  Region 1 (the repel kernel): the one-element output block after each grid point is the sum of the blocks' masked
  sums up to that point — by induction on the point, the first point zeroing the block — and the array the region
  leaves is the block after the last point, the only one written back.
-/
import proofs.«139320_j2216203125376_2_alg».proof.Proof.KerRepelPoint
import Idealize.ShloMosaic.Lib.Pipeline.Value

noncomputable section

namespace Cert.KerRepel

open Idealize.ShloMosaic Idealize.ShloMosaic.TcCoe Idealize.SL.Sem Idealize.ShloMosaic.ValueIdx
open Idealize.ShloMosaic.Pipeline (Dat)
open Cert.KernelIdeal Cert.KernelIdeal.Gen

section Generic
variable {F : FTy → Type} [FloatOps F]
variable (V : (c : Dev nD) → (b : Ref sig .tc) → Buf (Elt F) ((c : Thread nD τ).loc b))

/-- At the first point the block is left at the body's value over a zeroed block. -/
theorem outsAt_first (c : Dev nD) (t : Fin cfg1.N) (h0 : t.val % 64 = 0) :
    outsAt1 V c t.val t.isLt
      = body (iblk1 V c 0 t) (iblk1 V c 1 t) (iblk1 V c 2 t) (iblk1 V c 3 t) (k1_pay2 (F := F)) :=
  (outsAt1_A V c t h0).trans
    (out_A (F := F) c (grid1.coords t) (ms1_0 t) (hs1_0 t) (ms1_1 t) (hs1_1 t) (ms1_2 t) (hs1_2 t) (ms1_3 t) (hs1_3 t)
      (ms1_4 t) (hs1_4 t) ((hcond1_0 t).mpr h0) (iblk1 V c 0 t) (iblk1 V c 1 t) (iblk1 V c 2 t) (iblk1 V c 3 t))

/-- At every later point it is left at the body's value over what the point before left. -/
theorem outsAt_later (c : Dev nD) (t : Fin cfg1.N) (h0 : ¬t.val % 64 = 0) :
    outsAt1 V c t.val t.isLt
      = body (iblk1 V c 0 t) (iblk1 V c 1 t) (iblk1 V c 2 t) (iblk1 V c 3 t)
          (outsAt1 V c (t.val - 1) (Nat.lt_of_le_of_lt (Nat.sub_le _ _) t.isLt)) :=
  (outsAt1_B V c t h0).trans
    (out_B (F := F) c (grid1.coords t) (ms1_0 t) (hs1_0 t) (ms1_1 t) (hs1_1 t) (ms1_2 t) (hs1_2 t) (ms1_3 t) (hs1_3 t)
      (ms1_4 t) (hs1_4 t) (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt)))

end Generic

variable (V : (c : Dev nD) → (b : Ref sig .tc) → Buf (Elt Ideal) ((c : Thread nD τ).loc b))

/-- The masked sum of the block at point `t`, over the block's coordinates. -/
def partB (c : Dev nD) (t : Fin cfg1.N) : EReal :=
  ∑ mm : Fin 2048,
    laneG (fun r => (iblk1 V c 0 t : Vec Ideal S1x8x2048 .f32) (ix3 (0 : Fin 1) r mm))
      (fun r => (iblk1 V c 1 t : Vec Ideal S1x8x2x2048 .f32) (ix4 (0 : Fin 1) r (0 : Fin 2) mm))
      (fun r => (iblk1 V c 1 t : Vec Ideal S1x8x2x2048 .f32) (ix4 (0 : Fin 1) r (1 : Fin 2) mm))
      ((iblk1 V c 2 t : Vec Ideal S1x1x2048 .f32) (ix3 (0 : Fin 1) (0 : Fin 1) mm))
      ((iblk1 V c 3 t : Vec Ideal S1x2x2048 .f32) (ix3 (0 : Fin 1) (0 : Fin 2) mm))
      ((iblk1 V c 3 t : Vec Ideal S1x2x2048 .f32) (ix3 (0 : Fin 1) (1 : Fin 2) mm))

/-- The same by the point's number, zero past the grid. -/
def partN (c : Dev nD) (b : ℕ) : EReal := if h : b < cfg1.N then partB V c ⟨b, h⟩ else 0

/-- After point `n` the block holds the sum of the masked sums of points `0 … n`. -/
theorem outsAt_eq (c : Dev nD) : ∀ (n : ℕ) (h : n < cfg1.N) (j : S1x1.Idx),
    outsAt1 V c n h j = ∑ b ∈ Finset.range (n + 1), partN V c b
  | 0, h, j => by
    refine (congrFun (outsAt_first V c ⟨0, h⟩ rfl) j).trans ?_
    rw [body_apply, Finset.sum_range_one]
    show Z + partB V c ⟨0, h⟩ = partN V c 0
    rw [show Z = 0 from LibHalves.ofBits_zero, zero_add]
    unfold partN
    rw [dif_pos h]
  | n + 1, h, j => by
    have hN : cfg1.N = 64 := N_1
    have hB : ¬(⟨n + 1, h⟩ : Fin cfg1.N).val % 64 = 0 := by dsimp only; omega
    refine (congrFun (outsAt_later V c ⟨n + 1, h⟩ hB) j).trans ?_
    rw [body_apply, Finset.sum_range_succ _ (n + 1)]
    show outsAt1 V c n _ j + partB V c ⟨n + 1, h⟩ = _
    rw [outsAt_eq c n]
    refine congrArg (_ + ·) ?_
    unfold partN
    rw [dif_pos h]

end Cert.KerRepel

end
-- ==== Proof.KerRepel.lean ====
/-
  Region 1 (the repel kernel): the array the region leaves in its output. Each window hands point `t` batch row
  `t` of its array, so the block's masked sum is the batch row's; the output window's one block is its whole
  one-element array, written back after the last point, where it holds the sum over the 64 batch rows.
-/
import proofs.«139320_j2216203125376_2_alg».proof.Proof.KerRepelAcc
import Idealize.ShloMosaic.Lib.Pipeline.Value

noncomputable section

namespace Cert.KerRepel

open Idealize.ShloMosaic Idealize.ShloMosaic.TcCoe Idealize.SL.Sem Idealize.ShloMosaic.ValueIdx
open Idealize.ShloMosaic.Pipeline (Dat)
open Cert.KernelIdeal Cert.KernelIdeal.Gen

/-! ## The windows' index maps: point `t` reads batch row `t` -/

theorem idx1_0 : ∀ t : Fin cfg1.N, win1_0.index t 0 = t.val ∧ win1_0.index t 1 = 0 ∧ win1_0.index t 2 = 0 :=
  (by decide +kernel : ∀ t : Fin grid1.N, win1_0.index t 0 = t.val ∧ win1_0.index t 1 = 0 ∧ win1_0.index t 2 = 0)
theorem idx1_1 : ∀ t : Fin cfg1.N, win1_1.index t 0 = t.val ∧ win1_1.index t 1 = 0 ∧ win1_1.index t 2 = 0 ∧ win1_1.index t 3 = 0 :=
  (by decide +kernel : ∀ t : Fin grid1.N, win1_1.index t 0 = t.val ∧ win1_1.index t 1 = 0 ∧ win1_1.index t 2 = 0 ∧ win1_1.index t 3 = 0)
theorem idx1_2 : ∀ t : Fin cfg1.N, win1_2.index t 0 = t.val ∧ win1_2.index t 1 = 0 ∧ win1_2.index t 2 = 0 :=
  (by decide +kernel : ∀ t : Fin grid1.N, win1_2.index t 0 = t.val ∧ win1_2.index t 1 = 0 ∧ win1_2.index t 2 = 0)
theorem idx1_3 : ∀ t : Fin cfg1.N, win1_3.index t 0 = t.val ∧ win1_3.index t 1 = 0 ∧ win1_3.index t 2 = 0 :=
  (by decide +kernel : ∀ t : Fin grid1.N, win1_3.index t 0 = t.val ∧ win1_3.index t 1 = 0 ∧ win1_3.index t 2 = 0)

/-- The batch row of point `t`. -/
abbrev rowOf (t : Fin cfg1.N) : Fin 64 := ⟨t.val, lt_of_lt_of_eq t.isLt N_1⟩

variable (V : (c : Dev nD) → (b : Ref sig .tc) → Buf (Elt Ideal) ((c : Thread nD τ).loc b))

/-- The four arrays the region finds, by their shapes. -/
abbrev Y0 (c : Dev nD) : S64x8x2048.Idx → EReal := V c (Pipeline.arrRef spec1 0)
abbrev Y1 (c : Dev nD) : S64x8x2x2048.Idx → EReal := V c (Pipeline.arrRef spec1 1)
abbrev Y2 (c : Dev nD) : S64x1x2048.Idx → EReal := V c (Pipeline.arrRef spec1 2)
abbrev Y3 (c : Dev nD) : S64x2x2048.Idx → EReal := V c (Pipeline.arrRef spec1 3)

theorem iblk0_apply (c : Dev nD) (t : Fin cfg1.N) (r : Fin 8) (mm : Fin 2048) :
    (iblk1 V c 0 t : Vec Ideal S1x8x2048 .f32) (ix3 (0 : Fin 1) r mm) = Y0 V c (ix3 (rowOf t) r mm) := by
  obtain ⟨i0, i1, i2⟩ := idx1_0 t
  unfold iblk1
  rw [View.read_apply]
  show V c (Pipeline.arrRef spec1 0) _ = V c (Pipeline.arrRef spec1 0) _
  congr 1
  funext a
  apply Fin.ext
  match a with
  | ⟨0, _⟩ => show win1_0.index t 0 * 1 + 1 * 0 = t.val; rw [i0]; omega
  | ⟨1, _⟩ => show win1_0.index t 1 * 8 + 1 * r.val = r.val; rw [i1]; omega
  | ⟨2, _⟩ => show win1_0.index t 2 * 2048 + 1 * mm.val = mm.val; rw [i2]; omega

theorem iblk1_apply (c : Dev nD) (t : Fin cfg1.N) (r : Fin 8) (ch : Fin 2) (mm : Fin 2048) :
    (iblk1 V c 1 t : Vec Ideal S1x8x2x2048 .f32) (ix4 (0 : Fin 1) r ch mm) = Y1 V c (ix4 (rowOf t) r ch mm) := by
  obtain ⟨i0, i1, i2, i3⟩ := idx1_1 t
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * 0 = t.val; rw [i0]; omega
  | ⟨1, _⟩ => show win1_1.index t 1 * 8 + 1 * r.val = r.val; rw [i1]; omega
  | ⟨2, _⟩ => show win1_1.index t 2 * 2 + 1 * ch.val = ch.val; rw [i2]; omega
  | ⟨3, _⟩ => show win1_1.index t 3 * 2048 + 1 * mm.val = mm.val; rw [i3]; omega

theorem iblk2_apply (c : Dev nD) (t : Fin cfg1.N) (u : Fin 1) (mm : Fin 2048) :
    (iblk1 V c 2 t : Vec Ideal S1x1x2048 .f32) (ix3 (0 : Fin 1) u mm) = Y2 V c (ix3 (rowOf t) u mm) := by
  obtain ⟨i0, i1, i2⟩ := idx1_2 t
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * 0 = t.val; rw [i0]; omega
  | ⟨1, _⟩ => show win1_2.index t 1 * 1 + 1 * u.val = u.val; rw [i1]; omega
  | ⟨2, _⟩ => show win1_2.index t 2 * 2048 + 1 * mm.val = mm.val; rw [i2]; omega

theorem iblk3_apply (c : Dev nD) (t : Fin cfg1.N) (ch : Fin 2) (mm : Fin 2048) :
    (iblk1 V c 3 t : Vec Ideal S1x2x2048 .f32) (ix3 (0 : Fin 1) ch mm) = Y3 V c (ix3 (rowOf t) ch mm) := by
  obtain ⟨i0, i1, i2⟩ := idx1_3 t
  unfold iblk1
  rw [View.read_apply]
  show V c (Pipeline.arrRef spec1 3) _ = V c (Pipeline.arrRef spec1 3) _
  congr 1
  funext a
  apply Fin.ext
  match a with
  | ⟨0, _⟩ => show win1_3.index t 0 * 1 + 1 * 0 = t.val; rw [i0]; omega
  | ⟨1, _⟩ => show win1_3.index t 1 * 2 + 1 * ch.val = ch.val; rw [i1]; omega
  | ⟨2, _⟩ => show win1_3.index t 2 * 2048 + 1 * mm.val = mm.val; rw [i2]; omega

/-! ## The sum over the batch -/

/-- The masked sum of batch row `b`: over its 2048 lanes, the lane's term where the mask exceeds 1/2. -/
def partR (A0 : S64x8x2048.Idx → EReal) (A1 : S64x8x2x2048.Idx → EReal) (A2 : S64x1x2048.Idx → EReal)
    (A3 : S64x2x2048.Idx → EReal) (b : Fin 64) : EReal :=
  ∑ mm : Fin 2048,
    laneG (fun r => A0 (ix3 b r mm)) (fun r => A1 (ix4 b r (0 : Fin 2) mm)) (fun r => A1 (ix4 b r (1 : Fin 2) mm))
      (A2 (ix3 b (0 : Fin 1) mm)) (A3 (ix3 b (0 : Fin 2) mm)) (A3 (ix3 b (1 : Fin 2) mm))

/-- The batch row's masked sum written out: the lane's mask against 1/2 selects the intersection over union of the
    two mean boxes (the first four corners against the last four, shifted by the lane's offset pair) or zero. -/
theorem partR_unfold (A0 : S64x8x2048.Idx → EReal) (A1 : S64x8x2x2048.Idx → EReal) (A2 : S64x1x2048.Idx → EReal)
    (A3 : S64x2x2048.Idx → EReal) (b : Fin 64) :
    partR A0 A1 A2 A3 b = ∑ mm : Fin 2048,
      Scalar.select (Ideal.cmp .ogt (A2 (ix3 b (0 : Fin 1) mm)) (Ideal.ofBits .f32 0x3F000000#32))
        (Spec.repelIou (fun k : Fin 4 => A0 (ix3 b (⟨k.val, by have := k.isLt; omega⟩ : Fin 8) mm))
          (fun k : Fin 4 => A1 (ix4 b (⟨k.val, by have := k.isLt; omega⟩ : Fin 8) (0 : Fin 2) mm))
          (fun k : Fin 4 => A1 (ix4 b (⟨k.val, by have := k.isLt; omega⟩ : Fin 8) (1 : Fin 2) mm))
          (fun k : Fin 4 => A0 (ix3 b (⟨4 + k.val, by have := k.isLt; omega⟩ : Fin 8) mm))
          (fun k : Fin 4 => A1 (ix4 b (⟨4 + k.val, by have := k.isLt; omega⟩ : Fin 8) (0 : Fin 2) mm))
          (fun k : Fin 4 => A1 (ix4 b (⟨4 + k.val, by have := k.isLt; omega⟩ : Fin 8) (1 : Fin 2) mm))
          (A3 (ix3 b (0 : Fin 2) mm)) (A3 (ix3 b (1 : Fin 2) mm)))
        0 := rfl

theorem partB_eq (c : Dev nD) (t : Fin cfg1.N) :
    partB V c t = partR (Y0 V c) (Y1 V c) (Y2 V c) (Y3 V c) (rowOf t) := by
  unfold partB partR
  refine Finset.sum_congr rfl fun mm _ => ?_
  simp only [iblk0_apply, iblk1_apply, iblk2_apply, iblk3_apply]

/-- What the region leaves: the sum of the 64 batch rows' masked sums. -/
abbrev total (c : Dev nD) : EReal := ∑ b : Fin 64, partR (Y0 V c) (Y1 V c) (Y2 V c) (Y3 V c) b

theorem total_eq (c : Dev nD) : ∑ b ∈ Finset.range 64, partN V c b = total V c := by
  rw [← Fin.sum_univ_eq_sum_range (fun b => partN V c b) 64]
  refine Finset.sum_congr rfl fun b _ => ?_
  unfold partN
  rw [dif_pos (lt_of_lt_of_eq b.isLt N_1.symm), partB_eq]

/-! ## The array after the region -/

/-- The last point. -/
abbrev t63 : Fin cfg1.N := ⟨63, by rw [show cfg1.N = 64 from N_1]; decide⟩

/-- The output array's contents after the region. -/
abbrev result (c : Dev nD) : Buf (Elt Ideal) ((c : Thread nD τ).loc main_v45) := fun _ => total V c

/-- The one write-back, after the last point, writes the total. -/
theorem flushed_eq (c : Dev nD) (t : Fin cfg1.N) (hf : (cfg1.win 4).flush t = true) :
    (dat1 V c).flushed 4 t = ((cfg1.win 4).blk t).view.read (Elt Ideal) (result V c) := by
  have hN : cfg1.N = 64 := N_1
  have h63 : t.val + 1 = 64 := by have := (flush1_4 t).mp hf; have := t.isLt; omega
  show (cfg1.win 4).cut (grid1.coords t) ((dat1 V c).after 4 t) = _
  rw [after1_4]
  funext y
  rw [View.read_apply]
  show outsAt1 V c t.val t.isLt _ = total V c
  rw [outsAt_eq V c t.val t.isLt, h63]
  exact total_eq V c

/-- REGION 1's output: after the region the one-element output array holds the sum over the batch of the masked
    sums. -/
theorem region1_out (c : Dev nD) : (dat1 V c).arrAt 4 cfg1.N = result V c :=
  (dat1 V c).arrAt_eq_of_cover 4 (result V c) (flushed_eq V c) fun i =>
    ⟨t63, (flush1_4 t63).mpr rfl, by
      show i ∈ ((View.whole main_v45).slice (win1_4.rect t63)).set
      rw [View.set_slice_whole, Rect.mem_set_unit]
      intro a
      have h0 : (i 0 : Nat) < 1 := (i 0).isLt
      have h1 : (i 1 : Nat) < 1 := (i 1).isLt
      match a with
      | ⟨0, _⟩ => show win1_4.index t63 0 * win1_4.size 0 ≤ (i 0 : Nat) ∧ (i 0 : Nat) < win1_4.index t63 0 * win1_4.size 0 + win1_4.xsize (grid1.coords t63) 0
                  rw [show win1_4.index t63 0 * win1_4.size 0 = 0 from by decide +kernel, show win1_4.xsize (grid1.coords t63) 0 = 1 from by decide +kernel]; omega
      | ⟨1, _⟩ => show win1_4.index t63 1 * win1_4.size 1 ≤ (i 1 : Nat) ∧ (i 1 : Nat) < win1_4.index t63 1 * win1_4.size 1 + win1_4.xsize (grid1.coords t63) 1
                  rw [show win1_4.index t63 1 * win1_4.size 1 = 0 from by decide +kernel, show win1_4.xsize (grid1.coords t63) 1 = 1 from by decide +kernel]; omega⟩

end Cert.KerRepel

end
-- ==== Proof.KerTerms.lean ====
/-
  The arrays the kernel program stages for its two grid computations, written as functions of the program's
  arguments over the extended reals: each definition is the program's own composition of host operations
  (reshape, broadcast, the index wrap and validity mask of a row read, the gather, transpose, the corner-offset
  table, the conversions of the masks and the two mask counts).
-/
import proofs.«139320_j2216203125376_2_alg».proof.Proof.Gen.KernelIdeal
import proofs.«139320_j2216203125376_2_alg».proof.Proof.Spec

noncomputable section

namespace Cert.KerValue

open Idealize.ShloMosaic Cert.KernelIdeal Cert.KernelIdeal.Facts₀

/-! ## The row read with one table row per batch entry (table [64,1,65536], index words [64,1,16384]) -/

/-- The index words after the wrap of negative words (add 65536 where the word is negative). -/
def wrap1 (i : S64x1x16384.Idx → BitVec 32) : S64x1x16384.Idx → BitVec 32 :=
  select (cmpi .slt i (broadcastInDim S64x1x16384 ![] bcast_S_S64x1x16384 (constantI S_ 32 0#32)))
    (addi i (broadcastInDim S64x1x16384 ![] bcast_S_S64x1x16384 (constantI S_ 32 65536#32))) i

/-- The wrapped words as start indices [64,16384,1]. -/
def start1 (i : S64x1x16384.Idx → BitVec 32) : S64x16384x1.Idx → BitVec 32 :=
  shapeCast S64x16384x1 (wrap1 i) shapeCasts_S64x1x16384_S64x16384x1

/-- The validity mask of start indices: the start index lies in [0, 65535]. -/
def validOf1 (s : S64x16384x1.Idx → BitVec 32) : S64x16384.Idx → BitVec 1 :=
  Host.reduce IntOp.andi
    (andi (cmpi .sge s (broadcastInDim S64x16384x1 ![] bcast_S_S64x16384x1 (constantI S_ 32 0#32)))
      (cmpi .sle s (broadcastInDim S64x16384x1 ![0, 1, 2] bcast_S1x1x1_S64x16384x1_0_1_2
        (broadcastInDim S1x1x1 ![2] bcast_S1_S1x1x1_2 (constantI S1 32 65535#32)))))
    (constantI S_ 1 1#1) reducesTo_S64x16384x1_S64x16384_d2 h_S_

/-- The row read at given start indices: the gathered entry where the start index is valid, the fill value elsewhere. -/
def takeOf1 (x : S64x1x65536.Idx → EReal) (s : S64x16384x1.Idx → BitVec 32) : S64x1x16384.Idx → EReal :=
  select (broadcastInDim S64x1x16384 ![0, 2] bcast_S64x16384_S64x1x16384_0_2 (validOf1 s))
    (Host.gather gather_S64x1x65536_S64x16384x1_S64x1x16384_1_2_0_0_2_2_111 x s)
    (broadcastInDim S64x1x16384 ![] bcast_S_S64x1x16384 (constant (F := Ideal) S_ .f32 0x7FC00000#32))

/-- The validity mask of the index words. -/
def valid1 (i : S64x1x16384.Idx → BitVec 32) : S64x16384.Idx → BitVec 1 := validOf1 (start1 i)

/-- The row read: the wrapped index words as start indices. -/
def take1 (x : S64x1x65536.Idx → EReal) (i : S64x1x16384.Idx → BitVec 32) : S64x1x16384.Idx → EReal :=
  takeOf1 x (start1 i)

/-! ## The row read with two table rows per batch entry (table [64,2,65536], index words [64,2,16384]) -/

def wrap2 (i : S64x2x16384.Idx → BitVec 32) : S64x2x16384.Idx → BitVec 32 :=
  select (cmpi .slt i (broadcastInDim S64x2x16384 ![] bcast_S_S64x2x16384 (constantI S_ 32 0#32)))
    (addi i (broadcastInDim S64x2x16384 ![] bcast_S_S64x2x16384 (constantI S_ 32 65536#32))) i

def start2 (i : S64x2x16384.Idx → BitVec 32) : S64x2x16384x1.Idx → BitVec 32 :=
  shapeCast S64x2x16384x1 (wrap2 i) shapeCasts_S64x2x16384_S64x2x16384x1

def validOf2 (s : S64x2x16384x1.Idx → BitVec 32) : S64x2x16384.Idx → BitVec 1 :=
  Host.reduce IntOp.andi
    (andi (cmpi .sge s (broadcastInDim S64x2x16384x1 ![] bcast_S_S64x2x16384x1 (constantI S_ 32 0#32)))
      (cmpi .sle s (broadcastInDim S64x2x16384x1 ![0, 1, 2, 3] bcast_S1x1x1x1_S64x2x16384x1_0_1_2_3
        (broadcastInDim S1x1x1x1 ![3] bcast_S1_S1x1x1x1_3 (constantI S1 32 65535#32)))))
    (constantI S_ 1 1#1) reducesTo_S64x2x16384x1_S64x2x16384_d3 h_S_

def takeOf2 (x : S64x2x65536.Idx → EReal) (s : S64x2x16384x1.Idx → BitVec 32) : S64x2x16384.Idx → EReal :=
  select (validOf2 s)
    (Host.gather gather_S64x2x65536_S64x2x16384x1_S64x2x16384_n_2_01_01_2_3_111 x s)
    (broadcastInDim S64x2x16384 ![] bcast_S_S64x2x16384 (constant (F := Ideal) S_ .f32 0x7FC00000#32))

def valid2 (i : S64x2x16384.Idx → BitVec 32) : S64x2x16384.Idx → BitVec 1 := validOf2 (start2 i)

def take2 (x : S64x2x65536.Idx → EReal) (i : S64x2x16384.Idx → BitVec 32) : S64x2x16384.Idx → EReal :=
  takeOf2 x (start2 i)

/-! ## The operands of the two row reads -/

/-- The height table as [64,1,65536]. -/
def tabH (a0 : S64x1x256x256.Idx → EReal) : S64x1x65536.Idx → EReal :=
  shapeCast S64x1x65536 a0 shapeCasts_S64x1x256x256_S64x1x65536
/-- The offset table as [64,2,65536]. -/
def tabO (a1 : S64x2x256x256.Idx → EReal) : S64x2x65536.Idx → EReal :=
  shapeCast S64x2x65536 a1 shapeCasts_S64x2x256x256_S64x2x65536
/-- The attract index words as [64,16384]. -/
def idxA (a5 : S64x4096x4.Idx → BitVec 32) : S64x16384.Idx → BitVec 32 :=
  shapeCast S64x16384 a5 shapeCasts_S64x4096x4_S64x16384
/-- The repel index words as [64,16384]. -/
def idxR (a6 : S64x2048x2x4.Idx → BitVec 32) : S64x16384.Idx → BitVec 32 :=
  shapeCast S64x16384 a6 shapeCasts_S64x2048x2x4_S64x16384
/-- Index words [64,16384] as [64,1,16384]. -/
def idx1 (i : S64x16384.Idx → BitVec 32) : S64x1x16384.Idx → BitVec 32 :=
  broadcastInDim S64x1x16384 ![0, 2] bcast_S64x16384_S64x1x16384_0_2 i
/-- Index words [64,16384] repeated for both table rows, [64,2,16384]. -/
def idx2 (i : S64x16384.Idx → BitVec 32) : S64x2x16384.Idx → BitVec 32 :=
  broadcastInDim S64x2x16384 ![0, 1, 2] bcast_S64x1x16384_S64x2x16384_0_1_2 (idx1 i)

/-- The corner-offset table [1,4,2,1]. -/
def cornerTab : S1x4x2x1.Idx → EReal := fun i => FloatOps.ofBits (F := Ideal) .f32 (lit0 (S1x4x2x1.rowMajor i))
/-- The corner-offset table [1,1,4,2,1]. -/
def cornerTab' : S1x1x4x2x1.Idx → EReal := fun i => FloatOps.ofBits (F := Ideal) .f32 (lit1 (S1x1x4x2x1.rowMajor i))

/-! ## The staged arrays -/

/-- A row read [64,1,16384] laid out as [64,4,4096] (corner-major). -/
def post11 (x : S64x1x16384.Idx → EReal) : S64x4x4096.Idx → EReal :=
  transpose S64x4x4096 [0, 2, 1]
    (shapeCast S64x4096x4
      (shapeCast S64x1x4096x4 x shapeCasts_S64x1x16384_S64x1x4096x4)
      shapeCasts_S64x1x4096x4_S64x4096x4)
    transposes_S64x4096x4_S64x4x4096_0_2_1

/-- A two-row read [64,2,16384] laid out as [64,4,2,4096] plus the corner table. -/
def post15 (x : S64x2x16384.Idx → EReal) (tab : S1x4x2x1.Idx → EReal) : S64x4x2x4096.Idx → EReal :=
  addf (F := Ideal) (φ := .f32)
    (transpose S64x4x2x4096 [0, 3, 1, 2]
      (shapeCast S64x2x4096x4 x shapeCasts_S64x2x16384_S64x2x4096x4)
      transposes_S64x2x4096x4_S64x4x2x4096_0_3_1_2)
    (broadcastInDim S64x4x2x4096 ![0, 1, 2, 3] bcast_S1x4x2x1_S64x4x2x4096_0_1_2_3 tab)

/-- A row read [64,1,16384] laid out as [64,8,2048] (group, corner major). -/
def post28 (x : S64x1x16384.Idx → EReal) : S64x8x2048.Idx → EReal :=
  shapeCast S64x8x2048
    (transpose S64x2x4x2048 [0, 2, 3, 1]
      (shapeCast S64x2048x2x4
        (shapeCast S64x1x2048x2x4 x shapeCasts_S64x1x16384_S64x1x2048x2x4)
        shapeCasts_S64x1x2048x2x4_S64x2048x2x4)
      transposes_S64x2048x2x4_S64x2x4x2048_0_2_3_1)
    shapeCasts_S64x2x4x2048_S64x8x2048

/-- A two-row read [64,2,16384] laid out as [64,8,2,2048] plus the corner table. -/
def post33 (x : S64x2x16384.Idx → EReal) (tab : S1x1x4x2x1.Idx → EReal) : S64x8x2x2048.Idx → EReal :=
  shapeCast S64x8x2x2048
    (addf (F := Ideal) (φ := .f32)
      (transpose S64x2x4x2x2048 [0, 3, 4, 1, 2]
        (shapeCast S64x2x2048x2x4 x shapeCasts_S64x2x16384_S64x2x2048x2x4)
        transposes_S64x2x2048x2x4_S64x2x4x2x2048_0_3_4_1_2)
      (broadcastInDim S64x2x4x2x2048 ![0, 1, 2, 3, 4] bcast_S1x1x4x2x1_S64x2x4x2x2048_0_1_2_3_4 tab))
    shapeCasts_S64x2x4x2x2048_S64x8x2x2048

/-- Gathered heights of the attract corners, [64,4,4096]. -/
def k_v11 (a0 : S64x1x256x256.Idx → EReal) (a5 : S64x4096x4.Idx → BitVec 32) : S64x4x4096.Idx → EReal :=
  post11 (take1 (tabH a0) (idx1 (idxA a5)))

/-- Gathered offsets of the attract corners plus the corner table, [64,4,2,4096]. -/
def k_v15 (a1 : S64x2x256x256.Idx → EReal) (a5 : S64x4096x4.Idx → BitVec 32) : S64x4x2x4096.Idx → EReal :=
  post15 (take2 (tabO a1) (idx2 (idxA a5))) cornerTab

/-- Gathered heights of the repel corners, [64,8,2048]. -/
def k_v28 (a0 : S64x1x256x256.Idx → EReal) (a6 : S64x2048x2x4.Idx → BitVec 32) : S64x8x2048.Idx → EReal :=
  post28 (take1 (tabH a0) (idx1 (idxR a6)))

/-- Gathered offsets of the repel corners plus the corner table, [64,8,2,2048]. -/
def k_v33 (a1 : S64x2x256x256.Idx → EReal) (a6 : S64x2048x2x4.Idx → BitVec 32) : S64x8x2x2048.Idx → EReal :=
  post33 (take2 (tabO a1) (idx2 (idxR a6))) cornerTab'

/-- The attract mask as floats, [64,4,4096]. -/
def k_v17 (a7 : S64x4096x4.Idx → BitVec 1) : S64x4x4096.Idx → EReal :=
  transpose S64x4x4096 [0, 2, 1] (uitofp (F := Ideal) .f32 a7) transposes_S64x4096x4_S64x4x4096_0_2_1

/-- The repel mask as floats, [64,1,2048]. -/
def k_v36 (a8 : S64x2048x1.Idx → BitVec 1) : S64x1x2048.Idx → EReal :=
  broadcastInDim S64x1x2048 ![0, 2] bcast_S64x2048_S64x1x2048_0_2
    (uitofp (F := Ideal) .f32 (shapeCast S64x2048 a8 shapeCasts_S64x2048x1_S64x2048))

/-- The second group's shift, transposed to [64,2,2048]. -/
def k_v37 (a4 : S64x2048x2.Idx → EReal) : S64x2x2048.Idx → EReal :=
  transpose S64x2x2048 [0, 2, 1] a4 transposes_S64x2048x2_S64x2x2048_0_2_1

/-- The number of set attract-mask bits, as a float. -/
def k_v40 (a7 : S64x4096x4.Idx → BitVec 1) : S_.Idx → EReal :=
  sitofp (F := Ideal) .f32
    (Host.reduce IntOp.addi (extui 32 a7 natLt_1_32) (constantI S_ 32 0#32) reducesTo_S64x4096x4_S_d0_1_2 h_S_)

/-- The number of set repel-mask bits, as a float. -/
def k_v43 (a8 : S64x2048x1.Idx → BitVec 1) : S_.Idx → EReal :=
  sitofp (F := Ideal) .f32
    (Host.reduce IntOp.addi (extui 32 a8 natLt_1_32) (constantI S_ 32 0#32) reducesTo_S64x2048x1_S_d0_1_2 h_S_)

end Cert.KerValue

end
-- ==== Proof.LibKerWord.lean ====
/-
  Index words of a row read, at the level of one word: the wrap of a negative word, the validity bit of the wrapped
  word, and the selected entry as the specification's pick.
-/
import proofs.«139320_j2216203125376_2_alg».proof.Proof.Spec
import Idealize.ShloMosaic.Lib.ReduceAll

noncomputable section

namespace Cert.KerValue

open Idealize.ShloMosaic Idealize.ShloMosaic.ValueIdx

/-- The index word after the wrap: 65536 is added to a negative word. -/
def wrapWord (v : BitVec 32) : BitVec 32 :=
  Scalar.select (IntOp.cmpi .slt v 0#32) (IntOp.addi v 65536#32) v

/-- The validity bit of a wrapped word: it lies in [0, 65535]. -/
def validBit (w : BitVec 32) : BitVec 1 :=
  IntOp.andi (IntOp.andi (IntOp.cmpi .sge w 0#32) (IntOp.cmpi .sle w 65535#32)) 1#1

/-- Adding 65536 to a negative 32-bit word does not wrap around. -/
theorem toInt_add_65536 (v : BitVec 32) (h : v.toInt < 0) : (v + 65536#32).toInt = v.toInt + 65536 := by
  have h1 := BitVec.le_toInt v
  have h2 : (65536#32 : BitVec 32).toInt = 65536 := by decide
  rw [BitVec.toInt_add, h2, Int.bmod_def]
  norm_num at h1 ⊢
  split <;> omega

/-- The wrapped word's signed value is the specification's. -/
theorem wrapWord_toInt (v : BitVec 32) : (wrapWord v).toInt = Spec.wrapped v := by
  unfold wrapWord Spec.wrapped
  have h0 : (0#32 : BitVec 32).toInt = 0 := by decide
  by_cases h : v.toInt < 0
  · have hc : IntOp.cmpi .slt v 0#32 = 1#1 := IntOp.cmpi_slt.mpr (by rw [h0]; exact h)
    rw [hc, select_one, if_pos h]
    exact toInt_add_65536 v h
  · have hc : IntOp.cmpi .slt v 0#32 = 0#1 := eq_zero_of_ne_one fun e => h (by have := IntOp.cmpi_slt.mp e; rwa [h0] at this)
    rw [hc, select_zero, if_neg h]

/-- The validity bit is set exactly when the word's signed value lies in [0, 65535]. -/
theorem validBit_eq_one_iff (w : BitVec 32) : validBit w = 1#1 ↔ 0 ≤ w.toInt ∧ w.toInt ≤ 65535 := by
  have h0 : (0#32 : BitVec 32).toInt = 0 := by decide
  have h1 : (65535#32 : BitVec 32).toInt = 65535 := by decide
  unfold validBit
  rw [IntOp.andi_eq_one, IntOp.andi_eq_one, IntOp.cmpi_sge, IntOp.cmpi_sle, h0, h1]
  exact ⟨fun h => h.1, fun h => ⟨h, rfl⟩⟩

/-- The selected entry of a row, read at the wrapped word clamped into the row when the validity bit is set and the
    fill value otherwise, is the specification's pick. -/
theorem select_eq_pick (row : Fin 65536 → EReal) (v : BitVec 32)
    (hlt : min (wrapWord v).toInt.toNat 65535 < 65536) :
    Scalar.select (validBit (wrapWord v)) (row ⟨min (wrapWord v).toInt.toNat 65535, hlt⟩) ⊥ = Spec.pick row v := by
  unfold Spec.pick
  by_cases h : 0 ≤ Spec.wrapped v ∧ Spec.wrapped v ≤ 65535
  · have hb : validBit (wrapWord v) = 1#1 := (validBit_eq_one_iff _).mpr (by rw [wrapWord_toInt]; exact h)
    rw [hb, select_one, dif_pos h]
    congr 1
    apply Fin.ext
    show min (wrapWord v).toInt.toNat 65535 = (Spec.wrapped v).toNat
    rw [wrapWord_toInt]
    omega
  · have hb : validBit (wrapWord v) = 0#1 :=
      eq_zero_of_ne_one fun e => h (by have := (validBit_eq_one_iff _).mp e; rwa [wrapWord_toInt] at this)
    rw [hb, select_zero, dif_neg h]

/-- The fill pattern denotes the bottom element. -/
theorem ofBits_fill : Ideal.ofBits .f32 0x7FC00000#32 = ⊥ := by
  simp [Ideal.ofBits, Ideal.ieee]

end Cert.KerValue

end
-- ==== Proof.LibKerTake.lean ====
/-
  The two row reads of the kernel program at an index: the wrapped start index, the validity mask over the unit axis,
  the batched gather, and the selected entry as the specification's pick.
-/
import proofs.«139320_j2216203125376_2_alg».proof.Proof.KerTerms
import proofs.«139320_j2216203125376_2_alg».proof.Proof.LibKerWord
import Idealize.ShloMosaic.Lib.Pipeline.Value
import Idealize.ShloMosaic.PureOps.Reduce

set_option maxRecDepth 8000

noncomputable section

namespace Cert.KerValue

open Idealize.ShloMosaic Idealize.ShloMosaic.ValueIdx Cert.KernelIdeal Cert.KernelIdeal.Facts₀

/-- A commutative fold over the one-element index set is one application. -/
theorem fold_fin_one {α : Type} (f : α → α → α) [Std.Commutative f] [Std.Associative f] (init : α) (g : Fin 1 → α) :
    (Finset.univ : Finset (Fin 1)).fold f init g = f (g 0) init := by
  rw [Finset.univ_unique, Finset.fold_singleton]; rfl

/-! ## One table row per batch entry -/

theorem wrap1_apply (i : S64x1x16384.Idx → BitVec 32) (j : S64x1x16384.Idx) : wrap1 i j = wrapWord (i j) := rfl

theorem start1_apply (i : S64x1x16384.Idx → BitVec 32) (b : Fin 64) (n : Fin 16384) :
    start1 i (ix3 b n (0 : Fin 1)) = wrapWord (i (ix3 b (0 : Fin 1) n)) := by
  unfold start1
  rw [shapeCast_apply (wrap1 i) _ (ix3 b n (0 : Fin 1)) (ix3 b (0 : Fin 1) n) (by
    rw [Shape.rowMajor_val_three, Shape.rowMajor_val_three]
    show (b.val * 1 + 0) * 16384 + n.val = (b.val * 16384 + n.val) * 1 + 0
    omega)]
  rfl

theorem valid1_apply (i : S64x1x16384.Idx → BitVec 32) (b : Fin 64) (n : Fin 16384) :
    valid1 i (ix2 b n) = validBit (wrapWord (i (ix3 b (0 : Fin 1) n))) := by
  have hR : S64x16384x1.Reduces [2] S64x16384 := by decide
  have hl : hR.lift (ix2 b n) (0 : Fin 1) = ix3 b n (0 : Fin 1) := by
    funext c; apply Fin.ext
    match c with
    | ⟨0, _⟩ => rfl
    | ⟨1, _⟩ => rfl
    | ⟨2, _⟩ => rfl
  unfold valid1 validOf1
  rw [Host.reduce_eq_fold_single IntOp.andi _ _ reducesTo_S64x16384x1_S64x16384_d2 hR h_S_]
  refine Eq.trans (fold_fin_one IntOp.andi _ _) ?_
  show IntOp.andi (IntOp.andi (IntOp.cmpi .sge (start1 i (hR.lift (ix2 b n) (0 : Fin 1))) 0#32)
    (IntOp.cmpi .sle (start1 i (hR.lift (ix2 b n) (0 : Fin 1))) 65535#32)) 1#1 = _
  rw [hl, start1_apply]
  rfl

local notation "G1" => gather_S64x1x65536_S64x16384x1_S64x1x16384_1_2_0_0_2_2_111

/-- The batched gather at an index: batch entry b, the one table row, the start index clamped into the row. -/
theorem gather1_apply (x : S64x1x65536.Idx → EReal) (idx : S64x16384x1.Idx → BitVec 32) (b : Fin 64) (o : Fin 1)
    (n : Fin 16384) (hlt : min (idx (ix3 b n (0 : Fin 1))).toInt.toNat 65535 < 65536) :
    Host.gather G1 x idx (ix3 b o n)
      = x (ix3 b (0 : Fin 1) ⟨min (idx (ix3 b n (0 : Fin 1))).toInt.toNat 65535, hlt⟩) := by
  obtain rfl : o = 0 := Subsingleton.elim _ _
  unfold Host.gather
  congr 1
  funext a
  apply Fin.ext
  match a with
  | ⟨0, h0⟩ =>
    show GatherDims.start G1 (ix3 b 0 n) idx ⟨0, h0⟩ + GatherDims.batchCoord G1 (ix3 b 0 n) ⟨0, h0⟩
      + GatherDims.offCoord G1 (ix3 b 0 n) ⟨0, h0⟩ = b.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (⟨0, h0⟩ : Fin S64x1x65536.rank) ∈ GatherDims.operandBatchingDims G1 from List.mem_singleton.mpr rfl)]
    simp only [Nat.zero_add, Nat.add_zero]
    rfl
  | ⟨1, h1⟩ =>
    show GatherDims.start G1 (ix3 b 0 n) idx ⟨1, h1⟩ + GatherDims.batchCoord G1 (ix3 b 0 n) ⟨1, h1⟩
      + GatherDims.offCoord G1 (ix3 b 0 n) ⟨1, h1⟩ = 0
    rw [GatherDims.batchCoord_eq_zero _ _ _ (show (⟨1, h1⟩ : Fin S64x1x65536.rank) ∉ GatherDims.operandBatchingDims G1 from (by decide : (1 : Fin S64x1x65536.rank) ∉ GatherDims.operandBatchingDims G1))]
    unfold GatherDims.start
    rw [dif_neg (show (⟨1, h1⟩ : Fin S64x1x65536.rank) ∉ GatherDims.startIndexMap G1 from (by decide : (1 : Fin S64x1x65536.rank) ∉ GatherDims.startIndexMap G1))]
    unfold GatherDims.offCoord
    rw [dif_pos (show (⟨1, h1⟩ : Fin S64x1x65536.rank) ∈ GatherDims.sKept G1 from (by decide : (1 : Fin S64x1x65536.rank) ∈ GatherDims.sKept G1))]
    rfl
  | ⟨2, h2⟩ =>
    show GatherDims.start G1 (ix3 b 0 n) idx ⟨2, h2⟩ + GatherDims.batchCoord G1 (ix3 b 0 n) ⟨2, h2⟩
      + GatherDims.offCoord G1 (ix3 b 0 n) ⟨2, h2⟩ = _
    rw [GatherDims.batchCoord_eq_zero _ _ _ (show (⟨2, h2⟩ : Fin S64x1x65536.rank) ∉ GatherDims.operandBatchingDims G1 from (by decide : (2 : Fin S64x1x65536.rank) ∉ GatherDims.operandBatchingDims G1)),
      GatherDims.offCoord_eq_zero _ _ _ (fun h => ((GatherDims.mem_sKept _ _).mp h).1 (List.mem_singleton.mpr rfl))]
    simp only [Nat.add_zero]
    unfold GatherDims.start
    rw [dif_pos (show (⟨2, h2⟩ : Fin S64x1x65536.rank) ∈ GatherDims.startIndexMap G1 from List.mem_singleton.mpr rfl)]
    have hsi : GatherDims.siIdx G1 (ix3 b (0 : Fin 1) n) ⟨List.idxOf (⟨2, h2⟩ : Fin S64x1x65536.rank) (GatherDims.startIndexMap G1),
        List.idxOf_lt_length_iff.2 (List.mem_singleton.mpr rfl)⟩ = ix3 b n (0 : Fin 1) := by
      funext c; apply Fin.ext
      match c with
      | ⟨0, _⟩ => rfl
      | ⟨1, _⟩ => rfl
      | ⟨2, _⟩ => rfl
    rw [hsi]
    rfl

/-- THE ROW READ AT AN INDEX: the specification's pick of the batch entry's row at the index word. -/
theorem take1_apply (x : S64x1x65536.Idx → EReal) (i : S64x1x16384.Idx → BitVec 32) (b : Fin 64) (o : Fin 1)
    (n : Fin 16384) :
    take1 x i (ix3 b o n) = Spec.pick (fun p => x (ix3 b (0 : Fin 1) p)) (i (ix3 b (0 : Fin 1) n)) := by
  obtain rfl : o = 0 := Subsingleton.elim _ _
  have hlt : min (wrapWord (i (ix3 b (0 : Fin 1) n))).toInt.toNat 65535 < 65536 := by omega
  have hv : broadcastInDim S64x1x16384 ![0, 2] bcast_S64x16384_S64x1x16384_0_2 (validOf1 (start1 i)) (ix3 b (0 : Fin 1) n)
      = validBit (wrapWord (i (ix3 b (0 : Fin 1) n))) := by
    rw [broadcastInDim_apply _ _ (validOf1 (start1 i)) (ix3 b (0 : Fin 1) n) (ix2 b n)
      (fun a => match a with | ⟨0, _⟩ => rfl | ⟨1, _⟩ => rfl)]
    exact valid1_apply i b n
  have hc : broadcastInDim S64x1x16384 ![] bcast_S_S64x1x16384 (constant (F := Ideal) S_ .f32 0x7FC00000#32)
      (ix3 b (0 : Fin 1) n) = ⊥ := ofBits_fill
  have hg := gather1_apply x (start1 i) b 0 n (by rw [start1_apply]; exact hlt)
  unfold take1 takeOf1
  rw [select_apply, hv, hc, hg, ← select_eq_pick (fun p => x (ix3 b (0 : Fin 1) p)) (i (ix3 b (0 : Fin 1) n)) hlt]
  simp only [start1_apply]

/-! ## Two table rows per batch entry -/

theorem wrap2_apply (i : S64x2x16384.Idx → BitVec 32) (j : S64x2x16384.Idx) : wrap2 i j = wrapWord (i j) := rfl

theorem start2_apply (i : S64x2x16384.Idx → BitVec 32) (b : Fin 64) (ch : Fin 2) (n : Fin 16384) :
    start2 i (ix4 b ch n (0 : Fin 1)) = wrapWord (i (ix3 b ch n)) := by
  unfold start2
  rw [shapeCast_apply (wrap2 i) _ (ix4 b ch n (0 : Fin 1)) (ix3 b ch n) (by
    rw [Shape.rowMajor_val_three, Shape.rowMajor_val_four]
    show (b.val * 2 + ch.val) * 16384 + n.val = ((b.val * 2 + ch.val) * 16384 + n.val) * 1 + 0
    omega)]
  rfl

theorem valid2_apply (i : S64x2x16384.Idx → BitVec 32) (b : Fin 64) (ch : Fin 2) (n : Fin 16384) :
    valid2 i (ix3 b ch n) = validBit (wrapWord (i (ix3 b ch n))) := by
  have hR : S64x2x16384x1.Reduces [3] S64x2x16384 := by decide
  have hl : hR.lift (ix3 b ch n) (0 : Fin 1) = ix4 b ch n (0 : Fin 1) := by
    funext c; apply Fin.ext
    match c with
    | ⟨0, _⟩ => rfl
    | ⟨1, _⟩ => rfl
    | ⟨2, _⟩ => rfl
    | ⟨3, _⟩ => rfl
  unfold valid2 validOf2
  rw [Host.reduce_eq_fold_single IntOp.andi _ _ reducesTo_S64x2x16384x1_S64x2x16384_d3 hR h_S_]
  refine Eq.trans (fold_fin_one IntOp.andi _ _) ?_
  show IntOp.andi (IntOp.andi (IntOp.cmpi .sge (start2 i (hR.lift (ix3 b ch n) (0 : Fin 1))) 0#32)
    (IntOp.cmpi .sle (start2 i (hR.lift (ix3 b ch n) (0 : Fin 1))) 65535#32)) 1#1 = _
  rw [hl, start2_apply]
  rfl

local notation "G2" => gather_S64x2x65536_S64x2x16384x1_S64x2x16384_n_2_01_01_2_3_111

/-- The batched gather at an index: batch entry b, table row ch, the start index clamped into the row. -/
theorem gather2_apply (x : S64x2x65536.Idx → EReal) (idx : S64x2x16384x1.Idx → BitVec 32) (b : Fin 64) (ch : Fin 2)
    (n : Fin 16384) (hlt : min (idx (ix4 b ch n (0 : Fin 1))).toInt.toNat 65535 < 65536) :
    Host.gather G2 x idx (ix3 b ch n)
      = x (ix3 b ch ⟨min (idx (ix4 b ch n (0 : Fin 1))).toInt.toNat 65535, hlt⟩) := by
  unfold Host.gather
  congr 1
  funext a
  apply Fin.ext
  match a with
  | ⟨0, h0⟩ =>
    show GatherDims.start G2 (ix3 b ch n) idx ⟨0, h0⟩ + GatherDims.batchCoord G2 (ix3 b ch n) ⟨0, h0⟩
      + GatherDims.offCoord G2 (ix3 b ch n) ⟨0, h0⟩ = b.val
    rw [GatherDims.start_batching _ _ _ _ (show (⟨0, h0⟩ : Fin S64x2x65536.rank) ∈ GatherDims.operandBatchingDims G2 from (by decide : (0 : Fin S64x2x65536.rank) ∈ GatherDims.operandBatchingDims G2)),
      GatherDims.offCoord_eq_zero _ _ _ (fun h => ((GatherDims.mem_sKept _ _).mp h).2 (show (⟨0, h0⟩ : Fin S64x2x65536.rank) ∈ GatherDims.operandBatchingDims G2 from (by decide : (0 : Fin S64x2x65536.rank) ∈ GatherDims.operandBatchingDims G2)))]
    unfold GatherDims.batchCoord
    rw [dif_pos (show (⟨0, h0⟩ : Fin S64x2x65536.rank) ∈ GatherDims.operandBatchingDims G2 from (by decide : (0 : Fin S64x2x65536.rank) ∈ GatherDims.operandBatchingDims G2))]
    simp only [Nat.zero_add, Nat.add_zero]
    rfl
  | ⟨1, h1⟩ =>
    show GatherDims.start G2 (ix3 b ch n) idx ⟨1, h1⟩ + GatherDims.batchCoord G2 (ix3 b ch n) ⟨1, h1⟩
      + GatherDims.offCoord G2 (ix3 b ch n) ⟨1, h1⟩ = ch.val
    rw [GatherDims.start_batching _ _ _ _ (show (⟨1, h1⟩ : Fin S64x2x65536.rank) ∈ GatherDims.operandBatchingDims G2 from (by decide : (1 : Fin S64x2x65536.rank) ∈ GatherDims.operandBatchingDims G2)),
      GatherDims.offCoord_eq_zero _ _ _ (fun h => ((GatherDims.mem_sKept _ _).mp h).2 (show (⟨1, h1⟩ : Fin S64x2x65536.rank) ∈ GatherDims.operandBatchingDims G2 from (by decide : (1 : Fin S64x2x65536.rank) ∈ GatherDims.operandBatchingDims G2)))]
    unfold GatherDims.batchCoord
    rw [dif_pos (show (⟨1, h1⟩ : Fin S64x2x65536.rank) ∈ GatherDims.operandBatchingDims G2 from (by decide : (1 : Fin S64x2x65536.rank) ∈ GatherDims.operandBatchingDims G2))]
    simp only [Nat.zero_add, Nat.add_zero]
    rfl
  | ⟨2, h2⟩ =>
    show GatherDims.start G2 (ix3 b ch n) idx ⟨2, h2⟩ + GatherDims.batchCoord G2 (ix3 b ch n) ⟨2, h2⟩
      + GatherDims.offCoord G2 (ix3 b ch n) ⟨2, h2⟩ = _
    rw [GatherDims.batchCoord_eq_zero _ _ _ (show (⟨2, h2⟩ : Fin S64x2x65536.rank) ∉ GatherDims.operandBatchingDims G2 from (by decide : (2 : Fin S64x2x65536.rank) ∉ GatherDims.operandBatchingDims G2)),
      GatherDims.offCoord_eq_zero _ _ _ (fun h => ((GatherDims.mem_sKept _ _).mp h).1 (List.mem_singleton.mpr rfl))]
    simp only [Nat.add_zero]
    unfold GatherDims.start
    rw [dif_pos (show (⟨2, h2⟩ : Fin S64x2x65536.rank) ∈ GatherDims.startIndexMap G2 from List.mem_singleton.mpr rfl)]
    have hsi : GatherDims.siIdx G2 (ix3 b ch n) ⟨List.idxOf (⟨2, h2⟩ : Fin S64x2x65536.rank) (GatherDims.startIndexMap G2),
        List.idxOf_lt_length_iff.2 (List.mem_singleton.mpr rfl)⟩ = ix4 b ch n (0 : Fin 1) := by
      funext c; apply Fin.ext
      match c with
      | ⟨0, _⟩ => rfl
      | ⟨1, _⟩ => rfl
      | ⟨2, _⟩ => rfl
      | ⟨3, _⟩ => rfl
    rw [hsi]
    rfl

/-- THE TWO-ROW READ AT AN INDEX: the specification's pick of row ch of the batch entry at the index word. -/
theorem take2_apply (x : S64x2x65536.Idx → EReal) (i : S64x2x16384.Idx → BitVec 32) (b : Fin 64) (ch : Fin 2)
    (n : Fin 16384) :
    take2 x i (ix3 b ch n) = Spec.pick (fun p => x (ix3 b ch p)) (i (ix3 b ch n)) := by
  have hlt : min (wrapWord (i (ix3 b ch n))).toInt.toNat 65535 < 65536 := by omega
  have hc : broadcastInDim S64x2x16384 ![] bcast_S_S64x2x16384 (constant (F := Ideal) S_ .f32 0x7FC00000#32)
      (ix3 b ch n) = ⊥ := ofBits_fill
  have hg := gather2_apply x (start2 i) b ch n (by rw [start2_apply]; exact hlt)
  unfold take2 takeOf2
  rw [select_apply, show validOf2 (start2 i) (ix3 b ch n) = validBit (wrapWord (i (ix3 b ch n))) from valid2_apply i b ch n, hc, hg, ← select_eq_pick (fun p => x (ix3 b ch p)) (i (ix3 b ch n)) hlt]
  simp only [start2_apply]

end Cert.KerValue

end
-- ==== Proof.KerGlue.lean ====
/-
  The staged arrays of the kernel program read at an index: a row read laid out corner-major is the specification's
  pick at the flattened corner position, the corner table is the specification's offset, the masks are the converted
  bits, and the shift is transposed.
-/
import proofs.«139320_j2216203125376_2_alg».proof.Proof.KerTerms
import proofs.«139320_j2216203125376_2_alg».proof.Proof.LibKerTake
import Idealize.ShloMosaic.Lib.Pipeline.Value
import Idealize.ShloMosaic.PureOps.Ideal.Laws

set_option maxRecDepth 8000

noncomputable section

namespace Cert.KerValue

open Idealize.ShloMosaic Idealize.ShloMosaic.ValueIdx Cert.KernelIdeal Cert.KernelIdeal.Facts₀

/-! ## The layouts after a row read -/

theorem post11_apply (x : S64x1x16384.Idx → EReal) (b : Fin 64) (c : Fin 4) (n : Fin 4096) :
    post11 x (ix3 b c n) = x (ix3 b (0 : Fin 1) ⟨4 * n.val + c.val, by omega⟩) := by
  unfold post11
  rw [transpose_apply _ _ _ (ix3 b c n) (ix3 b n c) (fun a => match a with | ⟨0, _⟩ => rfl | ⟨1, _⟩ => rfl | ⟨2, _⟩ => rfl),
    shapeCast_apply _ _ (ix3 b n c) (ix4 b (0 : Fin 1) n c) (by
      rw [Shape.rowMajor_val_four, Shape.rowMajor_val_three]
      show ((b.val * 1 + 0) * 4096 + n.val) * 4 + c.val = (b.val * 4096 + n.val) * 4 + c.val
      omega),
    shapeCast_apply _ _ (ix4 b (0 : Fin 1) n c) (ix3 b (0 : Fin 1) (⟨4 * n.val + c.val, by omega⟩ : Fin 16384)) (by
      rw [Shape.rowMajor_val_three, Shape.rowMajor_val_four]
      show (b.val * 1 + 0) * 16384 + (4 * n.val + c.val) = ((b.val * 1 + 0) * 4096 + n.val) * 4 + c.val
      omega)]

theorem post15_apply (x : S64x2x16384.Idx → EReal) (tab : S1x4x2x1.Idx → EReal) (b : Fin 64) (c : Fin 4) (ch : Fin 2)
    (n : Fin 4096) :
    post15 x tab (ix4 b c ch n)
      = x (ix3 b ch ⟨4 * n.val + c.val, by omega⟩) + tab (ix4 (0 : Fin 1) c ch (0 : Fin 1)) := by
  unfold post15
  rw [addf_apply,
    transpose_apply _ _ _ (ix4 b c ch n) (ix4 b ch n c)
      (fun a => match a with | ⟨0, _⟩ => rfl | ⟨1, _⟩ => rfl | ⟨2, _⟩ => rfl | ⟨3, _⟩ => rfl),
    shapeCast_apply _ _ (ix4 b ch n c) (ix3 b ch (⟨4 * n.val + c.val, by omega⟩ : Fin 16384)) (by
      rw [Shape.rowMajor_val_three, Shape.rowMajor_val_four]
      show (b.val * 2 + ch.val) * 16384 + (4 * n.val + c.val) = ((b.val * 2 + ch.val) * 4096 + n.val) * 4 + c.val
      omega),
    broadcastInDim_apply _ _ tab (ix4 b c ch n) (ix4 (0 : Fin 1) c ch (0 : Fin 1))
      (fun a => match a with | ⟨0, _⟩ => rfl | ⟨1, _⟩ => rfl | ⟨2, _⟩ => rfl | ⟨3, _⟩ => rfl)]

theorem post28_apply (x : S64x1x16384.Idx → EReal) (b : Fin 64) (g : Fin 2) (k : Fin 4) (m : Fin 2048) :
    post28 x (ix3 b (⟨4 * g.val + k.val, by omega⟩ : Fin 8) m)
      = x (ix3 b (0 : Fin 1) ⟨8 * m.val + 4 * g.val + k.val, by omega⟩) := by
  unfold post28
  rw [shapeCast_apply _ _ (ix3 b (⟨4 * g.val + k.val, by omega⟩ : Fin 8) m) (ix4 b g k m) (by
      rw [Shape.rowMajor_val_four, Shape.rowMajor_val_three]
      show ((b.val * 2 + g.val) * 4 + k.val) * 2048 + m.val = (b.val * 8 + (4 * g.val + k.val)) * 2048 + m.val
      omega),
    transpose_apply _ _ _ (ix4 b g k m) (ix4 b m g k)
      (fun a => match a with | ⟨0, _⟩ => rfl | ⟨1, _⟩ => rfl | ⟨2, _⟩ => rfl | ⟨3, _⟩ => rfl),
    shapeCast_apply _ _ (ix4 b m g k) (ix5 b (0 : Fin 1) m g k) (by
      rw [Shape.rowMajor_val_five, Shape.rowMajor_val_four]
      show (((b.val * 1 + 0) * 2048 + m.val) * 2 + g.val) * 4 + k.val = ((b.val * 2048 + m.val) * 2 + g.val) * 4 + k.val
      omega),
    shapeCast_apply _ _ (ix5 b (0 : Fin 1) m g k) (ix3 b (0 : Fin 1) (⟨8 * m.val + 4 * g.val + k.val, by omega⟩ : Fin 16384)) (by
      rw [Shape.rowMajor_val_three, Shape.rowMajor_val_five]
      show (b.val * 1 + 0) * 16384 + (8 * m.val + 4 * g.val + k.val)
        = (((b.val * 1 + 0) * 2048 + m.val) * 2 + g.val) * 4 + k.val
      omega)]

theorem post33_apply (x : S64x2x16384.Idx → EReal) (tab : S1x1x4x2x1.Idx → EReal) (b : Fin 64) (g : Fin 2) (k : Fin 4)
    (ch : Fin 2) (m : Fin 2048) :
    post33 x tab (ix4 b (⟨4 * g.val + k.val, by omega⟩ : Fin 8) ch m)
      = x (ix3 b ch ⟨8 * m.val + 4 * g.val + k.val, by omega⟩)
        + tab (ix5 (0 : Fin 1) (0 : Fin 1) k ch (0 : Fin 1)) := by
  unfold post33
  rw [shapeCast_apply _ _ (ix4 b (⟨4 * g.val + k.val, by omega⟩ : Fin 8) ch m) (ix5 b g k ch m) (by
      rw [Shape.rowMajor_val_five, Shape.rowMajor_val_four]
      show (((b.val * 2 + g.val) * 4 + k.val) * 2 + ch.val) * 2048 + m.val
        = ((b.val * 8 + (4 * g.val + k.val)) * 2 + ch.val) * 2048 + m.val
      omega),
    addf_apply,
    transpose_apply _ _ _ (ix5 b g k ch m) (ix5 b ch m g k)
      (fun a => match a with | ⟨0, _⟩ => rfl | ⟨1, _⟩ => rfl | ⟨2, _⟩ => rfl | ⟨3, _⟩ => rfl | ⟨4, _⟩ => rfl),
    shapeCast_apply _ _ (ix5 b ch m g k) (ix3 b ch (⟨8 * m.val + 4 * g.val + k.val, by omega⟩ : Fin 16384)) (by
      rw [Shape.rowMajor_val_three, Shape.rowMajor_val_five]
      show (b.val * 2 + ch.val) * 16384 + (8 * m.val + 4 * g.val + k.val)
        = (((b.val * 2 + ch.val) * 2048 + m.val) * 2 + g.val) * 4 + k.val
      omega),
    broadcastInDim_apply _ _ tab (ix5 b g k ch m) (ix5 (0 : Fin 1) (0 : Fin 1) k ch (0 : Fin 1))
      (fun a => match a with | ⟨0, _⟩ => rfl | ⟨1, _⟩ => rfl | ⟨2, _⟩ => rfl | ⟨3, _⟩ => rfl | ⟨4, _⟩ => rfl)]

/-! ## The index words and the corner tables -/

theorem idx1_apply (i : S64x16384.Idx → BitVec 32) (b : Fin 64) (o : Fin 1) (q : Fin 16384) :
    idx1 i (ix3 b o q) = i (ix2 b q) := by
  unfold idx1
  rw [broadcastInDim_apply _ _ i (ix3 b o q) (ix2 b q) (fun a => match a with | ⟨0, _⟩ => rfl | ⟨1, _⟩ => rfl)]

theorem idx2_apply (i : S64x16384.Idx → BitVec 32) (b : Fin 64) (ch : Fin 2) (q : Fin 16384) :
    idx2 i (ix3 b ch q) = i (ix2 b q) := by
  unfold idx2
  rw [broadcastInDim_apply _ _ (idx1 i) (ix3 b ch q) (ix3 b (0 : Fin 1) q)
    (fun a => match a with | ⟨0, _⟩ => rfl | ⟨1, _⟩ => rfl | ⟨2, _⟩ => rfl), idx1_apply]

/-- The corner table's bit patterns. -/
theorem lit0_corner (c : Fin 4) (ch : Fin 2) :
    lit0 (S1x4x2x1.rowMajor (ix4 (0 : Fin 1) c ch (0 : Fin 1)))
      = if (ch.val = 0 ∧ c.val % 2 = 1) ∨ (ch.val = 1 ∧ 2 ≤ c.val) then 0x3F800000#32 else 0x00000000#32 := by
  fin_cases c <;> fin_cases ch <;> rfl

theorem lit1_corner (c : Fin 4) (ch : Fin 2) :
    lit1 (S1x1x4x2x1.rowMajor (ix5 (0 : Fin 1) (0 : Fin 1) c ch (0 : Fin 1)))
      = if (ch.val = 0 ∧ c.val % 2 = 1) ∨ (ch.val = 1 ∧ 2 ≤ c.val) then 0x3F800000#32 else 0x00000000#32 := by
  fin_cases c <;> fin_cases ch <;> rfl

theorem cornerTab_apply (c : Fin 4) (ch : Fin 2) : cornerTab (ix4 (0 : Fin 1) c ch (0 : Fin 1)) = Spec.off c ch := by
  unfold cornerTab Spec.off
  show Ideal.ofBits .f32 (lit0 _) = _
  rw [lit0_corner]
  split
  · rfl
  · exact Ideal.ofBits_zero_f32

theorem cornerTab'_apply (c : Fin 4) (ch : Fin 2) :
    cornerTab' (ix5 (0 : Fin 1) (0 : Fin 1) c ch (0 : Fin 1)) = Spec.off c ch := by
  unfold cornerTab' Spec.off
  show Ideal.ofBits .f32 (lit1 _) = _
  rw [lit1_corner]
  split
  · rfl
  · exact Ideal.ofBits_zero_f32

/-! ## The staged arrays at an index -/

theorem k_v11_apply (a0 : S64x1x256x256.Idx → EReal) (a5 : S64x4096x4.Idx → BitVec 32) (b : Fin 64) (c : Fin 4)
    (n : Fin 4096) :
    k_v11 a0 a5 (ix3 b c n)
      = Spec.pick (fun p => tabH a0 (ix3 b (0 : Fin 1) p)) (idxA a5 (ix2 b ⟨4 * n.val + c.val, by omega⟩)) := by
  unfold k_v11
  rw [post11_apply, take1_apply, idx1_apply]

theorem k_v15_apply (a1 : S64x2x256x256.Idx → EReal) (a5 : S64x4096x4.Idx → BitVec 32) (b : Fin 64) (c : Fin 4)
    (ch : Fin 2) (n : Fin 4096) :
    k_v15 a1 a5 (ix4 b c ch n)
      = Spec.pick (fun p => tabO a1 (ix3 b ch p)) (idxA a5 (ix2 b ⟨4 * n.val + c.val, by omega⟩)) + Spec.off c ch := by
  unfold k_v15
  rw [post15_apply, take2_apply, idx2_apply, cornerTab_apply]

theorem k_v28_apply (a0 : S64x1x256x256.Idx → EReal) (a6 : S64x2048x2x4.Idx → BitVec 32) (b : Fin 64) (g : Fin 2)
    (k : Fin 4) (m : Fin 2048) :
    k_v28 a0 a6 (ix3 b (⟨4 * g.val + k.val, by omega⟩ : Fin 8) m)
      = Spec.pick (fun p => tabH a0 (ix3 b (0 : Fin 1) p))
          (idxR a6 (ix2 b ⟨8 * m.val + 4 * g.val + k.val, by omega⟩)) := by
  unfold k_v28
  rw [post28_apply, take1_apply, idx1_apply]

theorem k_v33_apply (a1 : S64x2x256x256.Idx → EReal) (a6 : S64x2048x2x4.Idx → BitVec 32) (b : Fin 64) (g : Fin 2)
    (k : Fin 4) (ch : Fin 2) (m : Fin 2048) :
    k_v33 a1 a6 (ix4 b (⟨4 * g.val + k.val, by omega⟩ : Fin 8) ch m)
      = Spec.pick (fun p => tabO a1 (ix3 b ch p))
          (idxR a6 (ix2 b ⟨8 * m.val + 4 * g.val + k.val, by omega⟩)) + Spec.off k ch := by
  unfold k_v33
  rw [post33_apply, take2_apply, idx2_apply, cornerTab'_apply]

theorem k_v17_apply (a7 : S64x4096x4.Idx → BitVec 1) (b : Fin 64) (c : Fin 4) (n : Fin 4096) :
    k_v17 a7 (ix3 b c n) = FloatOps.uitofp (F := Ideal) .f32 (a7 (ix3 b n c)) := by
  unfold k_v17
  rw [transpose_apply _ _ _ (ix3 b c n) (ix3 b n c) (fun a => match a with | ⟨0, _⟩ => rfl | ⟨1, _⟩ => rfl | ⟨2, _⟩ => rfl)]
  rfl

theorem k_v36_apply (a8 : S64x2048x1.Idx → BitVec 1) (b : Fin 64) (o : Fin 1) (m : Fin 2048) :
    k_v36 a8 (ix3 b o m) = FloatOps.uitofp (F := Ideal) .f32 (a8 (ix3 b m (0 : Fin 1))) := by
  unfold k_v36
  rw [broadcastInDim_apply _ _ _ (ix3 b o m) (ix2 b m) (fun a => match a with | ⟨0, _⟩ => rfl | ⟨1, _⟩ => rfl)]
  show FloatOps.uitofp (F := Ideal) .f32 (shapeCast S64x2048 a8 shapeCasts_S64x2048x1_S64x2048 (ix2 b m)) = _
  rw [shapeCast_apply a8 _ (ix2 b m) (ix3 b m (0 : Fin 1)) (by
    rw [Shape.rowMajor_val_three, Shape.rowMajor_val_two]
    show (b.val * 2048 + m.val) * 1 + 0 = b.val * 2048 + m.val
    omega)]

theorem k_v37_apply (a4 : S64x2048x2.Idx → EReal) (b : Fin 64) (ch : Fin 2) (m : Fin 2048) :
    k_v37 a4 (ix3 b ch m) = a4 (ix3 b m ch) := by
  unfold k_v37
  rw [transpose_apply _ _ _ (ix3 b ch m) (ix3 b m ch) (fun a => match a with | ⟨0, _⟩ => rfl | ⟨1, _⟩ => rfl | ⟨2, _⟩ => rfl)]

/-- A mask bit converted to a float is 1 or 0. -/
theorem uitofp_bit_one : FloatOps.uitofp (F := Ideal) .f32 (1#1 : BitVec 1) = 1 := by
  show (((1#1 : BitVec 1).toNat : ℝ) : EReal) = 1
  norm_num
theorem uitofp_bit_zero : FloatOps.uitofp (F := Ideal) .f32 (0#1 : BitVec 1) = 0 := by
  show (((0#1 : BitVec 1).toNat : ℝ) : EReal) = 0
  norm_num

end Cert.KerValue

end
-- ==== Proof.KerTail.lean ====
/-
  The kernel program's result after its closing host operations: the first region's accumulated block over the first
  mask count plus 1e-4, plus the second region's block over the second count plus 1e-4.  The two blocks are what the
  regions' write-backs leave; the counts are read where the first region is entered, no region writing them.
-/
import proofs.«139320_j2216203125376_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.KerTail

open Idealize.ShloMosaic Idealize.ShloMosaic.TcCoe Idealize.ShloMosaic.Tactic Idealize.SL.Sem
open Idealize.ShloMosaic.ValueIdx
open Cert.KernelIdeal Cert.KernelIdeal.Gen

variable (m : (ℓ : Loc nD τ sig) → Buf (Elt Ideal) ℓ) (ρ : Dev nD → PrngReg)

/-- The first region's output array after both regions is what the first region's write-backs leave. -/
theorem out0_kept (c : Dev nD) : W11 m ρ c (Proc.devRef .tc main_v44) = (dat0 (V9 m ρ) c).arrAt 3 cfg0.N :=
  (W11_of_ne m ρ c main_v44 (by decide)).trans (W10_arr m ρ c 3)

/-- The second region's output array is what its write-backs leave. -/
theorem out1_kept (c : Dev nD) : W11 m ρ c (Proc.devRef .tc main_v45) = (dat1 (V10 m ρ) c).arrAt 4 cfg1.N :=
  W11_arr m ρ c 4

/-- No region writes the first count. -/
theorem cnt0_kept (c : Dev nD) : W11 m ρ c (Proc.devRef .tc main_v40) = W9 m ρ c (Proc.devRef .tc main_v40) :=
  (W11_of_ne m ρ c main_v40 (by decide)).trans (W10_of_ne m ρ c main_v40 (by decide))

/-- No region writes the second count. -/
theorem cnt1_kept (c : Dev nD) : W11 m ρ c (Proc.devRef .tc main_v43) = W9 m ρ c (Proc.devRef .tc main_v43) :=
  (W11_of_ne m ρ c main_v43 (by decide)).trans (W10_of_ne m ρ c main_v43 (by decide))

/-- The second region finds the arrays it reads as the first region found them. -/
theorem in1_kept (c : Dev nD) (b : Ref sig .tc) (hb : ∀ w, Pipeline.arrRef spec0 w ≠ b) :
    V10 m ρ c b = V9 m ρ c b := W10_of_ne m ρ c b hb

/-- The first region's accumulated block, as an extended real. -/
def blk0 (c : Dev nD) : EReal := ((dat0 (V9 m ρ) c).arrAt 3 cfg0.N : S1x1.Idx → EReal) (ix2 0 0)
/-- The second region's accumulated block. -/
def blk1 (c : Dev nD) : EReal := ((dat1 (V10 m ρ) c).arrAt 4 cfg1.N : S1x1.Idx → EReal) (ix2 0 0)
/-- The first mask count as a float, where the first region is entered. -/
def cnt0 (c : Dev nD) : EReal := (W9 m ρ c (Proc.devRef .tc main_v40) : S_.Idx → EReal) ix0
/-- The second mask count as a float. -/
def cnt1 (c : Dev nD) : EReal := (W9 m ρ c (Proc.devRef .tc main_v43) : S_.Idx → EReal) ix0

/-- The result: block over count plus 1e-4, twice, added. -/
theorem result_at (c : Dev nD) :
    (W12 m ρ c (Proc.devRef .tc main_v52) : S_.Idx → EReal) ix0
      = Ideal.div (blk0 m ρ c) (cnt0 m ρ c + Ideal.ofBits .f32 0x38D1B717#32)
        + Ideal.div (blk1 m ρ c) (cnt1 m ρ c + Ideal.ofBits .f32 0x38D1B717#32) := by
  have e : (W12 m ρ c (Proc.devRef .tc main_v52) : S_.Idx → EReal)
      = addf (Host.divf (fun i => shapeCast S_ (W11 m ρ c (Proc.devRef .tc main_v44) : S1x1.Idx → EReal) shapeCasts_S1x1_S_ i)
            (addf (W11 m ρ c (Proc.devRef .tc main_v40)) (constant (F := Ideal) S_ .f32 0x38D1B717#32)))
          (Host.divf (fun i => shapeCast S_ (W11 m ρ c (Proc.devRef .tc main_v45) : S1x1.Idx → EReal) shapeCasts_S1x1_S_ i)
            (addf (W11 m ρ c (Proc.devRef .tc main_v43)) (constant (F := Ideal) S_ .f32 0x38D1B717#32))) := by
    show StableHlo.after hostOps2 (W11 m ρ c) (Proc.devRef .tc main_v52) = _
    after_results
    rfl
  rw [e, out0_kept, out1_kept, cnt0_kept, cnt1_kept]
  show Ideal.div (shapeCast S_ _ shapeCasts_S1x1_S_ ix0) _ + Ideal.div (shapeCast S_ _ shapeCasts_S1x1_S_ ix0) _ = _
  rw [shapeCast_apply _ shapeCasts_S1x1_S_ ix0 (ix2 0 0) rfl, shapeCast_apply _ shapeCasts_S1x1_S_ ix0 (ix2 0 0) rfl]
  rfl

end Cert.KernelIdeal.KerTail

end
-- ==== Proof.Canon.lean ====
/-
  The per-element terms both programs compute, as functions of the flattened tables and index arrays.

  `H` holds a height per batch member and flat position, `O` two offsets, `Ia` the attract index words
  (four corners per anchor, corner `k` of anchor `n` at column `4 n + k`), `Ir` the repel index words (two groups
  of four corners per pair, corner `k` of group `g` of pair `m` at column `8 m + 4 g + k`), `P` the shift of the
  second group's centre.
-/
import proofs.«139320_j2216203125376_2_alg».proof.Proof.Spec

noncomputable section

namespace Cert.Canon

open Idealize.ShloMosaic Idealize.ShloMosaic.ValueIdx

abbrev SH : Shape := ⟨3, ![64, 1, 65536]⟩
abbrev SO : Shape := ⟨3, ![64, 2, 65536]⟩
abbrev SI : Shape := ⟨2, ![64, 16384]⟩
abbrev SP : Shape := ⟨3, ![64, 2048, 2]⟩

/-- Height of corner `k` of anchor `n`. -/
def hA (H : SH.Idx → EReal) (Ia : SI.Idx → BitVec 32) (b : Fin 64) (n : Fin 4096) (k : Fin 4) : EReal :=
  Spec.pick (fun p => H (ix3 b (0 : Fin 1) p)) (Ia (ix2 b ⟨4 * n.val + k.val, by omega⟩))

/-- Offset channel `ch` of corner `k` of anchor `n`, the corner's own offset added. -/
def oA (O : SO.Idx → EReal) (Ia : SI.Idx → BitVec 32) (ch : Fin 2) (b : Fin 64) (n : Fin 4096) (k : Fin 4) : EReal :=
  Spec.pick (fun p => O (ix3 b ch p)) (Ia (ix2 b ⟨4 * n.val + k.val, by omega⟩)) + Spec.off k ch

/-- The attract term of corner `c` of anchor `n`. -/
def cA (H : SH.Idx → EReal) (O : SO.Idx → EReal) (Ia : SI.Idx → BitVec 32) (b : Fin 64) (n : Fin 4096) (c : Fin 4) : EReal :=
  Spec.attractIou (hA H Ia b n) (oA O Ia 0 b n) (oA O Ia 1 b n) c

/-- Height of corner `k` of group `g` of pair `m`. -/
def hR (H : SH.Idx → EReal) (Ir : SI.Idx → BitVec 32) (b : Fin 64) (m : Fin 2048) (g : Fin 2) (k : Fin 4) : EReal :=
  Spec.pick (fun p => H (ix3 b (0 : Fin 1) p)) (Ir (ix2 b ⟨8 * m.val + 4 * g.val + k.val, by omega⟩))

/-- Offset channel `ch` of corner `k` of group `g` of pair `m`. -/
def oR (O : SO.Idx → EReal) (Ir : SI.Idx → BitVec 32) (ch : Fin 2) (b : Fin 64) (m : Fin 2048) (g : Fin 2) (k : Fin 4) : EReal :=
  Spec.pick (fun p => O (ix3 b ch p)) (Ir (ix2 b ⟨8 * m.val + 4 * g.val + k.val, by omega⟩)) + Spec.off k ch

/-- The repel term of pair `m`. -/
def cR (H : SH.Idx → EReal) (O : SO.Idx → EReal) (Ir : SI.Idx → BitVec 32) (P : SP.Idx → EReal) (b : Fin 64) (m : Fin 2048) : EReal :=
  Spec.repelIou (hR H Ir b m 0) (oR O Ir 0 b m 0) (oR O Ir 1 b m 0) (hR H Ir b m 1) (oR O Ir 0 b m 1) (oR O Ir 1 b m 1)
    (P (ix3 b m (0 : Fin 2))) (P (ix3 b m (1 : Fin 2)))

end Cert.Canon

end
-- ==== Proof.Totals.lean ====
/-
  The two masked totals in the grouping the kernels use: batch member by batch member, and inside a member corner by
  corner and anchor by anchor (attract) or pair by pair (repel).  The mask is read as "the bit as a float exceeds one
  half".
-/
import proofs.«139320_j2216203125376_2_alg».proof.Proof.Canon

noncomputable section

namespace Cert.Totals

open Idealize.ShloMosaic Idealize.ShloMosaic.ValueIdx

/-- The attract total: per batch member, per corner, per anchor, `1 - iou` where the mask bit is set. -/
def totA (H : Canon.SH.Idx → EReal) (O : Canon.SO.Idx → EReal) (Ia : Canon.SI.Idx → BitVec 32)
    (a7 : (⟨3, ![64, 4096, 4]⟩ : Shape).Idx → BitVec 1) : EReal :=
  ∑ b : Fin 64, ∑ c : Fin 4, ∑ n : Fin 4096,
    Scalar.select (Ideal.cmp .ogt (((a7 (ix3 b n c)).toNat : ℝ) : EReal) (Ideal.ofBits .f32 0x3F000000#32))
      (Spec.k1 - Canon.cA H O Ia b n c) 0

/-- The repel total: per batch member, per pair, the iou where the mask bit is set. -/
def totR (H : Canon.SH.Idx → EReal) (O : Canon.SO.Idx → EReal) (Ir : Canon.SI.Idx → BitVec 32)
    (P : Canon.SP.Idx → EReal) (a8 : (⟨3, ![64, 2048, 1]⟩ : Shape).Idx → BitVec 1) : EReal :=
  ∑ b : Fin 64, ∑ mm : Fin 2048,
    Scalar.select (Ideal.cmp .ogt (((a8 (ix3 b mm (0 : Fin 1))).toNat : ℝ) : EReal) (Ideal.ofBits .f32 0x3F000000#32))
      (Canon.cR H O Ir P b mm) 0

end Cert.Totals

end
-- ==== Proof.KerTotal.lean ====
/-
  The two regions' accumulated blocks in canonical form.  Region 0 leaves the sum over the batch of the masked
  `1 - iou` terms of the arrays it stages; those arrays are the gathered heights and offsets laid out corner-major
  and the mask as floats, so the sum is the attract total.  Region 1 likewise leaves the repel total; it finds its
  arrays as the first region found them, the first region writing none of them.
-/
import proofs.«139320_j2216203125376_2_alg».proof.Proof.KerAttract
import proofs.«139320_j2216203125376_2_alg».proof.Proof.KerRepel
import proofs.«139320_j2216203125376_2_alg».proof.Proof.KerGlue
import proofs.«139320_j2216203125376_2_alg».proof.Proof.KerTail
import proofs.«139320_j2216203125376_2_alg».proof.Proof.Totals

set_option maxRecDepth 16384

noncomputable section

namespace Cert.KerTotal

open Idealize.ShloMosaic Idealize.ShloMosaic.TcCoe Idealize.SL.Sem Idealize.ShloMosaic.ValueIdx
open Cert.KernelIdeal Cert.KernelIdeal.Gen Cert.KerValue

/-- One batch member's attract part over the staged arrays is the canonical one. -/
theorem partA_canon (a0 : S64x1x256x256.Idx → EReal) (a1 : S64x2x256x256.Idx → EReal)
    (a5 : S64x4096x4.Idx → BitVec 32) (a7 : S64x4096x4.Idx → BitVec 1) (b : Fin 64) :
    KerAttract.partA (k_v11 a0 a5) (k_v15 a1 a5) (k_v17 a7) b
      = ∑ c : Fin 4, ∑ n : Fin 4096,
          Scalar.select (Ideal.cmp .ogt (((a7 (ix3 b n c)).toNat : ℝ) : EReal) (Ideal.ofBits .f32 0x3F000000#32))
            (Spec.k1 - Canon.cA (tabH a0) (tabO a1) (idxA a5) b n c) 0 := by
  unfold KerAttract.partA
  refine Finset.sum_congr rfl fun c _ => Finset.sum_congr rfl fun n _ => ?_
  rw [k_v17_apply]
  simp only [k_v11_apply, k_v15_apply]
  rfl

/-- Row `k` of the repel heights is corner `k` of the first group. -/
theorem v28_g0 (a0 : S64x1x256x256.Idx → EReal) (a6 : S64x2048x2x4.Idx → BitVec 32) (b : Fin 64) (k : Fin 4)
    (mm : Fin 2048) (h : k.val < 8) :
    k_v28 a0 a6 (ix3 b (⟨k.val, h⟩ : Fin 8) mm) = Canon.hR (tabH a0) (idxR a6) b mm 0 k := by
  have e : (⟨k.val, h⟩ : Fin 8) = ⟨4 * (0 : Fin 2).val + k.val, by omega⟩ := Fin.ext (by simp)
  rw [e, k_v28_apply]; rfl

/-- Row `4 + k` of the repel heights is corner `k` of the second group. -/
theorem v28_g1 (a0 : S64x1x256x256.Idx → EReal) (a6 : S64x2048x2x4.Idx → BitVec 32) (b : Fin 64) (k : Fin 4)
    (mm : Fin 2048) (h : 4 + k.val < 8) :
    k_v28 a0 a6 (ix3 b (⟨4 + k.val, h⟩ : Fin 8) mm) = Canon.hR (tabH a0) (idxR a6) b mm 1 k := by
  have e : (⟨4 + k.val, h⟩ : Fin 8) = ⟨4 * (1 : Fin 2).val + k.val, by omega⟩ := Fin.ext (by simp)
  rw [e, k_v28_apply]; rfl

/-- Row `k` of the repel offsets. -/
theorem v33_g0 (a1 : S64x2x256x256.Idx → EReal) (a6 : S64x2048x2x4.Idx → BitVec 32) (b : Fin 64) (k : Fin 4)
    (ch : Fin 2) (mm : Fin 2048) (h : k.val < 8) :
    k_v33 a1 a6 (ix4 b (⟨k.val, h⟩ : Fin 8) ch mm) = Canon.oR (tabO a1) (idxR a6) ch b mm 0 k := by
  have e : (⟨k.val, h⟩ : Fin 8) = ⟨4 * (0 : Fin 2).val + k.val, by omega⟩ := Fin.ext (by simp)
  rw [e, k_v33_apply]; rfl

/-- Row `4 + k` of the repel offsets. -/
theorem v33_g1 (a1 : S64x2x256x256.Idx → EReal) (a6 : S64x2048x2x4.Idx → BitVec 32) (b : Fin 64) (k : Fin 4)
    (ch : Fin 2) (mm : Fin 2048) (h : 4 + k.val < 8) :
    k_v33 a1 a6 (ix4 b (⟨4 + k.val, h⟩ : Fin 8) ch mm) = Canon.oR (tabO a1) (idxR a6) ch b mm 1 k := by
  have e : (⟨4 + k.val, h⟩ : Fin 8) = ⟨4 * (1 : Fin 2).val + k.val, by omega⟩ := Fin.ext (by simp)
  rw [e, k_v33_apply]; rfl

/-- One batch member's repel part over the staged arrays is the canonical one. -/
theorem partR_canon (a0 : S64x1x256x256.Idx → EReal) (a1 : S64x2x256x256.Idx → EReal) (a4 : S64x2048x2.Idx → EReal)
    (a6 : S64x2048x2x4.Idx → BitVec 32) (a8 : S64x2048x1.Idx → BitVec 1) (b : Fin 64) :
    KerRepel.partR (k_v28 a0 a6) (k_v33 a1 a6) (k_v36 a8) (k_v37 a4) b
      = ∑ mm : Fin 2048,
          Scalar.select (Ideal.cmp .ogt (((a8 (ix3 b mm (0 : Fin 1))).toNat : ℝ) : EReal) (Ideal.ofBits .f32 0x3F000000#32))
            (Canon.cR (tabH a0) (tabO a1) (idxR a6) a4 b mm) 0 := by
  rw [KerRepel.partR_unfold]
  refine Finset.sum_congr rfl fun mm _ => ?_
  rw [k_v36_apply]
  simp only [v28_g0, v28_g1, v33_g0, v33_g1, k_v37_apply]
  rfl

variable (m : (ℓ : Loc nD τ sig) → Buf (Elt Ideal) ℓ) (ρ : Dev nD → PrngReg)

/-- The first region's block is the attract total. -/
theorem blk0_eq (c : Dev nD) (a0 : S64x1x256x256.Idx → EReal) (a1 : S64x2x256x256.Idx → EReal)
    (a5 : S64x4096x4.Idx → BitVec 32) (a7 : S64x4096x4.Idx → BitVec 1)
    (e11 : (V9 m ρ c main_v11 : S64x4x4096.Idx → EReal) = k_v11 a0 a5)
    (e15 : (V9 m ρ c main_v15 : S64x4x2x4096.Idx → EReal) = k_v15 a1 a5)
    (e17 : (V9 m ρ c main_v17 : S64x4x4096.Idx → EReal) = k_v17 a7) :
    KerTail.blk0 m ρ c = Totals.totA (tabH a0) (tabO a1) (idxA a5) a7 := by
  have h0 : KerAttract.X0 (V9 m ρ) c = k_v11 a0 a5 := e11
  have h1 : KerAttract.X1 (V9 m ρ) c = k_v15 a1 a5 := e15
  have h2 : KerAttract.X2 (V9 m ρ) c = k_v17 a7 := e17
  unfold KerTail.blk0
  rw [KerAttract.region0_out (V9 m ρ) c, h0, h1, h2]
  show ∑ b : Fin 64, KerAttract.partA (k_v11 a0 a5) (k_v15 a1 a5) (k_v17 a7) b = _
  unfold Totals.totA
  exact Finset.sum_congr rfl fun b _ => partA_canon a0 a1 a5 a7 b

/-- The second region's block is the repel total. -/
theorem blk1_eq (c : Dev nD) (a0 : S64x1x256x256.Idx → EReal) (a1 : S64x2x256x256.Idx → EReal)
    (a4 : S64x2048x2.Idx → EReal) (a6 : S64x2048x2x4.Idx → BitVec 32) (a8 : S64x2048x1.Idx → BitVec 1)
    (e28 : (V9 m ρ c main_v28 : S64x8x2048.Idx → EReal) = k_v28 a0 a6)
    (e33 : (V9 m ρ c main_v33 : S64x8x2x2048.Idx → EReal) = k_v33 a1 a6)
    (e36 : (V9 m ρ c main_v36 : S64x1x2048.Idx → EReal) = k_v36 a8)
    (e37 : (V9 m ρ c main_v37 : S64x2x2048.Idx → EReal) = k_v37 a4) :
    KerTail.blk1 m ρ c = Totals.totR (tabH a0) (tabO a1) (idxR a6) a4 a8 := by
  have h0 : KerRepel.Y0 (V10 m ρ) c = k_v28 a0 a6 := (KerTail.in1_kept m ρ c main_v28 (by decide)).trans e28
  have h1 : KerRepel.Y1 (V10 m ρ) c = k_v33 a1 a6 := (KerTail.in1_kept m ρ c main_v33 (by decide)).trans e33
  have h2 : KerRepel.Y2 (V10 m ρ) c = k_v36 a8 := (KerTail.in1_kept m ρ c main_v36 (by decide)).trans e36
  have h3 : KerRepel.Y3 (V10 m ρ) c = k_v37 a4 := (KerTail.in1_kept m ρ c main_v37 (by decide)).trans e37
  unfold KerTail.blk1
  rw [KerRepel.region1_out (V10 m ρ) c]
  show ∑ b : Fin 64, KerRepel.partR (KerRepel.Y0 (V10 m ρ) c) (KerRepel.Y1 (V10 m ρ) c) (KerRepel.Y2 (V10 m ρ) c)
      (KerRepel.Y3 (V10 m ρ) c) b = _
  rw [h0, h1, h2, h3]
  unfold Totals.totR
  exact Finset.sum_congr rfl fun b _ => partR_canon a0 a1 a4 a6 a8 b

end Cert.KerTotal

end
-- ==== Proof.RefTerms.lean ====
/-
  The reference program's values as pure functions of its argument arrays, read at the extended reals.

  One definition per tensor value of the program, in the program's order: `t_vN` is the value of `%N`,
  `t_callK_x` the value `%x` of the K-th outlined call, `t_cst_N` / `t_c_N` a constant.  Each applies to the
  terms of its operands exactly the operation the program applies there (same functions, same shape records,
  same witnesses), so each is by definition what the program's line computes.  The arguments are
  `a0` (heights), `a1` (offsets), `a4` (the repel shift), `a5` / `a6` (attract / repel index words),
  `a7` / `a8` (the two masks); `d` stands for the scalar `%101` (the attract count plus 1e-4) and `d'`
  for the scalar `%205` (the repel count plus 1e-4), which are computed from the masks alone.
-/
import proofs.«139320_j2216203125376_2_alg».proof.ReferenceIdeal
import Idealize.ShloMosaic.PureOps.Ideal

set_option synthInstance.maxSize 4096

noncomputable section

namespace Cert.RefValue

open Idealize.ShloMosaic Cert.ReferenceIdeal Cert.ReferenceIdeal.Facts₀

variable [Cert.ReferenceIdeal.Facts]

noncomputable def t_cst : S4x2.Idx → EReal :=
  ((fun i => FloatOps.ofBits (F := Ideal) .f32 (lit0 (S4x2.rowMajor i))) : (⟨S4x2, .f32⟩ : BufTy).Contents (Elt Ideal))

noncomputable def t_v3 (a5 : S64x4096x4.Idx → BitVec 32) : S64x16384.Idx → BitVec 32 :=
  shapeCast S64x16384 a5 shapeCasts_S64x4096x4_S64x16384

noncomputable def t_v4 (a0 : S64x1x256x256.Idx → EReal) : S64x1x65536.Idx → EReal :=
  shapeCast S64x1x65536 a0 shapeCasts_S64x1x256x256_S64x1x65536

noncomputable def t_v5 (a0 : S64x1x256x256.Idx → EReal) : S64x65536x1.Idx → EReal :=
  ((transpose S64x65536x1 [0, 2, 1] · transposes_S64x1x65536_S64x65536x1_0_2_1) : (⟨S64x1x65536, .f32⟩ : BufTy).Contents (Elt Ideal) → (⟨S64x65536x1, .f32⟩ : BufTy).Contents (Elt Ideal)) (t_v4 a0)

noncomputable def t_v6 (a5 : S64x4096x4.Idx → BitVec 32) : S64x16384x1.Idx → BitVec 32 :=
  (broadcastInDim S64x16384x1 ![0, 1] bcast_S64x16384_S64x16384x1_0_1 : (⟨S64x16384, .i32⟩ : BufTy).Contents (Elt Ideal) → (⟨S64x16384x1, .i32⟩ : BufTy).Contents (Elt Ideal)) (t_v3 a5)

noncomputable def t_call0_c : S_.Idx → BitVec 32 :=
  ((constantI S_ 32 0#32) : (⟨S_, .i32⟩ : BufTy).Contents (Elt Ideal))

noncomputable def t_call0_v0 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call0_c

noncomputable def t_call0_v1 (a5 : S64x4096x4.Idx → BitVec 32) : S64x16384x1.Idx → BitVec 1 :=
  ((cmpi .slt) : (⟨S64x16384x1, .i32⟩ : BufTy).Contents (Elt Ideal) → (⟨S64x16384x1, .i32⟩ : BufTy).Contents (Elt Ideal) → (⟨S64x16384x1, .i1⟩ : BufTy).Contents (Elt Ideal)) (t_v6 a5) t_call0_v0

noncomputable def t_call0_c_0 : S_.Idx → BitVec 32 :=
  ((constantI S_ 32 65536#32) : (⟨S_, .i32⟩ : BufTy).Contents (Elt Ideal))

noncomputable def t_call0_v2 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call0_c_0

noncomputable def t_call0_v3 (a5 : S64x4096x4.Idx → BitVec 32) : S64x16384x1.Idx → BitVec 32 :=
  (addi : (⟨S64x16384x1, .i32⟩ : BufTy).Contents (Elt Ideal) → (⟨S64x16384x1, .i32⟩ : BufTy).Contents (Elt Ideal) → (⟨S64x16384x1, .i32⟩ : BufTy).Contents (Elt Ideal)) (t_v6 a5) t_call0_v2

noncomputable def t_call0_v4 (a5 : S64x4096x4.Idx → BitVec 32) : S64x16384x1.Idx → BitVec 32 :=
  (select : (⟨S64x16384x1, .i1⟩ : BufTy).Contents (Elt Ideal) → (⟨S64x16384x1, .i32⟩ : BufTy).Contents (Elt Ideal) → (⟨S64x16384x1, .i32⟩ : BufTy).Contents (Elt Ideal) → (⟨S64x16384x1, .i32⟩ : BufTy).Contents (Elt Ideal)) (t_call0_v1 a5) (t_call0_v3 a5) (t_v6 a5)

noncomputable def t_call0_c_1 : S1.Idx → BitVec 32 :=
  ((constantI S1 32 65535#32) : (⟨S1, .i32⟩ : BufTy).Contents (Elt Ideal))

noncomputable def t_call0_c_2 : S_.Idx → BitVec 32 :=
  ((constantI S_ 32 0#32) : (⟨S_, .i32⟩ : BufTy).Contents (Elt Ideal))

noncomputable def t_call0_v5 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call0_c_2

noncomputable def t_call0_v6 (a5 : S64x4096x4.Idx → BitVec 32) : S64x16384x1.Idx → BitVec 1 :=
  ((cmpi .sge) : (⟨S64x16384x1, .i32⟩ : BufTy).Contents (Elt Ideal) → (⟨S64x16384x1, .i32⟩ : BufTy).Contents (Elt Ideal) → (⟨S64x16384x1, .i1⟩ : BufTy).Contents (Elt Ideal)) (t_call0_v4 a5) t_call0_v5

noncomputable def t_call0_v7 : S1x1x1.Idx → BitVec 32 :=
  ((broadcastInDim S1x1x1 ![2] bcast_S1_S1x1x1_2) : (⟨S1, .i32⟩ : BufTy).Contents (Elt Ideal) → (⟨S1x1x1, .i32⟩ : BufTy).Contents (Elt Ideal)) t_call0_c_1

noncomputable def t_call0_v8 : S64x16384x1.Idx → BitVec 32 :=
  ((broadcastInDim S64x16384x1 ![0, 1, 2] bcast_S1x1x1_S64x16384x1_0_1_2) : (⟨S1x1x1, .i32⟩ : BufTy).Contents (Elt Ideal) → (⟨S64x16384x1, .i32⟩ : BufTy).Contents (Elt Ideal)) t_call0_v7

noncomputable def t_call0_v9 (a5 : S64x4096x4.Idx → BitVec 32) : S64x16384x1.Idx → BitVec 1 :=
  ((cmpi .sle) : (⟨S64x16384x1, .i32⟩ : BufTy).Contents (Elt Ideal) → (⟨S64x16384x1, .i32⟩ : BufTy).Contents (Elt Ideal) → (⟨S64x16384x1, .i1⟩ : BufTy).Contents (Elt Ideal)) (t_call0_v4 a5) t_call0_v8

noncomputable def t_call0_v10 (a5 : S64x4096x4.Idx → BitVec 32) : S64x16384x1.Idx → BitVec 1 :=
  (andi : (⟨S64x16384x1, .i1⟩ : BufTy).Contents (Elt Ideal) → (⟨S64x16384x1, .i1⟩ : BufTy).Contents (Elt Ideal) → (⟨S64x16384x1, .i1⟩ : BufTy).Contents (Elt Ideal)) (t_call0_v6 a5) (t_call0_v9 a5)

noncomputable def t_call0_c_3 : S_.Idx → BitVec 1 :=
  ((constantI S_ 1 1#1) : (⟨S_, .i1⟩ : BufTy).Contents (Elt Ideal))

noncomputable def t_call0_v11 (a5 : S64x4096x4.Idx → BitVec 32) : S64x16384.Idx → BitVec 1 :=
  ((fun x v => Host.reduce IntOp.andi x v reducesTo_S64x16384x1_S64x16384_d2 h_S_) : (⟨S64x16384x1, .i1⟩ : BufTy).Contents (Elt Ideal) → (⟨S_, .i1⟩ : BufTy).Contents (Elt Ideal) → (⟨S64x16384, .i1⟩ : BufTy).Contents (Elt Ideal)) (t_call0_v10 a5) t_call0_c_3

noncomputable def t_call0_v12 (a0 : S64x1x256x256.Idx → EReal) (a5 : S64x4096x4.Idx → BitVec 32) : S64x16384x1.Idx → EReal :=
  ((fun x i => Host.gather gather_S64x65536x1_S64x16384x1_S64x16384x1_2_1_0_0_1_2_111 x i) : (⟨S64x65536x1, .f32⟩ : BufTy).Contents (Elt Ideal) → (⟨S64x16384x1, .i32⟩ : BufTy).Contents (Elt Ideal) → (⟨S64x16384x1, .f32⟩ : BufTy).Contents (Elt Ideal)) (t_v5 a0) (t_call0_v4 a5)

noncomputable def t_call0_v13 (a5 : S64x4096x4.Idx → BitVec 32) : S64x16384x1.Idx → BitVec 1 :=
  ((broadcastInDim S64x16384x1 ![0, 1] bcast_S64x16384_S64x16384x1_0_1) : (⟨S64x16384, .i1⟩ : BufTy).Contents (Elt Ideal) → (⟨S64x16384x1, .i1⟩ : BufTy).Contents (Elt Ideal)) (t_call0_v11 a5)

noncomputable def t_call0_cst : S_.Idx → EReal :=
  ((constant (F := Ideal) S_ .f32 0x7FC00000#32) : (⟨S_, .f32⟩ : BufTy).Contents (Elt Ideal))

noncomputable def t_call0_v14 : S64x16384x1.Idx → EReal :=
  ((broadcastInDim S64x16384x1 ![] bcast_S_S64x16384x1) : (⟨S_, .f32⟩ : BufTy).Contents (Elt Ideal) → (⟨S64x16384x1, .f32⟩ : BufTy).Contents (Elt Ideal)) t_call0_cst

noncomputable def t_v7 (a0 : S64x1x256x256.Idx → EReal) (a5 : S64x4096x4.Idx → BitVec 32) : S64x16384x1.Idx → EReal :=
  (select : (⟨S64x16384x1, .i1⟩ : BufTy).Contents (Elt Ideal) → (⟨S64x16384x1, .f32⟩ : BufTy).Contents (Elt Ideal) → (⟨S64x16384x1, .f32⟩ : BufTy).Contents (Elt Ideal) → (⟨S64x16384x1, .f32⟩ : BufTy).Contents (Elt Ideal)) (t_call0_v13 a5) (t_call0_v12 a0 a5) t_call0_v14

noncomputable def t_v8 (a0 : S64x1x256x256.Idx → EReal) (a5 : S64x4096x4.Idx → BitVec 32) : S64x4096x4x1.Idx → EReal :=
  shapeCast S64x4096x4x1 (t_v7 a0 a5) shapeCasts_S64x16384x1_S64x4096x4x1

noncomputable def t_cst_0 : S_.Idx → EReal :=
  ((constant (F := Ideal) S_ .f32 0x00000000#32) : (⟨S_, .f32⟩ : BufTy).Contents (Elt Ideal))

noncomputable def t_v9 (a0 : S64x1x256x256.Idx → EReal) (a5 : S64x4096x4.Idx → BitVec 32) : S64x4096x1.Idx → EReal :=
  ((fun x v => Host.reduceAdd (F := Ideal) (φ := .f32) x v reducesTo_S64x4096x4x1_S64x4096x1_d2 h_S_) : (⟨S64x4096x4x1, .f32⟩ : BufTy).Contents (Elt Ideal) → (⟨S_, .f32⟩ : BufTy).Contents (Elt Ideal) → (⟨S64x4096x1, .f32⟩ : BufTy).Contents (Elt Ideal)) (t_v8 a0 a5) t_cst_0

noncomputable def t_v10 (a0 : S64x1x256x256.Idx → EReal) (a5 : S64x4096x4.Idx → BitVec 32) : S64x4096x1x1.Idx → EReal :=
  (broadcastInDim S64x4096x1x1 ![0, 1, 3] bcast_S64x4096x1_S64x4096x1x1_0_1_3 : (⟨S64x4096x1, .f32⟩ : BufTy).Contents (Elt Ideal) → (⟨S64x4096x1x1, .f32⟩ : BufTy).Contents (Elt Ideal)) (t_v9 a0 a5)

noncomputable def t_cst_1 : S_.Idx → EReal :=
  ((constant (F := Ideal) S_ .f32 0x40800000#32) : (⟨S_, .f32⟩ : BufTy).Contents (Elt Ideal))

noncomputable def t_v11 : S64x4096x1x1.Idx → EReal :=
  (broadcastInDim S64x4096x1x1 ![] bcast_S_S64x4096x1x1 : (⟨S_, .f32⟩ : BufTy).Contents (Elt Ideal) → (⟨S64x4096x1x1, .f32⟩ : BufTy).Contents (Elt Ideal)) t_cst_1

noncomputable def t_v12 (a0 : S64x1x256x256.Idx → EReal) (a5 : S64x4096x4.Idx → BitVec 32) : S64x4096x1x1.Idx → EReal :=
  (Host.divf (F := Ideal) (φ := .f32) : (⟨S64x4096x1x1, .f32⟩ : BufTy).Contents (Elt Ideal) → (⟨S64x4096x1x1, .f32⟩ : BufTy).Contents (Elt Ideal) → (⟨S64x4096x1x1, .f32⟩ : BufTy).Contents (Elt Ideal)) (t_v10 a0 a5) t_v11

noncomputable def t_v13 (a5 : S64x4096x4.Idx → BitVec 32) : S64x16384.Idx → BitVec 32 :=
  shapeCast S64x16384 a5 shapeCasts_S64x4096x4_S64x16384

noncomputable def t_v14 (a1 : S64x2x256x256.Idx → EReal) : S64x2x65536.Idx → EReal :=
  shapeCast S64x2x65536 a1 shapeCasts_S64x2x256x256_S64x2x65536

noncomputable def t_v15 (a1 : S64x2x256x256.Idx → EReal) : S64x65536x2.Idx → EReal :=
  ((transpose S64x65536x2 [0, 2, 1] · transposes_S64x2x65536_S64x65536x2_0_2_1) : (⟨S64x2x65536, .f32⟩ : BufTy).Contents (Elt Ideal) → (⟨S64x65536x2, .f32⟩ : BufTy).Contents (Elt Ideal)) (t_v14 a1)

noncomputable def t_v16 (a5 : S64x4096x4.Idx → BitVec 32) : S64x16384x1.Idx → BitVec 32 :=
  (broadcastInDim S64x16384x1 ![0, 1] bcast_S64x16384_S64x16384x1_0_1 : (⟨S64x16384, .i32⟩ : BufTy).Contents (Elt Ideal) → (⟨S64x16384x1, .i32⟩ : BufTy).Contents (Elt Ideal)) (t_v13 a5)

noncomputable def t_call1_c : S_.Idx → BitVec 32 :=
  ((constantI S_ 32 0#32) : (⟨S_, .i32⟩ : BufTy).Contents (Elt Ideal))

noncomputable def t_call1_v0 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call1_c

noncomputable def t_call1_v1 (a5 : S64x4096x4.Idx → BitVec 32) : S64x16384x1.Idx → BitVec 1 :=
  ((cmpi .slt) : (⟨S64x16384x1, .i32⟩ : BufTy).Contents (Elt Ideal) → (⟨S64x16384x1, .i32⟩ : BufTy).Contents (Elt Ideal) → (⟨S64x16384x1, .i1⟩ : BufTy).Contents (Elt Ideal)) (t_v16 a5) t_call1_v0

noncomputable def t_call1_c_0 : S_.Idx → BitVec 32 :=
  ((constantI S_ 32 65536#32) : (⟨S_, .i32⟩ : BufTy).Contents (Elt Ideal))

noncomputable def t_call1_v2 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call1_c_0

noncomputable def t_call1_v3 (a5 : S64x4096x4.Idx → BitVec 32) : S64x16384x1.Idx → BitVec 32 :=
  (addi : (⟨S64x16384x1, .i32⟩ : BufTy).Contents (Elt Ideal) → (⟨S64x16384x1, .i32⟩ : BufTy).Contents (Elt Ideal) → (⟨S64x16384x1, .i32⟩ : BufTy).Contents (Elt Ideal)) (t_v16 a5) t_call1_v2

noncomputable def t_call1_v4 (a5 : S64x4096x4.Idx → BitVec 32) : S64x16384x1.Idx → BitVec 32 :=
  (select : (⟨S64x16384x1, .i1⟩ : BufTy).Contents (Elt Ideal) → (⟨S64x16384x1, .i32⟩ : BufTy).Contents (Elt Ideal) → (⟨S64x16384x1, .i32⟩ : BufTy).Contents (Elt Ideal) → (⟨S64x16384x1, .i32⟩ : BufTy).Contents (Elt Ideal)) (t_call1_v1 a5) (t_call1_v3 a5) (t_v16 a5)

noncomputable def t_call1_c_1 : S1.Idx → BitVec 32 :=
  ((constantI S1 32 65535#32) : (⟨S1, .i32⟩ : BufTy).Contents (Elt Ideal))

noncomputable def t_call1_c_2 : S_.Idx → BitVec 32 :=
  ((constantI S_ 32 0#32) : (⟨S_, .i32⟩ : BufTy).Contents (Elt Ideal))

noncomputable def t_call1_v5 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call1_c_2

noncomputable def t_call1_v6 (a5 : S64x4096x4.Idx → BitVec 32) : S64x16384x1.Idx → BitVec 1 :=
  ((cmpi .sge) : (⟨S64x16384x1, .i32⟩ : BufTy).Contents (Elt Ideal) → (⟨S64x16384x1, .i32⟩ : BufTy).Contents (Elt Ideal) → (⟨S64x16384x1, .i1⟩ : BufTy).Contents (Elt Ideal)) (t_call1_v4 a5) t_call1_v5

noncomputable def t_call1_v7 : S1x1x1.Idx → BitVec 32 :=
  ((broadcastInDim S1x1x1 ![2] bcast_S1_S1x1x1_2) : (⟨S1, .i32⟩ : BufTy).Contents (Elt Ideal) → (⟨S1x1x1, .i32⟩ : BufTy).Contents (Elt Ideal)) t_call1_c_1

noncomputable def t_call1_v8 : S64x16384x1.Idx → BitVec 32 :=
  ((broadcastInDim S64x16384x1 ![0, 1, 2] bcast_S1x1x1_S64x16384x1_0_1_2) : (⟨S1x1x1, .i32⟩ : BufTy).Contents (Elt Ideal) → (⟨S64x16384x1, .i32⟩ : BufTy).Contents (Elt Ideal)) t_call1_v7

noncomputable def t_call1_v9 (a5 : S64x4096x4.Idx → BitVec 32) : S64x16384x1.Idx → BitVec 1 :=
  ((cmpi .sle) : (⟨S64x16384x1, .i32⟩ : BufTy).Contents (Elt Ideal) → (⟨S64x16384x1, .i32⟩ : BufTy).Contents (Elt Ideal) → (⟨S64x16384x1, .i1⟩ : BufTy).Contents (Elt Ideal)) (t_call1_v4 a5) t_call1_v8

noncomputable def t_call1_v10 (a5 : S64x4096x4.Idx → BitVec 32) : S64x16384x1.Idx → BitVec 1 :=
  (andi : (⟨S64x16384x1, .i1⟩ : BufTy).Contents (Elt Ideal) → (⟨S64x16384x1, .i1⟩ : BufTy).Contents (Elt Ideal) → (⟨S64x16384x1, .i1⟩ : BufTy).Contents (Elt Ideal)) (t_call1_v6 a5) (t_call1_v9 a5)

noncomputable def t_call1_c_3 : S_.Idx → BitVec 1 :=
  ((constantI S_ 1 1#1) : (⟨S_, .i1⟩ : BufTy).Contents (Elt Ideal))

noncomputable def t_call1_v11 (a5 : S64x4096x4.Idx → BitVec 32) : S64x16384.Idx → BitVec 1 :=
  ((fun x v => Host.reduce IntOp.andi x v reducesTo_S64x16384x1_S64x16384_d2 h_S_) : (⟨S64x16384x1, .i1⟩ : BufTy).Contents (Elt Ideal) → (⟨S_, .i1⟩ : BufTy).Contents (Elt Ideal) → (⟨S64x16384, .i1⟩ : BufTy).Contents (Elt Ideal)) (t_call1_v10 a5) t_call1_c_3

noncomputable def t_call1_v12 (a1 : S64x2x256x256.Idx → EReal) (a5 : S64x4096x4.Idx → BitVec 32) : S64x16384x2.Idx → EReal :=
  ((fun x i => Host.gather gather_S64x65536x2_S64x16384x1_S64x16384x2_2_1_0_0_1_2_112 x i) : (⟨S64x65536x2, .f32⟩ : BufTy).Contents (Elt Ideal) → (⟨S64x16384x1, .i32⟩ : BufTy).Contents (Elt Ideal) → (⟨S64x16384x2, .f32⟩ : BufTy).Contents (Elt Ideal)) (t_v15 a1) (t_call1_v4 a5)

noncomputable def t_call1_v13 (a5 : S64x4096x4.Idx → BitVec 32) : S64x16384x2.Idx → BitVec 1 :=
  ((broadcastInDim S64x16384x2 ![0, 1] bcast_S64x16384_S64x16384x2_0_1) : (⟨S64x16384, .i1⟩ : BufTy).Contents (Elt Ideal) → (⟨S64x16384x2, .i1⟩ : BufTy).Contents (Elt Ideal)) (t_call1_v11 a5)

noncomputable def t_call1_cst : S_.Idx → EReal :=
  ((constant (F := Ideal) S_ .f32 0x7FC00000#32) : (⟨S_, .f32⟩ : BufTy).Contents (Elt Ideal))

noncomputable def t_call1_v14 : S64x16384x2.Idx → EReal :=
  ((broadcastInDim S64x16384x2 ![] bcast_S_S64x16384x2) : (⟨S_, .f32⟩ : BufTy).Contents (Elt Ideal) → (⟨S64x16384x2, .f32⟩ : BufTy).Contents (Elt Ideal)) t_call1_cst

noncomputable def t_v17 (a1 : S64x2x256x256.Idx → EReal) (a5 : S64x4096x4.Idx → BitVec 32) : S64x16384x2.Idx → EReal :=
  (select : (⟨S64x16384x2, .i1⟩ : BufTy).Contents (Elt Ideal) → (⟨S64x16384x2, .f32⟩ : BufTy).Contents (Elt Ideal) → (⟨S64x16384x2, .f32⟩ : BufTy).Contents (Elt Ideal) → (⟨S64x16384x2, .f32⟩ : BufTy).Contents (Elt Ideal)) (t_call1_v13 a5) (t_call1_v12 a1 a5) t_call1_v14

noncomputable def t_v18 (a1 : S64x2x256x256.Idx → EReal) (a5 : S64x4096x4.Idx → BitVec 32) : S64x4096x4x2.Idx → EReal :=
  shapeCast S64x4096x4x2 (t_v17 a1 a5) shapeCasts_S64x16384x2_S64x4096x4x2

noncomputable def t_v19 : S1x1x4x2.Idx → EReal :=
  shapeCast S1x1x4x2 t_cst shapeCasts_S4x2_S1x1x4x2

noncomputable def t_v20 : S64x4096x4x2.Idx → EReal :=
  (broadcastInDim S64x4096x4x2 ![0, 1, 2, 3] bcast_S1x1x4x2_S64x4096x4x2_0_1_2_3 : (⟨S1x1x4x2, .f32⟩ : BufTy).Contents (Elt Ideal) → (⟨S64x4096x4x2, .f32⟩ : BufTy).Contents (Elt Ideal)) t_v19

noncomputable def t_v21 (a1 : S64x2x256x256.Idx → EReal) (a5 : S64x4096x4.Idx → BitVec 32) : S64x4096x4x2.Idx → EReal :=
  (addf (F := Ideal) (φ := .f32) : (⟨S64x4096x4x2, .f32⟩ : BufTy).Contents (Elt Ideal) → (⟨S64x4096x4x2, .f32⟩ : BufTy).Contents (Elt Ideal) → (⟨S64x4096x4x2, .f32⟩ : BufTy).Contents (Elt Ideal)) (t_v18 a1 a5) t_v20

noncomputable def t_cst_2 : S_.Idx → EReal :=
  ((constant (F := Ideal) S_ .f32 0x00000000#32) : (⟨S_, .f32⟩ : BufTy).Contents (Elt Ideal))

noncomputable def t_v22 (a1 : S64x2x256x256.Idx → EReal) (a5 : S64x4096x4.Idx → BitVec 32) : S64x4096x2.Idx → EReal :=
  ((fun x v => Host.reduceAdd (F := Ideal) (φ := .f32) x v reducesTo_S64x4096x4x2_S64x4096x2_d2 h_S_) : (⟨S64x4096x4x2, .f32⟩ : BufTy).Contents (Elt Ideal) → (⟨S_, .f32⟩ : BufTy).Contents (Elt Ideal) → (⟨S64x4096x2, .f32⟩ : BufTy).Contents (Elt Ideal)) (t_v21 a1 a5) t_cst_2

noncomputable def t_v23 (a1 : S64x2x256x256.Idx → EReal) (a5 : S64x4096x4.Idx → BitVec 32) : S64x4096x1x2.Idx → EReal :=
  (broadcastInDim S64x4096x1x2 ![0, 1, 3] bcast_S64x4096x2_S64x4096x1x2_0_1_3 : (⟨S64x4096x2, .f32⟩ : BufTy).Contents (Elt Ideal) → (⟨S64x4096x1x2, .f32⟩ : BufTy).Contents (Elt Ideal)) (t_v22 a1 a5)

noncomputable def t_cst_3 : S_.Idx → EReal :=
  ((constant (F := Ideal) S_ .f32 0x40800000#32) : (⟨S_, .f32⟩ : BufTy).Contents (Elt Ideal))

noncomputable def t_v24 : S64x4096x1x2.Idx → EReal :=
  (broadcastInDim S64x4096x1x2 ![] bcast_S_S64x4096x1x2 : (⟨S_, .f32⟩ : BufTy).Contents (Elt Ideal) → (⟨S64x4096x1x2, .f32⟩ : BufTy).Contents (Elt Ideal)) t_cst_3

noncomputable def t_v25 (a1 : S64x2x256x256.Idx → EReal) (a5 : S64x4096x4.Idx → BitVec 32) : S64x4096x1x2.Idx → EReal :=
  (Host.divf (F := Ideal) (φ := .f32) : (⟨S64x4096x1x2, .f32⟩ : BufTy).Contents (Elt Ideal) → (⟨S64x4096x1x2, .f32⟩ : BufTy).Contents (Elt Ideal) → (⟨S64x4096x1x2, .f32⟩ : BufTy).Contents (Elt Ideal)) (t_v23 a1 a5) t_v24

noncomputable def t_v26 (a0 : S64x1x256x256.Idx → EReal) (a5 : S64x4096x4.Idx → BitVec 32) : S64x4096x4x1.Idx → EReal :=
  (Host.exp (F := Ideal) (φ := .f32) : (⟨S64x4096x4x1, .f32⟩ : BufTy).Contents (Elt Ideal) → (⟨S64x4096x4x1, .f32⟩ : BufTy).Contents (Elt Ideal)) (t_v8 a0 a5)

noncomputable def t_v27 (a0 : S64x1x256x256.Idx → EReal) (a1 : S64x2x256x256.Idx → EReal) (a5 : S64x4096x4.Idx → BitVec 32) : S64x4096x4x3.Idx → EReal :=
  ((fun a b => concatenate S64x4096x4x3 3 [⟨S64x4096x4x1, a⟩, ⟨S64x4096x4x2, b⟩] concatenates_S64x4096x4x1_S64x4096x4x2_S64x4096x4x3_d3) : (⟨S64x4096x4x1, .f32⟩ : BufTy).Contents (Elt Ideal) → (⟨S64x4096x4x2, .f32⟩ : BufTy).Contents (Elt Ideal) → (⟨S64x4096x4x3, .f32⟩ : BufTy).Contents (Elt Ideal)) (t_v26 a0 a5) (t_v21 a1 a5)

noncomputable def t_v28 (a0 : S64x1x256x256.Idx → EReal) (a5 : S64x4096x4.Idx → BitVec 32) : S64x4096x1x1.Idx → EReal :=
  (Host.exp (F := Ideal) (φ := .f32) : (⟨S64x4096x1x1, .f32⟩ : BufTy).Contents (Elt Ideal) → (⟨S64x4096x1x1, .f32⟩ : BufTy).Contents (Elt Ideal)) (t_v12 a0 a5)

noncomputable def t_v29 (a0 : S64x1x256x256.Idx → EReal) (a1 : S64x2x256x256.Idx → EReal) (a5 : S64x4096x4.Idx → BitVec 32) : S64x4096x1x3.Idx → EReal :=
  ((fun a b => concatenate S64x4096x1x3 3 [⟨S64x4096x1x1, a⟩, ⟨S64x4096x1x2, b⟩] concatenates_S64x4096x1x1_S64x4096x1x2_S64x4096x1x3_d3) : (⟨S64x4096x1x1, .f32⟩ : BufTy).Contents (Elt Ideal) → (⟨S64x4096x1x2, .f32⟩ : BufTy).Contents (Elt Ideal) → (⟨S64x4096x1x3, .f32⟩ : BufTy).Contents (Elt Ideal)) (t_v28 a0 a5) (t_v25 a1 a5)

noncomputable def t_v30 (a0 : S64x1x256x256.Idx → EReal) (a1 : S64x2x256x256.Idx → EReal) (a5 : S64x4096x4.Idx → BitVec 32) : S64x4096x4x1.Idx → EReal :=
  ((extractStridedSlice S64x4096x4x1 ![0, 0, 0, 0] · slices_S64x4096x4x3_S64x4096x4x1_0_0_0_0) : (⟨S64x4096x4x3, .f32⟩ : BufTy).Contents (Elt Ideal) → (⟨S64x4096x4x1, .f32⟩ : BufTy).Contents (Elt Ideal)) (t_v27 a0 a1 a5)

noncomputable def t_v31 (a0 : S64x1x256x256.Idx → EReal) (a1 : S64x2x256x256.Idx → EReal) (a5 : S64x4096x4.Idx → BitVec 32) : S64x4096x4.Idx → EReal :=
  shapeCast S64x4096x4 (t_v30 a0 a1 a5) shapeCasts_S64x4096x4x1_S64x4096x4

noncomputable def t_v32 (a0 : S64x1x256x256.Idx → EReal) (a1 : S64x2x256x256.Idx → EReal) (a5 : S64x4096x4.Idx → BitVec 32) : S64x4096x4x1.Idx → EReal :=
  ((extractStridedSlice S64x4096x4x1 ![0, 0, 0, 1] · slices_S64x4096x4x3_S64x4096x4x1_0_0_0_1) : (⟨S64x4096x4x3, .f32⟩ : BufTy).Contents (Elt Ideal) → (⟨S64x4096x4x1, .f32⟩ : BufTy).Contents (Elt Ideal)) (t_v27 a0 a1 a5)

noncomputable def t_v33 (a0 : S64x1x256x256.Idx → EReal) (a1 : S64x2x256x256.Idx → EReal) (a5 : S64x4096x4.Idx → BitVec 32) : S64x4096x4.Idx → EReal :=
  shapeCast S64x4096x4 (t_v32 a0 a1 a5) shapeCasts_S64x4096x4x1_S64x4096x4

noncomputable def t_v34 (a0 : S64x1x256x256.Idx → EReal) (a1 : S64x2x256x256.Idx → EReal) (a5 : S64x4096x4.Idx → BitVec 32) : S64x4096x4x1.Idx → EReal :=
  ((extractStridedSlice S64x4096x4x1 ![0, 0, 0, 2] · slices_S64x4096x4x3_S64x4096x4x1_0_0_0_2) : (⟨S64x4096x4x3, .f32⟩ : BufTy).Contents (Elt Ideal) → (⟨S64x4096x4x1, .f32⟩ : BufTy).Contents (Elt Ideal)) (t_v27 a0 a1 a5)

noncomputable def t_v35 (a0 : S64x1x256x256.Idx → EReal) (a1 : S64x2x256x256.Idx → EReal) (a5 : S64x4096x4.Idx → BitVec 32) : S64x4096x4.Idx → EReal :=
  shapeCast S64x4096x4 (t_v34 a0 a1 a5) shapeCasts_S64x4096x4x1_S64x4096x4

noncomputable def t_v36 (a0 : S64x1x256x256.Idx → EReal) (a1 : S64x2x256x256.Idx → EReal) (a5 : S64x4096x4.Idx → BitVec 32) : S64x4096x1x1.Idx → EReal :=
  ((extractStridedSlice S64x4096x1x1 ![0, 0, 0, 0] · slices_S64x4096x1x3_S64x4096x1x1_0_0_0_0) : (⟨S64x4096x1x3, .f32⟩ : BufTy).Contents (Elt Ideal) → (⟨S64x4096x1x1, .f32⟩ : BufTy).Contents (Elt Ideal)) (t_v29 a0 a1 a5)

noncomputable def t_v37 (a0 : S64x1x256x256.Idx → EReal) (a1 : S64x2x256x256.Idx → EReal) (a5 : S64x4096x4.Idx → BitVec 32) : S64x4096x1.Idx → EReal :=
  shapeCast S64x4096x1 (t_v36 a0 a1 a5) shapeCasts_S64x4096x1x1_S64x4096x1

noncomputable def t_v38 (a0 : S64x1x256x256.Idx → EReal) (a1 : S64x2x256x256.Idx → EReal) (a5 : S64x4096x4.Idx → BitVec 32) : S64x4096x1x1.Idx → EReal :=
  ((extractStridedSlice S64x4096x1x1 ![0, 0, 0, 1] · slices_S64x4096x1x3_S64x4096x1x1_0_0_0_1) : (⟨S64x4096x1x3, .f32⟩ : BufTy).Contents (Elt Ideal) → (⟨S64x4096x1x1, .f32⟩ : BufTy).Contents (Elt Ideal)) (t_v29 a0 a1 a5)

noncomputable def t_v39 (a0 : S64x1x256x256.Idx → EReal) (a1 : S64x2x256x256.Idx → EReal) (a5 : S64x4096x4.Idx → BitVec 32) : S64x4096x1.Idx → EReal :=
  shapeCast S64x4096x1 (t_v38 a0 a1 a5) shapeCasts_S64x4096x1x1_S64x4096x1

noncomputable def t_v40 (a0 : S64x1x256x256.Idx → EReal) (a1 : S64x2x256x256.Idx → EReal) (a5 : S64x4096x4.Idx → BitVec 32) : S64x4096x1x1.Idx → EReal :=
  ((extractStridedSlice S64x4096x1x1 ![0, 0, 0, 2] · slices_S64x4096x1x3_S64x4096x1x1_0_0_0_2) : (⟨S64x4096x1x3, .f32⟩ : BufTy).Contents (Elt Ideal) → (⟨S64x4096x1x1, .f32⟩ : BufTy).Contents (Elt Ideal)) (t_v29 a0 a1 a5)

noncomputable def t_v41 (a0 : S64x1x256x256.Idx → EReal) (a1 : S64x2x256x256.Idx → EReal) (a5 : S64x4096x4.Idx → BitVec 32) : S64x4096x1.Idx → EReal :=
  shapeCast S64x4096x1 (t_v40 a0 a1 a5) shapeCasts_S64x4096x1x1_S64x4096x1

noncomputable def t_v42 (a0 : S64x1x256x256.Idx → EReal) (a1 : S64x2x256x256.Idx → EReal) (a5 : S64x4096x4.Idx → BitVec 32) : S64x4096x4.Idx → EReal :=
  (mulf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v31 a0 a1 a5) (t_v31 a0 a1 a5)

noncomputable def t_cst_4 : S_.Idx → EReal :=
  ((constant (F := Ideal) S_ .f32 0x3ED1EB85#32) : (⟨S_, .f32⟩ : BufTy).Contents (Elt Ideal))

noncomputable def t_v43 : S64x4096x4.Idx → EReal :=
  (broadcastInDim S64x4096x4 ![] bcast_S_S64x4096x4 : (⟨S_, .f32⟩ : BufTy).Contents (Elt Ideal) → (⟨S64x4096x4, .f32⟩ : BufTy).Contents (Elt Ideal)) t_cst_4

noncomputable def t_v44 (a0 : S64x1x256x256.Idx → EReal) (a1 : S64x2x256x256.Idx → EReal) (a5 : S64x4096x4.Idx → BitVec 32) : S64x4096x4.Idx → EReal :=
  (mulf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v42 a0 a1 a5) t_v43

noncomputable def t_v45 (a0 : S64x1x256x256.Idx → EReal) (a1 : S64x2x256x256.Idx → EReal) (a5 : S64x4096x4.Idx → BitVec 32) : S64x4096x1.Idx → EReal :=
  (mulf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) (t_v37 a0 a1 a5) (t_v37 a0 a1 a5)

noncomputable def t_cst_5 : S_.Idx → EReal :=
  ((constant (F := Ideal) S_ .f32 0x3ED1EB85#32) : (⟨S_, .f32⟩ : BufTy).Contents (Elt Ideal))

noncomputable def t_v46 : S64x4096x1.Idx → EReal :=
  (broadcastInDim S64x4096x1 ![] bcast_S_S64x4096x1 : (⟨S_, .f32⟩ : BufTy).Contents (Elt Ideal) → (⟨S64x4096x1, .f32⟩ : BufTy).Contents (Elt Ideal)) t_cst_5

noncomputable def t_v47 (a0 : S64x1x256x256.Idx → EReal) (a1 : S64x2x256x256.Idx → EReal) (a5 : S64x4096x4.Idx → BitVec 32) : S64x4096x1.Idx → EReal :=
  (mulf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) (t_v45 a0 a1 a5) t_v46

noncomputable def t_cst_6 : S_.Idx → EReal :=
  ((constant (F := Ideal) S_ .f32 0x40000000#32) : (⟨S_, .f32⟩ : BufTy).Contents (Elt Ideal))

noncomputable def t_v48 : S64x4096x4.Idx → EReal :=
  (broadcastInDim S64x4096x4 ![] bcast_S_S64x4096x4 : (⟨S_, .f32⟩ : BufTy).Contents (Elt Ideal) → (⟨S64x4096x4, .f32⟩ : BufTy).Contents (Elt Ideal)) t_cst_6

noncomputable def t_v49 (a0 : S64x1x256x256.Idx → EReal) (a1 : S64x2x256x256.Idx → EReal) (a5 : S64x4096x4.Idx → BitVec 32) : S64x4096x4.Idx → EReal :=
  (Host.divf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v31 a0 a1 a5) t_v48

noncomputable def t_v50 (a0 : S64x1x256x256.Idx → EReal) (a1 : S64x2x256x256.Idx → EReal) (a5 : S64x4096x4.Idx → BitVec 32) : S64x4096x4.Idx → EReal :=
  (subf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v33 a0 a1 a5) (t_v49 a0 a1 a5)

noncomputable def t_cst_7 : S_.Idx → EReal :=
  ((constant (F := Ideal) S_ .f32 0x40000000#32) : (⟨S_, .f32⟩ : BufTy).Contents (Elt Ideal))

noncomputable def t_v51 : S64x4096x1.Idx → EReal :=
  (broadcastInDim S64x4096x1 ![] bcast_S_S64x4096x1 : (⟨S_, .f32⟩ : BufTy).Contents (Elt Ideal) → (⟨S64x4096x1, .f32⟩ : BufTy).Contents (Elt Ideal)) t_cst_7

noncomputable def t_v52 (a0 : S64x1x256x256.Idx → EReal) (a1 : S64x2x256x256.Idx → EReal) (a5 : S64x4096x4.Idx → BitVec 32) : S64x4096x1.Idx → EReal :=
  (Host.divf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) (t_v37 a0 a1 a5) t_v51

noncomputable def t_v53 (a0 : S64x1x256x256.Idx → EReal) (a1 : S64x2x256x256.Idx → EReal) (a5 : S64x4096x4.Idx → BitVec 32) : S64x4096x1.Idx → EReal :=
  (subf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) (t_v39 a0 a1 a5) (t_v52 a0 a1 a5)

noncomputable def t_v54 (a0 : S64x1x256x256.Idx → EReal) (a1 : S64x2x256x256.Idx → EReal) (a5 : S64x4096x4.Idx → BitVec 32) : S64x4096x4.Idx → EReal :=
  (broadcastInDim S64x4096x4 ![0, 1, 2] bcast_S64x4096x1_S64x4096x4_0_1_2 : (⟨S64x4096x1, .f32⟩ : BufTy).Contents (Elt Ideal) → (⟨S64x4096x4, .f32⟩ : BufTy).Contents (Elt Ideal)) (t_v53 a0 a1 a5)

noncomputable def t_v55 (a0 : S64x1x256x256.Idx → EReal) (a1 : S64x2x256x256.Idx → EReal) (a5 : S64x4096x4.Idx → BitVec 32) : S64x4096x4.Idx → EReal :=
  (maximumf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v50 a0 a1 a5) (t_v54 a0 a1 a5)

noncomputable def t_cst_8 : S_.Idx → EReal :=
  ((constant (F := Ideal) S_ .f32 0x3ED1EB85#32) : (⟨S_, .f32⟩ : BufTy).Contents (Elt Ideal))

noncomputable def t_v56 : S64x4096x4.Idx → EReal :=
  (broadcastInDim S64x4096x4 ![] bcast_S_S64x4096x4 : (⟨S_, .f32⟩ : BufTy).Contents (Elt Ideal) → (⟨S64x4096x4, .f32⟩ : BufTy).Contents (Elt Ideal)) t_cst_8

noncomputable def t_v57 (a0 : S64x1x256x256.Idx → EReal) (a1 : S64x2x256x256.Idx → EReal) (a5 : S64x4096x4.Idx → BitVec 32) : S64x4096x4.Idx → EReal :=
  (mulf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) t_v56 (t_v31 a0 a1 a5)

noncomputable def t_cst_9 : S_.Idx → EReal :=
  ((constant (F := Ideal) S_ .f32 0x40000000#32) : (⟨S_, .f32⟩ : BufTy).Contents (Elt Ideal))

noncomputable def t_v58 : S64x4096x4.Idx → EReal :=
  (broadcastInDim S64x4096x4 ![] bcast_S_S64x4096x4 : (⟨S_, .f32⟩ : BufTy).Contents (Elt Ideal) → (⟨S64x4096x4, .f32⟩ : BufTy).Contents (Elt Ideal)) t_cst_9

noncomputable def t_v59 (a0 : S64x1x256x256.Idx → EReal) (a1 : S64x2x256x256.Idx → EReal) (a5 : S64x4096x4.Idx → BitVec 32) : S64x4096x4.Idx → EReal :=
  (Host.divf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v57 a0 a1 a5) t_v58

noncomputable def t_v60 (a0 : S64x1x256x256.Idx → EReal) (a1 : S64x2x256x256.Idx → EReal) (a5 : S64x4096x4.Idx → BitVec 32) : S64x4096x4.Idx → EReal :=
  (subf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v35 a0 a1 a5) (t_v59 a0 a1 a5)

noncomputable def t_cst_10 : S_.Idx → EReal :=
  ((constant (F := Ideal) S_ .f32 0x3ED1EB85#32) : (⟨S_, .f32⟩ : BufTy).Contents (Elt Ideal))

noncomputable def t_v61 : S64x4096x1.Idx → EReal :=
  (broadcastInDim S64x4096x1 ![] bcast_S_S64x4096x1 : (⟨S_, .f32⟩ : BufTy).Contents (Elt Ideal) → (⟨S64x4096x1, .f32⟩ : BufTy).Contents (Elt Ideal)) t_cst_10

noncomputable def t_v62 (a0 : S64x1x256x256.Idx → EReal) (a1 : S64x2x256x256.Idx → EReal) (a5 : S64x4096x4.Idx → BitVec 32) : S64x4096x1.Idx → EReal :=
  (mulf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) t_v61 (t_v37 a0 a1 a5)

noncomputable def t_cst_11 : S_.Idx → EReal :=
  ((constant (F := Ideal) S_ .f32 0x40000000#32) : (⟨S_, .f32⟩ : BufTy).Contents (Elt Ideal))

noncomputable def t_v63 : S64x4096x1.Idx → EReal :=
  (broadcastInDim S64x4096x1 ![] bcast_S_S64x4096x1 : (⟨S_, .f32⟩ : BufTy).Contents (Elt Ideal) → (⟨S64x4096x1, .f32⟩ : BufTy).Contents (Elt Ideal)) t_cst_11

noncomputable def t_v64 (a0 : S64x1x256x256.Idx → EReal) (a1 : S64x2x256x256.Idx → EReal) (a5 : S64x4096x4.Idx → BitVec 32) : S64x4096x1.Idx → EReal :=
  (Host.divf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) (t_v62 a0 a1 a5) t_v63

noncomputable def t_v65 (a0 : S64x1x256x256.Idx → EReal) (a1 : S64x2x256x256.Idx → EReal) (a5 : S64x4096x4.Idx → BitVec 32) : S64x4096x1.Idx → EReal :=
  (subf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) (t_v41 a0 a1 a5) (t_v64 a0 a1 a5)

noncomputable def t_v66 (a0 : S64x1x256x256.Idx → EReal) (a1 : S64x2x256x256.Idx → EReal) (a5 : S64x4096x4.Idx → BitVec 32) : S64x4096x4.Idx → EReal :=
  (broadcastInDim S64x4096x4 ![0, 1, 2] bcast_S64x4096x1_S64x4096x4_0_1_2 : (⟨S64x4096x1, .f32⟩ : BufTy).Contents (Elt Ideal) → (⟨S64x4096x4, .f32⟩ : BufTy).Contents (Elt Ideal)) (t_v65 a0 a1 a5)

noncomputable def t_v67 (a0 : S64x1x256x256.Idx → EReal) (a1 : S64x2x256x256.Idx → EReal) (a5 : S64x4096x4.Idx → BitVec 32) : S64x4096x4.Idx → EReal :=
  (maximumf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v60 a0 a1 a5) (t_v66 a0 a1 a5)

noncomputable def t_cst_12 : S_.Idx → EReal :=
  ((constant (F := Ideal) S_ .f32 0x40000000#32) : (⟨S_, .f32⟩ : BufTy).Contents (Elt Ideal))

noncomputable def t_v68 : S64x4096x4.Idx → EReal :=
  (broadcastInDim S64x4096x4 ![] bcast_S_S64x4096x4 : (⟨S_, .f32⟩ : BufTy).Contents (Elt Ideal) → (⟨S64x4096x4, .f32⟩ : BufTy).Contents (Elt Ideal)) t_cst_12

noncomputable def t_v69 (a0 : S64x1x256x256.Idx → EReal) (a1 : S64x2x256x256.Idx → EReal) (a5 : S64x4096x4.Idx → BitVec 32) : S64x4096x4.Idx → EReal :=
  (Host.divf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v31 a0 a1 a5) t_v68

noncomputable def t_v70 (a0 : S64x1x256x256.Idx → EReal) (a1 : S64x2x256x256.Idx → EReal) (a5 : S64x4096x4.Idx → BitVec 32) : S64x4096x4.Idx → EReal :=
  (addf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v33 a0 a1 a5) (t_v69 a0 a1 a5)

noncomputable def t_cst_13 : S_.Idx → EReal :=
  ((constant (F := Ideal) S_ .f32 0x40000000#32) : (⟨S_, .f32⟩ : BufTy).Contents (Elt Ideal))

noncomputable def t_v71 : S64x4096x1.Idx → EReal :=
  (broadcastInDim S64x4096x1 ![] bcast_S_S64x4096x1 : (⟨S_, .f32⟩ : BufTy).Contents (Elt Ideal) → (⟨S64x4096x1, .f32⟩ : BufTy).Contents (Elt Ideal)) t_cst_13

noncomputable def t_v72 (a0 : S64x1x256x256.Idx → EReal) (a1 : S64x2x256x256.Idx → EReal) (a5 : S64x4096x4.Idx → BitVec 32) : S64x4096x1.Idx → EReal :=
  (Host.divf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) (t_v37 a0 a1 a5) t_v71

noncomputable def t_v73 (a0 : S64x1x256x256.Idx → EReal) (a1 : S64x2x256x256.Idx → EReal) (a5 : S64x4096x4.Idx → BitVec 32) : S64x4096x1.Idx → EReal :=
  (addf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) (t_v39 a0 a1 a5) (t_v72 a0 a1 a5)

noncomputable def t_v74 (a0 : S64x1x256x256.Idx → EReal) (a1 : S64x2x256x256.Idx → EReal) (a5 : S64x4096x4.Idx → BitVec 32) : S64x4096x4.Idx → EReal :=
  (broadcastInDim S64x4096x4 ![0, 1, 2] bcast_S64x4096x1_S64x4096x4_0_1_2 : (⟨S64x4096x1, .f32⟩ : BufTy).Contents (Elt Ideal) → (⟨S64x4096x4, .f32⟩ : BufTy).Contents (Elt Ideal)) (t_v73 a0 a1 a5)

noncomputable def t_v75 (a0 : S64x1x256x256.Idx → EReal) (a1 : S64x2x256x256.Idx → EReal) (a5 : S64x4096x4.Idx → BitVec 32) : S64x4096x4.Idx → EReal :=
  (minimumf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v70 a0 a1 a5) (t_v74 a0 a1 a5)

noncomputable def t_cst_14 : S_.Idx → EReal :=
  ((constant (F := Ideal) S_ .f32 0x3ED1EB85#32) : (⟨S_, .f32⟩ : BufTy).Contents (Elt Ideal))

noncomputable def t_v76 : S64x4096x4.Idx → EReal :=
  (broadcastInDim S64x4096x4 ![] bcast_S_S64x4096x4 : (⟨S_, .f32⟩ : BufTy).Contents (Elt Ideal) → (⟨S64x4096x4, .f32⟩ : BufTy).Contents (Elt Ideal)) t_cst_14

noncomputable def t_v77 (a0 : S64x1x256x256.Idx → EReal) (a1 : S64x2x256x256.Idx → EReal) (a5 : S64x4096x4.Idx → BitVec 32) : S64x4096x4.Idx → EReal :=
  (mulf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) t_v76 (t_v31 a0 a1 a5)

noncomputable def t_cst_15 : S_.Idx → EReal :=
  ((constant (F := Ideal) S_ .f32 0x40000000#32) : (⟨S_, .f32⟩ : BufTy).Contents (Elt Ideal))

noncomputable def t_v78 : S64x4096x4.Idx → EReal :=
  (broadcastInDim S64x4096x4 ![] bcast_S_S64x4096x4 : (⟨S_, .f32⟩ : BufTy).Contents (Elt Ideal) → (⟨S64x4096x4, .f32⟩ : BufTy).Contents (Elt Ideal)) t_cst_15

noncomputable def t_v79 (a0 : S64x1x256x256.Idx → EReal) (a1 : S64x2x256x256.Idx → EReal) (a5 : S64x4096x4.Idx → BitVec 32) : S64x4096x4.Idx → EReal :=
  (Host.divf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v77 a0 a1 a5) t_v78

noncomputable def t_v80 (a0 : S64x1x256x256.Idx → EReal) (a1 : S64x2x256x256.Idx → EReal) (a5 : S64x4096x4.Idx → BitVec 32) : S64x4096x4.Idx → EReal :=
  (addf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v35 a0 a1 a5) (t_v79 a0 a1 a5)

noncomputable def t_cst_16 : S_.Idx → EReal :=
  ((constant (F := Ideal) S_ .f32 0x3ED1EB85#32) : (⟨S_, .f32⟩ : BufTy).Contents (Elt Ideal))

noncomputable def t_v81 : S64x4096x1.Idx → EReal :=
  (broadcastInDim S64x4096x1 ![] bcast_S_S64x4096x1 : (⟨S_, .f32⟩ : BufTy).Contents (Elt Ideal) → (⟨S64x4096x1, .f32⟩ : BufTy).Contents (Elt Ideal)) t_cst_16

noncomputable def t_v82 (a0 : S64x1x256x256.Idx → EReal) (a1 : S64x2x256x256.Idx → EReal) (a5 : S64x4096x4.Idx → BitVec 32) : S64x4096x1.Idx → EReal :=
  (mulf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) t_v81 (t_v37 a0 a1 a5)

noncomputable def t_cst_17 : S_.Idx → EReal :=
  ((constant (F := Ideal) S_ .f32 0x40000000#32) : (⟨S_, .f32⟩ : BufTy).Contents (Elt Ideal))

noncomputable def t_v83 : S64x4096x1.Idx → EReal :=
  (broadcastInDim S64x4096x1 ![] bcast_S_S64x4096x1 : (⟨S_, .f32⟩ : BufTy).Contents (Elt Ideal) → (⟨S64x4096x1, .f32⟩ : BufTy).Contents (Elt Ideal)) t_cst_17

noncomputable def t_v84 (a0 : S64x1x256x256.Idx → EReal) (a1 : S64x2x256x256.Idx → EReal) (a5 : S64x4096x4.Idx → BitVec 32) : S64x4096x1.Idx → EReal :=
  (Host.divf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) (t_v82 a0 a1 a5) t_v83

noncomputable def t_v85 (a0 : S64x1x256x256.Idx → EReal) (a1 : S64x2x256x256.Idx → EReal) (a5 : S64x4096x4.Idx → BitVec 32) : S64x4096x1.Idx → EReal :=
  (addf (F := Ideal) (φ := .f32) : (⟨S64x4096x1, .f32⟩ : BufTy).Contents (Elt Ideal) → (⟨S64x4096x1, .f32⟩ : BufTy).Contents (Elt Ideal) → (⟨S64x4096x1, .f32⟩ : BufTy).Contents (Elt Ideal)) (t_v41 a0 a1 a5) (t_v84 a0 a1 a5)

noncomputable def t_v86 (a0 : S64x1x256x256.Idx → EReal) (a1 : S64x2x256x256.Idx → EReal) (a5 : S64x4096x4.Idx → BitVec 32) : S64x4096x4.Idx → EReal :=
  (broadcastInDim S64x4096x4 ![0, 1, 2] bcast_S64x4096x1_S64x4096x4_0_1_2 : (⟨S64x4096x1, .f32⟩ : BufTy).Contents (Elt Ideal) → (⟨S64x4096x4, .f32⟩ : BufTy).Contents (Elt Ideal)) (t_v85 a0 a1 a5)

noncomputable def t_v87 (a0 : S64x1x256x256.Idx → EReal) (a1 : S64x2x256x256.Idx → EReal) (a5 : S64x4096x4.Idx → BitVec 32) : S64x4096x4.Idx → EReal :=
  (minimumf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v80 a0 a1 a5) (t_v86 a0 a1 a5)

noncomputable def t_v88 (a0 : S64x1x256x256.Idx → EReal) (a1 : S64x2x256x256.Idx → EReal) (a5 : S64x4096x4.Idx → BitVec 32) : S64x4096x4.Idx → EReal :=
  (subf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v75 a0 a1 a5) (t_v55 a0 a1 a5)

noncomputable def t_c_18 : S_.Idx → BitVec 32 :=
  ((constantI S_ 32 0#32) : (⟨S_, .i32⟩ : BufTy).Contents (Elt Ideal))

noncomputable def t_call2_v0 : S_.Idx → EReal :=
  ((sitofp (F := Ideal) .f32) : (⟨S_, .i32⟩ : BufTy).Contents (Elt Ideal) → (⟨S_, .f32⟩ : BufTy).Contents (Elt Ideal)) t_c_18

noncomputable def t_call2_v1 : S64x4096x4.Idx → EReal :=
  ((broadcastInDim S64x4096x4 ![] bcast_S_S64x4096x4) : (⟨S_, .f32⟩ : BufTy).Contents (Elt Ideal) → (⟨S64x4096x4, .f32⟩ : BufTy).Contents (Elt Ideal)) t_call2_v0

noncomputable def t_v89 (a0 : S64x1x256x256.Idx → EReal) (a1 : S64x2x256x256.Idx → EReal) (a5 : S64x4096x4.Idx → BitVec 32) : S64x4096x4.Idx → EReal :=
  (maximumf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) t_call2_v1 (t_v88 a0 a1 a5)

noncomputable def t_v90 (a0 : S64x1x256x256.Idx → EReal) (a1 : S64x2x256x256.Idx → EReal) (a5 : S64x4096x4.Idx → BitVec 32) : S64x4096x4.Idx → EReal :=
  (subf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v87 a0 a1 a5) (t_v67 a0 a1 a5)

noncomputable def t_c_19 : S_.Idx → BitVec 32 :=
  ((constantI S_ 32 0#32) : (⟨S_, .i32⟩ : BufTy).Contents (Elt Ideal))

noncomputable def t_call3_v0 : S_.Idx → EReal :=
  ((sitofp (F := Ideal) .f32) : (⟨S_, .i32⟩ : BufTy).Contents (Elt Ideal) → (⟨S_, .f32⟩ : BufTy).Contents (Elt Ideal)) t_c_19

noncomputable def t_call3_v1 : S64x4096x4.Idx → EReal :=
  ((broadcastInDim S64x4096x4 ![] bcast_S_S64x4096x4) : (⟨S_, .f32⟩ : BufTy).Contents (Elt Ideal) → (⟨S64x4096x4, .f32⟩ : BufTy).Contents (Elt Ideal)) t_call3_v0

noncomputable def t_v91 (a0 : S64x1x256x256.Idx → EReal) (a1 : S64x2x256x256.Idx → EReal) (a5 : S64x4096x4.Idx → BitVec 32) : S64x4096x4.Idx → EReal :=
  (maximumf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) t_call3_v1 (t_v90 a0 a1 a5)

noncomputable def t_v92 (a0 : S64x1x256x256.Idx → EReal) (a1 : S64x2x256x256.Idx → EReal) (a5 : S64x4096x4.Idx → BitVec 32) : S64x4096x4.Idx → EReal :=
  (mulf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v89 a0 a1 a5) (t_v91 a0 a1 a5)

noncomputable def t_v93 (a0 : S64x1x256x256.Idx → EReal) (a1 : S64x2x256x256.Idx → EReal) (a5 : S64x4096x4.Idx → BitVec 32) : S64x4096x4.Idx → EReal :=
  (broadcastInDim S64x4096x4 ![0, 1, 2] bcast_S64x4096x1_S64x4096x4_0_1_2 : (⟨S64x4096x1, .f32⟩ : BufTy).Contents (Elt Ideal) → (⟨S64x4096x4, .f32⟩ : BufTy).Contents (Elt Ideal)) (t_v47 a0 a1 a5)

noncomputable def t_v94 (a0 : S64x1x256x256.Idx → EReal) (a1 : S64x2x256x256.Idx → EReal) (a5 : S64x4096x4.Idx → BitVec 32) : S64x4096x4.Idx → EReal :=
  (addf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v44 a0 a1 a5) (t_v93 a0 a1 a5)

noncomputable def t_v95 (a0 : S64x1x256x256.Idx → EReal) (a1 : S64x2x256x256.Idx → EReal) (a5 : S64x4096x4.Idx → BitVec 32) : S64x4096x4.Idx → EReal :=
  (subf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v94 a0 a1 a5) (t_v92 a0 a1 a5)

noncomputable def t_cst_20 : S_.Idx → EReal :=
  ((constant (F := Ideal) S_ .f32 0x358637BD#32) : (⟨S_, .f32⟩ : BufTy).Contents (Elt Ideal))

noncomputable def t_v96 : S64x4096x4.Idx → EReal :=
  (broadcastInDim S64x4096x4 ![] bcast_S_S64x4096x4 : (⟨S_, .f32⟩ : BufTy).Contents (Elt Ideal) → (⟨S64x4096x4, .f32⟩ : BufTy).Contents (Elt Ideal)) t_cst_20

noncomputable def t_v97 (a0 : S64x1x256x256.Idx → EReal) (a1 : S64x2x256x256.Idx → EReal) (a5 : S64x4096x4.Idx → BitVec 32) : S64x4096x4.Idx → EReal :=
  (addf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v95 a0 a1 a5) t_v96

noncomputable def t_v98 (a0 : S64x1x256x256.Idx → EReal) (a1 : S64x2x256x256.Idx → EReal) (a5 : S64x4096x4.Idx → BitVec 32) : S64x4096x4.Idx → EReal :=
  (Host.divf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v92 a0 a1 a5) (t_v97 a0 a1 a5)

noncomputable def t_cst_21 : S_.Idx → EReal :=
  ((constant (F := Ideal) S_ .f32 0x3F800000#32) : (⟨S_, .f32⟩ : BufTy).Contents (Elt Ideal))

noncomputable def t_v99 : S64x4096x4.Idx → EReal :=
  (broadcastInDim S64x4096x4 ![] bcast_S_S64x4096x4 : (⟨S_, .f32⟩ : BufTy).Contents (Elt Ideal) → (⟨S64x4096x4, .f32⟩ : BufTy).Contents (Elt Ideal)) t_cst_21

noncomputable def t_v100 (a0 : S64x1x256x256.Idx → EReal) (a1 : S64x2x256x256.Idx → EReal) (a5 : S64x4096x4.Idx → BitVec 32) : S64x4096x4.Idx → EReal :=
  (subf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) t_v99 (t_v98 a0 a1 a5)

noncomputable def t_v102 (d : S_.Idx → EReal) : S64x4096x4.Idx → EReal :=
  (broadcastInDim S64x4096x4 ![] bcast_S_S64x4096x4 : (⟨S_, .f32⟩ : BufTy).Contents (Elt Ideal) → (⟨S64x4096x4, .f32⟩ : BufTy).Contents (Elt Ideal)) d

noncomputable def t_v103 (a0 : S64x1x256x256.Idx → EReal) (a1 : S64x2x256x256.Idx → EReal) (a5 : S64x4096x4.Idx → BitVec 32) (d : S_.Idx → EReal) : S64x4096x4.Idx → EReal :=
  (Host.divf (F := Ideal) (φ := .f32) : (⟨S64x4096x4, .f32⟩ : BufTy).Contents (Elt Ideal) → (⟨S64x4096x4, .f32⟩ : BufTy).Contents (Elt Ideal) → (⟨S64x4096x4, .f32⟩ : BufTy).Contents (Elt Ideal)) (t_v100 a0 a1 a5) (t_v102 d)

noncomputable def t_cst_23 : S_.Idx → EReal :=
  ((constant (F := Ideal) S_ .f32 0x00000000#32) : (⟨S_, .f32⟩ : BufTy).Contents (Elt Ideal))

noncomputable def t_call4_v0 : S_.Idx → EReal :=
  (id : (⟨S_, .f32⟩ : BufTy).Contents (Elt Ideal) → (⟨S_, .f32⟩ : BufTy).Contents (Elt Ideal)) t_cst_23

noncomputable def t_call4_v1 : S64x4096x4.Idx → EReal :=
  ((broadcastInDim S64x4096x4 ![] bcast_S_S64x4096x4) : (⟨S_, .f32⟩ : BufTy).Contents (Elt Ideal) → (⟨S64x4096x4, .f32⟩ : BufTy).Contents (Elt Ideal)) t_call4_v0

noncomputable def t_v104 (a0 : S64x1x256x256.Idx → EReal) (a1 : S64x2x256x256.Idx → EReal) (a5 : S64x4096x4.Idx → BitVec 32) (a7 : S64x4096x4.Idx → BitVec 1) (d : S_.Idx → EReal) : S64x4096x4.Idx → EReal :=
  (select : (⟨S64x4096x4, .i1⟩ : BufTy).Contents (Elt Ideal) → (⟨S64x4096x4, .f32⟩ : BufTy).Contents (Elt Ideal) → (⟨S64x4096x4, .f32⟩ : BufTy).Contents (Elt Ideal) → (⟨S64x4096x4, .f32⟩ : BufTy).Contents (Elt Ideal)) a7 (t_v103 a0 a1 a5 d) t_call4_v1

noncomputable def t_v109 (a6 : S64x2048x2x4.Idx → BitVec 32) : S64x16384.Idx → BitVec 32 :=
  shapeCast S64x16384 a6 shapeCasts_S64x2048x2x4_S64x16384

noncomputable def t_v110 (a0 : S64x1x256x256.Idx → EReal) : S64x1x65536.Idx → EReal :=
  shapeCast S64x1x65536 a0 shapeCasts_S64x1x256x256_S64x1x65536

noncomputable def t_v111 (a0 : S64x1x256x256.Idx → EReal) : S64x65536x1.Idx → EReal :=
  ((transpose S64x65536x1 [0, 2, 1] · transposes_S64x1x65536_S64x65536x1_0_2_1) : (⟨S64x1x65536, .f32⟩ : BufTy).Contents (Elt Ideal) → (⟨S64x65536x1, .f32⟩ : BufTy).Contents (Elt Ideal)) (t_v110 a0)

noncomputable def t_v112 (a6 : S64x2048x2x4.Idx → BitVec 32) : S64x16384x1.Idx → BitVec 32 :=
  (broadcastInDim S64x16384x1 ![0, 1] bcast_S64x16384_S64x16384x1_0_1 : (⟨S64x16384, .i32⟩ : BufTy).Contents (Elt Ideal) → (⟨S64x16384x1, .i32⟩ : BufTy).Contents (Elt Ideal)) (t_v109 a6)

noncomputable def t_call5_c : S_.Idx → BitVec 32 :=
  ((constantI S_ 32 0#32) : (⟨S_, .i32⟩ : BufTy).Contents (Elt Ideal))

noncomputable def t_call5_v0 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call5_c

noncomputable def t_call5_v1 (a6 : S64x2048x2x4.Idx → BitVec 32) : S64x16384x1.Idx → BitVec 1 :=
  ((cmpi .slt) : (⟨S64x16384x1, .i32⟩ : BufTy).Contents (Elt Ideal) → (⟨S64x16384x1, .i32⟩ : BufTy).Contents (Elt Ideal) → (⟨S64x16384x1, .i1⟩ : BufTy).Contents (Elt Ideal)) (t_v112 a6) t_call5_v0

noncomputable def t_call5_c_0 : S_.Idx → BitVec 32 :=
  ((constantI S_ 32 65536#32) : (⟨S_, .i32⟩ : BufTy).Contents (Elt Ideal))

noncomputable def t_call5_v2 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call5_c_0

noncomputable def t_call5_v3 (a6 : S64x2048x2x4.Idx → BitVec 32) : S64x16384x1.Idx → BitVec 32 :=
  (addi : (⟨S64x16384x1, .i32⟩ : BufTy).Contents (Elt Ideal) → (⟨S64x16384x1, .i32⟩ : BufTy).Contents (Elt Ideal) → (⟨S64x16384x1, .i32⟩ : BufTy).Contents (Elt Ideal)) (t_v112 a6) t_call5_v2

noncomputable def t_call5_v4 (a6 : S64x2048x2x4.Idx → BitVec 32) : S64x16384x1.Idx → BitVec 32 :=
  (select : (⟨S64x16384x1, .i1⟩ : BufTy).Contents (Elt Ideal) → (⟨S64x16384x1, .i32⟩ : BufTy).Contents (Elt Ideal) → (⟨S64x16384x1, .i32⟩ : BufTy).Contents (Elt Ideal) → (⟨S64x16384x1, .i32⟩ : BufTy).Contents (Elt Ideal)) (t_call5_v1 a6) (t_call5_v3 a6) (t_v112 a6)

noncomputable def t_call5_c_1 : S1.Idx → BitVec 32 :=
  ((constantI S1 32 65535#32) : (⟨S1, .i32⟩ : BufTy).Contents (Elt Ideal))

noncomputable def t_call5_c_2 : S_.Idx → BitVec 32 :=
  ((constantI S_ 32 0#32) : (⟨S_, .i32⟩ : BufTy).Contents (Elt Ideal))

noncomputable def t_call5_v5 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call5_c_2

noncomputable def t_call5_v6 (a6 : S64x2048x2x4.Idx → BitVec 32) : S64x16384x1.Idx → BitVec 1 :=
  ((cmpi .sge) : (⟨S64x16384x1, .i32⟩ : BufTy).Contents (Elt Ideal) → (⟨S64x16384x1, .i32⟩ : BufTy).Contents (Elt Ideal) → (⟨S64x16384x1, .i1⟩ : BufTy).Contents (Elt Ideal)) (t_call5_v4 a6) t_call5_v5

noncomputable def t_call5_v7 : S1x1x1.Idx → BitVec 32 :=
  ((broadcastInDim S1x1x1 ![2] bcast_S1_S1x1x1_2) : (⟨S1, .i32⟩ : BufTy).Contents (Elt Ideal) → (⟨S1x1x1, .i32⟩ : BufTy).Contents (Elt Ideal)) t_call5_c_1

noncomputable def t_call5_v8 : S64x16384x1.Idx → BitVec 32 :=
  ((broadcastInDim S64x16384x1 ![0, 1, 2] bcast_S1x1x1_S64x16384x1_0_1_2) : (⟨S1x1x1, .i32⟩ : BufTy).Contents (Elt Ideal) → (⟨S64x16384x1, .i32⟩ : BufTy).Contents (Elt Ideal)) t_call5_v7

noncomputable def t_call5_v9 (a6 : S64x2048x2x4.Idx → BitVec 32) : S64x16384x1.Idx → BitVec 1 :=
  ((cmpi .sle) : (⟨S64x16384x1, .i32⟩ : BufTy).Contents (Elt Ideal) → (⟨S64x16384x1, .i32⟩ : BufTy).Contents (Elt Ideal) → (⟨S64x16384x1, .i1⟩ : BufTy).Contents (Elt Ideal)) (t_call5_v4 a6) t_call5_v8

noncomputable def t_call5_v10 (a6 : S64x2048x2x4.Idx → BitVec 32) : S64x16384x1.Idx → BitVec 1 :=
  (andi : (⟨S64x16384x1, .i1⟩ : BufTy).Contents (Elt Ideal) → (⟨S64x16384x1, .i1⟩ : BufTy).Contents (Elt Ideal) → (⟨S64x16384x1, .i1⟩ : BufTy).Contents (Elt Ideal)) (t_call5_v6 a6) (t_call5_v9 a6)

noncomputable def t_call5_c_3 : S_.Idx → BitVec 1 :=
  ((constantI S_ 1 1#1) : (⟨S_, .i1⟩ : BufTy).Contents (Elt Ideal))

noncomputable def t_call5_v11 (a6 : S64x2048x2x4.Idx → BitVec 32) : S64x16384.Idx → BitVec 1 :=
  ((fun x v => Host.reduce IntOp.andi x v reducesTo_S64x16384x1_S64x16384_d2 h_S_) : (⟨S64x16384x1, .i1⟩ : BufTy).Contents (Elt Ideal) → (⟨S_, .i1⟩ : BufTy).Contents (Elt Ideal) → (⟨S64x16384, .i1⟩ : BufTy).Contents (Elt Ideal)) (t_call5_v10 a6) t_call5_c_3

noncomputable def t_call5_v12 (a0 : S64x1x256x256.Idx → EReal) (a6 : S64x2048x2x4.Idx → BitVec 32) : S64x16384x1.Idx → EReal :=
  ((fun x i => Host.gather gather_S64x65536x1_S64x16384x1_S64x16384x1_2_1_0_0_1_2_111 x i) : (⟨S64x65536x1, .f32⟩ : BufTy).Contents (Elt Ideal) → (⟨S64x16384x1, .i32⟩ : BufTy).Contents (Elt Ideal) → (⟨S64x16384x1, .f32⟩ : BufTy).Contents (Elt Ideal)) (t_v111 a0) (t_call5_v4 a6)

noncomputable def t_call5_v13 (a6 : S64x2048x2x4.Idx → BitVec 32) : S64x16384x1.Idx → BitVec 1 :=
  ((broadcastInDim S64x16384x1 ![0, 1] bcast_S64x16384_S64x16384x1_0_1) : (⟨S64x16384, .i1⟩ : BufTy).Contents (Elt Ideal) → (⟨S64x16384x1, .i1⟩ : BufTy).Contents (Elt Ideal)) (t_call5_v11 a6)

noncomputable def t_call5_cst : S_.Idx → EReal :=
  ((constant (F := Ideal) S_ .f32 0x7FC00000#32) : (⟨S_, .f32⟩ : BufTy).Contents (Elt Ideal))

noncomputable def t_call5_v14 : S64x16384x1.Idx → EReal :=
  ((broadcastInDim S64x16384x1 ![] bcast_S_S64x16384x1) : (⟨S_, .f32⟩ : BufTy).Contents (Elt Ideal) → (⟨S64x16384x1, .f32⟩ : BufTy).Contents (Elt Ideal)) t_call5_cst

noncomputable def t_v113 (a0 : S64x1x256x256.Idx → EReal) (a6 : S64x2048x2x4.Idx → BitVec 32) : S64x16384x1.Idx → EReal :=
  (select : (⟨S64x16384x1, .i1⟩ : BufTy).Contents (Elt Ideal) → (⟨S64x16384x1, .f32⟩ : BufTy).Contents (Elt Ideal) → (⟨S64x16384x1, .f32⟩ : BufTy).Contents (Elt Ideal) → (⟨S64x16384x1, .f32⟩ : BufTy).Contents (Elt Ideal)) (t_call5_v13 a6) (t_call5_v12 a0 a6) t_call5_v14

noncomputable def t_v114 (a0 : S64x1x256x256.Idx → EReal) (a6 : S64x2048x2x4.Idx → BitVec 32) : S64x2048x2x4x1.Idx → EReal :=
  shapeCast S64x2048x2x4x1 (t_v113 a0 a6) shapeCasts_S64x16384x1_S64x2048x2x4x1

noncomputable def t_cst_26 : S_.Idx → EReal :=
  ((constant (F := Ideal) S_ .f32 0x00000000#32) : (⟨S_, .f32⟩ : BufTy).Contents (Elt Ideal))

noncomputable def t_v115 (a0 : S64x1x256x256.Idx → EReal) (a6 : S64x2048x2x4.Idx → BitVec 32) : S64x2048x2x1.Idx → EReal :=
  ((fun x v => Host.reduceAdd (F := Ideal) (φ := .f32) x v reducesTo_S64x2048x2x4x1_S64x2048x2x1_d3 h_S_) : (⟨S64x2048x2x4x1, .f32⟩ : BufTy).Contents (Elt Ideal) → (⟨S_, .f32⟩ : BufTy).Contents (Elt Ideal) → (⟨S64x2048x2x1, .f32⟩ : BufTy).Contents (Elt Ideal)) (t_v114 a0 a6) t_cst_26

noncomputable def t_v116 (a0 : S64x1x256x256.Idx → EReal) (a6 : S64x2048x2x4.Idx → BitVec 32) : S64x2048x2x1x1.Idx → EReal :=
  (broadcastInDim S64x2048x2x1x1 ![0, 1, 2, 4] bcast_S64x2048x2x1_S64x2048x2x1x1_0_1_2_4 : (⟨S64x2048x2x1, .f32⟩ : BufTy).Contents (Elt Ideal) → (⟨S64x2048x2x1x1, .f32⟩ : BufTy).Contents (Elt Ideal)) (t_v115 a0 a6)

noncomputable def t_cst_27 : S_.Idx → EReal :=
  ((constant (F := Ideal) S_ .f32 0x40800000#32) : (⟨S_, .f32⟩ : BufTy).Contents (Elt Ideal))

noncomputable def t_v117 : S64x2048x2x1x1.Idx → EReal :=
  (broadcastInDim S64x2048x2x1x1 ![] bcast_S_S64x2048x2x1x1 : (⟨S_, .f32⟩ : BufTy).Contents (Elt Ideal) → (⟨S64x2048x2x1x1, .f32⟩ : BufTy).Contents (Elt Ideal)) t_cst_27

noncomputable def t_v118 (a0 : S64x1x256x256.Idx → EReal) (a6 : S64x2048x2x4.Idx → BitVec 32) : S64x2048x2x1x1.Idx → EReal :=
  (Host.divf (F := Ideal) (φ := .f32) : (⟨S64x2048x2x1x1, .f32⟩ : BufTy).Contents (Elt Ideal) → (⟨S64x2048x2x1x1, .f32⟩ : BufTy).Contents (Elt Ideal) → (⟨S64x2048x2x1x1, .f32⟩ : BufTy).Contents (Elt Ideal)) (t_v116 a0 a6) t_v117

noncomputable def t_v119 (a6 : S64x2048x2x4.Idx → BitVec 32) : S64x16384.Idx → BitVec 32 :=
  shapeCast S64x16384 a6 shapeCasts_S64x2048x2x4_S64x16384

noncomputable def t_v120 (a1 : S64x2x256x256.Idx → EReal) : S64x2x65536.Idx → EReal :=
  shapeCast S64x2x65536 a1 shapeCasts_S64x2x256x256_S64x2x65536

noncomputable def t_v121 (a1 : S64x2x256x256.Idx → EReal) : S64x65536x2.Idx → EReal :=
  ((transpose S64x65536x2 [0, 2, 1] · transposes_S64x2x65536_S64x65536x2_0_2_1) : (⟨S64x2x65536, .f32⟩ : BufTy).Contents (Elt Ideal) → (⟨S64x65536x2, .f32⟩ : BufTy).Contents (Elt Ideal)) (t_v120 a1)

noncomputable def t_v122 (a6 : S64x2048x2x4.Idx → BitVec 32) : S64x16384x1.Idx → BitVec 32 :=
  (broadcastInDim S64x16384x1 ![0, 1] bcast_S64x16384_S64x16384x1_0_1 : (⟨S64x16384, .i32⟩ : BufTy).Contents (Elt Ideal) → (⟨S64x16384x1, .i32⟩ : BufTy).Contents (Elt Ideal)) (t_v119 a6)

noncomputable def t_call6_c : S_.Idx → BitVec 32 :=
  ((constantI S_ 32 0#32) : (⟨S_, .i32⟩ : BufTy).Contents (Elt Ideal))

noncomputable def t_call6_v0 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call6_c

noncomputable def t_call6_v1 (a6 : S64x2048x2x4.Idx → BitVec 32) : S64x16384x1.Idx → BitVec 1 :=
  ((cmpi .slt) : (⟨S64x16384x1, .i32⟩ : BufTy).Contents (Elt Ideal) → (⟨S64x16384x1, .i32⟩ : BufTy).Contents (Elt Ideal) → (⟨S64x16384x1, .i1⟩ : BufTy).Contents (Elt Ideal)) (t_v122 a6) t_call6_v0

noncomputable def t_call6_c_0 : S_.Idx → BitVec 32 :=
  ((constantI S_ 32 65536#32) : (⟨S_, .i32⟩ : BufTy).Contents (Elt Ideal))

noncomputable def t_call6_v2 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call6_c_0

noncomputable def t_call6_v3 (a6 : S64x2048x2x4.Idx → BitVec 32) : S64x16384x1.Idx → BitVec 32 :=
  (addi : (⟨S64x16384x1, .i32⟩ : BufTy).Contents (Elt Ideal) → (⟨S64x16384x1, .i32⟩ : BufTy).Contents (Elt Ideal) → (⟨S64x16384x1, .i32⟩ : BufTy).Contents (Elt Ideal)) (t_v122 a6) t_call6_v2

noncomputable def t_call6_v4 (a6 : S64x2048x2x4.Idx → BitVec 32) : S64x16384x1.Idx → BitVec 32 :=
  (select : (⟨S64x16384x1, .i1⟩ : BufTy).Contents (Elt Ideal) → (⟨S64x16384x1, .i32⟩ : BufTy).Contents (Elt Ideal) → (⟨S64x16384x1, .i32⟩ : BufTy).Contents (Elt Ideal) → (⟨S64x16384x1, .i32⟩ : BufTy).Contents (Elt Ideal)) (t_call6_v1 a6) (t_call6_v3 a6) (t_v122 a6)

noncomputable def t_call6_c_1 : S1.Idx → BitVec 32 :=
  ((constantI S1 32 65535#32) : (⟨S1, .i32⟩ : BufTy).Contents (Elt Ideal))

noncomputable def t_call6_c_2 : S_.Idx → BitVec 32 :=
  ((constantI S_ 32 0#32) : (⟨S_, .i32⟩ : BufTy).Contents (Elt Ideal))

noncomputable def t_call6_v5 : S64x16384x1.Idx → BitVec 32 :=
  ((broadcastInDim S64x16384x1 ![] bcast_S_S64x16384x1) : (⟨S_, .i32⟩ : BufTy).Contents (Elt Ideal) → (⟨S64x16384x1, .i32⟩ : BufTy).Contents (Elt Ideal)) t_call6_c_2

noncomputable def t_call6_v6 (a6 : S64x2048x2x4.Idx → BitVec 32) : S64x16384x1.Idx → BitVec 1 :=
  ((cmpi .sge) : (⟨S64x16384x1, .i32⟩ : BufTy).Contents (Elt Ideal) → (⟨S64x16384x1, .i32⟩ : BufTy).Contents (Elt Ideal) → (⟨S64x16384x1, .i1⟩ : BufTy).Contents (Elt Ideal)) (t_call6_v4 a6) t_call6_v5

noncomputable def t_call6_v7 : S1x1x1.Idx → BitVec 32 :=
  ((broadcastInDim S1x1x1 ![2] bcast_S1_S1x1x1_2) : (⟨S1, .i32⟩ : BufTy).Contents (Elt Ideal) → (⟨S1x1x1, .i32⟩ : BufTy).Contents (Elt Ideal)) t_call6_c_1

noncomputable def t_call6_v8 : S64x16384x1.Idx → BitVec 32 :=
  ((broadcastInDim S64x16384x1 ![0, 1, 2] bcast_S1x1x1_S64x16384x1_0_1_2) : (⟨S1x1x1, .i32⟩ : BufTy).Contents (Elt Ideal) → (⟨S64x16384x1, .i32⟩ : BufTy).Contents (Elt Ideal)) t_call6_v7

noncomputable def t_call6_v9 (a6 : S64x2048x2x4.Idx → BitVec 32) : S64x16384x1.Idx → BitVec 1 :=
  ((cmpi .sle) : (⟨S64x16384x1, .i32⟩ : BufTy).Contents (Elt Ideal) → (⟨S64x16384x1, .i32⟩ : BufTy).Contents (Elt Ideal) → (⟨S64x16384x1, .i1⟩ : BufTy).Contents (Elt Ideal)) (t_call6_v4 a6) t_call6_v8

noncomputable def t_call6_v10 (a6 : S64x2048x2x4.Idx → BitVec 32) : S64x16384x1.Idx → BitVec 1 :=
  (andi : (⟨S64x16384x1, .i1⟩ : BufTy).Contents (Elt Ideal) → (⟨S64x16384x1, .i1⟩ : BufTy).Contents (Elt Ideal) → (⟨S64x16384x1, .i1⟩ : BufTy).Contents (Elt Ideal)) (t_call6_v6 a6) (t_call6_v9 a6)

noncomputable def t_call6_c_3 : S_.Idx → BitVec 1 :=
  ((constantI S_ 1 1#1) : (⟨S_, .i1⟩ : BufTy).Contents (Elt Ideal))

noncomputable def t_call6_v11 (a6 : S64x2048x2x4.Idx → BitVec 32) : S64x16384.Idx → BitVec 1 :=
  ((fun x v => Host.reduce IntOp.andi x v reducesTo_S64x16384x1_S64x16384_d2 h_S_) : (⟨S64x16384x1, .i1⟩ : BufTy).Contents (Elt Ideal) → (⟨S_, .i1⟩ : BufTy).Contents (Elt Ideal) → (⟨S64x16384, .i1⟩ : BufTy).Contents (Elt Ideal)) (t_call6_v10 a6) t_call6_c_3

noncomputable def t_call6_v12 (a1 : S64x2x256x256.Idx → EReal) (a6 : S64x2048x2x4.Idx → BitVec 32) : S64x16384x2.Idx → EReal :=
  ((fun x i => Host.gather gather_S64x65536x2_S64x16384x1_S64x16384x2_2_1_0_0_1_2_112 x i) : (⟨S64x65536x2, .f32⟩ : BufTy).Contents (Elt Ideal) → (⟨S64x16384x1, .i32⟩ : BufTy).Contents (Elt Ideal) → (⟨S64x16384x2, .f32⟩ : BufTy).Contents (Elt Ideal)) (t_v121 a1) (t_call6_v4 a6)

noncomputable def t_call6_v13 (a6 : S64x2048x2x4.Idx → BitVec 32) : S64x16384x2.Idx → BitVec 1 :=
  ((broadcastInDim S64x16384x2 ![0, 1] bcast_S64x16384_S64x16384x2_0_1) : (⟨S64x16384, .i1⟩ : BufTy).Contents (Elt Ideal) → (⟨S64x16384x2, .i1⟩ : BufTy).Contents (Elt Ideal)) (t_call6_v11 a6)

noncomputable def t_call6_cst : S_.Idx → EReal :=
  ((constant (F := Ideal) S_ .f32 0x7FC00000#32) : (⟨S_, .f32⟩ : BufTy).Contents (Elt Ideal))

noncomputable def t_call6_v14 : S64x16384x2.Idx → EReal :=
  ((broadcastInDim S64x16384x2 ![] bcast_S_S64x16384x2) : (⟨S_, .f32⟩ : BufTy).Contents (Elt Ideal) → (⟨S64x16384x2, .f32⟩ : BufTy).Contents (Elt Ideal)) t_call6_cst

noncomputable def t_v123 (a1 : S64x2x256x256.Idx → EReal) (a6 : S64x2048x2x4.Idx → BitVec 32) : S64x16384x2.Idx → EReal :=
  (select : (⟨S64x16384x2, .i1⟩ : BufTy).Contents (Elt Ideal) → (⟨S64x16384x2, .f32⟩ : BufTy).Contents (Elt Ideal) → (⟨S64x16384x2, .f32⟩ : BufTy).Contents (Elt Ideal) → (⟨S64x16384x2, .f32⟩ : BufTy).Contents (Elt Ideal)) (t_call6_v13 a6) (t_call6_v12 a1 a6) t_call6_v14

noncomputable def t_v124 (a1 : S64x2x256x256.Idx → EReal) (a6 : S64x2048x2x4.Idx → BitVec 32) : S64x2048x2x4x2.Idx → EReal :=
  shapeCast S64x2048x2x4x2 (t_v123 a1 a6) shapeCasts_S64x16384x2_S64x2048x2x4x2

noncomputable def t_v125 : S1x1x1x4x2.Idx → EReal :=
  shapeCast S1x1x1x4x2 t_cst shapeCasts_S4x2_S1x1x1x4x2

noncomputable def t_v126 : S64x2048x2x4x2.Idx → EReal :=
  (broadcastInDim S64x2048x2x4x2 ![0, 1, 2, 3, 4] bcast_S1x1x1x4x2_S64x2048x2x4x2_0_1_2_3_4 : (⟨S1x1x1x4x2, .f32⟩ : BufTy).Contents (Elt Ideal) → (⟨S64x2048x2x4x2, .f32⟩ : BufTy).Contents (Elt Ideal)) t_v125

noncomputable def t_v127 (a1 : S64x2x256x256.Idx → EReal) (a6 : S64x2048x2x4.Idx → BitVec 32) : S64x2048x2x4x2.Idx → EReal :=
  (addf (F := Ideal) (φ := .f32) : (⟨S64x2048x2x4x2, .f32⟩ : BufTy).Contents (Elt Ideal) → (⟨S64x2048x2x4x2, .f32⟩ : BufTy).Contents (Elt Ideal) → (⟨S64x2048x2x4x2, .f32⟩ : BufTy).Contents (Elt Ideal)) (t_v124 a1 a6) t_v126

noncomputable def t_cst_28 : S_.Idx → EReal :=
  ((constant (F := Ideal) S_ .f32 0x00000000#32) : (⟨S_, .f32⟩ : BufTy).Contents (Elt Ideal))

noncomputable def t_v128 (a1 : S64x2x256x256.Idx → EReal) (a6 : S64x2048x2x4.Idx → BitVec 32) : S64x2048x2x2.Idx → EReal :=
  ((fun x v => Host.reduceAdd (F := Ideal) (φ := .f32) x v reducesTo_S64x2048x2x4x2_S64x2048x2x2_d3 h_S_) : (⟨S64x2048x2x4x2, .f32⟩ : BufTy).Contents (Elt Ideal) → (⟨S_, .f32⟩ : BufTy).Contents (Elt Ideal) → (⟨S64x2048x2x2, .f32⟩ : BufTy).Contents (Elt Ideal)) (t_v127 a1 a6) t_cst_28

noncomputable def t_v129 (a1 : S64x2x256x256.Idx → EReal) (a6 : S64x2048x2x4.Idx → BitVec 32) : S64x2048x2x1x2.Idx → EReal :=
  (broadcastInDim S64x2048x2x1x2 ![0, 1, 2, 4] bcast_S64x2048x2x2_S64x2048x2x1x2_0_1_2_4 : (⟨S64x2048x2x2, .f32⟩ : BufTy).Contents (Elt Ideal) → (⟨S64x2048x2x1x2, .f32⟩ : BufTy).Contents (Elt Ideal)) (t_v128 a1 a6)

noncomputable def t_cst_29 : S_.Idx → EReal :=
  ((constant (F := Ideal) S_ .f32 0x40800000#32) : (⟨S_, .f32⟩ : BufTy).Contents (Elt Ideal))

noncomputable def t_v130 : S64x2048x2x1x2.Idx → EReal :=
  (broadcastInDim S64x2048x2x1x2 ![] bcast_S_S64x2048x2x1x2 : (⟨S_, .f32⟩ : BufTy).Contents (Elt Ideal) → (⟨S64x2048x2x1x2, .f32⟩ : BufTy).Contents (Elt Ideal)) t_cst_29

noncomputable def t_v131 (a1 : S64x2x256x256.Idx → EReal) (a6 : S64x2048x2x4.Idx → BitVec 32) : S64x2048x2x1x2.Idx → EReal :=
  (Host.divf (F := Ideal) (φ := .f32) : (⟨S64x2048x2x1x2, .f32⟩ : BufTy).Contents (Elt Ideal) → (⟨S64x2048x2x1x2, .f32⟩ : BufTy).Contents (Elt Ideal) → (⟨S64x2048x2x1x2, .f32⟩ : BufTy).Contents (Elt Ideal)) (t_v129 a1 a6) t_v130

noncomputable def t_v132 (a4 : S64x2048x2.Idx → EReal) : S64x2048x1x2.Idx → EReal :=
  (broadcastInDim S64x2048x1x2 ![0, 1, 3] bcast_S64x2048x2_S64x2048x1x2_0_1_3 : (⟨S64x2048x2, .f32⟩ : BufTy).Contents (Elt Ideal) → (⟨S64x2048x1x2, .f32⟩ : BufTy).Contents (Elt Ideal)) a4

noncomputable def t_c_30 : S_.Idx → BitVec 32 :=
  ((constantI S_ 32 1#32) : (⟨S_, .i32⟩ : BufTy).Contents (Elt Ideal))

noncomputable def t_v133 : S1.Idx → BitVec 32 :=
  (broadcastInDim S1 ![] bcast_S_S1 : (⟨S_, .i32⟩ : BufTy).Contents (Elt Ideal) → (⟨S1, .i32⟩ : BufTy).Contents (Elt Ideal)) t_c_30

noncomputable def t_v134 (a1 : S64x2x256x256.Idx → EReal) (a6 : S64x2048x2x4.Idx → BitVec 32) (a4 : S64x2048x2.Idx → EReal) : S64x2048x2x1x2.Idx → EReal :=
  ((fun x i u => Host.scatter scatter_S64x2048x2x1x2_S1_S64x2048x1x2_0123_2_2_0 (FloatOps.addf (F := Ideal) (φ := .f32)) x i u) : (⟨S64x2048x2x1x2, .f32⟩ : BufTy).Contents (Elt Ideal) → (⟨S1, .i32⟩ : BufTy).Contents (Elt Ideal) → (⟨S64x2048x1x2, .f32⟩ : BufTy).Contents (Elt Ideal) → (⟨S64x2048x2x1x2, .f32⟩ : BufTy).Contents (Elt Ideal)) (t_v131 a1 a6) t_v133 (t_v132 a4)

noncomputable def t_v135 (a0 : S64x1x256x256.Idx → EReal) (a6 : S64x2048x2x4.Idx → BitVec 32) : S64x2048x2x1x1.Idx → EReal :=
  (Host.exp (F := Ideal) (φ := .f32) : (⟨S64x2048x2x1x1, .f32⟩ : BufTy).Contents (Elt Ideal) → (⟨S64x2048x2x1x1, .f32⟩ : BufTy).Contents (Elt Ideal)) (t_v118 a0 a6)

noncomputable def t_v136 (a0 : S64x1x256x256.Idx → EReal) (a1 : S64x2x256x256.Idx → EReal) (a4 : S64x2048x2.Idx → EReal) (a6 : S64x2048x2x4.Idx → BitVec 32) : S64x2048x2x1x3.Idx → EReal :=
  ((fun a b => concatenate S64x2048x2x1x3 4 [⟨S64x2048x2x1x1, a⟩, ⟨S64x2048x2x1x2, b⟩] concatenates_S64x2048x2x1x1_S64x2048x2x1x2_S64x2048x2x1x3_d4) : (⟨S64x2048x2x1x1, .f32⟩ : BufTy).Contents (Elt Ideal) → (⟨S64x2048x2x1x2, .f32⟩ : BufTy).Contents (Elt Ideal) → (⟨S64x2048x2x1x3, .f32⟩ : BufTy).Contents (Elt Ideal)) (t_v135 a0 a6) (t_v134 a1 a6 a4)

noncomputable def t_v137 (a0 : S64x1x256x256.Idx → EReal) (a1 : S64x2x256x256.Idx → EReal) (a4 : S64x2048x2.Idx → EReal) (a6 : S64x2048x2x4.Idx → BitVec 32) : S64x2048x1x1x3.Idx → EReal :=
  ((extractStridedSlice S64x2048x1x1x3 ![0, 0, 0, 0, 0] · slices_S64x2048x2x1x3_S64x2048x1x1x3_0_0_0_0_0) : (⟨S64x2048x2x1x3, .f32⟩ : BufTy).Contents (Elt Ideal) → (⟨S64x2048x1x1x3, .f32⟩ : BufTy).Contents (Elt Ideal)) (t_v136 a0 a1 a4 a6)

noncomputable def t_v138 (a0 : S64x1x256x256.Idx → EReal) (a1 : S64x2x256x256.Idx → EReal) (a4 : S64x2048x2.Idx → EReal) (a6 : S64x2048x2x4.Idx → BitVec 32) : S64x2048x1x3.Idx → EReal :=
  shapeCast S64x2048x1x3 (t_v137 a0 a1 a4 a6) shapeCasts_S64x2048x1x1x3_S64x2048x1x3

noncomputable def t_v139 (a0 : S64x1x256x256.Idx → EReal) (a1 : S64x2x256x256.Idx → EReal) (a4 : S64x2048x2.Idx → EReal) (a6 : S64x2048x2x4.Idx → BitVec 32) : S64x2048x1x1x3.Idx → EReal :=
  ((extractStridedSlice S64x2048x1x1x3 ![0, 0, 1, 0, 0] · slices_S64x2048x2x1x3_S64x2048x1x1x3_0_0_1_0_0) : (⟨S64x2048x2x1x3, .f32⟩ : BufTy).Contents (Elt Ideal) → (⟨S64x2048x1x1x3, .f32⟩ : BufTy).Contents (Elt Ideal)) (t_v136 a0 a1 a4 a6)

noncomputable def t_v140 (a0 : S64x1x256x256.Idx → EReal) (a1 : S64x2x256x256.Idx → EReal) (a4 : S64x2048x2.Idx → EReal) (a6 : S64x2048x2x4.Idx → BitVec 32) : S64x2048x1x3.Idx → EReal :=
  shapeCast S64x2048x1x3 (t_v139 a0 a1 a4 a6) shapeCasts_S64x2048x1x1x3_S64x2048x1x3

noncomputable def t_v141 (a0 : S64x1x256x256.Idx → EReal) (a1 : S64x2x256x256.Idx → EReal) (a4 : S64x2048x2.Idx → EReal) (a6 : S64x2048x2x4.Idx → BitVec 32) : S64x2048x1x1.Idx → EReal :=
  ((extractStridedSlice S64x2048x1x1 ![0, 0, 0, 0] · slices_S64x2048x1x3_S64x2048x1x1_0_0_0_0) : (⟨S64x2048x1x3, .f32⟩ : BufTy).Contents (Elt Ideal) → (⟨S64x2048x1x1, .f32⟩ : BufTy).Contents (Elt Ideal)) (t_v138 a0 a1 a4 a6)

noncomputable def t_v142 (a0 : S64x1x256x256.Idx → EReal) (a1 : S64x2x256x256.Idx → EReal) (a4 : S64x2048x2.Idx → EReal) (a6 : S64x2048x2x4.Idx → BitVec 32) : S64x2048x1.Idx → EReal :=
  shapeCast S64x2048x1 (t_v141 a0 a1 a4 a6) shapeCasts_S64x2048x1x1_S64x2048x1

noncomputable def t_v143 (a0 : S64x1x256x256.Idx → EReal) (a1 : S64x2x256x256.Idx → EReal) (a4 : S64x2048x2.Idx → EReal) (a6 : S64x2048x2x4.Idx → BitVec 32) : S64x2048x1x1.Idx → EReal :=
  ((extractStridedSlice S64x2048x1x1 ![0, 0, 0, 1] · slices_S64x2048x1x3_S64x2048x1x1_0_0_0_1) : (⟨S64x2048x1x3, .f32⟩ : BufTy).Contents (Elt Ideal) → (⟨S64x2048x1x1, .f32⟩ : BufTy).Contents (Elt Ideal)) (t_v138 a0 a1 a4 a6)

noncomputable def t_v144 (a0 : S64x1x256x256.Idx → EReal) (a1 : S64x2x256x256.Idx → EReal) (a4 : S64x2048x2.Idx → EReal) (a6 : S64x2048x2x4.Idx → BitVec 32) : S64x2048x1.Idx → EReal :=
  shapeCast S64x2048x1 (t_v143 a0 a1 a4 a6) shapeCasts_S64x2048x1x1_S64x2048x1

noncomputable def t_v145 (a0 : S64x1x256x256.Idx → EReal) (a1 : S64x2x256x256.Idx → EReal) (a4 : S64x2048x2.Idx → EReal) (a6 : S64x2048x2x4.Idx → BitVec 32) : S64x2048x1x1.Idx → EReal :=
  ((extractStridedSlice S64x2048x1x1 ![0, 0, 0, 2] · slices_S64x2048x1x3_S64x2048x1x1_0_0_0_2) : (⟨S64x2048x1x3, .f32⟩ : BufTy).Contents (Elt Ideal) → (⟨S64x2048x1x1, .f32⟩ : BufTy).Contents (Elt Ideal)) (t_v138 a0 a1 a4 a6)

noncomputable def t_v146 (a0 : S64x1x256x256.Idx → EReal) (a1 : S64x2x256x256.Idx → EReal) (a4 : S64x2048x2.Idx → EReal) (a6 : S64x2048x2x4.Idx → BitVec 32) : S64x2048x1.Idx → EReal :=
  shapeCast S64x2048x1 (t_v145 a0 a1 a4 a6) shapeCasts_S64x2048x1x1_S64x2048x1

noncomputable def t_v147 (a0 : S64x1x256x256.Idx → EReal) (a1 : S64x2x256x256.Idx → EReal) (a4 : S64x2048x2.Idx → EReal) (a6 : S64x2048x2x4.Idx → BitVec 32) : S64x2048x1x1.Idx → EReal :=
  ((extractStridedSlice S64x2048x1x1 ![0, 0, 0, 0] · slices_S64x2048x1x3_S64x2048x1x1_0_0_0_0) : (⟨S64x2048x1x3, .f32⟩ : BufTy).Contents (Elt Ideal) → (⟨S64x2048x1x1, .f32⟩ : BufTy).Contents (Elt Ideal)) (t_v140 a0 a1 a4 a6)

noncomputable def t_v148 (a0 : S64x1x256x256.Idx → EReal) (a1 : S64x2x256x256.Idx → EReal) (a4 : S64x2048x2.Idx → EReal) (a6 : S64x2048x2x4.Idx → BitVec 32) : S64x2048x1.Idx → EReal :=
  shapeCast S64x2048x1 (t_v147 a0 a1 a4 a6) shapeCasts_S64x2048x1x1_S64x2048x1

noncomputable def t_v149 (a0 : S64x1x256x256.Idx → EReal) (a1 : S64x2x256x256.Idx → EReal) (a4 : S64x2048x2.Idx → EReal) (a6 : S64x2048x2x4.Idx → BitVec 32) : S64x2048x1x1.Idx → EReal :=
  ((extractStridedSlice S64x2048x1x1 ![0, 0, 0, 1] · slices_S64x2048x1x3_S64x2048x1x1_0_0_0_1) : (⟨S64x2048x1x3, .f32⟩ : BufTy).Contents (Elt Ideal) → (⟨S64x2048x1x1, .f32⟩ : BufTy).Contents (Elt Ideal)) (t_v140 a0 a1 a4 a6)

noncomputable def t_v150 (a0 : S64x1x256x256.Idx → EReal) (a1 : S64x2x256x256.Idx → EReal) (a4 : S64x2048x2.Idx → EReal) (a6 : S64x2048x2x4.Idx → BitVec 32) : S64x2048x1.Idx → EReal :=
  shapeCast S64x2048x1 (t_v149 a0 a1 a4 a6) shapeCasts_S64x2048x1x1_S64x2048x1

noncomputable def t_v151 (a0 : S64x1x256x256.Idx → EReal) (a1 : S64x2x256x256.Idx → EReal) (a4 : S64x2048x2.Idx → EReal) (a6 : S64x2048x2x4.Idx → BitVec 32) : S64x2048x1x1.Idx → EReal :=
  ((extractStridedSlice S64x2048x1x1 ![0, 0, 0, 2] · slices_S64x2048x1x3_S64x2048x1x1_0_0_0_2) : (⟨S64x2048x1x3, .f32⟩ : BufTy).Contents (Elt Ideal) → (⟨S64x2048x1x1, .f32⟩ : BufTy).Contents (Elt Ideal)) (t_v140 a0 a1 a4 a6)

noncomputable def t_v152 (a0 : S64x1x256x256.Idx → EReal) (a1 : S64x2x256x256.Idx → EReal) (a4 : S64x2048x2.Idx → EReal) (a6 : S64x2048x2x4.Idx → BitVec 32) : S64x2048x1.Idx → EReal :=
  shapeCast S64x2048x1 (t_v151 a0 a1 a4 a6) shapeCasts_S64x2048x1x1_S64x2048x1

noncomputable def t_v153 (a0 : S64x1x256x256.Idx → EReal) (a1 : S64x2x256x256.Idx → EReal) (a4 : S64x2048x2.Idx → EReal) (a6 : S64x2048x2x4.Idx → BitVec 32) : S64x2048x1.Idx → EReal :=
  (mulf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v142 a0 a1 a4 a6) (t_v142 a0 a1 a4 a6)

noncomputable def t_cst_31 : S_.Idx → EReal :=
  ((constant (F := Ideal) S_ .f32 0x3ED1EB85#32) : (⟨S_, .f32⟩ : BufTy).Contents (Elt Ideal))

noncomputable def t_v154 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_31

noncomputable def t_v155 (a0 : S64x1x256x256.Idx → EReal) (a1 : S64x2x256x256.Idx → EReal) (a4 : S64x2048x2.Idx → EReal) (a6 : S64x2048x2x4.Idx → BitVec 32) : S64x2048x1.Idx → EReal :=
  (mulf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v153 a0 a1 a4 a6) t_v154

noncomputable def t_v156 (a0 : S64x1x256x256.Idx → EReal) (a1 : S64x2x256x256.Idx → EReal) (a4 : S64x2048x2.Idx → EReal) (a6 : S64x2048x2x4.Idx → BitVec 32) : S64x2048x1.Idx → EReal :=
  (mulf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v148 a0 a1 a4 a6) (t_v148 a0 a1 a4 a6)

noncomputable def t_cst_32 : S_.Idx → EReal :=
  ((constant (F := Ideal) S_ .f32 0x3ED1EB85#32) : (⟨S_, .f32⟩ : BufTy).Contents (Elt Ideal))

noncomputable def t_v157 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_32

noncomputable def t_v158 (a0 : S64x1x256x256.Idx → EReal) (a1 : S64x2x256x256.Idx → EReal) (a4 : S64x2048x2.Idx → EReal) (a6 : S64x2048x2x4.Idx → BitVec 32) : S64x2048x1.Idx → EReal :=
  (mulf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v156 a0 a1 a4 a6) t_v157

noncomputable def t_cst_33 : S_.Idx → EReal :=
  ((constant (F := Ideal) S_ .f32 0x40000000#32) : (⟨S_, .f32⟩ : BufTy).Contents (Elt Ideal))

noncomputable def t_v159 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_33

noncomputable def t_v160 (a0 : S64x1x256x256.Idx → EReal) (a1 : S64x2x256x256.Idx → EReal) (a4 : S64x2048x2.Idx → EReal) (a6 : S64x2048x2x4.Idx → BitVec 32) : S64x2048x1.Idx → EReal :=
  (Host.divf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v142 a0 a1 a4 a6) t_v159

noncomputable def t_v161 (a0 : S64x1x256x256.Idx → EReal) (a1 : S64x2x256x256.Idx → EReal) (a4 : S64x2048x2.Idx → EReal) (a6 : S64x2048x2x4.Idx → BitVec 32) : S64x2048x1.Idx → EReal :=
  (subf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v144 a0 a1 a4 a6) (t_v160 a0 a1 a4 a6)

noncomputable def t_cst_34 : S_.Idx → EReal :=
  ((constant (F := Ideal) S_ .f32 0x40000000#32) : (⟨S_, .f32⟩ : BufTy).Contents (Elt Ideal))

noncomputable def t_v162 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_34

noncomputable def t_v163 (a0 : S64x1x256x256.Idx → EReal) (a1 : S64x2x256x256.Idx → EReal) (a4 : S64x2048x2.Idx → EReal) (a6 : S64x2048x2x4.Idx → BitVec 32) : S64x2048x1.Idx → EReal :=
  (Host.divf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v148 a0 a1 a4 a6) t_v162

noncomputable def t_v164 (a0 : S64x1x256x256.Idx → EReal) (a1 : S64x2x256x256.Idx → EReal) (a4 : S64x2048x2.Idx → EReal) (a6 : S64x2048x2x4.Idx → BitVec 32) : S64x2048x1.Idx → EReal :=
  (subf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v150 a0 a1 a4 a6) (t_v163 a0 a1 a4 a6)

noncomputable def t_v165 (a0 : S64x1x256x256.Idx → EReal) (a1 : S64x2x256x256.Idx → EReal) (a4 : S64x2048x2.Idx → EReal) (a6 : S64x2048x2x4.Idx → BitVec 32) : S64x2048x1.Idx → EReal :=
  (maximumf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v161 a0 a1 a4 a6) (t_v164 a0 a1 a4 a6)

noncomputable def t_cst_35 : S_.Idx → EReal :=
  ((constant (F := Ideal) S_ .f32 0x3ED1EB85#32) : (⟨S_, .f32⟩ : BufTy).Contents (Elt Ideal))

noncomputable def t_v166 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_35

noncomputable def t_v167 (a0 : S64x1x256x256.Idx → EReal) (a1 : S64x2x256x256.Idx → EReal) (a4 : S64x2048x2.Idx → EReal) (a6 : S64x2048x2x4.Idx → BitVec 32) : S64x2048x1.Idx → EReal :=
  (mulf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) t_v166 (t_v142 a0 a1 a4 a6)

noncomputable def t_cst_36 : S_.Idx → EReal :=
  ((constant (F := Ideal) S_ .f32 0x40000000#32) : (⟨S_, .f32⟩ : BufTy).Contents (Elt Ideal))

noncomputable def t_v168 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_36

noncomputable def t_v169 (a0 : S64x1x256x256.Idx → EReal) (a1 : S64x2x256x256.Idx → EReal) (a4 : S64x2048x2.Idx → EReal) (a6 : S64x2048x2x4.Idx → BitVec 32) : S64x2048x1.Idx → EReal :=
  (Host.divf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v167 a0 a1 a4 a6) t_v168

noncomputable def t_v170 (a0 : S64x1x256x256.Idx → EReal) (a1 : S64x2x256x256.Idx → EReal) (a4 : S64x2048x2.Idx → EReal) (a6 : S64x2048x2x4.Idx → BitVec 32) : S64x2048x1.Idx → EReal :=
  (subf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v146 a0 a1 a4 a6) (t_v169 a0 a1 a4 a6)

noncomputable def t_cst_37 : S_.Idx → EReal :=
  ((constant (F := Ideal) S_ .f32 0x3ED1EB85#32) : (⟨S_, .f32⟩ : BufTy).Contents (Elt Ideal))

noncomputable def t_v171 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_37

noncomputable def t_v172 (a0 : S64x1x256x256.Idx → EReal) (a1 : S64x2x256x256.Idx → EReal) (a4 : S64x2048x2.Idx → EReal) (a6 : S64x2048x2x4.Idx → BitVec 32) : S64x2048x1.Idx → EReal :=
  (mulf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) t_v171 (t_v148 a0 a1 a4 a6)

noncomputable def t_cst_38 : S_.Idx → EReal :=
  ((constant (F := Ideal) S_ .f32 0x40000000#32) : (⟨S_, .f32⟩ : BufTy).Contents (Elt Ideal))

noncomputable def t_v173 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_38

noncomputable def t_v174 (a0 : S64x1x256x256.Idx → EReal) (a1 : S64x2x256x256.Idx → EReal) (a4 : S64x2048x2.Idx → EReal) (a6 : S64x2048x2x4.Idx → BitVec 32) : S64x2048x1.Idx → EReal :=
  (Host.divf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v172 a0 a1 a4 a6) t_v173

noncomputable def t_v175 (a0 : S64x1x256x256.Idx → EReal) (a1 : S64x2x256x256.Idx → EReal) (a4 : S64x2048x2.Idx → EReal) (a6 : S64x2048x2x4.Idx → BitVec 32) : S64x2048x1.Idx → EReal :=
  (subf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v152 a0 a1 a4 a6) (t_v174 a0 a1 a4 a6)

noncomputable def t_v176 (a0 : S64x1x256x256.Idx → EReal) (a1 : S64x2x256x256.Idx → EReal) (a4 : S64x2048x2.Idx → EReal) (a6 : S64x2048x2x4.Idx → BitVec 32) : S64x2048x1.Idx → EReal :=
  (maximumf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v170 a0 a1 a4 a6) (t_v175 a0 a1 a4 a6)

noncomputable def t_cst_39 : S_.Idx → EReal :=
  ((constant (F := Ideal) S_ .f32 0x40000000#32) : (⟨S_, .f32⟩ : BufTy).Contents (Elt Ideal))

noncomputable def t_v177 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_39

noncomputable def t_v178 (a0 : S64x1x256x256.Idx → EReal) (a1 : S64x2x256x256.Idx → EReal) (a4 : S64x2048x2.Idx → EReal) (a6 : S64x2048x2x4.Idx → BitVec 32) : S64x2048x1.Idx → EReal :=
  (Host.divf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v142 a0 a1 a4 a6) t_v177

noncomputable def t_v179 (a0 : S64x1x256x256.Idx → EReal) (a1 : S64x2x256x256.Idx → EReal) (a4 : S64x2048x2.Idx → EReal) (a6 : S64x2048x2x4.Idx → BitVec 32) : S64x2048x1.Idx → EReal :=
  (addf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v144 a0 a1 a4 a6) (t_v178 a0 a1 a4 a6)

noncomputable def t_cst_40 : S_.Idx → EReal :=
  ((constant (F := Ideal) S_ .f32 0x40000000#32) : (⟨S_, .f32⟩ : BufTy).Contents (Elt Ideal))

noncomputable def t_v180 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_40

noncomputable def t_v181 (a0 : S64x1x256x256.Idx → EReal) (a1 : S64x2x256x256.Idx → EReal) (a4 : S64x2048x2.Idx → EReal) (a6 : S64x2048x2x4.Idx → BitVec 32) : S64x2048x1.Idx → EReal :=
  (Host.divf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v148 a0 a1 a4 a6) t_v180

noncomputable def t_v182 (a0 : S64x1x256x256.Idx → EReal) (a1 : S64x2x256x256.Idx → EReal) (a4 : S64x2048x2.Idx → EReal) (a6 : S64x2048x2x4.Idx → BitVec 32) : S64x2048x1.Idx → EReal :=
  (addf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v150 a0 a1 a4 a6) (t_v181 a0 a1 a4 a6)

noncomputable def t_v183 (a0 : S64x1x256x256.Idx → EReal) (a1 : S64x2x256x256.Idx → EReal) (a4 : S64x2048x2.Idx → EReal) (a6 : S64x2048x2x4.Idx → BitVec 32) : S64x2048x1.Idx → EReal :=
  (minimumf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v179 a0 a1 a4 a6) (t_v182 a0 a1 a4 a6)

noncomputable def t_cst_41 : S_.Idx → EReal :=
  ((constant (F := Ideal) S_ .f32 0x3ED1EB85#32) : (⟨S_, .f32⟩ : BufTy).Contents (Elt Ideal))

noncomputable def t_v184 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_41

noncomputable def t_v185 (a0 : S64x1x256x256.Idx → EReal) (a1 : S64x2x256x256.Idx → EReal) (a4 : S64x2048x2.Idx → EReal) (a6 : S64x2048x2x4.Idx → BitVec 32) : S64x2048x1.Idx → EReal :=
  (mulf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) t_v184 (t_v142 a0 a1 a4 a6)

noncomputable def t_cst_42 : S_.Idx → EReal :=
  ((constant (F := Ideal) S_ .f32 0x40000000#32) : (⟨S_, .f32⟩ : BufTy).Contents (Elt Ideal))

noncomputable def t_v186 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_42

noncomputable def t_v187 (a0 : S64x1x256x256.Idx → EReal) (a1 : S64x2x256x256.Idx → EReal) (a4 : S64x2048x2.Idx → EReal) (a6 : S64x2048x2x4.Idx → BitVec 32) : S64x2048x1.Idx → EReal :=
  (Host.divf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v185 a0 a1 a4 a6) t_v186

noncomputable def t_v188 (a0 : S64x1x256x256.Idx → EReal) (a1 : S64x2x256x256.Idx → EReal) (a4 : S64x2048x2.Idx → EReal) (a6 : S64x2048x2x4.Idx → BitVec 32) : S64x2048x1.Idx → EReal :=
  (addf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v146 a0 a1 a4 a6) (t_v187 a0 a1 a4 a6)

noncomputable def t_cst_43 : S_.Idx → EReal :=
  ((constant (F := Ideal) S_ .f32 0x3ED1EB85#32) : (⟨S_, .f32⟩ : BufTy).Contents (Elt Ideal))

noncomputable def t_v189 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_43

noncomputable def t_v190 (a0 : S64x1x256x256.Idx → EReal) (a1 : S64x2x256x256.Idx → EReal) (a4 : S64x2048x2.Idx → EReal) (a6 : S64x2048x2x4.Idx → BitVec 32) : S64x2048x1.Idx → EReal :=
  (mulf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) t_v189 (t_v148 a0 a1 a4 a6)

noncomputable def t_cst_44 : S_.Idx → EReal :=
  ((constant (F := Ideal) S_ .f32 0x40000000#32) : (⟨S_, .f32⟩ : BufTy).Contents (Elt Ideal))

noncomputable def t_v191 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_44

noncomputable def t_v192 (a0 : S64x1x256x256.Idx → EReal) (a1 : S64x2x256x256.Idx → EReal) (a4 : S64x2048x2.Idx → EReal) (a6 : S64x2048x2x4.Idx → BitVec 32) : S64x2048x1.Idx → EReal :=
  (Host.divf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v190 a0 a1 a4 a6) t_v191

noncomputable def t_v193 (a0 : S64x1x256x256.Idx → EReal) (a1 : S64x2x256x256.Idx → EReal) (a4 : S64x2048x2.Idx → EReal) (a6 : S64x2048x2x4.Idx → BitVec 32) : S64x2048x1.Idx → EReal :=
  (addf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v152 a0 a1 a4 a6) (t_v192 a0 a1 a4 a6)

noncomputable def t_v194 (a0 : S64x1x256x256.Idx → EReal) (a1 : S64x2x256x256.Idx → EReal) (a4 : S64x2048x2.Idx → EReal) (a6 : S64x2048x2x4.Idx → BitVec 32) : S64x2048x1.Idx → EReal :=
  (minimumf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v188 a0 a1 a4 a6) (t_v193 a0 a1 a4 a6)

noncomputable def t_v195 (a0 : S64x1x256x256.Idx → EReal) (a1 : S64x2x256x256.Idx → EReal) (a4 : S64x2048x2.Idx → EReal) (a6 : S64x2048x2x4.Idx → BitVec 32) : S64x2048x1.Idx → EReal :=
  (subf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v183 a0 a1 a4 a6) (t_v165 a0 a1 a4 a6)

noncomputable def t_c_45 : S_.Idx → BitVec 32 :=
  ((constantI S_ 32 0#32) : (⟨S_, .i32⟩ : BufTy).Contents (Elt Ideal))

noncomputable def t_call7_v0 : S_.Idx → EReal :=
  ((sitofp (F := Ideal) .f32) : (⟨S_, .i32⟩ : BufTy).Contents (Elt Ideal) → (⟨S_, .f32⟩ : BufTy).Contents (Elt Ideal)) t_c_45

noncomputable def t_call7_v1 : S64x2048x1.Idx → EReal :=
  ((broadcastInDim S64x2048x1 ![] bcast_S_S64x2048x1) : (⟨S_, .f32⟩ : BufTy).Contents (Elt Ideal) → (⟨S64x2048x1, .f32⟩ : BufTy).Contents (Elt Ideal)) t_call7_v0

noncomputable def t_v196 (a0 : S64x1x256x256.Idx → EReal) (a1 : S64x2x256x256.Idx → EReal) (a4 : S64x2048x2.Idx → EReal) (a6 : S64x2048x2x4.Idx → BitVec 32) : S64x2048x1.Idx → EReal :=
  (maximumf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) t_call7_v1 (t_v195 a0 a1 a4 a6)

noncomputable def t_v197 (a0 : S64x1x256x256.Idx → EReal) (a1 : S64x2x256x256.Idx → EReal) (a4 : S64x2048x2.Idx → EReal) (a6 : S64x2048x2x4.Idx → BitVec 32) : S64x2048x1.Idx → EReal :=
  (subf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v194 a0 a1 a4 a6) (t_v176 a0 a1 a4 a6)

noncomputable def t_c_46 : S_.Idx → BitVec 32 :=
  ((constantI S_ 32 0#32) : (⟨S_, .i32⟩ : BufTy).Contents (Elt Ideal))

noncomputable def t_call8_v0 : S_.Idx → EReal :=
  ((sitofp (F := Ideal) .f32) : (⟨S_, .i32⟩ : BufTy).Contents (Elt Ideal) → (⟨S_, .f32⟩ : BufTy).Contents (Elt Ideal)) t_c_46

noncomputable def t_call8_v1 : S64x2048x1.Idx → EReal :=
  ((broadcastInDim S64x2048x1 ![] bcast_S_S64x2048x1) : (⟨S_, .f32⟩ : BufTy).Contents (Elt Ideal) → (⟨S64x2048x1, .f32⟩ : BufTy).Contents (Elt Ideal)) t_call8_v0

noncomputable def t_v198 (a0 : S64x1x256x256.Idx → EReal) (a1 : S64x2x256x256.Idx → EReal) (a4 : S64x2048x2.Idx → EReal) (a6 : S64x2048x2x4.Idx → BitVec 32) : S64x2048x1.Idx → EReal :=
  (maximumf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) t_call8_v1 (t_v197 a0 a1 a4 a6)

noncomputable def t_v199 (a0 : S64x1x256x256.Idx → EReal) (a1 : S64x2x256x256.Idx → EReal) (a4 : S64x2048x2.Idx → EReal) (a6 : S64x2048x2x4.Idx → BitVec 32) : S64x2048x1.Idx → EReal :=
  (mulf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v196 a0 a1 a4 a6) (t_v198 a0 a1 a4 a6)

noncomputable def t_v200 (a0 : S64x1x256x256.Idx → EReal) (a1 : S64x2x256x256.Idx → EReal) (a4 : S64x2048x2.Idx → EReal) (a6 : S64x2048x2x4.Idx → BitVec 32) : S64x2048x1.Idx → EReal :=
  (addf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v155 a0 a1 a4 a6) (t_v158 a0 a1 a4 a6)

noncomputable def t_v201 (a0 : S64x1x256x256.Idx → EReal) (a1 : S64x2x256x256.Idx → EReal) (a4 : S64x2048x2.Idx → EReal) (a6 : S64x2048x2x4.Idx → BitVec 32) : S64x2048x1.Idx → EReal :=
  (subf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v200 a0 a1 a4 a6) (t_v199 a0 a1 a4 a6)

noncomputable def t_cst_47 : S_.Idx → EReal :=
  ((constant (F := Ideal) S_ .f32 0x358637BD#32) : (⟨S_, .f32⟩ : BufTy).Contents (Elt Ideal))

noncomputable def t_v202 : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) t_cst_47

noncomputable def t_v203 (a0 : S64x1x256x256.Idx → EReal) (a1 : S64x2x256x256.Idx → EReal) (a4 : S64x2048x2.Idx → EReal) (a6 : S64x2048x2x4.Idx → BitVec 32) : S64x2048x1.Idx → EReal :=
  (addf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v201 a0 a1 a4 a6) t_v202

noncomputable def t_v204 (a0 : S64x1x256x256.Idx → EReal) (a1 : S64x2x256x256.Idx → EReal) (a4 : S64x2048x2.Idx → EReal) (a6 : S64x2048x2x4.Idx → BitVec 32) : S64x2048x1.Idx → EReal :=
  (Host.divf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v199 a0 a1 a4 a6) (t_v203 a0 a1 a4 a6)

noncomputable def t_v206 (d' : S_.Idx → EReal) : S64x2048x1.Idx → EReal :=
  (broadcastInDim S64x2048x1 ![] bcast_S_S64x2048x1 : (⟨S_, .f32⟩ : BufTy).Contents (Elt Ideal) → (⟨S64x2048x1, .f32⟩ : BufTy).Contents (Elt Ideal)) d'

noncomputable def t_v207 (a0 : S64x1x256x256.Idx → EReal) (a1 : S64x2x256x256.Idx → EReal) (a4 : S64x2048x2.Idx → EReal) (a6 : S64x2048x2x4.Idx → BitVec 32) (d' : S_.Idx → EReal) : S64x2048x1.Idx → EReal :=
  (Host.divf (F := Ideal) (φ := .f32) : (⟨S64x2048x1, .f32⟩ : BufTy).Contents (Elt Ideal) → (⟨S64x2048x1, .f32⟩ : BufTy).Contents (Elt Ideal) → (⟨S64x2048x1, .f32⟩ : BufTy).Contents (Elt Ideal)) (t_v204 a0 a1 a4 a6) (t_v206 d')

noncomputable def t_cst_49 : S_.Idx → EReal :=
  ((constant (F := Ideal) S_ .f32 0x00000000#32) : (⟨S_, .f32⟩ : BufTy).Contents (Elt Ideal))

noncomputable def t_call9_v0 : S_.Idx → EReal :=
  (id : (⟨S_, .f32⟩ : BufTy).Contents (Elt Ideal) → (⟨S_, .f32⟩ : BufTy).Contents (Elt Ideal)) t_cst_49

noncomputable def t_call9_v1 : S64x2048x1.Idx → EReal :=
  ((broadcastInDim S64x2048x1 ![] bcast_S_S64x2048x1) : (⟨S_, .f32⟩ : BufTy).Contents (Elt Ideal) → (⟨S64x2048x1, .f32⟩ : BufTy).Contents (Elt Ideal)) t_call9_v0

noncomputable def t_v208 (a0 : S64x1x256x256.Idx → EReal) (a1 : S64x2x256x256.Idx → EReal) (a4 : S64x2048x2.Idx → EReal) (a6 : S64x2048x2x4.Idx → BitVec 32) (a8 : S64x2048x1.Idx → BitVec 1) (d' : S_.Idx → EReal) : S64x2048x1.Idx → EReal :=
  (select : (⟨S64x2048x1, .i1⟩ : BufTy).Contents (Elt Ideal) → (⟨S64x2048x1, .f32⟩ : BufTy).Contents (Elt Ideal) → (⟨S64x2048x1, .f32⟩ : BufTy).Contents (Elt Ideal) → (⟨S64x2048x1, .f32⟩ : BufTy).Contents (Elt Ideal)) a8 (t_v207 a0 a1 a4 a6 d') t_call9_v1

end Cert.RefValue

end
-- ==== Proof.RefRunTerms.lean ====
/-
  The values of the program's lines that count the two masks and close the two sums, as pure functions of the
  argument arrays read at the extended reals: each applies to its operands' values exactly the operation the
  program applies there. `r_v101` is the attract count plus 1e-4, `r_v205` the repel count plus 1e-4, `r_v210` the
  program's result.
-/
import proofs.«139320_j2216203125376_2_alg».proof.Proof.RefRunLib
import proofs.«139320_j2216203125376_2_alg».proof.Proof.RefTerms

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

/-- The value of `%0` of the program, its own operation applied to its operands' values. -/
noncomputable def r_v0 (a7 : S64x4096x4.Idx → BitVec 1) : S64x4096x4.Idx → BitVec 32 :=
  ((extui 32 · natLt_1_32) : (⟨S64x4096x4, .i1⟩ : BufTy).Contents (Elt Ideal) → (⟨S64x4096x4, .i32⟩ : BufTy).Contents (Elt Ideal)) a7

/-- The value of `%c` of the program, its own operation applied to its operands' values. -/
noncomputable def r_c  : S_.Idx → BitVec 32 :=
  ((constantI S_ 32 0#32) : (main_c : Ref sig .tc).ty.Contents (Elt Ideal))

/-- The value of `%1` of the program, its own operation applied to its operands' values. -/
noncomputable def r_v1 (a7 : S64x4096x4.Idx → BitVec 1) : S_.Idx → BitVec 32 :=
  ((fun x v => Host.reduce IntOp.addi x v reducesTo_S64x4096x4_S_d0_1_2 h_S_) : (⟨S64x4096x4, .i32⟩ : BufTy).Contents (Elt Ideal) → (⟨S_, .i32⟩ : BufTy).Contents (Elt Ideal) → (⟨S_, .i32⟩ : BufTy).Contents (Elt Ideal)) (r_v0 a7) r_c

/-- The value of `%2` of the program, its own operation applied to its operands' values. -/
noncomputable def r_v2 (a7 : S64x4096x4.Idx → BitVec 1) : S_.Idx → EReal :=
  (sitofp (F := Ideal) .f32 : (⟨S_, .i32⟩ : BufTy).Contents (Elt Ideal) → (⟨S_, .f32⟩ : BufTy).Contents (Elt Ideal)) (r_v1 a7)

/-- The value of `%cst_22` of the program, its own operation applied to its operands' values. -/
noncomputable def r_cst_22  : S_.Idx → EReal :=
  ((constant (F := Ideal) S_ .f32 0x38D1B717#32) : (main_cst_22 : Ref sig .tc).ty.Contents (Elt Ideal))

/-- The value of `%101` of the program, its own operation applied to its operands' values. -/
noncomputable def r_v101 (a7 : S64x4096x4.Idx → BitVec 1) : S_.Idx → EReal :=
  (addf (F := Ideal) (φ := .f32) : (⟨S_, .f32⟩ : BufTy).Contents (Elt Ideal) → (⟨S_, .f32⟩ : BufTy).Contents (Elt Ideal) → (⟨S_, .f32⟩ : BufTy).Contents (Elt Ideal)) (r_v2 a7) r_cst_22

/-- The value of `%cst_24` of the program, its own operation applied to its operands' values. -/
noncomputable def r_cst_24  : S_.Idx → EReal :=
  ((constant (F := Ideal) S_ .f32 0x00000000#32) : (main_cst_24 : Ref sig .tc).ty.Contents (Elt Ideal))

/-- The value of `%105` of the program, its own operation applied to its operands' values. -/
noncomputable def r_v105 (a0 : S64x1x256x256.Idx → EReal) (a1 : S64x2x256x256.Idx → EReal) (a5 : S64x4096x4.Idx → BitVec 32) (a7 : S64x4096x4.Idx → BitVec 1) : S_.Idx → EReal :=
  ((fun x v => Host.reduceAdd (F := Ideal) (φ := .f32) x v reducesTo_S64x4096x4_S_d0_1_2 h_S_) : (⟨S64x4096x4, .f32⟩ : BufTy).Contents (Elt Ideal) → (⟨S_, .f32⟩ : BufTy).Contents (Elt Ideal) → (⟨S_, .f32⟩ : BufTy).Contents (Elt Ideal)) (t_v104 a0 a1 a5 a7 (r_v101 a7)) r_cst_24

/-- The value of `%106` of the program, its own operation applied to its operands' values. -/
noncomputable def r_v106 (a8 : S64x2048x1.Idx → BitVec 1) : S64x2048x1.Idx → BitVec 32 :=
  ((extui 32 · natLt_1_32) : (⟨S64x2048x1, .i1⟩ : BufTy).Contents (Elt Ideal) → (⟨S64x2048x1, .i32⟩ : BufTy).Contents (Elt Ideal)) a8

/-- The value of `%c_25` of the program, its own operation applied to its operands' values. -/
noncomputable def r_c_25  : S_.Idx → BitVec 32 :=
  ((constantI S_ 32 0#32) : (main_c_25 : Ref sig .tc).ty.Contents (Elt Ideal))

/-- The value of `%107` of the program, its own operation applied to its operands' values. -/
noncomputable def r_v107 (a8 : S64x2048x1.Idx → BitVec 1) : S_.Idx → BitVec 32 :=
  ((fun x v => Host.reduce IntOp.addi x v reducesTo_S64x2048x1_S_d0_1_2 h_S_) : (⟨S64x2048x1, .i32⟩ : BufTy).Contents (Elt Ideal) → (⟨S_, .i32⟩ : BufTy).Contents (Elt Ideal) → (⟨S_, .i32⟩ : BufTy).Contents (Elt Ideal)) (r_v106 a8) r_c_25

/-- The value of `%108` of the program, its own operation applied to its operands' values. -/
noncomputable def r_v108 (a8 : S64x2048x1.Idx → BitVec 1) : S_.Idx → EReal :=
  (sitofp (F := Ideal) .f32 : (⟨S_, .i32⟩ : BufTy).Contents (Elt Ideal) → (⟨S_, .f32⟩ : BufTy).Contents (Elt Ideal)) (r_v107 a8)

/-- The value of `%cst_48` of the program, its own operation applied to its operands' values. -/
noncomputable def r_cst_48  : S_.Idx → EReal :=
  ((constant (F := Ideal) S_ .f32 0x38D1B717#32) : (main_cst_48 : Ref sig .tc).ty.Contents (Elt Ideal))

/-- The value of `%205` of the program, its own operation applied to its operands' values. -/
noncomputable def r_v205 (a8 : S64x2048x1.Idx → BitVec 1) : S_.Idx → EReal :=
  (addf (F := Ideal) (φ := .f32) : (⟨S_, .f32⟩ : BufTy).Contents (Elt Ideal) → (⟨S_, .f32⟩ : BufTy).Contents (Elt Ideal) → (⟨S_, .f32⟩ : BufTy).Contents (Elt Ideal)) (r_v108 a8) r_cst_48

/-- The value of `%cst_50` of the program, its own operation applied to its operands' values. -/
noncomputable def r_cst_50  : S_.Idx → EReal :=
  ((constant (F := Ideal) S_ .f32 0x00000000#32) : (main_cst_50 : Ref sig .tc).ty.Contents (Elt Ideal))

/-- The value of `%209` of the program, its own operation applied to its operands' values. -/
noncomputable def r_v209 (a0 : S64x1x256x256.Idx → EReal) (a1 : S64x2x256x256.Idx → EReal) (a4 : S64x2048x2.Idx → EReal) (a6 : S64x2048x2x4.Idx → BitVec 32) (a8 : S64x2048x1.Idx → BitVec 1) : S_.Idx → EReal :=
  ((fun x v => Host.reduceAdd (F := Ideal) (φ := .f32) x v reducesTo_S64x2048x1_S_d0_1_2 h_S_) : (⟨S64x2048x1, .f32⟩ : BufTy).Contents (Elt Ideal) → (⟨S_, .f32⟩ : BufTy).Contents (Elt Ideal) → (⟨S_, .f32⟩ : BufTy).Contents (Elt Ideal)) (t_v208 a0 a1 a4 a6 a8 (r_v205 a8)) r_cst_50

/-- The value of `%210` of the program, its own operation applied to its operands' values. -/
noncomputable def r_v210 (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1) : S_.Idx → EReal :=
  (addf (F := Ideal) (φ := .f32) : (⟨S_, .f32⟩ : BufTy).Contents (Elt Ideal) → (⟨S_, .f32⟩ : BufTy).Contents (Elt Ideal) → (⟨S_, .f32⟩ : BufTy).Contents (Elt Ideal)) (r_v105 a0 a1 a5 a7) (r_v209 a0 a1 a4 a6 a8)

end Cert.ReferenceIdeal.RefRun

end
-- ==== Proof.LibMaskedSum.lean ====
/-
  Masked sums over the extended reals.  Multiplication by a nonnegative real distributes over any finite sum of
  extended reals, infinite entries included, so a masked sum of quotients by a positive real is the quotient of the
  masked sum.  A mask bit converted to a float exceeds one half exactly when the bit is set.  A wrapping sum of
  32-bit words that are each 0 or 1 is at most the number of words.
-/
import proofs.«139320_j2216203125376_2_alg».proof.Proof.LibHalves
import Idealize.ShloMosaic.Lib.ValueIdx
import Idealize.ShloMosaic.PureOps.Reduce

noncomputable section

namespace Cert.LibMaskedSum

open Idealize.ShloMosaic

/-- Multiplying a finite sum of extended reals by a nonnegative real multiplies each term. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A masked product: the mask may be applied before or after multiplying, since `0 * c = 0`. -/
theorem select_mul (m : BitVec 1) (x c : EReal) :
    Scalar.select m (x * c) 0 = Scalar.select m x 0 * c := by
  unfold Scalar.select
  split
  · rfl
  · rw [zero_mul]

/-- A masked sum of quotients by a positive real is the quotient of the masked sum. -/
theorem sum_select_div {ι : Type*} [Fintype ι] (m : ι → BitVec 1) (x : ι → EReal) {r : ℝ} (hr : 0 < r) :
    ∑ i, Scalar.select (m i) (Ideal.div (x i) (r : EReal)) 0
      = Ideal.div (∑ i, Scalar.select (m i) (x i) 0) (r : EReal) := by
  rw [Ideal.div_coe hr.ne']
  simp_rw [Ideal.div_coe hr.ne', select_mul]
  rw [sum_mul_coe _ _ (by positivity)]

/-- The float of a mask bit exceeds one half exactly when the bit is set. -/
theorem cmp_uitofp_half (b : BitVec 1) :
    Ideal.cmp .ogt (((b.toNat : ℝ) : EReal)) (Ideal.ofBits .f32 0x3F000000#32) = b := by
  rw [LibHalves.ofBits_half]
  rcases BitVec.eq_zero_or_eq_one b with rfl | rfl
  · have h : ¬ (((1 / 2 : ℝ) : EReal) < ((((0#1 : BitVec 1).toNat : ℝ)) : EReal)) := by
      rw [EReal.coe_lt_coe_iff]; norm_num
    show BitVec.ofBool (decide (_ < _)) = _
    rw [decide_eq_false h]; rfl
  · have h : (((1 / 2 : ℝ) : EReal) < ((((1#1 : BitVec 1).toNat : ℝ)) : EReal)) := by
      rw [EReal.coe_lt_coe_iff]; norm_num
    show BitVec.ofBool (decide (_ < _)) = _
    rw [decide_eq_true h]; rfl

/-- A wrapping sum of words that are each 0 or 1 is at most their number. -/
theorem fold_addi_toNat_le {ι : Type*} (s : Finset ι) (f : ι → BitVec 32) (hf : ∀ i, (f i).toNat ≤ 1) :
    (s.fold (IntOp.addi (w := 32)) 0#32 f).toNat ≤ s.card := by
  classical
  induction s using Finset.induction_on with
  | empty => simp
  | insert a s ha ih =>
    rw [Finset.fold_insert ha, Finset.card_insert_of_notMem ha]
    show (f a + _).toNat ≤ _
    rw [BitVec.toNat_add]
    have := hf a
    exact (Nat.mod_le _ _).trans (by omega)

/-- A word below `2^31` is nonnegative when read signed. -/
theorem toInt_nonneg_of_toNat_le (x : BitVec 32) (h : x.toNat ≤ 1048576) : 0 ≤ x.toInt := by
  rw [BitVec.toInt_eq_toNat_cond]
  split <;> omega

end Cert.LibMaskedSum

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.LibCount.lean ====
/-
  A count of mask bits.  The bits, widened to 32-bit words and added up with wrapping addition from zero, give a word
  whose unsigned value is at most the number of bits; for fewer than 2^31 bits its signed reading is nonnegative, so
  the count converted to a float plus the positive constant 1e-4 is a positive real.
-/
import proofs.«139320_j2216203125376_2_alg».proof.Proof.LibMaskedSum
import proofs.«139320_j2216203125376_2_alg».proof.Proof.LibIdxSums
import Idealize.ShloMosaic.PureOps.Reduce

noncomputable section

namespace Cert.LibCount

open Idealize.ShloMosaic Idealize.ShloMosaic.ValueIdx

/-- The wrapped sum of widened bits is at most the number of bits. -/
theorem count_toNat_le {s t u : Shape} {axes : List (Fin s.rank)} (x : s.Idx → BitVec 1) (hlt : 1 < 32)
    (init : u.Idx → BitVec 32) (h : s.ReducesTo axes t) (hu : 0 < u.numel)
    (hinit : init (Shape.Idx.first hu) = 0#32) (j : t.Idx) :
    (Host.reduce (IntOp.addi (w := 32)) (extui 32 x hlt) init h hu j).toNat ≤ Fintype.card s.Idx := by
  rw [Host.reduce_eq_fold, hinit]
  refine (LibMaskedSum.fold_addi_toNat_le _ _ (fun i => ?_)).trans (Finset.card_le_univ _)
  show ((x i).setWidth 32).toNat ≤ 1
  rw [BitVec.toNat_setWidth]
  have := (x i).isLt
  omega

/-- A rank-3 index set has the product of its extents as its size. -/
theorem card_idx3 (n0 n1 n2 : Nat) : Fintype.card ((⟨3, ![n0, n1, n2]⟩ : Shape).Idx) = n0 * (n1 * n2) := by
  rw [Fintype.card_congr (LibIdxSums.idxEquiv3 (n0 := n0) (n1 := n1) (n2 := n2))]
  simp [Fintype.card_prod, Fintype.card_fin]

/-- A count word of at most 2^20, converted to a float, plus 1e-4 is a positive real. -/
theorem count_plus_e4_pos (n : BitVec 32) (hn : n.toNat ≤ 1048576) :
    ∃ r : ℝ, 0 < r ∧ (((n.toInt : ℝ) : EReal) + Ideal.ofBits .f32 0x38D1B717#32) = (r : EReal) := by
  obtain ⟨e, he, hee⟩ := LibHalves.ofBits_e4_pos
  refine ⟨(n.toInt : ℝ) + e, ?_, ?_⟩
  · have h0 := LibMaskedSum.toInt_nonneg_of_toNat_le n hn
    have h1 : (0 : ℝ) ≤ (n.toInt : ℝ) := by exact_mod_cast h0
    linarith
  · rw [hee, EReal.coe_add]

end Cert.LibCount

end
-- ==== Proof.LibMaskedTotal.lean ====
/-
  A masked total over a rank-3 index set, two ways.  One way divides each term by a positive real and masks by the
  bit before adding everything up; the other masks by the test "the bit as a float exceeds one half", adds up along
  the middle axis first, then the last, then the first, and divides the total once.  They agree on the extended
  reals, infinite terms included.
-/
import proofs.«139320_j2216203125376_2_alg».proof.Proof.LibMaskedSum
import proofs.«139320_j2216203125376_2_alg».proof.Proof.LibIdxSums

noncomputable section

namespace Cert.LibMaskedTotal

open Idealize.ShloMosaic Idealize.ShloMosaic.ValueIdx

/-- The masked total of quotients over `[n0, n1, n2]` is the quotient of the total taken first along axis 1, then
    axis 2, then axis 0, the mask read as "float of the bit above one half". -/
theorem masked_total3 {n0 n1 n2 : Nat} (msk : (⟨3, ![n0, n1, n2]⟩ : Shape).Idx → BitVec 1)
    (x : (⟨3, ![n0, n1, n2]⟩ : Shape).Idx → EReal) {r : ℝ} (hr : 0 < r) :
    ∑ j, Scalar.select (msk j) (Ideal.div (x j) (r : EReal)) 0
      = Ideal.div (∑ a : Fin n0, ∑ c : Fin n2, ∑ b : Fin n1,
          Scalar.select (Ideal.cmp .ogt (((msk (ix3 a b c)).toNat : ℝ) : EReal) (Ideal.ofBits .f32 0x3F000000#32))
            (x (ix3 a b c)) 0) (r : EReal) := by
  rw [LibMaskedSum.sum_select_div _ _ hr, LibIdxSums.sum_idx3]
  congr 1
  refine Finset.sum_congr rfl fun a _ => ?_
  rw [Finset.sum_comm]
  simp_rw [LibMaskedSum.cmp_uitofp_half]

/-- The same over `[n0, n1, 1]`: the total along axis 1 then axis 0. -/
theorem masked_total2 {n0 n1 : Nat} (msk : (⟨3, ![n0, n1, 1]⟩ : Shape).Idx → BitVec 1)
    (x : (⟨3, ![n0, n1, 1]⟩ : Shape).Idx → EReal) {r : ℝ} (hr : 0 < r) :
    ∑ j, Scalar.select (msk j) (Ideal.div (x j) (r : EReal)) 0
      = Ideal.div (∑ a : Fin n0, ∑ b : Fin n1,
          Scalar.select (Ideal.cmp .ogt (((msk (ix3 a b (0 : Fin 1))).toNat : ℝ) : EReal) (Ideal.ofBits .f32 0x3F000000#32))
            (x (ix3 a b (0 : Fin 1))) 0) (r : EReal) := by
  rw [LibMaskedSum.sum_select_div _ _ hr, LibIdxSums.sum_idx3]
  congr 1
  refine Finset.sum_congr rfl fun a _ => Finset.sum_congr rfl fun b _ => ?_
  rw [Fin.sum_univ_one, LibMaskedSum.cmp_uitofp_half]

end Cert.LibMaskedTotal

end
-- ==== Proof.RefTotal.lean ====
/-
  The reference's result in the kernel's grouping.  Each of its two totals adds, over every index, the masked term
  divided by the mask count plus 1e-4.  That divisor is a positive real (a count of at most 2^20 bits plus a positive
  constant), so dividing commutes with the masked total, and the total may be taken batch member by batch member.
-/
import proofs.«139320_j2216203125376_2_alg».proof.Proof.RefRunTerms
import proofs.«139320_j2216203125376_2_alg».proof.Proof.Totals
import proofs.«139320_j2216203125376_2_alg».proof.Proof.LibCount
import proofs.«139320_j2216203125376_2_alg».proof.Proof.LibMaskedTotal
import proofs.«139320_j2216203125376_2_alg».proof.Proof.Gen.ReferenceIdeal
import Idealize.ShloMosaic.PureOps.Ideal.Laws

noncomputable section

namespace Cert.RefTotal

open Idealize.ShloMosaic Idealize.ShloMosaic.ValueIdx
open Cert.RefValue Cert.ReferenceIdeal Cert.ReferenceIdeal.Gen Cert.ReferenceIdeal.RefRun Cert.Totals

/-- The attract count plus 1e-4 is a positive real. -/
theorem dA_pos (a7 : S64x4096x4.Idx → BitVec 1) : ∃ r : ℝ, 0 < r ∧ r_v101 a7 ix0 = (r : EReal) := by
  have hn : (r_v1 a7 ix0).toNat ≤ 1048576 := by
    refine (LibCount.count_toNat_le a7 natLt_1_32 (constantI S_ 32 0#32) reducesTo_S64x4096x4_S_d0_1_2 h_S_ rfl ix0).trans ?_
    rw [LibCount.card_idx3]
  exact LibCount.count_plus_e4_pos (r_v1 a7 ix0) hn

/-- The repel count plus 1e-4 is a positive real. -/
theorem dR_pos (a8 : S64x2048x1.Idx → BitVec 1) : ∃ r : ℝ, 0 < r ∧ r_v205 a8 ix0 = (r : EReal) := by
  have hn : (r_v107 a8 ix0).toNat ≤ 1048576 := by
    refine (LibCount.count_toNat_le a8 natLt_1_32 (constantI S_ 32 0#32) reducesTo_S64x2048x1_S_d0_1_2 h_S_ rfl ix0).trans ?_
    rw [LibCount.card_idx3]
    norm_num
  exact LibCount.count_plus_e4_pos (r_v107 a8 ix0) hn

/-- The reference's result, given its two masked arrays read at an index. -/
theorem ref_value (a0 : S64x1x256x256.Idx → EReal) (a1 : S64x2x256x256.Idx → EReal) (a4 : S64x2048x2.Idx → EReal)
    (a5 : S64x4096x4.Idx → BitVec 32) (a6 : S64x2048x2x4.Idx → BitVec 32) (a7 : S64x4096x4.Idx → BitVec 1)
    (a8 : S64x2048x1.Idx → BitVec 1)
    (H : Canon.SH.Idx → EReal) (O : Canon.SO.Idx → EReal) (Ia Ir : Canon.SI.Idx → BitVec 32)
    (hA : ∀ (d : S_.Idx → EReal) (b : Fin 64) (n : Fin 4096) (c : Fin 4), t_v104 a0 a1 a5 a7 d (ix3 b n c)
        = Scalar.select (a7 (ix3 b n c)) (Ideal.div (Spec.k1 - Canon.cA H O Ia b n c) (d ix0)) 0)
    (hR : ∀ (d : S_.Idx → EReal) (b : Fin 64) (mm : Fin 2048), t_v208 a0 a1 a4 a6 a8 d (ix3 b mm (0 : Fin 1))
        = Scalar.select (a8 (ix3 b mm (0 : Fin 1))) (Ideal.div (Canon.cR H O Ir a4 b mm) (d ix0)) 0) :
    r_v210 a0 a1 a4 a5 a6 a7 a8 ix0
      = Ideal.div (totA H O Ia a7) (r_v101 a7 ix0) + Ideal.div (totR H O Ir a4 a8) (r_v205 a8 ix0) := by
  obtain ⟨rA, hrA, eA⟩ := dA_pos a7
  obtain ⟨rR, hrR, eR⟩ := dR_pos a8
  have h104 : t_v104 a0 a1 a5 a7 (r_v101 a7)
      = fun j => Scalar.select (a7 j) (Ideal.div (Spec.k1 - Canon.cA H O Ia (j 0) (j 1) (j 2)) (rA : EReal)) 0 := by
    funext j
    obtain ⟨b, n, c, rfl⟩ : ∃ (b : Fin 64) (n : Fin 4096) (c : Fin 4), j = ix3 b n c := ⟨j 0, j 1, j 2, eq_ix3 j⟩
    rw [hA, eA]
  have h208 : t_v208 a0 a1 a4 a6 a8 (r_v205 a8)
      = fun j => Scalar.select (a8 j) (Ideal.div (Canon.cR H O Ir a4 (j 0) (j 1)) (rR : EReal)) 0 := by
    funext j
    obtain ⟨b, mm, u, rfl⟩ : ∃ (b : Fin 64) (mm : Fin 2048) (u : Fin 1), j = ix3 b mm u := ⟨j 0, j 1, j 2, eq_ix3 j⟩
    obtain rfl : u = 0 := Subsingleton.elim _ _
    rw [hR, eR]
  show Ideal.hostReduceAdd reducesTo_S64x4096x4_S_d0_1_2 (t_v104 a0 a1 a5 a7 (r_v101 a7)) (Ideal.ofBits .f32 0x00000000#32) ix0
      + Ideal.hostReduceAdd reducesTo_S64x2048x1_S_d0_1_2 (t_v208 a0 a1 a4 a6 a8 (r_v205 a8)) (Ideal.ofBits .f32 0x00000000#32) ix0 = _
  rw [Ideal.hostReduceAdd_total _ (fun b => b.elim0), Ideal.hostReduceAdd_total _ (fun b => b.elim0),
    LibHalves.ofBits_zero, zero_add, zero_add, h104, h208, eA, eR,
    LibMaskedTotal.masked_total3 a7 (fun j => Spec.k1 - Canon.cA H O Ia (j 0) (j 1) (j 2)) hrA,
    LibMaskedTotal.masked_total2 a8 (fun j => Canon.cR H O Ir a4 (j 0) (j 1)) hrR]
  rfl

end Cert.RefTotal

end
-- ==== Proof.Bridge.lean ====
/-
  The two programs' results are one extended real.  The kernel program's result is the attract total over the first
  count plus 1e-4 plus the repel total over the second count plus 1e-4; the reference's result, regrouped, is the same
  expression: both flatten the tables and the index arrays by the same reshapes and count the masks by the same sums.
-/
import proofs.«139320_j2216203125376_2_alg».proof.Proof.KerTotal
import proofs.«139320_j2216203125376_2_alg».proof.Proof.RefTotal

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KerValue Cert.Totals

/-- The common form of both results. -/
def common (a0 : S64x1x256x256.Idx → EReal) (a1 : S64x2x256x256.Idx → EReal) (a4 : S64x2048x2.Idx → EReal)
    (a5 : S64x4096x4.Idx → BitVec 32) (a6 : S64x2048x2x4.Idx → BitVec 32) (a7 : S64x4096x4.Idx → BitVec 1)
    (a8 : S64x2048x1.Idx → BitVec 1) : EReal :=
  Ideal.div (totA (tabH a0) (tabO a1) (idxA a5) a7) (k_v40 a7 ix0 + Ideal.ofBits .f32 0x38D1B717#32)
    + Ideal.div (totR (tabH a0) (tabO a1) (idxR a6) a4 a8) (k_v43 a8 ix0 + Ideal.ofBits .f32 0x38D1B717#32)

variable (m : (ℓ : Loc nD τ sig) → Buf (Elt Ideal) ℓ) (ρ : Dev nD → PrngReg)

/-- The kernel program's result, given what its host operations leave where the first region is entered. -/
theorem ker_value (c : Dev nD) (a0 : S64x1x256x256.Idx → EReal) (a1 : S64x2x256x256.Idx → EReal)
    (a4 : S64x2048x2.Idx → EReal) (a5 : S64x4096x4.Idx → BitVec 32) (a6 : S64x2048x2x4.Idx → BitVec 32)
    (a7 : S64x4096x4.Idx → BitVec 1) (a8 : S64x2048x1.Idx → BitVec 1)
    (e11 : (V9 m ρ c main_v11 : S64x4x4096.Idx → EReal) = k_v11 a0 a5)
    (e15 : (V9 m ρ c main_v15 : S64x4x2x4096.Idx → EReal) = k_v15 a1 a5)
    (e17 : (V9 m ρ c main_v17 : S64x4x4096.Idx → EReal) = k_v17 a7)
    (e28 : (V9 m ρ c main_v28 : S64x8x2048.Idx → EReal) = k_v28 a0 a6)
    (e33 : (V9 m ρ c main_v33 : S64x8x2x2048.Idx → EReal) = k_v33 a1 a6)
    (e36 : (V9 m ρ c main_v36 : S64x1x2048.Idx → EReal) = k_v36 a8)
    (e37 : (V9 m ρ c main_v37 : S64x2x2048.Idx → EReal) = k_v37 a4)
    (e40 : (V9 m ρ c main_v40 : S_.Idx → EReal) = k_v40 a7)
    (e43 : (V9 m ρ c main_v43 : S_.Idx → EReal) = k_v43 a8) :
    (W12 m ρ c (Proc.devRef .tc main_v52) : S_.Idx → EReal) ix0 = common a0 a1 a4 a5 a6 a7 a8 := by
  have h40 : KerTail.cnt0 m ρ c = k_v40 a7 ix0 := congrFun e40 ix0
  have h43 : KerTail.cnt1 m ρ c = k_v43 a8 ix0 := congrFun e43 ix0
  rw [KerTail.result_at, KerTotal.blk0_eq m ρ c a0 a1 a5 a7 e11 e15 e17,
    KerTotal.blk1_eq m ρ c a0 a1 a4 a6 a8 e28 e33 e36 e37, h40, h43]
  rfl

/-- The reference's result in the common form, given its two masked arrays read at an index. -/
theorem ref_value (a0 : S64x1x256x256.Idx → EReal) (a1 : S64x2x256x256.Idx → EReal) (a4 : S64x2048x2.Idx → EReal)
    (a5 : S64x4096x4.Idx → BitVec 32) (a6 : S64x2048x2x4.Idx → BitVec 32) (a7 : S64x4096x4.Idx → BitVec 1)
    (a8 : S64x2048x1.Idx → BitVec 1)
    (hA : ∀ (d : Cert.ReferenceIdeal.S_.Idx → EReal) (b : Fin 64) (n : Fin 4096) (c : Fin 4),
      Cert.RefValue.t_v104 a0 a1 a5 a7 d (ix3 b n c)
        = Scalar.select (a7 (ix3 b n c)) (Ideal.div (Spec.k1 - Canon.cA (Cert.RefValue.t_v4 a0) (Cert.RefValue.t_v14 a1)
            (Cert.RefValue.t_v3 a5) b n c) (d ix0)) 0)
    (hR : ∀ (d : Cert.ReferenceIdeal.S_.Idx → EReal) (b : Fin 64) (mm : Fin 2048),
      Cert.RefValue.t_v208 a0 a1 a4 a6 a8 d (ix3 b mm (0 : Fin 1))
        = Scalar.select (a8 (ix3 b mm (0 : Fin 1))) (Ideal.div (Canon.cR (Cert.RefValue.t_v4 a0) (Cert.RefValue.t_v14 a1)
            (Cert.RefValue.t_v109 a6) a4 b mm) (d ix0)) 0) :
    Cert.ReferenceIdeal.RefRun.r_v210 a0 a1 a4 a5 a6 a7 a8 ix0 = common a0 a1 a4 a5 a6 a7 a8 := by
  rw [Cert.RefTotal.ref_value a0 a1 a4 a5 a6 a7 a8 _ _ _ _ hA hR]
  rfl

end Cert.Bridge

end
-- ==== Proof.LibKerFrame.lean ====
/-
  Which buffers each stretch of host operations before the first grid computation writes, and that every other
  buffer keeps its contents across the stretch.
-/
import proofs.«139320_j2216203125376_2_alg».proof.Proof.Gen.KernelIdeal.Launch

set_option maxRecDepth 4000

noncomputable section

namespace Cert.KerValue

open Idealize.ShloMosaic Idealize.ShloMosaic.TcCoe Cert.KernelIdeal
open Idealize.SL Idealize.SL.Sem
open Idealize.ShloMosaic.StableHlo

variable {F : FTy → Type} [FloatOps F]

/-- An operation that writes the one buffer y, a member of the list W, writes inside W. -/
theorem writes_in {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers stretch 0 writes. -/
abbrev L0 : List (Ref sig .tc) := [main_cst, main_cst_0, main_v0, main_v1, main_v2, main_v3]
theorem writes0 : (Gen.hostOps0 : List (HloOp τ sig (Elt F))).Forall fun op => op.writes ⊆ (L0.map (Proc.devRef (τ := τ) .tc)).toFinset := by
  simp only [Gen.hostOps0, List.Forall]
  repeat' apply And.intro
  all_goals exact writes_in rfl (by decide)
/-- A buffer stretch 0 does not write keeps its contents. -/
theorem keep0 (V : Valuation τ sig (Elt F)) (r : Ref sig .tc) (h : r ∉ L0) :
    after Gen.hostOps0 V (Proc.devRef .tc r) = V (Proc.devRef .tc r) :=
  after_of_writes_sub _ V writes0 h

/-- The buffers stretch 1 writes. -/
abbrev L1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem writes1 : (Gen.hostOps0_1 : List (HloOp τ sig (Elt F))).Forall fun op => op.writes ⊆ (L1.map (Proc.devRef (τ := τ) .tc)).toFinset := by
  simp only [Gen.hostOps0_1, List.Forall]
  repeat' apply And.intro
  all_goals exact writes_in rfl (by decide)
/-- A buffer stretch 1 does not write keeps its contents. -/
theorem keep1 (V : Valuation τ sig (Elt F)) (r : Ref sig .tc) (h : r ∉ L1) :
    after Gen.hostOps0_1 V (Proc.devRef .tc r) = V (Proc.devRef .tc r) :=
  after_of_writes_sub _ V writes1 h

/-- The buffers stretch 2 writes. -/
abbrev L2 : List (Ref sig .tc) := [main_v5, main_v6, main_v7]
theorem writes2 : (Gen.hostOps0_2 : List (HloOp τ sig (Elt F))).Forall fun op => op.writes ⊆ (L2.map (Proc.devRef (τ := τ) .tc)).toFinset := by
  simp only [Gen.hostOps0_2, List.Forall]
  repeat' apply And.intro
  all_goals exact writes_in rfl (by decide)
/-- A buffer stretch 2 does not write keeps its contents. -/
theorem keep2 (V : Valuation τ sig (Elt F)) (r : Ref sig .tc) (h : r ∉ L2) :
    after Gen.hostOps0_2 V (Proc.devRef .tc r) = V (Proc.devRef .tc r) :=
  after_of_writes_sub _ V writes2 h

/-- The buffers stretch 3 writes. -/
abbrev L3 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v8]
theorem writes3 : (Gen.hostOps0_3 : List (HloOp τ sig (Elt F))).Forall fun op => op.writes ⊆ (L3.map (Proc.devRef (τ := τ) .tc)).toFinset := by
  simp only [Gen.hostOps0_3, List.Forall]
  repeat' apply And.intro
  all_goals exact writes_in rfl (by decide)
/-- A buffer stretch 3 does not write keeps its contents. -/
theorem keep3 (V : Valuation τ sig (Elt F)) (r : Ref sig .tc) (h : r ∉ L3) :
    after Gen.hostOps0_3 V (Proc.devRef .tc r) = V (Proc.devRef .tc r) :=
  after_of_writes_sub _ V writes3 h

/-- The buffers stretch 4 writes. -/
abbrev L4 : List (Ref sig .tc) := [main_v9, main_v10, main_v11, main_v12, main_v13, main_v14, main_v15, main_v16, main_v17, main_v18, main_v19]
theorem writes4 : (Gen.hostOps0_4 : List (HloOp τ sig (Elt F))).Forall fun op => op.writes ⊆ (L4.map (Proc.devRef (τ := τ) .tc)).toFinset := by
  simp only [Gen.hostOps0_4, List.Forall]
  repeat' apply And.intro
  all_goals exact writes_in rfl (by decide)
/-- A buffer stretch 4 does not write keeps its contents. -/
theorem keep4 (V : Valuation τ sig (Elt F)) (r : Ref sig .tc) (h : r ∉ L4) :
    after Gen.hostOps0_4 V (Proc.devRef .tc r) = V (Proc.devRef .tc r) :=
  after_of_writes_sub _ V writes4 h

/-- The buffers stretch 5 writes. -/
abbrev L5 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v20]
theorem writes5 : (Gen.hostOps0_5 : List (HloOp τ sig (Elt F))).Forall fun op => op.writes ⊆ (L5.map (Proc.devRef (τ := τ) .tc)).toFinset := by
  simp only [Gen.hostOps0_5, List.Forall]
  repeat' apply And.intro
  all_goals exact writes_in rfl (by decide)
/-- A buffer stretch 5 does not write keeps its contents. -/
theorem keep5 (V : Valuation τ sig (Elt F)) (r : Ref sig .tc) (h : r ∉ L5) :
    after Gen.hostOps0_5 V (Proc.devRef .tc r) = V (Proc.devRef .tc r) :=
  after_of_writes_sub _ V writes5 h

/-- The buffers stretch 6 writes. -/
abbrev L6 : List (Ref sig .tc) := [main_v21, main_v22, main_v23]
theorem writes6 : (Gen.hostOps0_6 : List (HloOp τ sig (Elt F))).Forall fun op => op.writes ⊆ (L6.map (Proc.devRef (τ := τ) .tc)).toFinset := by
  simp only [Gen.hostOps0_6, List.Forall]
  repeat' apply And.intro
  all_goals exact writes_in rfl (by decide)
/-- A buffer stretch 6 does not write keeps its contents. -/
theorem keep6 (V : Valuation τ sig (Elt F)) (r : Ref sig .tc) (h : r ∉ L6) :
    after Gen.hostOps0_6 V (Proc.devRef .tc r) = V (Proc.devRef .tc r) :=
  after_of_writes_sub _ V writes6 h

/-- The buffers stretch 7 writes. -/
abbrev L7 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v24]
theorem writes7 : (Gen.hostOps0_7 : List (HloOp τ sig (Elt F))).Forall fun op => op.writes ⊆ (L7.map (Proc.devRef (τ := τ) .tc)).toFinset := by
  simp only [Gen.hostOps0_7, List.Forall]
  repeat' apply And.intro
  all_goals exact writes_in rfl (by decide)
/-- A buffer stretch 7 does not write keeps its contents. -/
theorem keep7 (V : Valuation τ sig (Elt F)) (r : Ref sig .tc) (h : r ∉ L7) :
    after Gen.hostOps0_7 V (Proc.devRef .tc r) = V (Proc.devRef .tc r) :=
  after_of_writes_sub _ V writes7 h

/-- The buffers stretch 8 writes. -/
abbrev L8 : List (Ref sig .tc) := [main_v25, main_v26, main_v27, main_v28, main_v29, main_v30, main_v31, main_v32, main_v33, main_v34, main_v35, main_v36, main_v37, main_v38, main_c, main_v39, main_v40, main_v41, main_c_1, main_v42, main_v43]
theorem writes8 : (Gen.hostOps0_8 : List (HloOp τ sig (Elt F))).Forall fun op => op.writes ⊆ (L8.map (Proc.devRef (τ := τ) .tc)).toFinset := by
  simp only [Gen.hostOps0_8, List.Forall]
  repeat' apply And.intro
  all_goals exact writes_in rfl (by decide)
/-- A buffer stretch 8 does not write keeps its contents. -/
theorem keep8 (V : Valuation τ sig (Elt F)) (r : Ref sig .tc) (h : r ∉ L8) :
    after Gen.hostOps0_8 V (Proc.devRef .tc r) = V (Proc.devRef .tc r) :=
  after_of_writes_sub _ V writes8 h

end Cert.KerValue

end
-- ==== Proof.KerEntryT1.lean ====
/-
  One row-read stretch of host operations over an arbitrary valuation, in four pieces: the wrapped start indices, the
  validity mask, the gather, the selection.
-/
import proofs.«139320_j2216203125376_2_alg».proof.Proof.KerTerms
import proofs.«139320_j2216203125376_2_alg».proof.Proof.Gen.KernelIdeal.Launch

set_option maxRecDepth 8000

noncomputable section

namespace Cert.KerValue

open Idealize.ShloMosaic Idealize.ShloMosaic.TcCoe Cert.KernelIdeal Cert.KernelIdeal.Facts₀
open Idealize.SL Idealize.SL.Sem
open Idealize.ShloMosaic.StableHlo

variable (V : Valuation τ sig (Elt Ideal))

/-- Stretch 1, the index wrap and the start indices. -/
abbrev A1 : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S64x1x16384, .i32⟩) (broadcastInDim S64x1x16384 ![] bcast_S_S64x1x16384),
    StableHlo.TRef.binary (.of main_v3 : StableHlo.TRef sig ⟨S64x1x16384, .i32⟩) (.of main_call0_v0 : StableHlo.TRef sig ⟨S64x1x16384, .i32⟩) (.of main_call0_v1 : StableHlo.TRef sig ⟨S64x1x16384, .i1⟩) (cmpi .slt),
    StableHlo.TRef.nullary (.of main_call0_c_0 : StableHlo.TRef sig ⟨S_, .i32⟩) (constantI S_ 32 65536#32),
    StableHlo.TRef.unary (.of main_call0_c_0 : StableHlo.TRef sig ⟨S_, .i32⟩) (.of main_call0_v2 : StableHlo.TRef sig ⟨S64x1x16384, .i32⟩) (broadcastInDim S64x1x16384 ![] bcast_S_S64x1x16384),
    StableHlo.TRef.binary (.of main_v3 : StableHlo.TRef sig ⟨S64x1x16384, .i32⟩) (.of main_call0_v2 : StableHlo.TRef sig ⟨S64x1x16384, .i32⟩) (.of main_call0_v3 : StableHlo.TRef sig ⟨S64x1x16384, .i32⟩) addi,
    StableHlo.TRef.ternary (.of main_call0_v1 : StableHlo.TRef sig ⟨S64x1x16384, .i1⟩) (.of main_call0_v3 : StableHlo.TRef sig ⟨S64x1x16384, .i32⟩) (.of main_v3 : StableHlo.TRef sig ⟨S64x1x16384, .i32⟩) (.of main_call0_v4 : StableHlo.TRef sig ⟨S64x1x16384, .i32⟩) select,
    StableHlo.TRef.reshape (.of main_call0_v4 : StableHlo.TRef sig ⟨S64x1x16384, .i32⟩) (.of main_call0_v5 : StableHlo.TRef sig ⟨S64x16384x1, .i32⟩) rfl shapeCasts_S64x1x16384_S64x16384x1 ]
/-- Stretch 1, the validity mask. -/
abbrev Bm1 : List (HloOp τ sig (Elt Ideal)) :=
  [ StableHlo.TRef.nullary (.of main_call0_c_1 : StableHlo.TRef sig ⟨S1, .i32⟩) (constantI S1 32 65535#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S64x16384x1, .i32⟩) (broadcastInDim S64x16384x1 ![] bcast_S_S64x16384x1),
    StableHlo.TRef.binary (.of main_call0_v5 : StableHlo.TRef sig ⟨S64x16384x1, .i32⟩) (.of main_call0_v6 : StableHlo.TRef sig ⟨S64x16384x1, .i32⟩) (.of main_call0_v7 : StableHlo.TRef sig ⟨S64x16384x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S64x16384x1, .i32⟩) (broadcastInDim S64x16384x1 ![0, 1, 2] bcast_S1x1x1_S64x16384x1_0_1_2),
    StableHlo.TRef.binary (.of main_call0_v5 : StableHlo.TRef sig ⟨S64x16384x1, .i32⟩) (.of main_call0_v9 : StableHlo.TRef sig ⟨S64x16384x1, .i32⟩) (.of main_call0_v10 : StableHlo.TRef sig ⟨S64x16384x1, .i1⟩) (cmpi .sle),
    StableHlo.TRef.binary (.of main_call0_v7 : StableHlo.TRef sig ⟨S64x16384x1, .i1⟩) (.of main_call0_v10 : StableHlo.TRef sig ⟨S64x16384x1, .i1⟩) (.of main_call0_v11 : StableHlo.TRef sig ⟨S64x16384x1, .i1⟩) andi,
    StableHlo.TRef.nullary (.of main_call0_c_3 : StableHlo.TRef sig ⟨S_, .i1⟩) (constantI S_ 1 1#1),
    StableHlo.TRef.binary (.of main_call0_v11 : StableHlo.TRef sig ⟨S64x16384x1, .i1⟩) (.of main_call0_c_3 : StableHlo.TRef sig ⟨S_, .i1⟩) (.of main_call0_v12 : StableHlo.TRef sig ⟨S64x16384, .i1⟩) (fun x v => Host.reduce IntOp.andi x v reducesTo_S64x16384x1_S64x16384_d2 h_S_) ]
/-- Stretch 1, the gather. -/
abbrev Bg1 : List (HloOp τ sig (Elt Ideal)) :=
  [ StableHlo.TRef.binary (.of main_v2 : StableHlo.TRef sig ⟨S64x1x65536, .f32⟩) (.of main_call0_v5 : StableHlo.TRef sig ⟨S64x16384x1, .i32⟩) (.of main_call0_v13 : StableHlo.TRef sig ⟨S64x1x16384, .f32⟩) (fun x i => Host.gather gather_S64x1x65536_S64x16384x1_S64x1x16384_1_2_0_0_2_2_111 x i) ]
/-- Stretch 1, the selection. -/
abbrev Bx1 : List (HloOp τ sig (Elt Ideal)) :=
  [ StableHlo.TRef.unary (.of main_call0_v12 : StableHlo.TRef sig ⟨S64x16384, .i1⟩) (.of main_call0_v14 : StableHlo.TRef sig ⟨S64x1x16384, .i1⟩) (broadcastInDim S64x1x16384 ![0, 2] bcast_S64x16384_S64x1x16384_0_2),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S64x1x16384, .f32⟩) (broadcastInDim S64x1x16384 ![] bcast_S_S64x1x16384),
    StableHlo.TRef.ternary (.of main_call0_v14 : StableHlo.TRef sig ⟨S64x1x16384, .i1⟩) (.of main_call0_v13 : StableHlo.TRef sig ⟨S64x1x16384, .f32⟩) (.of main_call0_v15 : StableHlo.TRef sig ⟨S64x1x16384, .f32⟩) (.of main_v4 : StableHlo.TRef sig ⟨S64x1x16384, .f32⟩) select ]

theorem sA1_start : (after A1 V (Proc.devRef .tc main_call0_v5) : S64x16384x1.Idx → BitVec 32) = start1 (V (Proc.devRef .tc main_v3)) := by
  simp only [A1]; after_results; rfl
theorem sA1_tab : after A1 V (Proc.devRef .tc main_v2) = V (Proc.devRef .tc main_v2) := by
  simp only [A1]; after_results

theorem sBm1_mask : (after Bm1 V (Proc.devRef .tc main_call0_v12) : S64x16384.Idx → BitVec 1) = validOf1 (V (Proc.devRef .tc main_call0_v5)) := by
  simp only [Bm1]; after_results; simp only [TRef.toBuf, TRef.ofBuf, cast_eq]; rfl
theorem sBm1_start : after Bm1 V (Proc.devRef .tc main_call0_v5) = V (Proc.devRef .tc main_call0_v5) := by
  simp only [Bm1]; after_results
theorem sBm1_tab : after Bm1 V (Proc.devRef .tc main_v2) = V (Proc.devRef .tc main_v2) := by
  simp only [Bm1]; after_results

theorem sBg1_gather : (after Bg1 V (Proc.devRef .tc main_call0_v13) : S64x1x16384.Idx → EReal) = Host.gather gather_S64x1x65536_S64x16384x1_S64x1x16384_1_2_0_0_2_2_111 (V (Proc.devRef .tc main_v2)) (V (Proc.devRef .tc main_call0_v5)) := by
  simp only [Bg1]; after_results; rfl
theorem sBg1_mask : after Bg1 V (Proc.devRef .tc main_call0_v12) = V (Proc.devRef .tc main_call0_v12) := by
  simp only [Bg1]; after_results

theorem sBx1_out : (after Bx1 V (Proc.devRef .tc main_v4) : S64x1x16384.Idx → EReal)
    = select (broadcastInDim S64x1x16384 ![0, 2] bcast_S64x16384_S64x1x16384_0_2 (V (Proc.devRef .tc main_call0_v12))) (V (Proc.devRef .tc main_call0_v13))
        (broadcastInDim S64x1x16384 ![] bcast_S_S64x1x16384 (constant (F := Ideal) S_ .f32 0x7FC00000#32)) := by
  simp only [Bx1]; after_results; rfl

/-- The whole stretch: the row read of the table at the index words. -/
theorem s1_v4 : (after Gen.hostOps0_1 V (Proc.devRef .tc main_v4) : S64x1x16384.Idx → EReal)
    = take1 (V (Proc.devRef .tc main_v2)) (V (Proc.devRef .tc main_v3)) :=
  (sBx1_out (after Bg1 (after Bm1 (after A1 V)))).trans (by
    rw [sBg1_mask, sBm1_mask, sBg1_gather, sBm1_tab, sBm1_start, sA1_tab, sA1_start]
    rfl)

end Cert.KerValue

end
-- ==== Proof.KerEntryT3.lean ====
/-
  One row-read stretch of host operations over an arbitrary valuation, in four pieces: the wrapped start indices, the
  validity mask, the gather, the selection.
-/
import proofs.«139320_j2216203125376_2_alg».proof.Proof.KerTerms
import proofs.«139320_j2216203125376_2_alg».proof.Proof.Gen.KernelIdeal.Launch

set_option maxRecDepth 8000

noncomputable section

namespace Cert.KerValue

open Idealize.ShloMosaic Idealize.ShloMosaic.TcCoe Cert.KernelIdeal Cert.KernelIdeal.Facts₀
open Idealize.SL Idealize.SL.Sem
open Idealize.ShloMosaic.StableHlo

variable (V : Valuation τ sig (Elt Ideal))

/-- Stretch 3, the index wrap and the start indices. -/
abbrev A3 : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S64x2x16384, .i32⟩) (broadcastInDim S64x2x16384 ![] bcast_S_S64x2x16384),
    StableHlo.TRef.binary (.of main_v7 : StableHlo.TRef sig ⟨S64x2x16384, .i32⟩) (.of main_call1_v0 : StableHlo.TRef sig ⟨S64x2x16384, .i32⟩) (.of main_call1_v1 : StableHlo.TRef sig ⟨S64x2x16384, .i1⟩) (cmpi .slt),
    StableHlo.TRef.nullary (.of main_call1_c_0 : StableHlo.TRef sig ⟨S_, .i32⟩) (constantI S_ 32 65536#32),
    StableHlo.TRef.unary (.of main_call1_c_0 : StableHlo.TRef sig ⟨S_, .i32⟩) (.of main_call1_v2 : StableHlo.TRef sig ⟨S64x2x16384, .i32⟩) (broadcastInDim S64x2x16384 ![] bcast_S_S64x2x16384),
    StableHlo.TRef.binary (.of main_v7 : StableHlo.TRef sig ⟨S64x2x16384, .i32⟩) (.of main_call1_v2 : StableHlo.TRef sig ⟨S64x2x16384, .i32⟩) (.of main_call1_v3 : StableHlo.TRef sig ⟨S64x2x16384, .i32⟩) addi,
    StableHlo.TRef.ternary (.of main_call1_v1 : StableHlo.TRef sig ⟨S64x2x16384, .i1⟩) (.of main_call1_v3 : StableHlo.TRef sig ⟨S64x2x16384, .i32⟩) (.of main_v7 : StableHlo.TRef sig ⟨S64x2x16384, .i32⟩) (.of main_call1_v4 : StableHlo.TRef sig ⟨S64x2x16384, .i32⟩) select,
    StableHlo.TRef.reshape (.of main_call1_v4 : StableHlo.TRef sig ⟨S64x2x16384, .i32⟩) (.of main_call1_v5 : StableHlo.TRef sig ⟨S64x2x16384x1, .i32⟩) rfl shapeCasts_S64x2x16384_S64x2x16384x1 ]
/-- Stretch 3, the validity mask. -/
abbrev Bm3 : List (HloOp τ sig (Elt Ideal)) :=
  [ StableHlo.TRef.nullary (.of main_call1_c_1 : StableHlo.TRef sig ⟨S1, .i32⟩) (constantI S1 32 65535#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S64x2x16384x1, .i32⟩) (broadcastInDim S64x2x16384x1 ![] bcast_S_S64x2x16384x1),
    StableHlo.TRef.binary (.of main_call1_v5 : StableHlo.TRef sig ⟨S64x2x16384x1, .i32⟩) (.of main_call1_v6 : StableHlo.TRef sig ⟨S64x2x16384x1, .i32⟩) (.of main_call1_v7 : StableHlo.TRef sig ⟨S64x2x16384x1, .i1⟩) (cmpi .sge),
    StableHlo.TRef.unary (.of main_call1_c_1 : StableHlo.TRef sig ⟨S1, .i32⟩) (.of main_call1_v8 : StableHlo.TRef sig ⟨S1x1x1x1, .i32⟩) (broadcastInDim S1x1x1x1 ![3] bcast_S1_S1x1x1x1_3),
    StableHlo.TRef.unary (.of main_call1_v8 : StableHlo.TRef sig ⟨S1x1x1x1, .i32⟩) (.of main_call1_v9 : StableHlo.TRef sig ⟨S64x2x16384x1, .i32⟩) (broadcastInDim S64x2x16384x1 ![0, 1, 2, 3] bcast_S1x1x1x1_S64x2x16384x1_0_1_2_3),
    StableHlo.TRef.binary (.of main_call1_v5 : StableHlo.TRef sig ⟨S64x2x16384x1, .i32⟩) (.of main_call1_v9 : StableHlo.TRef sig ⟨S64x2x16384x1, .i32⟩) (.of main_call1_v10 : StableHlo.TRef sig ⟨S64x2x16384x1, .i1⟩) (cmpi .sle),
    StableHlo.TRef.binary (.of main_call1_v7 : StableHlo.TRef sig ⟨S64x2x16384x1, .i1⟩) (.of main_call1_v10 : StableHlo.TRef sig ⟨S64x2x16384x1, .i1⟩) (.of main_call1_v11 : StableHlo.TRef sig ⟨S64x2x16384x1, .i1⟩) andi,
    StableHlo.TRef.nullary (.of main_call1_c_3 : StableHlo.TRef sig ⟨S_, .i1⟩) (constantI S_ 1 1#1),
    StableHlo.TRef.binary (.of main_call1_v11 : StableHlo.TRef sig ⟨S64x2x16384x1, .i1⟩) (.of main_call1_c_3 : StableHlo.TRef sig ⟨S_, .i1⟩) (.of main_call1_v12 : StableHlo.TRef sig ⟨S64x2x16384, .i1⟩) (fun x v => Host.reduce IntOp.andi x v reducesTo_S64x2x16384x1_S64x2x16384_d3 h_S_) ]
/-- Stretch 3, the gather. -/
abbrev Bg3 : List (HloOp τ sig (Elt Ideal)) :=
  [ StableHlo.TRef.binary (.of main_v5 : StableHlo.TRef sig ⟨S64x2x65536, .f32⟩) (.of main_call1_v5 : StableHlo.TRef sig ⟨S64x2x16384x1, .i32⟩) (.of main_call1_v13 : StableHlo.TRef sig ⟨S64x2x16384, .f32⟩) (fun x i => Host.gather gather_S64x2x65536_S64x2x16384x1_S64x2x16384_n_2_01_01_2_3_111 x i) ]
/-- Stretch 3, the selection. -/
abbrev Bx3 : List (HloOp τ sig (Elt Ideal)) :=
  [ StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v14 : StableHlo.TRef sig ⟨S64x2x16384, .f32⟩) (broadcastInDim S64x2x16384 ![] bcast_S_S64x2x16384),
    StableHlo.TRef.ternary (.of main_call1_v12 : StableHlo.TRef sig ⟨S64x2x16384, .i1⟩) (.of main_call1_v13 : StableHlo.TRef sig ⟨S64x2x16384, .f32⟩) (.of main_call1_v14 : StableHlo.TRef sig ⟨S64x2x16384, .f32⟩) (.of main_v8 : StableHlo.TRef sig ⟨S64x2x16384, .f32⟩) select ]

theorem sA3_start : (after A3 V (Proc.devRef .tc main_call1_v5) : S64x2x16384x1.Idx → BitVec 32) = start2 (V (Proc.devRef .tc main_v7)) := by
  simp only [A3]; after_results; rfl
theorem sA3_tab : after A3 V (Proc.devRef .tc main_v5) = V (Proc.devRef .tc main_v5) := by
  simp only [A3]; after_results

theorem sBm3_mask : (after Bm3 V (Proc.devRef .tc main_call1_v12) : S64x2x16384.Idx → BitVec 1) = validOf2 (V (Proc.devRef .tc main_call1_v5)) := by
  simp only [Bm3]; after_results; simp only [TRef.toBuf, TRef.ofBuf, cast_eq]; rfl
theorem sBm3_start : after Bm3 V (Proc.devRef .tc main_call1_v5) = V (Proc.devRef .tc main_call1_v5) := by
  simp only [Bm3]; after_results
theorem sBm3_tab : after Bm3 V (Proc.devRef .tc main_v5) = V (Proc.devRef .tc main_v5) := by
  simp only [Bm3]; after_results

theorem sBg3_gather : (after Bg3 V (Proc.devRef .tc main_call1_v13) : S64x2x16384.Idx → EReal) = Host.gather gather_S64x2x65536_S64x2x16384x1_S64x2x16384_n_2_01_01_2_3_111 (V (Proc.devRef .tc main_v5)) (V (Proc.devRef .tc main_call1_v5)) := by
  simp only [Bg3]; after_results; rfl
theorem sBg3_mask : after Bg3 V (Proc.devRef .tc main_call1_v12) = V (Proc.devRef .tc main_call1_v12) := by
  simp only [Bg3]; after_results

theorem sBx3_out : (after Bx3 V (Proc.devRef .tc main_v8) : S64x2x16384.Idx → EReal)
    = select (V (Proc.devRef .tc main_call1_v12)) (V (Proc.devRef .tc main_call1_v13))
        (broadcastInDim S64x2x16384 ![] bcast_S_S64x2x16384 (constant (F := Ideal) S_ .f32 0x7FC00000#32)) := by
  simp only [Bx3]; after_results; rfl

/-- The whole stretch: the row read of the table at the index words. -/
theorem s3_v8 : (after Gen.hostOps0_3 V (Proc.devRef .tc main_v8) : S64x2x16384.Idx → EReal)
    = take2 (V (Proc.devRef .tc main_v5)) (V (Proc.devRef .tc main_v7)) :=
  (sBx3_out (after Bg3 (after Bm3 (after A3 V)))).trans (by
    rw [sBg3_mask, sBm3_mask, sBg3_gather, sBm3_tab, sBm3_start, sA3_tab, sA3_start]
    rfl)

end Cert.KerValue

end
-- ==== Proof.KerEntryT5.lean ====
/-
  One row-read stretch of host operations over an arbitrary valuation, in four pieces: the wrapped start indices, the
  validity mask, the gather, the selection.
-/
import proofs.«139320_j2216203125376_2_alg».proof.Proof.KerTerms
import proofs.«139320_j2216203125376_2_alg».proof.Proof.Gen.KernelIdeal.Launch

set_option maxRecDepth 8000

noncomputable section

namespace Cert.KerValue

open Idealize.ShloMosaic Idealize.ShloMosaic.TcCoe Cert.KernelIdeal Cert.KernelIdeal.Facts₀
open Idealize.SL Idealize.SL.Sem
open Idealize.ShloMosaic.StableHlo

variable (V : Valuation τ sig (Elt Ideal))

/-- Stretch 5, the index wrap and the start indices. -/
abbrev A5 : List (HloOp τ sig (Elt Ideal)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S64x1x16384, .i32⟩) (broadcastInDim S64x1x16384 ![] bcast_S_S64x1x16384),
    StableHlo.TRef.binary (.of main_v19 : StableHlo.TRef sig ⟨S64x1x16384, .i32⟩) (.of main_call2_v0 : StableHlo.TRef sig ⟨S64x1x16384, .i32⟩) (.of main_call2_v1 : StableHlo.TRef sig ⟨S64x1x16384, .i1⟩) (cmpi .slt),
    StableHlo.TRef.nullary (.of main_call2_c_0 : StableHlo.TRef sig ⟨S_, .i32⟩) (constantI S_ 32 65536#32),
    StableHlo.TRef.unary (.of main_call2_c_0 : StableHlo.TRef sig ⟨S_, .i32⟩) (.of main_call2_v2 : StableHlo.TRef sig ⟨S64x1x16384, .i32⟩) (broadcastInDim S64x1x16384 ![] bcast_S_S64x1x16384),
    StableHlo.TRef.binary (.of main_v19 : StableHlo.TRef sig ⟨S64x1x16384, .i32⟩) (.of main_call2_v2 : StableHlo.TRef sig ⟨S64x1x16384, .i32⟩) (.of main_call2_v3 : StableHlo.TRef sig ⟨S64x1x16384, .i32⟩) addi,
    StableHlo.TRef.ternary (.of main_call2_v1 : StableHlo.TRef sig ⟨S64x1x16384, .i1⟩) (.of main_call2_v3 : StableHlo.TRef sig ⟨S64x1x16384, .i32⟩) (.of main_v19 : StableHlo.TRef sig ⟨S64x1x16384, .i32⟩) (.of main_call2_v4 : StableHlo.TRef sig ⟨S64x1x16384, .i32⟩) select,
    StableHlo.TRef.reshape (.of main_call2_v4 : StableHlo.TRef sig ⟨S64x1x16384, .i32⟩) (.of main_call2_v5 : StableHlo.TRef sig ⟨S64x16384x1, .i32⟩) rfl shapeCasts_S64x1x16384_S64x16384x1 ]
/-- Stretch 5, the validity mask. -/
abbrev Bm5 : List (HloOp τ sig (Elt Ideal)) :=
  [ StableHlo.TRef.nullary (.of main_call2_c_1 : StableHlo.TRef sig ⟨S1, .i32⟩) (constantI S1 32 65535#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S64x16384x1, .i32⟩) (broadcastInDim S64x16384x1 ![] bcast_S_S64x16384x1),
    StableHlo.TRef.binary (.of main_call2_v5 : StableHlo.TRef sig ⟨S64x16384x1, .i32⟩) (.of main_call2_v6 : StableHlo.TRef sig ⟨S64x16384x1, .i32⟩) (.of main_call2_v7 : StableHlo.TRef sig ⟨S64x16384x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S64x16384x1, .i32⟩) (broadcastInDim S64x16384x1 ![0, 1, 2] bcast_S1x1x1_S64x16384x1_0_1_2),
    StableHlo.TRef.binary (.of main_call2_v5 : StableHlo.TRef sig ⟨S64x16384x1, .i32⟩) (.of main_call2_v9 : StableHlo.TRef sig ⟨S64x16384x1, .i32⟩) (.of main_call2_v10 : StableHlo.TRef sig ⟨S64x16384x1, .i1⟩) (cmpi .sle),
    StableHlo.TRef.binary (.of main_call2_v7 : StableHlo.TRef sig ⟨S64x16384x1, .i1⟩) (.of main_call2_v10 : StableHlo.TRef sig ⟨S64x16384x1, .i1⟩) (.of main_call2_v11 : StableHlo.TRef sig ⟨S64x16384x1, .i1⟩) andi,
    StableHlo.TRef.nullary (.of main_call2_c_3 : StableHlo.TRef sig ⟨S_, .i1⟩) (constantI S_ 1 1#1),
    StableHlo.TRef.binary (.of main_call2_v11 : StableHlo.TRef sig ⟨S64x16384x1, .i1⟩) (.of main_call2_c_3 : StableHlo.TRef sig ⟨S_, .i1⟩) (.of main_call2_v12 : StableHlo.TRef sig ⟨S64x16384, .i1⟩) (fun x v => Host.reduce IntOp.andi x v reducesTo_S64x16384x1_S64x16384_d2 h_S_) ]
/-- Stretch 5, the gather. -/
abbrev Bg5 : List (HloOp τ sig (Elt Ideal)) :=
  [ StableHlo.TRef.binary (.of main_v18 : StableHlo.TRef sig ⟨S64x1x65536, .f32⟩) (.of main_call2_v5 : StableHlo.TRef sig ⟨S64x16384x1, .i32⟩) (.of main_call2_v13 : StableHlo.TRef sig ⟨S64x1x16384, .f32⟩) (fun x i => Host.gather gather_S64x1x65536_S64x16384x1_S64x1x16384_1_2_0_0_2_2_111 x i) ]
/-- Stretch 5, the selection. -/
abbrev Bx5 : List (HloOp τ sig (Elt Ideal)) :=
  [ StableHlo.TRef.unary (.of main_call2_v12 : StableHlo.TRef sig ⟨S64x16384, .i1⟩) (.of main_call2_v14 : StableHlo.TRef sig ⟨S64x1x16384, .i1⟩) (broadcastInDim S64x1x16384 ![0, 2] bcast_S64x16384_S64x1x16384_0_2),
    StableHlo.TRef.nullary (.of main_call2_cst : StableHlo.TRef sig ⟨S_, .f32⟩) (constant (F := Ideal) S_ .f32 0x7FC00000#32),
    StableHlo.TRef.unary (.of main_call2_cst : StableHlo.TRef sig ⟨S_, .f32⟩) (.of main_call2_v15 : StableHlo.TRef sig ⟨S64x1x16384, .f32⟩) (broadcastInDim S64x1x16384 ![] bcast_S_S64x1x16384),
    StableHlo.TRef.ternary (.of main_call2_v14 : StableHlo.TRef sig ⟨S64x1x16384, .i1⟩) (.of main_call2_v13 : StableHlo.TRef sig ⟨S64x1x16384, .f32⟩) (.of main_call2_v15 : StableHlo.TRef sig ⟨S64x1x16384, .f32⟩) (.of main_v20 : StableHlo.TRef sig ⟨S64x1x16384, .f32⟩) select ]

theorem sA5_start : (after A5 V (Proc.devRef .tc main_call2_v5) : S64x16384x1.Idx → BitVec 32) = start1 (V (Proc.devRef .tc main_v19)) := by
  simp only [A5]; after_results; rfl
theorem sA5_tab : after A5 V (Proc.devRef .tc main_v18) = V (Proc.devRef .tc main_v18) := by
  simp only [A5]; after_results

theorem sBm5_mask : (after Bm5 V (Proc.devRef .tc main_call2_v12) : S64x16384.Idx → BitVec 1) = validOf1 (V (Proc.devRef .tc main_call2_v5)) := by
  simp only [Bm5]; after_results; simp only [TRef.toBuf, TRef.ofBuf, cast_eq]; rfl
theorem sBm5_start : after Bm5 V (Proc.devRef .tc main_call2_v5) = V (Proc.devRef .tc main_call2_v5) := by
  simp only [Bm5]; after_results
theorem sBm5_tab : after Bm5 V (Proc.devRef .tc main_v18) = V (Proc.devRef .tc main_v18) := by
  simp only [Bm5]; after_results

theorem sBg5_gather : (after Bg5 V (Proc.devRef .tc main_call2_v13) : S64x1x16384.Idx → EReal) = Host.gather gather_S64x1x65536_S64x16384x1_S64x1x16384_1_2_0_0_2_2_111 (V (Proc.devRef .tc main_v18)) (V (Proc.devRef .tc main_call2_v5)) := by
  simp only [Bg5]; after_results; rfl
theorem sBg5_mask : after Bg5 V (Proc.devRef .tc main_call2_v12) = V (Proc.devRef .tc main_call2_v12) := by
  simp only [Bg5]; after_results

theorem sBx5_out : (after Bx5 V (Proc.devRef .tc main_v20) : S64x1x16384.Idx → EReal)
    = select (broadcastInDim S64x1x16384 ![0, 2] bcast_S64x16384_S64x1x16384_0_2 (V (Proc.devRef .tc main_call2_v12))) (V (Proc.devRef .tc main_call2_v13))
        (broadcastInDim S64x1x16384 ![] bcast_S_S64x1x16384 (constant (F := Ideal) S_ .f32 0x7FC00000#32)) := by
  simp only [Bx5]; after_results; rfl

/-- The whole stretch: the row read of the table at the index words. -/
theorem s5_v20 : (after Gen.hostOps0_5 V (Proc.devRef .tc main_v20) : S64x1x16384.Idx → EReal)
    = take1 (V (Proc.devRef .tc main_v18)) (V (Proc.devRef .tc main_v19)) :=
  (sBx5_out (after Bg5 (after Bm5 (after A5 V)))).trans (by
    rw [sBg5_mask, sBm5_mask, sBg5_gather, sBm5_tab, sBm5_start, sA5_tab, sA5_start]
    rfl)

end Cert.KerValue

end
-- ==== Proof.KerEntryT7.lean ====
/-
  One row-read stretch of host operations over an arbitrary valuation, in four pieces: the wrapped start indices, the
  validity mask, the gather, the selection.
-/
import proofs.«139320_j2216203125376_2_alg».proof.Proof.KerTerms
import proofs.«139320_j2216203125376_2_alg».proof.Proof.Gen.KernelIdeal.Launch

set_option maxRecDepth 8000

noncomputable section

namespace Cert.KerValue

open Idealize.ShloMosaic Idealize.ShloMosaic.TcCoe Cert.KernelIdeal Cert.KernelIdeal.Facts₀
open Idealize.SL Idealize.SL.Sem
open Idealize.ShloMosaic.StableHlo

variable (V : Valuation τ sig (Elt Ideal))

/-- Stretch 7, the index wrap and the start indices. -/
abbrev A7 : List (HloOp τ sig (Elt Ideal)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S64x2x16384, .i32⟩) (broadcastInDim S64x2x16384 ![] bcast_S_S64x2x16384),
    StableHlo.TRef.binary (.of main_v23 : StableHlo.TRef sig ⟨S64x2x16384, .i32⟩) (.of main_call3_v0 : StableHlo.TRef sig ⟨S64x2x16384, .i32⟩) (.of main_call3_v1 : StableHlo.TRef sig ⟨S64x2x16384, .i1⟩) (cmpi .slt),
    StableHlo.TRef.nullary (.of main_call3_c_0 : StableHlo.TRef sig ⟨S_, .i32⟩) (constantI S_ 32 65536#32),
    StableHlo.TRef.unary (.of main_call3_c_0 : StableHlo.TRef sig ⟨S_, .i32⟩) (.of main_call3_v2 : StableHlo.TRef sig ⟨S64x2x16384, .i32⟩) (broadcastInDim S64x2x16384 ![] bcast_S_S64x2x16384),
    StableHlo.TRef.binary (.of main_v23 : StableHlo.TRef sig ⟨S64x2x16384, .i32⟩) (.of main_call3_v2 : StableHlo.TRef sig ⟨S64x2x16384, .i32⟩) (.of main_call3_v3 : StableHlo.TRef sig ⟨S64x2x16384, .i32⟩) addi,
    StableHlo.TRef.ternary (.of main_call3_v1 : StableHlo.TRef sig ⟨S64x2x16384, .i1⟩) (.of main_call3_v3 : StableHlo.TRef sig ⟨S64x2x16384, .i32⟩) (.of main_v23 : StableHlo.TRef sig ⟨S64x2x16384, .i32⟩) (.of main_call3_v4 : StableHlo.TRef sig ⟨S64x2x16384, .i32⟩) select,
    StableHlo.TRef.reshape (.of main_call3_v4 : StableHlo.TRef sig ⟨S64x2x16384, .i32⟩) (.of main_call3_v5 : StableHlo.TRef sig ⟨S64x2x16384x1, .i32⟩) rfl shapeCasts_S64x2x16384_S64x2x16384x1 ]
/-- Stretch 7, the validity mask. -/
abbrev Bm7 : List (HloOp τ sig (Elt Ideal)) :=
  [ StableHlo.TRef.nullary (.of main_call3_c_1 : StableHlo.TRef sig ⟨S1, .i32⟩) (constantI S1 32 65535#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S64x2x16384x1, .i32⟩) (broadcastInDim S64x2x16384x1 ![] bcast_S_S64x2x16384x1),
    StableHlo.TRef.binary (.of main_call3_v5 : StableHlo.TRef sig ⟨S64x2x16384x1, .i32⟩) (.of main_call3_v6 : StableHlo.TRef sig ⟨S64x2x16384x1, .i32⟩) (.of main_call3_v7 : StableHlo.TRef sig ⟨S64x2x16384x1, .i1⟩) (cmpi .sge),
    StableHlo.TRef.unary (.of main_call3_c_1 : StableHlo.TRef sig ⟨S1, .i32⟩) (.of main_call3_v8 : StableHlo.TRef sig ⟨S1x1x1x1, .i32⟩) (broadcastInDim S1x1x1x1 ![3] bcast_S1_S1x1x1x1_3),
    StableHlo.TRef.unary (.of main_call3_v8 : StableHlo.TRef sig ⟨S1x1x1x1, .i32⟩) (.of main_call3_v9 : StableHlo.TRef sig ⟨S64x2x16384x1, .i32⟩) (broadcastInDim S64x2x16384x1 ![0, 1, 2, 3] bcast_S1x1x1x1_S64x2x16384x1_0_1_2_3),
    StableHlo.TRef.binary (.of main_call3_v5 : StableHlo.TRef sig ⟨S64x2x16384x1, .i32⟩) (.of main_call3_v9 : StableHlo.TRef sig ⟨S64x2x16384x1, .i32⟩) (.of main_call3_v10 : StableHlo.TRef sig ⟨S64x2x16384x1, .i1⟩) (cmpi .sle),
    StableHlo.TRef.binary (.of main_call3_v7 : StableHlo.TRef sig ⟨S64x2x16384x1, .i1⟩) (.of main_call3_v10 : StableHlo.TRef sig ⟨S64x2x16384x1, .i1⟩) (.of main_call3_v11 : StableHlo.TRef sig ⟨S64x2x16384x1, .i1⟩) andi,
    StableHlo.TRef.nullary (.of main_call3_c_3 : StableHlo.TRef sig ⟨S_, .i1⟩) (constantI S_ 1 1#1),
    StableHlo.TRef.binary (.of main_call3_v11 : StableHlo.TRef sig ⟨S64x2x16384x1, .i1⟩) (.of main_call3_c_3 : StableHlo.TRef sig ⟨S_, .i1⟩) (.of main_call3_v12 : StableHlo.TRef sig ⟨S64x2x16384, .i1⟩) (fun x v => Host.reduce IntOp.andi x v reducesTo_S64x2x16384x1_S64x2x16384_d3 h_S_) ]
/-- Stretch 7, the gather. -/
abbrev Bg7 : List (HloOp τ sig (Elt Ideal)) :=
  [ StableHlo.TRef.binary (.of main_v21 : StableHlo.TRef sig ⟨S64x2x65536, .f32⟩) (.of main_call3_v5 : StableHlo.TRef sig ⟨S64x2x16384x1, .i32⟩) (.of main_call3_v13 : StableHlo.TRef sig ⟨S64x2x16384, .f32⟩) (fun x i => Host.gather gather_S64x2x65536_S64x2x16384x1_S64x2x16384_n_2_01_01_2_3_111 x i) ]
/-- Stretch 7, the selection. -/
abbrev Bx7 : List (HloOp τ sig (Elt Ideal)) :=
  [ StableHlo.TRef.nullary (.of main_call3_cst : StableHlo.TRef sig ⟨S_, .f32⟩) (constant (F := Ideal) S_ .f32 0x7FC00000#32),
    StableHlo.TRef.unary (.of main_call3_cst : StableHlo.TRef sig ⟨S_, .f32⟩) (.of main_call3_v14 : StableHlo.TRef sig ⟨S64x2x16384, .f32⟩) (broadcastInDim S64x2x16384 ![] bcast_S_S64x2x16384),
    StableHlo.TRef.ternary (.of main_call3_v12 : StableHlo.TRef sig ⟨S64x2x16384, .i1⟩) (.of main_call3_v13 : StableHlo.TRef sig ⟨S64x2x16384, .f32⟩) (.of main_call3_v14 : StableHlo.TRef sig ⟨S64x2x16384, .f32⟩) (.of main_v24 : StableHlo.TRef sig ⟨S64x2x16384, .f32⟩) select ]

theorem sA7_start : (after A7 V (Proc.devRef .tc main_call3_v5) : S64x2x16384x1.Idx → BitVec 32) = start2 (V (Proc.devRef .tc main_v23)) := by
  simp only [A7]; after_results; rfl
theorem sA7_tab : after A7 V (Proc.devRef .tc main_v21) = V (Proc.devRef .tc main_v21) := by
  simp only [A7]; after_results

theorem sBm7_mask : (after Bm7 V (Proc.devRef .tc main_call3_v12) : S64x2x16384.Idx → BitVec 1) = validOf2 (V (Proc.devRef .tc main_call3_v5)) := by
  simp only [Bm7]; after_results; simp only [TRef.toBuf, TRef.ofBuf, cast_eq]; rfl
theorem sBm7_start : after Bm7 V (Proc.devRef .tc main_call3_v5) = V (Proc.devRef .tc main_call3_v5) := by
  simp only [Bm7]; after_results
theorem sBm7_tab : after Bm7 V (Proc.devRef .tc main_v21) = V (Proc.devRef .tc main_v21) := by
  simp only [Bm7]; after_results

theorem sBg7_gather : (after Bg7 V (Proc.devRef .tc main_call3_v13) : S64x2x16384.Idx → EReal) = Host.gather gather_S64x2x65536_S64x2x16384x1_S64x2x16384_n_2_01_01_2_3_111 (V (Proc.devRef .tc main_v21)) (V (Proc.devRef .tc main_call3_v5)) := by
  simp only [Bg7]; after_results; rfl
theorem sBg7_mask : after Bg7 V (Proc.devRef .tc main_call3_v12) = V (Proc.devRef .tc main_call3_v12) := by
  simp only [Bg7]; after_results

theorem sBx7_out : (after Bx7 V (Proc.devRef .tc main_v24) : S64x2x16384.Idx → EReal)
    = select (V (Proc.devRef .tc main_call3_v12)) (V (Proc.devRef .tc main_call3_v13))
        (broadcastInDim S64x2x16384 ![] bcast_S_S64x2x16384 (constant (F := Ideal) S_ .f32 0x7FC00000#32)) := by
  simp only [Bx7]; after_results; rfl

/-- The whole stretch: the row read of the table at the index words. -/
theorem s7_v24 : (after Gen.hostOps0_7 V (Proc.devRef .tc main_v24) : S64x2x16384.Idx → EReal)
    = take2 (V (Proc.devRef .tc main_v21)) (V (Proc.devRef .tc main_v23)) :=
  (sBx7_out (after Bg7 (after Bm7 (after A7 V)))).trans (by
    rw [sBg7_mask, sBm7_mask, sBg7_gather, sBm7_tab, sBm7_start, sA7_tab, sA7_start]
    rfl)

end Cert.KerValue

end
-- ==== Proof.KerEntry.lean ====
/-
  The staged arrays at the first grid computation's entry, as the definitions of KerTerms applied to the launch
  contents of the program's arguments: each stretch of host operations is read over an arbitrary valuation, and the
  stretches are then chained from the launch memory.
-/
import proofs.«139320_j2216203125376_2_alg».proof.Proof.KerTerms
import proofs.«139320_j2216203125376_2_alg».proof.Proof.LibKerFrame
import proofs.«139320_j2216203125376_2_alg».proof.Proof.KerEntryT1
import proofs.«139320_j2216203125376_2_alg».proof.Proof.KerEntryT3
import proofs.«139320_j2216203125376_2_alg».proof.Proof.KerEntryT5
import proofs.«139320_j2216203125376_2_alg».proof.Proof.KerEntryT7
import proofs.«139320_j2216203125376_2_alg».proof.Proof.Gen.KernelIdeal.Frame

set_option maxRecDepth 8000

noncomputable section

namespace Cert.KerValue

open Idealize.ShloMosaic Idealize.ShloMosaic.TcCoe Cert.KernelIdeal
open Idealize.SL Idealize.SL.Sem
open Idealize.ShloMosaic.StableHlo

/-! ## Each stretch over an arbitrary valuation -/

section Steps
variable (V : Valuation τ sig (Elt Ideal))

theorem s0_cst : (after Gen.hostOps0 V (Proc.devRef .tc main_cst) : S1x4x2x1.Idx → EReal)
    = cornerTab := by
  simp only [Gen.hostOps0]; after_results; rfl
theorem s0_cst_0 : (after Gen.hostOps0 V (Proc.devRef .tc main_cst_0) : S1x1x4x2x1.Idx → EReal)
    = cornerTab' := by
  simp only [Gen.hostOps0]; after_results; rfl
theorem s0_v0 : (after Gen.hostOps0 V (Proc.devRef .tc main_v0) : S64x16384.Idx → BitVec 32)
    = idxA (V (Proc.devRef .tc main_arg5)) := by
  simp only [Gen.hostOps0]; after_results; rfl
theorem s0_v1 : (after Gen.hostOps0 V (Proc.devRef .tc main_v1) : S64x16384.Idx → BitVec 32)
    = idxR (V (Proc.devRef .tc main_arg6)) := by
  simp only [Gen.hostOps0]; after_results; rfl
theorem s0_v2 : (after Gen.hostOps0 V (Proc.devRef .tc main_v2) : S64x1x65536.Idx → EReal)
    = tabH (V (Proc.devRef .tc main_arg0)) := by
  simp only [Gen.hostOps0]; after_results; rfl
theorem s0_v3 : (after Gen.hostOps0 V (Proc.devRef .tc main_v3) : S64x1x16384.Idx → BitVec 32)
    = idx1 (idxA (V (Proc.devRef .tc main_arg5))) := by
  simp only [Gen.hostOps0]; after_results; rfl
theorem s2_v5 : (after Gen.hostOps0_2 V (Proc.devRef .tc main_v5) : S64x2x65536.Idx → EReal)
    = tabO (V (Proc.devRef .tc main_arg1)) := by
  simp only [Gen.hostOps0_2]; after_results; rfl
theorem s2_v7 : (after Gen.hostOps0_2 V (Proc.devRef .tc main_v7) : S64x2x16384.Idx → BitVec 32)
    = idx2 (V (Proc.devRef .tc main_v0)) := by
  simp only [Gen.hostOps0_2]; after_results; rfl
theorem s4_v11 : (after Gen.hostOps0_4 V (Proc.devRef .tc main_v11) : S64x4x4096.Idx → EReal)
    = post11 (V (Proc.devRef .tc main_v4)) := by
  simp only [Gen.hostOps0_4]; after_results; rfl
theorem s4_v15 : (after Gen.hostOps0_4 V (Proc.devRef .tc main_v15) : S64x4x2x4096.Idx → EReal)
    = post15 (V (Proc.devRef .tc main_v8)) (V (Proc.devRef .tc main_cst)) := by
  simp only [Gen.hostOps0_4]; after_results; rfl
theorem s4_v17 : (after Gen.hostOps0_4 V (Proc.devRef .tc main_v17) : S64x4x4096.Idx → EReal)
    = k_v17 (V (Proc.devRef .tc main_arg7)) := by
  simp only [Gen.hostOps0_4]; after_results; rfl
theorem s4_v18 : (after Gen.hostOps0_4 V (Proc.devRef .tc main_v18) : S64x1x65536.Idx → EReal)
    = tabH (V (Proc.devRef .tc main_arg0)) := by
  simp only [Gen.hostOps0_4]; after_results; rfl
theorem s4_v19 : (after Gen.hostOps0_4 V (Proc.devRef .tc main_v19) : S64x1x16384.Idx → BitVec 32)
    = idx1 (V (Proc.devRef .tc main_v1)) := by
  simp only [Gen.hostOps0_4]; after_results; rfl
theorem s6_v21 : (after Gen.hostOps0_6 V (Proc.devRef .tc main_v21) : S64x2x65536.Idx → EReal)
    = tabO (V (Proc.devRef .tc main_arg1)) := by
  simp only [Gen.hostOps0_6]; after_results; rfl
theorem s6_v23 : (after Gen.hostOps0_6 V (Proc.devRef .tc main_v23) : S64x2x16384.Idx → BitVec 32)
    = idx2 (V (Proc.devRef .tc main_v1)) := by
  simp only [Gen.hostOps0_6]; after_results; rfl
theorem s8_v28 : (after Gen.hostOps0_8 V (Proc.devRef .tc main_v28) : S64x8x2048.Idx → EReal)
    = post28 (V (Proc.devRef .tc main_v20)) := by
  simp only [Gen.hostOps0_8]; after_results; rfl
theorem s8_v33 : (after Gen.hostOps0_8 V (Proc.devRef .tc main_v33) : S64x8x2x2048.Idx → EReal)
    = post33 (V (Proc.devRef .tc main_v24)) (V (Proc.devRef .tc main_cst_0)) := by
  simp only [Gen.hostOps0_8]; after_results; rfl
theorem s8_v36 : (after Gen.hostOps0_8 V (Proc.devRef .tc main_v36) : S64x1x2048.Idx → EReal)
    = k_v36 (V (Proc.devRef .tc main_arg8)) := by
  simp only [Gen.hostOps0_8]; after_results; rfl
theorem s8_v37 : (after Gen.hostOps0_8 V (Proc.devRef .tc main_v37) : S64x2x2048.Idx → EReal)
    = k_v37 (V (Proc.devRef .tc main_arg4)) := by
  simp only [Gen.hostOps0_8]; after_results; rfl
theorem s8_v40 : (after Gen.hostOps0_8 V (Proc.devRef .tc main_v40) : S_.Idx → EReal)
    = k_v40 (V (Proc.devRef .tc main_arg7)) := by
  simp only [Gen.hostOps0_8]; after_results; rfl
theorem s8_v43 : (after Gen.hostOps0_8 V (Proc.devRef .tc main_v43) : S_.Idx → EReal)
    = k_v43 (V (Proc.devRef .tc main_arg8)) := by
  simp only [Gen.hostOps0_8]; after_results; rfl

end Steps

/-! ## The stretches chained from the launch memory -/

variable (m : (ℓ : Loc nD τ sig) → Buf (Elt Ideal) ℓ) (ρ : Dev nD → PrngReg) (c : Dev nD)

theorem W0_arg0 : (Gen.W0 m ρ c (Proc.devRef .tc main_arg0) : S64x1x256x256.Idx → EReal) = (m ((c : Thread nD τ).loc main_arg0)) := rfl
theorem W0_arg1 : (Gen.W0 m ρ c (Proc.devRef .tc main_arg1) : S64x2x256x256.Idx → EReal) = (m ((c : Thread nD τ).loc main_arg1)) := rfl
theorem W0_arg4 : (Gen.W0 m ρ c (Proc.devRef .tc main_arg4) : S64x2048x2.Idx → EReal) = (m ((c : Thread nD τ).loc main_arg4)) := rfl
theorem W0_arg5 : (Gen.W0 m ρ c (Proc.devRef .tc main_arg5) : S64x4096x4.Idx → BitVec 32) = (m ((c : Thread nD τ).loc main_arg5)) := rfl
theorem W0_arg6 : (Gen.W0 m ρ c (Proc.devRef .tc main_arg6) : S64x2048x2x4.Idx → BitVec 32) = (m ((c : Thread nD τ).loc main_arg6)) := rfl
theorem W0_arg7 : (Gen.W0 m ρ c (Proc.devRef .tc main_arg7) : S64x4096x4.Idx → BitVec 1) = (m ((c : Thread nD τ).loc main_arg7)) := rfl
theorem W0_arg8 : (Gen.W0 m ρ c (Proc.devRef .tc main_arg8) : S64x2048x1.Idx → BitVec 1) = (m ((c : Thread nD τ).loc main_arg8)) := rfl

theorem W1_arg0 : (Gen.W1 m ρ c (Proc.devRef .tc main_arg0) : S64x1x256x256.Idx → EReal) = (m ((c : Thread nD τ).loc main_arg0)) :=
  (keep0 (Gen.W0 m ρ c) main_arg0 (by decide)).trans (W0_arg0 m ρ c)
theorem W1_arg1 : (Gen.W1 m ρ c (Proc.devRef .tc main_arg1) : S64x2x256x256.Idx → EReal) = (m ((c : Thread nD τ).loc main_arg1)) :=
  (keep0 (Gen.W0 m ρ c) main_arg1 (by decide)).trans (W0_arg1 m ρ c)
theorem W1_arg4 : (Gen.W1 m ρ c (Proc.devRef .tc main_arg4) : S64x2048x2.Idx → EReal) = (m ((c : Thread nD τ).loc main_arg4)) :=
  (keep0 (Gen.W0 m ρ c) main_arg4 (by decide)).trans (W0_arg4 m ρ c)
theorem W1_arg7 : (Gen.W1 m ρ c (Proc.devRef .tc main_arg7) : S64x4096x4.Idx → BitVec 1) = (m ((c : Thread nD τ).loc main_arg7)) :=
  (keep0 (Gen.W0 m ρ c) main_arg7 (by decide)).trans (W0_arg7 m ρ c)
theorem W1_arg8 : (Gen.W1 m ρ c (Proc.devRef .tc main_arg8) : S64x2048x1.Idx → BitVec 1) = (m ((c : Thread nD τ).loc main_arg8)) :=
  (keep0 (Gen.W0 m ρ c) main_arg8 (by decide)).trans (W0_arg8 m ρ c)
theorem W1_cst : (Gen.W1 m ρ c (Proc.devRef .tc main_cst) : S1x4x2x1.Idx → EReal) = cornerTab :=
  (s0_cst (Gen.W0 m ρ c)).trans (by rfl)
theorem W1_cst_0 : (Gen.W1 m ρ c (Proc.devRef .tc main_cst_0) : S1x1x4x2x1.Idx → EReal) = cornerTab' :=
  (s0_cst_0 (Gen.W0 m ρ c)).trans (by rfl)
theorem W1_v0 : (Gen.W1 m ρ c (Proc.devRef .tc main_v0) : S64x16384.Idx → BitVec 32) = idxA (m ((c : Thread nD τ).loc main_arg5)) :=
  (s0_v0 (Gen.W0 m ρ c)).trans (by rw [W0_arg5 m ρ c])
theorem W1_v1 : (Gen.W1 m ρ c (Proc.devRef .tc main_v1) : S64x16384.Idx → BitVec 32) = idxR (m ((c : Thread nD τ).loc main_arg6)) :=
  (s0_v1 (Gen.W0 m ρ c)).trans (by rw [W0_arg6 m ρ c])
theorem W1_v2 : (Gen.W1 m ρ c (Proc.devRef .tc main_v2) : S64x1x65536.Idx → EReal) = tabH (m ((c : Thread nD τ).loc main_arg0)) :=
  (s0_v2 (Gen.W0 m ρ c)).trans (by rw [W0_arg0 m ρ c])
theorem W1_v3 : (Gen.W1 m ρ c (Proc.devRef .tc main_v3) : S64x1x16384.Idx → BitVec 32) = idx1 (idxA (m ((c : Thread nD τ).loc main_arg5))) :=
  (s0_v3 (Gen.W0 m ρ c)).trans (by rw [W0_arg5 m ρ c])

theorem W2_cst : (Gen.W2 m ρ c (Proc.devRef .tc main_cst) : S1x4x2x1.Idx → EReal) = cornerTab :=
  (keep1 (Gen.W1 m ρ c) main_cst (by decide)).trans (W1_cst m ρ c)
theorem W2_cst_0 : (Gen.W2 m ρ c (Proc.devRef .tc main_cst_0) : S1x1x4x2x1.Idx → EReal) = cornerTab' :=
  (keep1 (Gen.W1 m ρ c) main_cst_0 (by decide)).trans (W1_cst_0 m ρ c)
theorem W2_v0 : (Gen.W2 m ρ c (Proc.devRef .tc main_v0) : S64x16384.Idx → BitVec 32) = idxA (m ((c : Thread nD τ).loc main_arg5)) :=
  (keep1 (Gen.W1 m ρ c) main_v0 (by decide)).trans (W1_v0 m ρ c)
theorem W2_v1 : (Gen.W2 m ρ c (Proc.devRef .tc main_v1) : S64x16384.Idx → BitVec 32) = idxR (m ((c : Thread nD τ).loc main_arg6)) :=
  (keep1 (Gen.W1 m ρ c) main_v1 (by decide)).trans (W1_v1 m ρ c)
theorem W2_arg0 : (Gen.W2 m ρ c (Proc.devRef .tc main_arg0) : S64x1x256x256.Idx → EReal) = (m ((c : Thread nD τ).loc main_arg0)) :=
  (keep1 (Gen.W1 m ρ c) main_arg0 (by decide)).trans (W1_arg0 m ρ c)
theorem W2_arg1 : (Gen.W2 m ρ c (Proc.devRef .tc main_arg1) : S64x2x256x256.Idx → EReal) = (m ((c : Thread nD τ).loc main_arg1)) :=
  (keep1 (Gen.W1 m ρ c) main_arg1 (by decide)).trans (W1_arg1 m ρ c)
theorem W2_arg4 : (Gen.W2 m ρ c (Proc.devRef .tc main_arg4) : S64x2048x2.Idx → EReal) = (m ((c : Thread nD τ).loc main_arg4)) :=
  (keep1 (Gen.W1 m ρ c) main_arg4 (by decide)).trans (W1_arg4 m ρ c)
theorem W2_arg7 : (Gen.W2 m ρ c (Proc.devRef .tc main_arg7) : S64x4096x4.Idx → BitVec 1) = (m ((c : Thread nD τ).loc main_arg7)) :=
  (keep1 (Gen.W1 m ρ c) main_arg7 (by decide)).trans (W1_arg7 m ρ c)
theorem W2_arg8 : (Gen.W2 m ρ c (Proc.devRef .tc main_arg8) : S64x2048x1.Idx → BitVec 1) = (m ((c : Thread nD τ).loc main_arg8)) :=
  (keep1 (Gen.W1 m ρ c) main_arg8 (by decide)).trans (W1_arg8 m ρ c)
theorem W2_v4 : (Gen.W2 m ρ c (Proc.devRef .tc main_v4) : S64x1x16384.Idx → EReal) = take1 (tabH (m ((c : Thread nD τ).loc main_arg0))) (idx1 (idxA (m ((c : Thread nD τ).loc main_arg5)))) :=
  (s1_v4 (Gen.W1 m ρ c)).trans (by rw [W1_v2 m ρ c, W1_v3 m ρ c])

theorem W3_v4 : (Gen.W3 m ρ c (Proc.devRef .tc main_v4) : S64x1x16384.Idx → EReal) = take1 (tabH (m ((c : Thread nD τ).loc main_arg0))) (idx1 (idxA (m ((c : Thread nD τ).loc main_arg5)))) :=
  (keep2 (Gen.W2 m ρ c) main_v4 (by decide)).trans (W2_v4 m ρ c)
theorem W3_cst : (Gen.W3 m ρ c (Proc.devRef .tc main_cst) : S1x4x2x1.Idx → EReal) = cornerTab :=
  (keep2 (Gen.W2 m ρ c) main_cst (by decide)).trans (W2_cst m ρ c)
theorem W3_cst_0 : (Gen.W3 m ρ c (Proc.devRef .tc main_cst_0) : S1x1x4x2x1.Idx → EReal) = cornerTab' :=
  (keep2 (Gen.W2 m ρ c) main_cst_0 (by decide)).trans (W2_cst_0 m ρ c)
theorem W3_v1 : (Gen.W3 m ρ c (Proc.devRef .tc main_v1) : S64x16384.Idx → BitVec 32) = idxR (m ((c : Thread nD τ).loc main_arg6)) :=
  (keep2 (Gen.W2 m ρ c) main_v1 (by decide)).trans (W2_v1 m ρ c)
theorem W3_arg0 : (Gen.W3 m ρ c (Proc.devRef .tc main_arg0) : S64x1x256x256.Idx → EReal) = (m ((c : Thread nD τ).loc main_arg0)) :=
  (keep2 (Gen.W2 m ρ c) main_arg0 (by decide)).trans (W2_arg0 m ρ c)
theorem W3_arg1 : (Gen.W3 m ρ c (Proc.devRef .tc main_arg1) : S64x2x256x256.Idx → EReal) = (m ((c : Thread nD τ).loc main_arg1)) :=
  (keep2 (Gen.W2 m ρ c) main_arg1 (by decide)).trans (W2_arg1 m ρ c)
theorem W3_arg4 : (Gen.W3 m ρ c (Proc.devRef .tc main_arg4) : S64x2048x2.Idx → EReal) = (m ((c : Thread nD τ).loc main_arg4)) :=
  (keep2 (Gen.W2 m ρ c) main_arg4 (by decide)).trans (W2_arg4 m ρ c)
theorem W3_arg7 : (Gen.W3 m ρ c (Proc.devRef .tc main_arg7) : S64x4096x4.Idx → BitVec 1) = (m ((c : Thread nD τ).loc main_arg7)) :=
  (keep2 (Gen.W2 m ρ c) main_arg7 (by decide)).trans (W2_arg7 m ρ c)
theorem W3_arg8 : (Gen.W3 m ρ c (Proc.devRef .tc main_arg8) : S64x2048x1.Idx → BitVec 1) = (m ((c : Thread nD τ).loc main_arg8)) :=
  (keep2 (Gen.W2 m ρ c) main_arg8 (by decide)).trans (W2_arg8 m ρ c)
theorem W3_v5 : (Gen.W3 m ρ c (Proc.devRef .tc main_v5) : S64x2x65536.Idx → EReal) = tabO (m ((c : Thread nD τ).loc main_arg1)) :=
  (s2_v5 (Gen.W2 m ρ c)).trans (by rw [W2_arg1 m ρ c])
theorem W3_v7 : (Gen.W3 m ρ c (Proc.devRef .tc main_v7) : S64x2x16384.Idx → BitVec 32) = idx2 (idxA (m ((c : Thread nD τ).loc main_arg5))) :=
  (s2_v7 (Gen.W2 m ρ c)).trans (by rw [W2_v0 m ρ c])

theorem W4_v4 : (Gen.W4 m ρ c (Proc.devRef .tc main_v4) : S64x1x16384.Idx → EReal) = take1 (tabH (m ((c : Thread nD τ).loc main_arg0))) (idx1 (idxA (m ((c : Thread nD τ).loc main_arg5)))) :=
  (keep3 (Gen.W3 m ρ c) main_v4 (by decide)).trans (W3_v4 m ρ c)
theorem W4_cst : (Gen.W4 m ρ c (Proc.devRef .tc main_cst) : S1x4x2x1.Idx → EReal) = cornerTab :=
  (keep3 (Gen.W3 m ρ c) main_cst (by decide)).trans (W3_cst m ρ c)
theorem W4_cst_0 : (Gen.W4 m ρ c (Proc.devRef .tc main_cst_0) : S1x1x4x2x1.Idx → EReal) = cornerTab' :=
  (keep3 (Gen.W3 m ρ c) main_cst_0 (by decide)).trans (W3_cst_0 m ρ c)
theorem W4_v1 : (Gen.W4 m ρ c (Proc.devRef .tc main_v1) : S64x16384.Idx → BitVec 32) = idxR (m ((c : Thread nD τ).loc main_arg6)) :=
  (keep3 (Gen.W3 m ρ c) main_v1 (by decide)).trans (W3_v1 m ρ c)
theorem W4_arg0 : (Gen.W4 m ρ c (Proc.devRef .tc main_arg0) : S64x1x256x256.Idx → EReal) = (m ((c : Thread nD τ).loc main_arg0)) :=
  (keep3 (Gen.W3 m ρ c) main_arg0 (by decide)).trans (W3_arg0 m ρ c)
theorem W4_arg1 : (Gen.W4 m ρ c (Proc.devRef .tc main_arg1) : S64x2x256x256.Idx → EReal) = (m ((c : Thread nD τ).loc main_arg1)) :=
  (keep3 (Gen.W3 m ρ c) main_arg1 (by decide)).trans (W3_arg1 m ρ c)
theorem W4_arg4 : (Gen.W4 m ρ c (Proc.devRef .tc main_arg4) : S64x2048x2.Idx → EReal) = (m ((c : Thread nD τ).loc main_arg4)) :=
  (keep3 (Gen.W3 m ρ c) main_arg4 (by decide)).trans (W3_arg4 m ρ c)
theorem W4_arg7 : (Gen.W4 m ρ c (Proc.devRef .tc main_arg7) : S64x4096x4.Idx → BitVec 1) = (m ((c : Thread nD τ).loc main_arg7)) :=
  (keep3 (Gen.W3 m ρ c) main_arg7 (by decide)).trans (W3_arg7 m ρ c)
theorem W4_arg8 : (Gen.W4 m ρ c (Proc.devRef .tc main_arg8) : S64x2048x1.Idx → BitVec 1) = (m ((c : Thread nD τ).loc main_arg8)) :=
  (keep3 (Gen.W3 m ρ c) main_arg8 (by decide)).trans (W3_arg8 m ρ c)
theorem W4_v8 : (Gen.W4 m ρ c (Proc.devRef .tc main_v8) : S64x2x16384.Idx → EReal) = take2 (tabO (m ((c : Thread nD τ).loc main_arg1))) (idx2 (idxA (m ((c : Thread nD τ).loc main_arg5)))) :=
  (s3_v8 (Gen.W3 m ρ c)).trans (by rw [W3_v5 m ρ c, W3_v7 m ρ c])

theorem W5_cst_0 : (Gen.W5 m ρ c (Proc.devRef .tc main_cst_0) : S1x1x4x2x1.Idx → EReal) = cornerTab' :=
  (keep4 (Gen.W4 m ρ c) main_cst_0 (by decide)).trans (W4_cst_0 m ρ c)
theorem W5_v1 : (Gen.W5 m ρ c (Proc.devRef .tc main_v1) : S64x16384.Idx → BitVec 32) = idxR (m ((c : Thread nD τ).loc main_arg6)) :=
  (keep4 (Gen.W4 m ρ c) main_v1 (by decide)).trans (W4_v1 m ρ c)
theorem W5_arg1 : (Gen.W5 m ρ c (Proc.devRef .tc main_arg1) : S64x2x256x256.Idx → EReal) = (m ((c : Thread nD τ).loc main_arg1)) :=
  (keep4 (Gen.W4 m ρ c) main_arg1 (by decide)).trans (W4_arg1 m ρ c)
theorem W5_arg4 : (Gen.W5 m ρ c (Proc.devRef .tc main_arg4) : S64x2048x2.Idx → EReal) = (m ((c : Thread nD τ).loc main_arg4)) :=
  (keep4 (Gen.W4 m ρ c) main_arg4 (by decide)).trans (W4_arg4 m ρ c)
theorem W5_arg7 : (Gen.W5 m ρ c (Proc.devRef .tc main_arg7) : S64x4096x4.Idx → BitVec 1) = (m ((c : Thread nD τ).loc main_arg7)) :=
  (keep4 (Gen.W4 m ρ c) main_arg7 (by decide)).trans (W4_arg7 m ρ c)
theorem W5_arg8 : (Gen.W5 m ρ c (Proc.devRef .tc main_arg8) : S64x2048x1.Idx → BitVec 1) = (m ((c : Thread nD τ).loc main_arg8)) :=
  (keep4 (Gen.W4 m ρ c) main_arg8 (by decide)).trans (W4_arg8 m ρ c)
theorem W5_v11 : (Gen.W5 m ρ c (Proc.devRef .tc main_v11) : S64x4x4096.Idx → EReal) = post11 (take1 (tabH (m ((c : Thread nD τ).loc main_arg0))) (idx1 (idxA (m ((c : Thread nD τ).loc main_arg5))))) :=
  (s4_v11 (Gen.W4 m ρ c)).trans (by rw [W4_v4 m ρ c])
theorem W5_v15 : (Gen.W5 m ρ c (Proc.devRef .tc main_v15) : S64x4x2x4096.Idx → EReal) = post15 (take2 (tabO (m ((c : Thread nD τ).loc main_arg1))) (idx2 (idxA (m ((c : Thread nD τ).loc main_arg5))))) cornerTab :=
  (s4_v15 (Gen.W4 m ρ c)).trans (by rw [W4_v8 m ρ c, W4_cst m ρ c])
theorem W5_v17 : (Gen.W5 m ρ c (Proc.devRef .tc main_v17) : S64x4x4096.Idx → EReal) = k_v17 (m ((c : Thread nD τ).loc main_arg7)) :=
  (s4_v17 (Gen.W4 m ρ c)).trans (by rw [W4_arg7 m ρ c])
theorem W5_v18 : (Gen.W5 m ρ c (Proc.devRef .tc main_v18) : S64x1x65536.Idx → EReal) = tabH (m ((c : Thread nD τ).loc main_arg0)) :=
  (s4_v18 (Gen.W4 m ρ c)).trans (by rw [W4_arg0 m ρ c])
theorem W5_v19 : (Gen.W5 m ρ c (Proc.devRef .tc main_v19) : S64x1x16384.Idx → BitVec 32) = idx1 (idxR (m ((c : Thread nD τ).loc main_arg6))) :=
  (s4_v19 (Gen.W4 m ρ c)).trans (by rw [W4_v1 m ρ c])

theorem W6_v11 : (Gen.W6 m ρ c (Proc.devRef .tc main_v11) : S64x4x4096.Idx → EReal) = post11 (take1 (tabH (m ((c : Thread nD τ).loc main_arg0))) (idx1 (idxA (m ((c : Thread nD τ).loc main_arg5))))) :=
  (keep5 (Gen.W5 m ρ c) main_v11 (by decide)).trans (W5_v11 m ρ c)
theorem W6_v15 : (Gen.W6 m ρ c (Proc.devRef .tc main_v15) : S64x4x2x4096.Idx → EReal) = post15 (take2 (tabO (m ((c : Thread nD τ).loc main_arg1))) (idx2 (idxA (m ((c : Thread nD τ).loc main_arg5))))) cornerTab :=
  (keep5 (Gen.W5 m ρ c) main_v15 (by decide)).trans (W5_v15 m ρ c)
theorem W6_v17 : (Gen.W6 m ρ c (Proc.devRef .tc main_v17) : S64x4x4096.Idx → EReal) = k_v17 (m ((c : Thread nD τ).loc main_arg7)) :=
  (keep5 (Gen.W5 m ρ c) main_v17 (by decide)).trans (W5_v17 m ρ c)
theorem W6_cst_0 : (Gen.W6 m ρ c (Proc.devRef .tc main_cst_0) : S1x1x4x2x1.Idx → EReal) = cornerTab' :=
  (keep5 (Gen.W5 m ρ c) main_cst_0 (by decide)).trans (W5_cst_0 m ρ c)
theorem W6_v1 : (Gen.W6 m ρ c (Proc.devRef .tc main_v1) : S64x16384.Idx → BitVec 32) = idxR (m ((c : Thread nD τ).loc main_arg6)) :=
  (keep5 (Gen.W5 m ρ c) main_v1 (by decide)).trans (W5_v1 m ρ c)
theorem W6_arg1 : (Gen.W6 m ρ c (Proc.devRef .tc main_arg1) : S64x2x256x256.Idx → EReal) = (m ((c : Thread nD τ).loc main_arg1)) :=
  (keep5 (Gen.W5 m ρ c) main_arg1 (by decide)).trans (W5_arg1 m ρ c)
theorem W6_arg4 : (Gen.W6 m ρ c (Proc.devRef .tc main_arg4) : S64x2048x2.Idx → EReal) = (m ((c : Thread nD τ).loc main_arg4)) :=
  (keep5 (Gen.W5 m ρ c) main_arg4 (by decide)).trans (W5_arg4 m ρ c)
theorem W6_arg7 : (Gen.W6 m ρ c (Proc.devRef .tc main_arg7) : S64x4096x4.Idx → BitVec 1) = (m ((c : Thread nD τ).loc main_arg7)) :=
  (keep5 (Gen.W5 m ρ c) main_arg7 (by decide)).trans (W5_arg7 m ρ c)
theorem W6_arg8 : (Gen.W6 m ρ c (Proc.devRef .tc main_arg8) : S64x2048x1.Idx → BitVec 1) = (m ((c : Thread nD τ).loc main_arg8)) :=
  (keep5 (Gen.W5 m ρ c) main_arg8 (by decide)).trans (W5_arg8 m ρ c)
theorem W6_v20 : (Gen.W6 m ρ c (Proc.devRef .tc main_v20) : S64x1x16384.Idx → EReal) = take1 (tabH (m ((c : Thread nD τ).loc main_arg0))) (idx1 (idxR (m ((c : Thread nD τ).loc main_arg6)))) :=
  (s5_v20 (Gen.W5 m ρ c)).trans (by rw [W5_v18 m ρ c, W5_v19 m ρ c])

theorem W7_v11 : (Gen.W7 m ρ c (Proc.devRef .tc main_v11) : S64x4x4096.Idx → EReal) = post11 (take1 (tabH (m ((c : Thread nD τ).loc main_arg0))) (idx1 (idxA (m ((c : Thread nD τ).loc main_arg5))))) :=
  (keep6 (Gen.W6 m ρ c) main_v11 (by decide)).trans (W6_v11 m ρ c)
theorem W7_v15 : (Gen.W7 m ρ c (Proc.devRef .tc main_v15) : S64x4x2x4096.Idx → EReal) = post15 (take2 (tabO (m ((c : Thread nD τ).loc main_arg1))) (idx2 (idxA (m ((c : Thread nD τ).loc main_arg5))))) cornerTab :=
  (keep6 (Gen.W6 m ρ c) main_v15 (by decide)).trans (W6_v15 m ρ c)
theorem W7_v17 : (Gen.W7 m ρ c (Proc.devRef .tc main_v17) : S64x4x4096.Idx → EReal) = k_v17 (m ((c : Thread nD τ).loc main_arg7)) :=
  (keep6 (Gen.W6 m ρ c) main_v17 (by decide)).trans (W6_v17 m ρ c)
theorem W7_v20 : (Gen.W7 m ρ c (Proc.devRef .tc main_v20) : S64x1x16384.Idx → EReal) = take1 (tabH (m ((c : Thread nD τ).loc main_arg0))) (idx1 (idxR (m ((c : Thread nD τ).loc main_arg6)))) :=
  (keep6 (Gen.W6 m ρ c) main_v20 (by decide)).trans (W6_v20 m ρ c)
theorem W7_cst_0 : (Gen.W7 m ρ c (Proc.devRef .tc main_cst_0) : S1x1x4x2x1.Idx → EReal) = cornerTab' :=
  (keep6 (Gen.W6 m ρ c) main_cst_0 (by decide)).trans (W6_cst_0 m ρ c)
theorem W7_arg4 : (Gen.W7 m ρ c (Proc.devRef .tc main_arg4) : S64x2048x2.Idx → EReal) = (m ((c : Thread nD τ).loc main_arg4)) :=
  (keep6 (Gen.W6 m ρ c) main_arg4 (by decide)).trans (W6_arg4 m ρ c)
theorem W7_arg7 : (Gen.W7 m ρ c (Proc.devRef .tc main_arg7) : S64x4096x4.Idx → BitVec 1) = (m ((c : Thread nD τ).loc main_arg7)) :=
  (keep6 (Gen.W6 m ρ c) main_arg7 (by decide)).trans (W6_arg7 m ρ c)
theorem W7_arg8 : (Gen.W7 m ρ c (Proc.devRef .tc main_arg8) : S64x2048x1.Idx → BitVec 1) = (m ((c : Thread nD τ).loc main_arg8)) :=
  (keep6 (Gen.W6 m ρ c) main_arg8 (by decide)).trans (W6_arg8 m ρ c)
theorem W7_v21 : (Gen.W7 m ρ c (Proc.devRef .tc main_v21) : S64x2x65536.Idx → EReal) = tabO (m ((c : Thread nD τ).loc main_arg1)) :=
  (s6_v21 (Gen.W6 m ρ c)).trans (by rw [W6_arg1 m ρ c])
theorem W7_v23 : (Gen.W7 m ρ c (Proc.devRef .tc main_v23) : S64x2x16384.Idx → BitVec 32) = idx2 (idxR (m ((c : Thread nD τ).loc main_arg6))) :=
  (s6_v23 (Gen.W6 m ρ c)).trans (by rw [W6_v1 m ρ c])

theorem W8_v11 : (Gen.W8 m ρ c (Proc.devRef .tc main_v11) : S64x4x4096.Idx → EReal) = post11 (take1 (tabH (m ((c : Thread nD τ).loc main_arg0))) (idx1 (idxA (m ((c : Thread nD τ).loc main_arg5))))) :=
  (keep7 (Gen.W7 m ρ c) main_v11 (by decide)).trans (W7_v11 m ρ c)
theorem W8_v15 : (Gen.W8 m ρ c (Proc.devRef .tc main_v15) : S64x4x2x4096.Idx → EReal) = post15 (take2 (tabO (m ((c : Thread nD τ).loc main_arg1))) (idx2 (idxA (m ((c : Thread nD τ).loc main_arg5))))) cornerTab :=
  (keep7 (Gen.W7 m ρ c) main_v15 (by decide)).trans (W7_v15 m ρ c)
theorem W8_v17 : (Gen.W8 m ρ c (Proc.devRef .tc main_v17) : S64x4x4096.Idx → EReal) = k_v17 (m ((c : Thread nD τ).loc main_arg7)) :=
  (keep7 (Gen.W7 m ρ c) main_v17 (by decide)).trans (W7_v17 m ρ c)
theorem W8_v20 : (Gen.W8 m ρ c (Proc.devRef .tc main_v20) : S64x1x16384.Idx → EReal) = take1 (tabH (m ((c : Thread nD τ).loc main_arg0))) (idx1 (idxR (m ((c : Thread nD τ).loc main_arg6)))) :=
  (keep7 (Gen.W7 m ρ c) main_v20 (by decide)).trans (W7_v20 m ρ c)
theorem W8_cst_0 : (Gen.W8 m ρ c (Proc.devRef .tc main_cst_0) : S1x1x4x2x1.Idx → EReal) = cornerTab' :=
  (keep7 (Gen.W7 m ρ c) main_cst_0 (by decide)).trans (W7_cst_0 m ρ c)
theorem W8_arg4 : (Gen.W8 m ρ c (Proc.devRef .tc main_arg4) : S64x2048x2.Idx → EReal) = (m ((c : Thread nD τ).loc main_arg4)) :=
  (keep7 (Gen.W7 m ρ c) main_arg4 (by decide)).trans (W7_arg4 m ρ c)
theorem W8_arg7 : (Gen.W8 m ρ c (Proc.devRef .tc main_arg7) : S64x4096x4.Idx → BitVec 1) = (m ((c : Thread nD τ).loc main_arg7)) :=
  (keep7 (Gen.W7 m ρ c) main_arg7 (by decide)).trans (W7_arg7 m ρ c)
theorem W8_arg8 : (Gen.W8 m ρ c (Proc.devRef .tc main_arg8) : S64x2048x1.Idx → BitVec 1) = (m ((c : Thread nD τ).loc main_arg8)) :=
  (keep7 (Gen.W7 m ρ c) main_arg8 (by decide)).trans (W7_arg8 m ρ c)
theorem W8_v24 : (Gen.W8 m ρ c (Proc.devRef .tc main_v24) : S64x2x16384.Idx → EReal) = take2 (tabO (m ((c : Thread nD τ).loc main_arg1))) (idx2 (idxR (m ((c : Thread nD τ).loc main_arg6)))) :=
  (s7_v24 (Gen.W7 m ρ c)).trans (by rw [W7_v21 m ρ c, W7_v23 m ρ c])

theorem W9_v11 : (Gen.W9 m ρ c (Proc.devRef .tc main_v11) : S64x4x4096.Idx → EReal) = post11 (take1 (tabH (m ((c : Thread nD τ).loc main_arg0))) (idx1 (idxA (m ((c : Thread nD τ).loc main_arg5))))) :=
  (keep8 (Gen.W8 m ρ c) main_v11 (by decide)).trans (W8_v11 m ρ c)
theorem W9_v15 : (Gen.W9 m ρ c (Proc.devRef .tc main_v15) : S64x4x2x4096.Idx → EReal) = post15 (take2 (tabO (m ((c : Thread nD τ).loc main_arg1))) (idx2 (idxA (m ((c : Thread nD τ).loc main_arg5))))) cornerTab :=
  (keep8 (Gen.W8 m ρ c) main_v15 (by decide)).trans (W8_v15 m ρ c)
theorem W9_v17 : (Gen.W9 m ρ c (Proc.devRef .tc main_v17) : S64x4x4096.Idx → EReal) = k_v17 (m ((c : Thread nD τ).loc main_arg7)) :=
  (keep8 (Gen.W8 m ρ c) main_v17 (by decide)).trans (W8_v17 m ρ c)
theorem W9_v28 : (Gen.W9 m ρ c (Proc.devRef .tc main_v28) : S64x8x2048.Idx → EReal) = post28 (take1 (tabH (m ((c : Thread nD τ).loc main_arg0))) (idx1 (idxR (m ((c : Thread nD τ).loc main_arg6))))) :=
  (s8_v28 (Gen.W8 m ρ c)).trans (by rw [W8_v20 m ρ c])
theorem W9_v33 : (Gen.W9 m ρ c (Proc.devRef .tc main_v33) : S64x8x2x2048.Idx → EReal) = post33 (take2 (tabO (m ((c : Thread nD τ).loc main_arg1))) (idx2 (idxR (m ((c : Thread nD τ).loc main_arg6))))) cornerTab' :=
  (s8_v33 (Gen.W8 m ρ c)).trans (by rw [W8_v24 m ρ c, W8_cst_0 m ρ c])
theorem W9_v36 : (Gen.W9 m ρ c (Proc.devRef .tc main_v36) : S64x1x2048.Idx → EReal) = k_v36 (m ((c : Thread nD τ).loc main_arg8)) :=
  (s8_v36 (Gen.W8 m ρ c)).trans (by rw [W8_arg8 m ρ c])
theorem W9_v37 : (Gen.W9 m ρ c (Proc.devRef .tc main_v37) : S64x2x2048.Idx → EReal) = k_v37 (m ((c : Thread nD τ).loc main_arg4)) :=
  (s8_v37 (Gen.W8 m ρ c)).trans (by rw [W8_arg4 m ρ c])
theorem W9_v40 : (Gen.W9 m ρ c (Proc.devRef .tc main_v40) : S_.Idx → EReal) = k_v40 (m ((c : Thread nD τ).loc main_arg7)) :=
  (s8_v40 (Gen.W8 m ρ c)).trans (by rw [W8_arg7 m ρ c])
theorem W9_v43 : (Gen.W9 m ρ c (Proc.devRef .tc main_v43) : S_.Idx → EReal) = k_v43 (m ((c : Thread nD τ).loc main_arg8)) :=
  (s8_v43 (Gen.W8 m ρ c)).trans (by rw [W8_arg8 m ρ c])

/-! ## The staged arrays at the first grid computation's entry -/

theorem V9_v11 : (Gen.V9 m ρ c main_v11 : S64x4x4096.Idx → EReal) = k_v11 (m ((c : Thread nD τ).loc main_arg0)) (m ((c : Thread nD τ).loc main_arg5)) :=
  W9_v11 m ρ c
theorem V9_v15 : (Gen.V9 m ρ c main_v15 : S64x4x2x4096.Idx → EReal) = k_v15 (m ((c : Thread nD τ).loc main_arg1)) (m ((c : Thread nD τ).loc main_arg5)) :=
  W9_v15 m ρ c
theorem V9_v17 : (Gen.V9 m ρ c main_v17 : S64x4x4096.Idx → EReal) = k_v17 (m ((c : Thread nD τ).loc main_arg7)) :=
  W9_v17 m ρ c
theorem V9_v28 : (Gen.V9 m ρ c main_v28 : S64x8x2048.Idx → EReal) = k_v28 (m ((c : Thread nD τ).loc main_arg0)) (m ((c : Thread nD τ).loc main_arg6)) :=
  W9_v28 m ρ c
theorem V9_v33 : (Gen.V9 m ρ c main_v33 : S64x8x2x2048.Idx → EReal) = k_v33 (m ((c : Thread nD τ).loc main_arg1)) (m ((c : Thread nD τ).loc main_arg6)) :=
  W9_v33 m ρ c
theorem V9_v36 : (Gen.V9 m ρ c main_v36 : S64x1x2048.Idx → EReal) = k_v36 (m ((c : Thread nD τ).loc main_arg8)) :=
  W9_v36 m ρ c
theorem V9_v37 : (Gen.V9 m ρ c main_v37 : S64x2x2048.Idx → EReal) = k_v37 (m ((c : Thread nD τ).loc main_arg4)) :=
  W9_v37 m ρ c
theorem V9_v40 : (Gen.V9 m ρ c main_v40 : S_.Idx → EReal) = k_v40 (m ((c : Thread nD τ).loc main_arg7)) :=
  W9_v40 m ρ c
theorem V9_v43 : (Gen.V9 m ρ c main_v43 : S_.Idx → EReal) = k_v43 (m ((c : Thread nD τ).loc main_arg8)) :=
  W9_v43 m ρ c

end Cert.KerValue

end
-- ==== Proof.LibRefTake.lean ====
/-
  Reading a row of a table at an index word, the way `take_along_axis` lowers it.

  (1) `stablehlo.gather` with one batching axis, one collapsed axis carrying the start index and one offset axis
      (operand `[B, N, C]`, start indices `[B, K, 1]`, result `[B, K, C]`), read at an index: the operand at the same
      batch and offset coordinates and at the start index read signed and clamped into `[0, N − 1]`.
  (2) A reduction by `and` over a trailing unit axis is the one element it meets, met with the initial value.
  (3) On 32-bit words: the wrap of a negative index word (`v + 65536` when `v < 0`), the validity bit
      `0 ≤ w ≤ 65535` of the wrapped word, and the select between the gathered element and the value the fill
      pattern `0x7FC00000` denotes (`⊥`) — together `Spec.pick`.
-/
import proofs.«139320_j2216203125376_2_alg».proof.Proof.Spec
import Idealize.ShloMosaic.Lib.Pipeline.Value
import Idealize.ShloMosaic.Lib.WordArith
import Idealize.ShloMosaic.PureOps.Reduce

noncomputable section

namespace Cert.RefValue

open Idealize.ShloMosaic Idealize.ShloMosaic.ValueIdx

/-! ## The gather read at an index -/

section Take
variable {α : Type}

/-- The dimension numbers of the gather `take_along_axis` lowers to over an operand `[B, N, C]`, start indices `[B, K, 1]`
    and result `[B, K, C]`: batching axis 0, the start index on the collapsed axis 1, offset axis 2. -/
abbrev takeAlongDims (B N K C : Nat)
    (wf : GatherDims.WF ⟨3, ![B, N, C]⟩ ⟨3, ![B, K, 1]⟩ ⟨3, ![B, K, C]⟩ [2] [1] [0] [1] [0] 2 ![1, 1, C]) :
    GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

/-- THE GATHER READ AT `(b, q, c)`: the operand at batch `b`, offset `c` and the start index `idx[b, q, 0]` read signed and
    clamped into `[0, N − 1]`. -/
theorem gather_takeAlong_apply {B N K C w : Nat} (hN : 0 < N)
    (wf : GatherDims.WF ⟨3, ![B, N, C]⟩ ⟨3, ![B, K, 1]⟩ ⟨3, ![B, K, C]⟩ [2] [1] [0] [1] [0] 2 ![1, 1, C])
    (x : (⟨3, ![B, N, C]⟩ : Shape).Idx → α) (idx : IVec ⟨3, ![B, K, 1]⟩ w) (b : Fin B) (q : Fin K) (c : Fin C) :
    Host.gather (takeAlongDims B N K C wf) x idx (ix3 b q c)
      = x (ix3 b ⟨min (idx (ix3 b q 0)).toInt.toNat (N - 1), by omega⟩ c) := by
  unfold Host.gather
  congr 1
  funext a
  refine Fin.ext ?_
  have h0 : (takeAlongDims B N K C wf).start (ix3 b q c) idx (0 : Fin 3) + (takeAlongDims B N K C wf).batchCoord (ix3 b q c) (0 : Fin 3)
      + (takeAlongDims B N K C wf).offCoord (ix3 b q c) (0 : Fin 3) = b.val := by
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 3) ∈ (takeAlongDims B N K C wf).operandBatchingDims from List.mem_singleton.mpr rfl)]
    rfl
  have h1 : (takeAlongDims B N K C wf).start (ix3 b q c) idx (1 : Fin 3) + (takeAlongDims B N K C wf).batchCoord (ix3 b q c) (1 : Fin 3)
      + (takeAlongDims B N K C wf).offCoord (ix3 b q c) (1 : Fin 3) = min (idx (ix3 b q 0)).toInt.toNat (N - 1) := by
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeAlongDims B N K C wf).startIndexMap from List.mem_singleton.mpr rfl)]
    have hsi : (takeAlongDims B N K C wf).siIdx (ix3 b q c) ⟨List.idxOf (1 : Fin 3) (takeAlongDims B N K C wf).startIndexMap,
        List.idxOf_lt_length_iff.2 (List.mem_singleton.mpr rfl)⟩ = ix3 b q 0 := by
      funext e; refine Fin.ext ?_
      match e with
      | ⟨0, _⟩ => rfl
      | ⟨1, _⟩ => rfl
      | ⟨2, _⟩ => rfl
    rw [hsi]
    rfl
  have h2 : (takeAlongDims B N K C wf).start (ix3 b q c) idx (2 : Fin 3) + (takeAlongDims B N K C wf).batchCoord (ix3 b q c) (2 : Fin 3)
      + (takeAlongDims B N K C wf).offCoord (ix3 b q c) (2 : Fin 3) = c.val := by
    rw [GatherDims.batchCoord_eq_zero _ _ _ (show (2 : Fin 3) ∉ ([0] : List (Fin 3)) by decide)]
    have hk : (2 : Fin 3) ∈ (takeAlongDims B N K C wf).sKept := (GatherDims.mem_sKept _ _).mpr
      ⟨show (2 : Fin 3) ∉ ([1] : List (Fin 3)) by decide, show (2 : Fin 3) ∉ ([0] : List (Fin 3)) by decide⟩
    unfold GatherDims.start GatherDims.offCoord
    rw [dif_neg (show (2 : Fin 3) ∉ ([1] : List (Fin 3)) by decide), dif_pos hk]
    simp only [Nat.add_zero, Nat.zero_add]
    rfl
  match a with
  | ⟨0, _⟩ => exact h0
  | ⟨1, _⟩ => exact h1
  | ⟨2, _⟩ => exact h2

end Take

/-! ## A reduction by `and` over a trailing unit axis -/

/-- A reduction by `and` over the trailing unit axis of `[B, K, 1]` at `(b, q)`: the element at `(b, q, 0)` met with the
    initial value. -/
theorem reduce_andi_unit {B K : Nat} (x : (⟨3, ![B, K, 1]⟩ : Shape).Idx → BitVec 1) {u : Shape} (init : u.Idx → BitVec 1)
    (h : (⟨3, ![B, K, 1]⟩ : Shape).ReducesTo [2] ⟨2, ![B, K]⟩) (hu : 0 < u.numel) (b : Fin B) (q : Fin K) :
    Host.reduce IntOp.andi x init h hu (ix2 b q) = IntOp.andi (x (ix3 b q 0)) (init (Shape.Idx.first hu)) := by
  rw [Host.reduce_eq_fold]
  have hs : (Finset.univ.filter fun i => h.drop i = ix2 b q) = {ix3 b q 0} := by
    ext i
    simp only [Finset.mem_filter, Finset.mem_univ, true_and, Finset.mem_singleton]
    have d0 : ((h.drop i) 0).val = (i 0).val := rfl
    have d1 : ((h.drop i) 1).val = (i 1).val := rfl
    constructor
    · intro hi
      funext a; apply Fin.ext
      have e0 : ((h.drop i) 0).val = b.val := by rw [hi]; rfl
      have e1 : ((h.drop i) 1).val = q.val := by rw [hi]; rfl
      match a with
      | ⟨0, _⟩ => exact d0.symm.trans e0
      | ⟨1, _⟩ => exact d1.symm.trans e1
      | ⟨2, _⟩ => have h2 : (i 2).val < 1 := (i 2).isLt; show (i 2).val = 0; omega
    · rintro rfl
      funext a; apply Fin.ext
      match a with
      | ⟨0, _⟩ => exact d0
      | ⟨1, _⟩ => exact d1
  rw [hs, Finset.fold_singleton]

/-! ## The wrap, the validity bit and the select, on words -/

/-- The fill pattern `0x7FC00000` (a quiet NaN) denotes `⊥`. -/
theorem ofBits_fill : Ideal.ofBits .f32 0x7FC00000#32 = (⊥ : EReal) := by
  simp [Ideal.ofBits, Ideal.ieee]

/-- The index word after the wrap of negative words, as the program computes it on 32-bit words. -/
def wrapWord (v : BitVec 32) : BitVec 32 := Scalar.select (IntOp.cmpi .slt v 0#32) (IntOp.addi v 65536#32) v

/-- Read signed, the wrapped word is the wrapped integer: the addition does not overflow. -/
theorem toInt_wrapWord (v : BitVec 32) : (wrapWord v).toInt = Spec.wrapped v := by
  have hc : IntOp.cmpi .slt v 0#32 = BitVec.ofBool (v.slt 0#32) := rfl
  have ha : IntOp.addi v 65536#32 = v + 65536#32 := rfl
  unfold wrapWord Spec.wrapped Scalar.select
  rw [hc, ha]
  have h0 : (0#32 : BitVec 32).toInt = 0 := by decide
  have h65 : (65536#32 : BitVec 32).toInt = 65536 := by decide
  have hl : -2 ^ 31 ≤ v.toInt := BitVec.le_toInt v
  have hu : v.toInt < 2 ^ 31 := BitVec.toInt_lt
  by_cases hneg : v.toInt < 0
  · have hs : v.slt 0#32 = true := by rw [BitVec.slt_iff_toInt_lt, h0]; exact hneg
    rw [hs, if_pos hneg, if_pos (by decide)]
    rw [WordArith.toInt_add_of_bounds _ _ (by rw [h65]; omega) (by rw [h65]; omega), h65]
  · have hs : v.slt 0#32 = false := by
      rw [Bool.eq_false_iff]; intro h; rw [BitVec.slt_iff_toInt_lt, h0] at h; exact hneg h
    rw [hs, if_neg hneg, if_neg (by decide)]

/-- The program's validity bit of a wrapped word: `0 ≤ w ≤ 65535`, signed. -/
def validBit (w : BitVec 32) : BitVec 1 := IntOp.andi (IntOp.cmpi .sge w 0#32) (IntOp.cmpi .sle w 65535#32)

/-- The validity bit is set exactly when the word, read signed, lies in `[0, 65535]`. -/
theorem validBit_eq_one_iff (w : BitVec 32) : validBit w = 1#1 ↔ 0 ≤ w.toInt ∧ w.toInt ≤ 65535 := by
  unfold validBit
  have h0 : (0#32 : BitVec 32).toInt = 0 := by decide
  have h65 : (65535#32 : BitVec 32).toInt = 65535 := by decide
  simp only [IntOp.cmpi, WordArith.andi_ofBool, WordArith.ofBool_eq_one_iff, Bool.and_eq_true]
  rw [BitVec.sle_iff_toInt_le, BitVec.sle_iff_toInt_le, h0, h65]

/-- The select between the row's element at the clamped wrapped word and the fill value is `Spec.pick`: under the
    validity bit the clamp is the identity. -/
theorem pick_word (row : Fin 65536 → EReal) (v : BitVec 32) (h : min (wrapWord v).toInt.toNat 65535 < 65536) :
    Scalar.select (validBit (wrapWord v)) (row ⟨min (wrapWord v).toInt.toNat 65535, h⟩) (Ideal.ofBits .f32 0x7FC00000#32)
      = Spec.pick row v := by
  unfold Spec.pick Scalar.select
  by_cases hv : validBit (wrapWord v) = 1
  · have hb := (validBit_eq_one_iff _).mp hv
    rw [toInt_wrapWord] at hb
    rw [if_pos hv, dif_pos hb]
    congr 1
    apply Fin.ext
    show min (wrapWord v).toInt.toNat 65535 = (Spec.wrapped v).toNat
    rw [toInt_wrapWord]; omega
  · have hb : ¬ (0 ≤ Spec.wrapped v ∧ Spec.wrapped v ≤ 65535) := by
      rw [← toInt_wrapWord]; exact fun h => hv ((validBit_eq_one_iff _).mpr h)
    rw [if_neg hv, dif_neg hb, ofBits_fill]

end Cert.RefValue

end
-- ==== Proof.RefAttractTake.lean ====
/-
  The reference's two gathers at the attract index words (heights, then the two offset channels), read at an index:
  each is `Spec.pick` of the table's row at the index word.
-/
import proofs.«139320_j2216203125376_2_alg».proof.Proof.RefTerms
import proofs.«139320_j2216203125376_2_alg».proof.Proof.LibRefTake

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-- The height table read at an index word, as the program's outlined `take_along_axis` computes it
    (call 0): `Spec.pick` of the row at the index word. -/
theorem t_v7_apply (a0 : S64x1x256x256.Idx → EReal) (a5 : S64x4096x4.Idx → BitVec 32) (b : Fin 64) (q : Fin 16384) :
    t_v7 a0 a5 (ix3 b q 0) = Spec.pick (fun p => t_v4 a0 (ix3 b (0 : Fin 1) p)) (t_v3 a5 (ix2 b q)) := by
  have hI : t_v6 a5 (ix3 b q 0) = t_v3 a5 (ix2 b q) :=
    broadcastInDim_apply _ _ _ _ (ix2 b q) (fun a => by match a with | ⟨0, _⟩ => rfl | ⟨1, _⟩ => rfl)
  have e4 : t_call0_v4 a5 (ix3 b q 0) = wrapWord (t_v6 a5 (ix3 b q 0)) := rfl
  have e10 : t_call0_v10 a5 (ix3 b q 0) = validBit (wrapWord (t_v6 a5 (ix3 b q 0))) := rfl
  have e11 : t_call0_v11 a5 (ix2 b q) = validBit (wrapWord (t_v6 a5 (ix3 b q 0))) := by
    have h := reduce_andi_unit (t_call0_v10 a5) t_call0_c_3 reducesTo_S64x16384x1_S64x16384_d2 h_S_ b q
    rw [e10] at h
    refine h.trans ?_
    generalize validBit (wrapWord (t_v6 a5 (ix3 b q 0))) = w
    show w &&& 1#1 = w
    rcases BitVec.eq_zero_or_eq_one w with rfl | rfl <;> decide
  have e13 : t_call0_v13 a5 (ix3 b q 0) = t_call0_v11 a5 (ix2 b q) :=
    broadcastInDim_apply _ _ _ _ (ix2 b q) (fun a => by match a with | ⟨0, _⟩ => rfl | ⟨1, _⟩ => rfl)
  have e12 : t_call0_v12 a0 a5 (ix3 b q 0)
      = t_v5 a0 (ix3 b ⟨min (t_call0_v4 a5 (ix3 b q 0)).toInt.toNat (65536 - 1), by omega⟩ 0) :=
    gather_takeAlong_apply (by decide) _ (t_v5 a0) (t_call0_v4 a5) b q 0
  have eT : ∀ p : Fin 65536, t_v5 a0 (ix3 b p 0) = t_v4 a0 (ix3 b (0 : Fin 1) p) := fun p =>
    transpose_apply _ _ _ _ (ix3 b (0 : Fin 1) p) (fun a => by match a with | ⟨0, _⟩ => rfl | ⟨1, _⟩ => rfl | ⟨2, _⟩ => rfl)
  show Scalar.select (t_call0_v13 a5 (ix3 b q 0)) (t_call0_v12 a0 a5 (ix3 b q 0)) (Ideal.ofBits .f32 0x7FC00000#32) = _
  rw [e13, e11, e12, eT, ← hI]
  exact pick_word (fun p => t_v4 a0 (ix3 b (0 : Fin 1) p)) (t_v6 a5 (ix3 b q 0)) _

/-- The offset table read at an index word, as the program's outlined `take_along_axis` computes it
    (call 1): `Spec.pick` of the row at the index word. -/
theorem t_v17_apply (a1 : S64x2x256x256.Idx → EReal) (a5 : S64x4096x4.Idx → BitVec 32) (b : Fin 64) (q : Fin 16384) (ch : Fin 2) :
    t_v17 a1 a5 (ix3 b q ch) = Spec.pick (fun p => t_v14 a1 (ix3 b ch p)) (t_v3 a5 (ix2 b q)) := by
  have hI : t_v16 a5 (ix3 b q 0) = t_v3 a5 (ix2 b q) :=
    broadcastInDim_apply _ _ _ _ (ix2 b q) (fun a => by match a with | ⟨0, _⟩ => rfl | ⟨1, _⟩ => rfl)
  have e4 : t_call1_v4 a5 (ix3 b q 0) = wrapWord (t_v16 a5 (ix3 b q 0)) := rfl
  have e10 : t_call1_v10 a5 (ix3 b q 0) = validBit (wrapWord (t_v16 a5 (ix3 b q 0))) := rfl
  have e11 : t_call1_v11 a5 (ix2 b q) = validBit (wrapWord (t_v16 a5 (ix3 b q 0))) := by
    have h := reduce_andi_unit (t_call1_v10 a5) t_call1_c_3 reducesTo_S64x16384x1_S64x16384_d2 h_S_ b q
    rw [e10] at h
    refine h.trans ?_
    generalize validBit (wrapWord (t_v16 a5 (ix3 b q 0))) = w
    show w &&& 1#1 = w
    rcases BitVec.eq_zero_or_eq_one w with rfl | rfl <;> decide
  have e13 : t_call1_v13 a5 (ix3 b q ch) = t_call1_v11 a5 (ix2 b q) :=
    broadcastInDim_apply _ _ _ _ (ix2 b q) (fun a => by match a with | ⟨0, _⟩ => rfl | ⟨1, _⟩ => rfl)
  have e12 : t_call1_v12 a1 a5 (ix3 b q ch)
      = t_v15 a1 (ix3 b ⟨min (t_call1_v4 a5 (ix3 b q 0)).toInt.toNat (65536 - 1), by omega⟩ ch) :=
    gather_takeAlong_apply (by decide) _ (t_v15 a1) (t_call1_v4 a5) b q ch
  have eT : ∀ p : Fin 65536, t_v15 a1 (ix3 b p ch) = t_v14 a1 (ix3 b ch p) := fun p =>
    transpose_apply _ _ _ _ (ix3 b ch p) (fun a => by match a with | ⟨0, _⟩ => rfl | ⟨1, _⟩ => rfl | ⟨2, _⟩ => rfl)
  show Scalar.select (t_call1_v13 a5 (ix3 b q ch)) (t_call1_v12 a1 a5 (ix3 b q ch)) (Ideal.ofBits .f32 0x7FC00000#32) = _
  rw [e13, e11, e12, eT, ← hI]
  exact pick_word (fun p => t_v14 a1 (ix3 b ch p)) (t_v16 a5 (ix3 b q 0)) _

end Cert.RefValue

end
-- ==== Proof.RefAttractGather.lean ====
/-
  The gathered heights and offsets of the attract half read at an index: corner `k` of anchor `n` reads index word
  `4 n + k`; the offsets carry the corner table `[[0,0],[1,0],[0,1],[1,1]]`.
-/
import proofs.«139320_j2216203125376_2_alg».proof.Proof.RefAttractTake
import proofs.«139320_j2216203125376_2_alg».proof.Proof.Canon
import Idealize.ShloMosaic.PureOps.Ideal.Laws

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-- The corner table `[[0,0],[1,0],[0,1],[1,1]]` read at corner `k`, channel `ch`. -/
theorem t_cst_apply (k : Fin 4) (ch : Fin 2) : t_cst (ix2 k ch) = Spec.off k ch := by
  have hr : (S4x2.rowMajor (ix2 k ch)).val = k.val * 2 + ch.val := by rw [Shape.rowMajor_val_two]; rfl
  show Ideal.ofBits .f32 (lit0 (S4x2.rowMajor (ix2 k ch))) = _
  generalize S4x2.rowMajor (ix2 k ch) = r at hr
  match k, ch with
  | ⟨0, _⟩, ⟨0, _⟩ =>
    obtain rfl : r = (⟨0, by decide⟩ : Fin 8) := Fin.ext hr
    rw [Spec.off, if_neg (by simp)]
    exact Ideal.ofBits_zero_f32
  | ⟨0, _⟩, ⟨1, _⟩ =>
    obtain rfl : r = (⟨1, by decide⟩ : Fin 8) := Fin.ext hr
    rw [Spec.off, if_neg (by simp)]
    exact Ideal.ofBits_zero_f32
  | ⟨1, _⟩, ⟨0, _⟩ =>
    obtain rfl : r = (⟨2, by decide⟩ : Fin 8) := Fin.ext hr
    rw [Spec.off, if_pos (by simp)]
    rfl
  | ⟨1, _⟩, ⟨1, _⟩ =>
    obtain rfl : r = (⟨3, by decide⟩ : Fin 8) := Fin.ext hr
    rw [Spec.off, if_neg (by simp)]
    exact Ideal.ofBits_zero_f32
  | ⟨2, _⟩, ⟨0, _⟩ =>
    obtain rfl : r = (⟨4, by decide⟩ : Fin 8) := Fin.ext hr
    rw [Spec.off, if_neg (by simp)]
    exact Ideal.ofBits_zero_f32
  | ⟨2, _⟩, ⟨1, _⟩ =>
    obtain rfl : r = (⟨5, by decide⟩ : Fin 8) := Fin.ext hr
    rw [Spec.off, if_pos (by simp)]
    rfl
  | ⟨3, _⟩, ⟨0, _⟩ =>
    obtain rfl : r = (⟨6, by decide⟩ : Fin 8) := Fin.ext hr
    rw [Spec.off, if_pos (by simp)]
    rfl
  | ⟨3, _⟩, ⟨1, _⟩ =>
    obtain rfl : r = (⟨7, by decide⟩ : Fin 8) := Fin.ext hr
    rw [Spec.off, if_pos (by simp)]
    rfl

/-- Gathered height of corner `k` of anchor `n`. -/
theorem t_v8_apply (a0 : S64x1x256x256.Idx → EReal) (a5 : S64x4096x4.Idx → BitVec 32) (b : Fin 64) (n : Fin 4096) (k : Fin 4) :
    t_v8 a0 a5 (ix4 b n k 0) = Canon.hA (t_v4 a0) (t_v3 a5) b n k := by
  have h : t_v8 a0 a5 (ix4 b n k 0) = t_v7 a0 a5 (ix3 b ⟨4 * n.val + k.val, by omega⟩ 0) :=
    shapeCast_apply _ _ (ix4 b n k 0) (ix3 b ⟨4 * n.val + k.val, by omega⟩ 0) (by
      rw [Shape.rowMajor_val_three, Shape.rowMajor_val_four]
      show (b.val * 16384 + (4 * n.val + k.val)) * 1 + 0 = ((b.val * 4096 + n.val) * 4 + k.val) * 1 + 0
      omega)
  rw [h, t_v7_apply]
  rfl

/-- Gathered offset channel `ch` of corner `k` of anchor `n`, the corner's own offset added. -/
theorem t_v21_apply (a1 : S64x2x256x256.Idx → EReal) (a5 : S64x4096x4.Idx → BitVec 32) (b : Fin 64) (n : Fin 4096) (k : Fin 4)
    (ch : Fin 2) : t_v21 a1 a5 (ix4 b n k ch) = Canon.oA (t_v14 a1) (t_v3 a5) ch b n k := by
  have h18 : t_v18 a1 a5 (ix4 b n k ch) = t_v17 a1 a5 (ix3 b ⟨4 * n.val + k.val, by omega⟩ ch) :=
    shapeCast_apply _ _ (ix4 b n k ch) (ix3 b ⟨4 * n.val + k.val, by omega⟩ ch) (by
      rw [Shape.rowMajor_val_three, Shape.rowMajor_val_four]
      show (b.val * 16384 + (4 * n.val + k.val)) * 2 + ch.val = ((b.val * 4096 + n.val) * 4 + k.val) * 2 + ch.val
      omega)
  have h20 : t_v20 (ix4 b n k ch) = t_v19 (ix4 0 0 k ch) :=
    broadcastInDim_apply _ _ _ (ix4 b n k ch) (ix4 0 0 k ch) (fun a => by
      match a with | ⟨0, _⟩ => rfl | ⟨1, _⟩ => rfl | ⟨2, _⟩ => rfl | ⟨3, _⟩ => rfl)
  have h19 : t_v19 (ix4 0 0 k ch) = t_cst (ix2 k ch) :=
    shapeCast_apply _ _ (ix4 0 0 k ch) (ix2 k ch) (by
      rw [Shape.rowMajor_val_two, Shape.rowMajor_val_four]
      show k.val * 2 + ch.val = ((0 * 1 + 0) * 4 + k.val) * 2 + ch.val
      omega)
  unfold t_v21
  rw [addf_apply, h18, h20, h19, t_cst_apply, t_v17_apply]
  rfl

end Cert.RefValue

end
-- ==== Proof.RefAttractMean.lean ====
/-
  The means over the four corners of the attract half, read at an index: the host sum over the corner axis from zero,
  divided by 4.
-/
import proofs.«139320_j2216203125376_2_alg».proof.Proof.RefTerms
import proofs.«139320_j2216203125376_2_alg».proof.Proof.Spec
import Idealize.ShloMosaic.Lib.Pipeline.Value
import Idealize.ShloMosaic.Lib.IdealHost
import Idealize.ShloMosaic.PureOps.Ideal.Laws

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-- Mean height of anchor `n`: the mean of the four gathered heights. -/
theorem t_v12_apply (a0 : S64x1x256x256.Idx → EReal) (a5 : S64x4096x4.Idx → BitVec 32) (b : Fin 64) (n : Fin 4096) :
    t_v12 a0 a5 (ix4 b n 0 0) = Spec.mean4 (fun k => t_v8 a0 a5 (ix4 b n k 0)) := by
  have hR : S64x4096x4x1.Reduces [2] S64x4096x1 := by decide
  have h10 : t_v10 a0 a5 (ix4 b n 0 0) = t_v9 a0 a5 (ix3 b n 0) :=
    broadcastInDim_apply _ _ _ (ix4 b n 0 0) (ix3 b n 0) (fun a => by
      match a with | ⟨0, _⟩ => rfl | ⟨1, _⟩ => rfl | ⟨2, _⟩ => rfl)
  have h9 : t_v9 a0 a5 (ix3 b n 0) = Ideal.ofBits .f32 0x00000000#32 + ∑ k : Fin 4, t_v8 a0 a5 (ix4 b n k 0) := by
    show Ideal.hostReduceAdd reducesTo_S64x4096x4x1_S64x4096x1_d2 (t_v8 a0 a5) (Ideal.ofBits .f32 0x00000000#32) (ix3 b n 0) = _
    rw [Ideal.hostReduceAdd_single _ hR]
    congr 1
  show Ideal.div (t_v10 a0 a5 (ix4 b n 0 0)) Spec.k4 = _
  rw [h10, h9, Ideal.ofBits_zero_f32, zero_add]
  rfl

/-- Mean offset channel `ch` of anchor `n`: the mean of the four gathered offsets. -/
theorem t_v25_apply (a1 : S64x2x256x256.Idx → EReal) (a5 : S64x4096x4.Idx → BitVec 32) (b : Fin 64) (n : Fin 4096) (ch : Fin 2) :
    t_v25 a1 a5 (ix4 b n 0 ch) = Spec.mean4 (fun k => t_v21 a1 a5 (ix4 b n k ch)) := by
  have hR : S64x4096x4x2.Reduces [2] S64x4096x2 := by decide
  have h23 : t_v23 a1 a5 (ix4 b n 0 ch) = t_v22 a1 a5 (ix3 b n ch) :=
    broadcastInDim_apply _ _ _ (ix4 b n 0 ch) (ix3 b n ch) (fun a => by
      match a with | ⟨0, _⟩ => rfl | ⟨1, _⟩ => rfl | ⟨2, _⟩ => rfl)
  have h22 : t_v22 a1 a5 (ix3 b n ch) = Ideal.ofBits .f32 0x00000000#32 + ∑ k : Fin 4, t_v21 a1 a5 (ix4 b n k ch) := by
    show Ideal.hostReduceAdd reducesTo_S64x4096x4x2_S64x4096x2_d2 (t_v21 a1 a5) (Ideal.ofBits .f32 0x00000000#32) (ix3 b n ch) = _
    rw [Ideal.hostReduceAdd_single _ hR]
    congr 1
  show Ideal.div (t_v23 a1 a5 (ix4 b n 0 ch)) Spec.k4 = _
  rw [h23, h22, Ideal.ofBits_zero_f32, zero_add]
  rfl

end Cert.RefValue

end
-- ==== Proof.RefAttractCols.lean ====
/-
  The six columns of the attract half's two box arrays, read at an index: the exponential of the gathered height and
  the two offsets of a corner, and the same of the anchor's means (concatenate along the last axis, slice, drop the unit axis).
-/
import proofs.«139320_j2216203125376_2_alg».proof.Proof.RefTerms
import Idealize.ShloMosaic.Lib.Pipeline.Value
import Idealize.ShloMosaic.Lib.ValueIdx

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-- The host's exponential read at an index. -/
theorem hostExp_apply {s : Shape} (x : FVec Ideal s .f32) (j : s.Idx) : Host.exp x j = Ideal.exp (x j) := rfl

/-- Column 0 of a corner's box: the exponential of its gathered height. -/
theorem t_v31_apply (a0 : S64x1x256x256.Idx → EReal) (a1 : S64x2x256x256.Idx → EReal) (a5 : S64x4096x4.Idx → BitVec 32) (b : Fin 64) (n : Fin 4096) (c : Fin 4) :
    t_v31 a0 a1 a5 (ix3 b n c) = Ideal.exp (t_v8 a0 a5 (ix4 b n c (0 : Fin 1))) := by
  have h1 : t_v31 a0 a1 a5 (ix3 b n c) = t_v30 a0 a1 a5 (ix4 b n c (0 : Fin 1)) :=
    shapeCast_apply _ _ (ix3 b n c) (ix4 b n c (0 : Fin 1)) (by
      rw [Shape.rowMajor_val_three, Shape.rowMajor_val_four]
      show (((b.val * 4096 + n.val) * 4 + c.val) * 1 + 0 = (b.val * 4096 + n.val) * 4 + c.val)
      omega)
  have h2 : t_v30 a0 a1 a5 (ix4 b n c (0 : Fin 1)) = t_v27 a0 a1 a5 (ix4 b n c (0 : Fin 3)) :=
    extractStridedSlice_apply _ _ slices_S64x4096x4x3_S64x4096x4x1_0_0_0_0 (ix4 b n c (0 : Fin 1)) (ix4 b n c (0 : Fin 3)) (fun a => by
      match a with | ⟨0, _⟩ => exact (Nat.zero_add _).symm | ⟨1, _⟩ => exact (Nat.zero_add _).symm | ⟨2, _⟩ => exact (Nat.zero_add _).symm | ⟨3, _⟩ => exact (Nat.zero_add _).symm)
  have h3 : t_v27 a0 a1 a5 (ix4 b n c (0 : Fin 3)) = t_v26 a0 a5 (ix4 b n c (0 : Fin 1)) :=
    concatenate_pair_apply_left (t := S64x4096x4x3) (s₁ := S64x4096x4x1) (s₂ := S64x4096x4x2) 3 (t_v26 a0 a5) (t_v21 a1 a5) concatenates_S64x4096x4x1_S64x4096x4x2_S64x4096x4x3_d3 (ix4 b n c (0 : Fin 3)) rfl (ix4 b n c (0 : Fin 1)) (fun b' => by
      match b' with | ⟨0, _⟩ => rfl | ⟨1, _⟩ => rfl | ⟨2, _⟩ => rfl | ⟨3, _⟩ => rfl)
  rw [h1, h2, h3]
  unfold t_v26
  exact hostExp_apply _ _

/-- Column 1 of a corner's box: its first offset. -/
theorem t_v33_apply (a0 : S64x1x256x256.Idx → EReal) (a1 : S64x2x256x256.Idx → EReal) (a5 : S64x4096x4.Idx → BitVec 32) (b : Fin 64) (n : Fin 4096) (c : Fin 4) :
    t_v33 a0 a1 a5 (ix3 b n c) = t_v21 a1 a5 (ix4 b n c (0 : Fin 2)) := by
  have h1 : t_v33 a0 a1 a5 (ix3 b n c) = t_v32 a0 a1 a5 (ix4 b n c (0 : Fin 1)) :=
    shapeCast_apply _ _ (ix3 b n c) (ix4 b n c (0 : Fin 1)) (by
      rw [Shape.rowMajor_val_three, Shape.rowMajor_val_four]
      show (((b.val * 4096 + n.val) * 4 + c.val) * 1 + 0 = (b.val * 4096 + n.val) * 4 + c.val)
      omega)
  have h2 : t_v32 a0 a1 a5 (ix4 b n c (0 : Fin 1)) = t_v27 a0 a1 a5 (ix4 b n c (1 : Fin 3)) :=
    extractStridedSlice_apply _ _ slices_S64x4096x4x3_S64x4096x4x1_0_0_0_1 (ix4 b n c (0 : Fin 1)) (ix4 b n c (1 : Fin 3)) (fun a => by
      match a with | ⟨0, _⟩ => exact (Nat.zero_add _).symm | ⟨1, _⟩ => exact (Nat.zero_add _).symm | ⟨2, _⟩ => exact (Nat.zero_add _).symm | ⟨3, _⟩ => rfl)
  have h3 : t_v27 a0 a1 a5 (ix4 b n c (1 : Fin 3)) = t_v21 a1 a5 (ix4 b n c (0 : Fin 2)) :=
    concatenate_pair_apply_right (t := S64x4096x4x3) (s₁ := S64x4096x4x1) (s₂ := S64x4096x4x2) 3 (t_v26 a0 a5) (t_v21 a1 a5) concatenates_S64x4096x4x1_S64x4096x4x2_S64x4096x4x3_d3 (ix4 b n c (1 : Fin 3)) rfl rfl (ix4 b n c (0 : Fin 2)) (fun b' hb => by
      match b', hb with | ⟨0, _⟩, _ => rfl | ⟨1, _⟩, _ => rfl | ⟨2, _⟩, _ => rfl | ⟨3, _⟩, hb => exact absurd rfl hb) rfl
  rw [h1, h2, h3]

/-- Column 2 of a corner's box: its second offset. -/
theorem t_v35_apply (a0 : S64x1x256x256.Idx → EReal) (a1 : S64x2x256x256.Idx → EReal) (a5 : S64x4096x4.Idx → BitVec 32) (b : Fin 64) (n : Fin 4096) (c : Fin 4) :
    t_v35 a0 a1 a5 (ix3 b n c) = t_v21 a1 a5 (ix4 b n c (1 : Fin 2)) := by
  have h1 : t_v35 a0 a1 a5 (ix3 b n c) = t_v34 a0 a1 a5 (ix4 b n c (0 : Fin 1)) :=
    shapeCast_apply _ _ (ix3 b n c) (ix4 b n c (0 : Fin 1)) (by
      rw [Shape.rowMajor_val_three, Shape.rowMajor_val_four]
      show (((b.val * 4096 + n.val) * 4 + c.val) * 1 + 0 = (b.val * 4096 + n.val) * 4 + c.val)
      omega)
  have h2 : t_v34 a0 a1 a5 (ix4 b n c (0 : Fin 1)) = t_v27 a0 a1 a5 (ix4 b n c (2 : Fin 3)) :=
    extractStridedSlice_apply _ _ slices_S64x4096x4x3_S64x4096x4x1_0_0_0_2 (ix4 b n c (0 : Fin 1)) (ix4 b n c (2 : Fin 3)) (fun a => by
      match a with | ⟨0, _⟩ => exact (Nat.zero_add _).symm | ⟨1, _⟩ => exact (Nat.zero_add _).symm | ⟨2, _⟩ => exact (Nat.zero_add _).symm | ⟨3, _⟩ => rfl)
  have h3 : t_v27 a0 a1 a5 (ix4 b n c (2 : Fin 3)) = t_v21 a1 a5 (ix4 b n c (1 : Fin 2)) :=
    concatenate_pair_apply_right (t := S64x4096x4x3) (s₁ := S64x4096x4x1) (s₂ := S64x4096x4x2) 3 (t_v26 a0 a5) (t_v21 a1 a5) concatenates_S64x4096x4x1_S64x4096x4x2_S64x4096x4x3_d3 (ix4 b n c (2 : Fin 3)) rfl rfl (ix4 b n c (1 : Fin 2)) (fun b' hb => by
      match b', hb with | ⟨0, _⟩, _ => rfl | ⟨1, _⟩, _ => rfl | ⟨2, _⟩, _ => rfl | ⟨3, _⟩, hb => exact absurd rfl hb) rfl
  rw [h1, h2, h3]

/-- Column 0 of the mean box: the exponential of the mean height. -/
theorem t_v37_apply (a0 : S64x1x256x256.Idx → EReal) (a1 : S64x2x256x256.Idx → EReal) (a5 : S64x4096x4.Idx → BitVec 32) (b : Fin 64) (n : Fin 4096) :
    t_v37 a0 a1 a5 (ix3 b n 0) = Ideal.exp (t_v12 a0 a5 (ix4 b n (0 : Fin 1) (0 : Fin 1))) := by
  have h1 : t_v37 a0 a1 a5 (ix3 b n 0) = t_v36 a0 a1 a5 (ix4 b n (0 : Fin 1) (0 : Fin 1)) :=
    shapeCast_apply _ _ (ix3 b n 0) (ix4 b n (0 : Fin 1) (0 : Fin 1)) (by
      rw [Shape.rowMajor_val_three, Shape.rowMajor_val_four]
      show (((b.val * 4096 + n.val) * 1 + 0) * 1 + 0 = (b.val * 4096 + n.val) * 1 + 0)
      omega)
  have h2 : t_v36 a0 a1 a5 (ix4 b n (0 : Fin 1) (0 : Fin 1)) = t_v29 a0 a1 a5 (ix4 b n (0 : Fin 1) (0 : Fin 3)) :=
    extractStridedSlice_apply _ _ slices_S64x4096x1x3_S64x4096x1x1_0_0_0_0 (ix4 b n (0 : Fin 1) (0 : Fin 1)) (ix4 b n (0 : Fin 1) (0 : Fin 3)) (fun a => by
      match a with | ⟨0, _⟩ => exact (Nat.zero_add _).symm | ⟨1, _⟩ => exact (Nat.zero_add _).symm | ⟨2, _⟩ => exact (Nat.zero_add _).symm | ⟨3, _⟩ => exact (Nat.zero_add _).symm)
  have h3 : t_v29 a0 a1 a5 (ix4 b n (0 : Fin 1) (0 : Fin 3)) = t_v28 a0 a5 (ix4 b n (0 : Fin 1) (0 : Fin 1)) :=
    concatenate_pair_apply_left (t := S64x4096x1x3) (s₁ := S64x4096x1x1) (s₂ := S64x4096x1x2) 3 (t_v28 a0 a5) (t_v25 a1 a5) concatenates_S64x4096x1x1_S64x4096x1x2_S64x4096x1x3_d3 (ix4 b n (0 : Fin 1) (0 : Fin 3)) rfl (ix4 b n (0 : Fin 1) (0 : Fin 1)) (fun b' => by
      match b' with | ⟨0, _⟩ => rfl | ⟨1, _⟩ => rfl | ⟨2, _⟩ => rfl | ⟨3, _⟩ => rfl)
  rw [h1, h2, h3]
  unfold t_v28
  exact hostExp_apply _ _

/-- Column 1 of the mean box: the first mean offset. -/
theorem t_v39_apply (a0 : S64x1x256x256.Idx → EReal) (a1 : S64x2x256x256.Idx → EReal) (a5 : S64x4096x4.Idx → BitVec 32) (b : Fin 64) (n : Fin 4096) :
    t_v39 a0 a1 a5 (ix3 b n 0) = t_v25 a1 a5 (ix4 b n (0 : Fin 1) (0 : Fin 2)) := by
  have h1 : t_v39 a0 a1 a5 (ix3 b n 0) = t_v38 a0 a1 a5 (ix4 b n (0 : Fin 1) (0 : Fin 1)) :=
    shapeCast_apply _ _ (ix3 b n 0) (ix4 b n (0 : Fin 1) (0 : Fin 1)) (by
      rw [Shape.rowMajor_val_three, Shape.rowMajor_val_four]
      show (((b.val * 4096 + n.val) * 1 + 0) * 1 + 0 = (b.val * 4096 + n.val) * 1 + 0)
      omega)
  have h2 : t_v38 a0 a1 a5 (ix4 b n (0 : Fin 1) (0 : Fin 1)) = t_v29 a0 a1 a5 (ix4 b n (0 : Fin 1) (1 : Fin 3)) :=
    extractStridedSlice_apply _ _ slices_S64x4096x1x3_S64x4096x1x1_0_0_0_1 (ix4 b n (0 : Fin 1) (0 : Fin 1)) (ix4 b n (0 : Fin 1) (1 : Fin 3)) (fun a => by
      match a with | ⟨0, _⟩ => exact (Nat.zero_add _).symm | ⟨1, _⟩ => exact (Nat.zero_add _).symm | ⟨2, _⟩ => exact (Nat.zero_add _).symm | ⟨3, _⟩ => rfl)
  have h3 : t_v29 a0 a1 a5 (ix4 b n (0 : Fin 1) (1 : Fin 3)) = t_v25 a1 a5 (ix4 b n (0 : Fin 1) (0 : Fin 2)) :=
    concatenate_pair_apply_right (t := S64x4096x1x3) (s₁ := S64x4096x1x1) (s₂ := S64x4096x1x2) 3 (t_v28 a0 a5) (t_v25 a1 a5) concatenates_S64x4096x1x1_S64x4096x1x2_S64x4096x1x3_d3 (ix4 b n (0 : Fin 1) (1 : Fin 3)) rfl rfl (ix4 b n (0 : Fin 1) (0 : Fin 2)) (fun b' hb => by
      match b', hb with | ⟨0, _⟩, _ => rfl | ⟨1, _⟩, _ => rfl | ⟨2, _⟩, _ => rfl | ⟨3, _⟩, hb => exact absurd rfl hb) rfl
  rw [h1, h2, h3]

/-- Column 2 of the mean box: the second mean offset. -/
theorem t_v41_apply (a0 : S64x1x256x256.Idx → EReal) (a1 : S64x2x256x256.Idx → EReal) (a5 : S64x4096x4.Idx → BitVec 32) (b : Fin 64) (n : Fin 4096) :
    t_v41 a0 a1 a5 (ix3 b n 0) = t_v25 a1 a5 (ix4 b n (0 : Fin 1) (1 : Fin 2)) := by
  have h1 : t_v41 a0 a1 a5 (ix3 b n 0) = t_v40 a0 a1 a5 (ix4 b n (0 : Fin 1) (0 : Fin 1)) :=
    shapeCast_apply _ _ (ix3 b n 0) (ix4 b n (0 : Fin 1) (0 : Fin 1)) (by
      rw [Shape.rowMajor_val_three, Shape.rowMajor_val_four]
      show (((b.val * 4096 + n.val) * 1 + 0) * 1 + 0 = (b.val * 4096 + n.val) * 1 + 0)
      omega)
  have h2 : t_v40 a0 a1 a5 (ix4 b n (0 : Fin 1) (0 : Fin 1)) = t_v29 a0 a1 a5 (ix4 b n (0 : Fin 1) (2 : Fin 3)) :=
    extractStridedSlice_apply _ _ slices_S64x4096x1x3_S64x4096x1x1_0_0_0_2 (ix4 b n (0 : Fin 1) (0 : Fin 1)) (ix4 b n (0 : Fin 1) (2 : Fin 3)) (fun a => by
      match a with | ⟨0, _⟩ => exact (Nat.zero_add _).symm | ⟨1, _⟩ => exact (Nat.zero_add _).symm | ⟨2, _⟩ => exact (Nat.zero_add _).symm | ⟨3, _⟩ => rfl)
  have h3 : t_v29 a0 a1 a5 (ix4 b n (0 : Fin 1) (2 : Fin 3)) = t_v25 a1 a5 (ix4 b n (0 : Fin 1) (1 : Fin 2)) :=
    concatenate_pair_apply_right (t := S64x4096x1x3) (s₁ := S64x4096x1x1) (s₂ := S64x4096x1x2) 3 (t_v28 a0 a5) (t_v25 a1 a5) concatenates_S64x4096x1x1_S64x4096x1x2_S64x4096x1x3_d3 (ix4 b n (0 : Fin 1) (2 : Fin 3)) rfl rfl (ix4 b n (0 : Fin 1) (1 : Fin 2)) (fun b' hb => by
      match b', hb with | ⟨0, _⟩, _ => rfl | ⟨1, _⟩, _ => rfl | ⟨2, _⟩, _ => rfl | ⟨3, _⟩, hb => exact absurd rfl hb) rfl
  rw [h1, h2, h3]

end Cert.RefValue

end
-- ==== Proof.RefAttractIou.lean ====
/-
  The attract half's box arithmetic read at an index: the intersection over union of a corner's box and the mean box.
-/
import proofs.«139320_j2216203125376_2_alg».proof.Proof.RefTerms
import proofs.«139320_j2216203125376_2_alg».proof.Proof.Spec
import Idealize.ShloMosaic.Lib.Pipeline.Value
import Idealize.ShloMosaic.Lib.ValueIdx
import Idealize.ShloMosaic.Lib.IdealHost

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-- A per-anchor array broadcast along the corner axis reads the anchor's one element. -/
theorem bcast_anchor (x : S64x4096x1.Idx → EReal) (b : Fin 64) (n : Fin 4096) (c : Fin 4) :
    broadcastInDim S64x4096x4 ![0, 1, 2] bcast_S64x4096x1_S64x4096x4_0_1_2 x (ix3 b n c) = x (ix3 b n 0) :=
  broadcastInDim_apply _ _ _ (ix3 b n c) (ix3 b n 0) (fun a => by
    match a with | ⟨0, _⟩ => rfl | ⟨1, _⟩ => rfl | ⟨2, _⟩ => rfl)

/-- The integer 0 converted to a float is 0. -/
theorem sitofp_zero32 : FloatOps.sitofp (F := Ideal) .f32 (0#32 : BitVec 32) = (0 : EReal) := by
  show (((0#32 : BitVec 32).toInt : ℝ) : EReal) = 0
  simp

/-- The reference's intersection over union of corner `c`'s box and the mean box, over the six columns. -/
theorem t_v98_iou (a0 : S64x1x256x256.Idx → EReal) (a1 : S64x2x256x256.Idx → EReal) (a5 : S64x4096x4.Idx → BitVec 32)
    (b : Fin 64) (n : Fin 4096) (c : Fin 4) :
    t_v98 a0 a1 a5 (ix3 b n c)
      = Spec.iou (t_v31 a0 a1 a5 (ix3 b n c)) (t_v33 a0 a1 a5 (ix3 b n c)) (t_v35 a0 a1 a5 (ix3 b n c))
          (t_v37 a0 a1 a5 (ix3 b n 0)) (t_v39 a0 a1 a5 (ix3 b n 0)) (t_v41 a0 a1 a5 (ix3 b n 0)) := by
  simp only [t_v42, t_cst_4, t_v43, t_v44, t_v45, t_cst_5, t_v46, t_v47, t_cst_6, t_v48, t_v49, t_v50, t_cst_7, t_v51, t_v52, t_v53, t_v54, t_v55, t_cst_8, t_v56, t_v57, t_cst_9, t_v58, t_v59, t_v60, t_cst_10, t_v61, t_v62, t_cst_11, t_v63, t_v64, t_v65, t_v66, t_v67, t_cst_12, t_v68, t_v69, t_v70, t_cst_13, t_v71, t_v72, t_v73, t_v74, t_v75, t_cst_14, t_v76, t_v77, t_cst_15, t_v78, t_v79, t_v80, t_cst_16, t_v81, t_v82, t_cst_17, t_v83, t_v84, t_v85, t_v86, t_v87, t_v88, t_c_18, t_call2_v0, t_call2_v1, t_v89, t_v90, t_c_19, t_call3_v0, t_call3_v1, t_v91, t_v92, t_v93, t_v94, t_v95, t_cst_20, t_v96, t_v97, t_v98,
    hostDivf_apply, addf_apply, subf_apply, mulf_apply, maximumf_apply, minimumf_apply]
  rw [bcast_anchor, bcast_anchor, bcast_anchor, bcast_anchor, bcast_anchor]
  simp only [hostDivf_apply, addf_apply, subf_apply, mulf_apply]
  have hz : broadcastInDim S64x4096x4 ![] bcast_S_S64x4096x4 (sitofp (F := Ideal) .f32 (constantI S_ 32 0#32)) (ix3 b n c)
      = (0 : EReal) := sitofp_zero32
  rw [hz]
  rfl

end Cert.RefValue

end
-- ==== Proof.RefAttract.lean ====
/-
  The attract half of the reference read at an index: the IoU array is the canonical attract term, and the masked
  loss term is the select between `(1 - iou) / d` and 0.
-/
import proofs.«139320_j2216203125376_2_alg».proof.Proof.RefAttractGather
import proofs.«139320_j2216203125376_2_alg».proof.Proof.RefAttractMean
import proofs.«139320_j2216203125376_2_alg».proof.Proof.RefAttractCols
import proofs.«139320_j2216203125376_2_alg».proof.Proof.RefAttractIou

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-- The reference's IoU of corner `c` of anchor `n` is the canonical attract term over the flattened tables. -/
theorem t_v98_apply (a0 : S64x1x256x256.Idx → EReal) (a1 : S64x2x256x256.Idx → EReal) (a5 : S64x4096x4.Idx → BitVec 32)
    (b : Fin 64) (n : Fin 4096) (c : Fin 4) :
    t_v98 a0 a1 a5 (ix3 b n c) = Canon.cA (t_v4 a0) (t_v14 a1) (t_v3 a5) b n c := by
  rw [t_v98_iou, t_v31_apply, t_v33_apply, t_v35_apply, t_v37_apply, t_v39_apply, t_v41_apply, t_v12_apply, t_v25_apply,
    t_v25_apply]
  simp only [t_v8_apply, t_v21_apply]
  rfl

/-- The masked attract loss term: under the mask `(1 - iou) / d`, else 0. -/
theorem t_v104_apply (a0 : S64x1x256x256.Idx → EReal) (a1 : S64x2x256x256.Idx → EReal) (a5 : S64x4096x4.Idx → BitVec 32)
    (a7 : S64x4096x4.Idx → BitVec 1) (d : S_.Idx → EReal) (b : Fin 64) (n : Fin 4096) (c : Fin 4) :
    t_v104 a0 a1 a5 a7 d (ix3 b n c)
      = Scalar.select (a7 (ix3 b n c)) (Ideal.div (Spec.k1 - t_v98 a0 a1 a5 (ix3 b n c)) (d ix0)) 0 := by
  have hd : t_v102 d (ix3 b n c) = d ix0 := broadcastInDim_scalar_apply _ d _
  have h0 : t_call4_v1 (ix3 b n c) = (0 : EReal) := Ideal.ofBits_zero_f32
  have h1 : t_v99 (ix3 b n c) = Spec.k1 := rfl
  unfold t_v104
  rw [select_apply, h0]
  unfold t_v103
  rw [hostDivf_apply, hd]
  unfold t_v100
  rw [subf_apply, h1]

end Cert.RefValue

end
-- ==== Proof.RefRepelTake.lean ====
/-
  The reference's two gathers at the repel index words (heights, then the two offset channels), read at an index:
  each is `Spec.pick` of the table's row at the index word.
-/
import proofs.«139320_j2216203125376_2_alg».proof.Proof.RefTerms
import proofs.«139320_j2216203125376_2_alg».proof.Proof.LibRefTake

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-- The height table read at an index word, as the program's outlined `take_along_axis` computes it
    (call 5): `Spec.pick` of the row at the index word. -/
theorem t_v113_apply (a0 : S64x1x256x256.Idx → EReal) (a6 : S64x2048x2x4.Idx → BitVec 32) (b : Fin 64) (q : Fin 16384) :
    t_v113 a0 a6 (ix3 b q 0) = Spec.pick (fun p => t_v4 a0 (ix3 b (0 : Fin 1) p)) (t_v109 a6 (ix2 b q)) := by
  have hI : t_v112 a6 (ix3 b q 0) = t_v109 a6 (ix2 b q) :=
    broadcastInDim_apply _ _ _ _ (ix2 b q) (fun a => by match a with | ⟨0, _⟩ => rfl | ⟨1, _⟩ => rfl)
  have e4 : t_call5_v4 a6 (ix3 b q 0) = wrapWord (t_v112 a6 (ix3 b q 0)) := rfl
  have e10 : t_call5_v10 a6 (ix3 b q 0) = validBit (wrapWord (t_v112 a6 (ix3 b q 0))) := rfl
  have e11 : t_call5_v11 a6 (ix2 b q) = validBit (wrapWord (t_v112 a6 (ix3 b q 0))) := by
    have h := reduce_andi_unit (t_call5_v10 a6) t_call5_c_3 reducesTo_S64x16384x1_S64x16384_d2 h_S_ b q
    rw [e10] at h
    refine h.trans ?_
    generalize validBit (wrapWord (t_v112 a6 (ix3 b q 0))) = w
    show w &&& 1#1 = w
    rcases BitVec.eq_zero_or_eq_one w with rfl | rfl <;> decide
  have e13 : t_call5_v13 a6 (ix3 b q 0) = t_call5_v11 a6 (ix2 b q) :=
    broadcastInDim_apply _ _ _ _ (ix2 b q) (fun a => by match a with | ⟨0, _⟩ => rfl | ⟨1, _⟩ => rfl)
  have e12 : t_call5_v12 a0 a6 (ix3 b q 0)
      = t_v111 a0 (ix3 b ⟨min (t_call5_v4 a6 (ix3 b q 0)).toInt.toNat (65536 - 1), by omega⟩ 0) :=
    gather_takeAlong_apply (by decide) _ (t_v111 a0) (t_call5_v4 a6) b q 0
  have eT : ∀ p : Fin 65536, t_v111 a0 (ix3 b p 0) = t_v4 a0 (ix3 b (0 : Fin 1) p) := fun p =>
    transpose_apply _ _ _ _ (ix3 b (0 : Fin 1) p) (fun a => by match a with | ⟨0, _⟩ => rfl | ⟨1, _⟩ => rfl | ⟨2, _⟩ => rfl)
  show Scalar.select (t_call5_v13 a6 (ix3 b q 0)) (t_call5_v12 a0 a6 (ix3 b q 0)) (Ideal.ofBits .f32 0x7FC00000#32) = _
  rw [e13, e11, e12, eT, ← hI]
  exact pick_word (fun p => t_v4 a0 (ix3 b (0 : Fin 1) p)) (t_v112 a6 (ix3 b q 0)) _

/-- The offset table read at an index word, as the program's outlined `take_along_axis` computes it
    (call 6): `Spec.pick` of the row at the index word. -/
theorem t_v123_apply (a1 : S64x2x256x256.Idx → EReal) (a6 : S64x2048x2x4.Idx → BitVec 32) (b : Fin 64) (q : Fin 16384) (ch : Fin 2) :
    t_v123 a1 a6 (ix3 b q ch) = Spec.pick (fun p => t_v14 a1 (ix3 b ch p)) (t_v109 a6 (ix2 b q)) := by
  have hI : t_v122 a6 (ix3 b q 0) = t_v109 a6 (ix2 b q) :=
    broadcastInDim_apply _ _ _ _ (ix2 b q) (fun a => by match a with | ⟨0, _⟩ => rfl | ⟨1, _⟩ => rfl)
  have e4 : t_call6_v4 a6 (ix3 b q 0) = wrapWord (t_v122 a6 (ix3 b q 0)) := rfl
  have e10 : t_call6_v10 a6 (ix3 b q 0) = validBit (wrapWord (t_v122 a6 (ix3 b q 0))) := rfl
  have e11 : t_call6_v11 a6 (ix2 b q) = validBit (wrapWord (t_v122 a6 (ix3 b q 0))) := by
    have h := reduce_andi_unit (t_call6_v10 a6) t_call6_c_3 reducesTo_S64x16384x1_S64x16384_d2 h_S_ b q
    rw [e10] at h
    refine h.trans ?_
    generalize validBit (wrapWord (t_v122 a6 (ix3 b q 0))) = w
    show w &&& 1#1 = w
    rcases BitVec.eq_zero_or_eq_one w with rfl | rfl <;> decide
  have e13 : t_call6_v13 a6 (ix3 b q ch) = t_call6_v11 a6 (ix2 b q) :=
    broadcastInDim_apply _ _ _ _ (ix2 b q) (fun a => by match a with | ⟨0, _⟩ => rfl | ⟨1, _⟩ => rfl)
  have e12 : t_call6_v12 a1 a6 (ix3 b q ch)
      = t_v121 a1 (ix3 b ⟨min (t_call6_v4 a6 (ix3 b q 0)).toInt.toNat (65536 - 1), by omega⟩ ch) :=
    gather_takeAlong_apply (by decide) _ (t_v121 a1) (t_call6_v4 a6) b q ch
  have eT : ∀ p : Fin 65536, t_v121 a1 (ix3 b p ch) = t_v14 a1 (ix3 b ch p) := fun p =>
    transpose_apply _ _ _ _ (ix3 b ch p) (fun a => by match a with | ⟨0, _⟩ => rfl | ⟨1, _⟩ => rfl | ⟨2, _⟩ => rfl)
  show Scalar.select (t_call6_v13 a6 (ix3 b q ch)) (t_call6_v12 a1 a6 (ix3 b q ch)) (Ideal.ofBits .f32 0x7FC00000#32) = _
  rw [e13, e11, e12, eT, ← hI]
  exact pick_word (fun p => t_v14 a1 (ix3 b ch p)) (t_v122 a6 (ix3 b q 0)) _

end Cert.RefValue

end
-- ==== Proof.RefRepelMean.lean ====
/-
  The repel half of the reference, read at an index: the gathered heights and offsets of corner `k` of group `g` of
  pair `m` (index word `8 m + 4 g + k`; the offsets carry the corner table), and their means over the four corners.
-/
import proofs.«139320_j2216203125376_2_alg».proof.Proof.RefRepelTake
import proofs.«139320_j2216203125376_2_alg».proof.Proof.RefAttractGather
import proofs.«139320_j2216203125376_2_alg».proof.Proof.Canon
import Idealize.ShloMosaic.Lib.Pipeline.Value
import Idealize.ShloMosaic.Lib.IdealHost
import Idealize.ShloMosaic.PureOps.Ideal.Laws

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-- Gathered height of corner `k` of group `g` of pair `m`. -/
theorem t_v114_apply (a0 : S64x1x256x256.Idx → EReal) (a6 : S64x2048x2x4.Idx → BitVec 32) (b : Fin 64) (m : Fin 2048) (g : Fin 2)
    (k : Fin 4) : t_v114 a0 a6 (ix5 b m g k 0) = Canon.hR (t_v4 a0) (t_v109 a6) b m g k := by
  have h : t_v114 a0 a6 (ix5 b m g k 0) = t_v113 a0 a6 (ix3 b ⟨8 * m.val + 4 * g.val + k.val, by omega⟩ 0) :=
    shapeCast_apply _ _ (ix5 b m g k 0) (ix3 b ⟨8 * m.val + 4 * g.val + k.val, by omega⟩ 0) (by
      rw [Shape.rowMajor_val_three, Shape.rowMajor_val_five]
      show (b.val * 16384 + (8 * m.val + 4 * g.val + k.val)) * 1 + 0
        = (((b.val * 2048 + m.val) * 2 + g.val) * 4 + k.val) * 1 + 0
      omega)
  rw [h, t_v113_apply]
  rfl

/-- Mean height of group `g` of pair `m`. -/
theorem t_v118_apply (a0 : S64x1x256x256.Idx → EReal) (a6 : S64x2048x2x4.Idx → BitVec 32) (b : Fin 64) (m : Fin 2048) (g : Fin 2) :
    t_v118 a0 a6 (ix5 b m g 0 0) = Spec.mean4 (Canon.hR (t_v4 a0) (t_v109 a6) b m g) := by
  have hR : S64x2048x2x4x1.Reduces [3] S64x2048x2x1 := by decide
  have h116 : t_v116 a0 a6 (ix5 b m g 0 0) = t_v115 a0 a6 (ix4 b m g 0) :=
    broadcastInDim_apply _ _ _ (ix5 b m g 0 0) (ix4 b m g 0) (fun a => by
      match a with | ⟨0, _⟩ => rfl | ⟨1, _⟩ => rfl | ⟨2, _⟩ => rfl | ⟨3, _⟩ => rfl)
  have h115 : t_v115 a0 a6 (ix4 b m g 0) = Ideal.ofBits .f32 0x00000000#32 + ∑ k : Fin 4, t_v114 a0 a6 (ix5 b m g k 0) := by
    show Ideal.hostReduceAdd reducesTo_S64x2048x2x4x1_S64x2048x2x1_d3 (t_v114 a0 a6) (Ideal.ofBits .f32 0x00000000#32) (ix4 b m g 0) = _
    rw [Ideal.hostReduceAdd_single _ hR]
    congr 1
  show Ideal.div (t_v116 a0 a6 (ix5 b m g 0 0)) Spec.k4 = _
  rw [h116, h115, Ideal.ofBits_zero_f32, zero_add]
  unfold Spec.mean4
  refine congrArg (Ideal.div · Spec.k4) (Finset.sum_congr rfl fun k _ => ?_)
  exact t_v114_apply a0 a6 b m g k

/-- The exponential of the mean height. -/
theorem t_v135_apply (a0 : S64x1x256x256.Idx → EReal) (a6 : S64x2048x2x4.Idx → BitVec 32) (b : Fin 64) (m : Fin 2048) (g : Fin 2) :
    t_v135 a0 a6 (ix5 b m g 0 0) = Ideal.exp (Spec.mean4 (Canon.hR (t_v4 a0) (t_v109 a6) b m g)) := by
  show Ideal.exp (t_v118 a0 a6 (ix5 b m g 0 0)) = _
  rw [t_v118_apply]

/-- Gathered offset channel `ch` of corner `k` of group `g` of pair `m`, the corner's own offset added. -/
theorem t_v127_apply (a1 : S64x2x256x256.Idx → EReal) (a6 : S64x2048x2x4.Idx → BitVec 32) (b : Fin 64) (m : Fin 2048) (g : Fin 2)
    (k : Fin 4) (ch : Fin 2) : t_v127 a1 a6 (ix5 b m g k ch) = Canon.oR (t_v14 a1) (t_v109 a6) ch b m g k := by
  have h124 : t_v124 a1 a6 (ix5 b m g k ch) = t_v123 a1 a6 (ix3 b ⟨8 * m.val + 4 * g.val + k.val, by omega⟩ ch) :=
    shapeCast_apply _ _ (ix5 b m g k ch) (ix3 b ⟨8 * m.val + 4 * g.val + k.val, by omega⟩ ch) (by
      rw [Shape.rowMajor_val_three, Shape.rowMajor_val_five]
      show (b.val * 16384 + (8 * m.val + 4 * g.val + k.val)) * 2 + ch.val
        = (((b.val * 2048 + m.val) * 2 + g.val) * 4 + k.val) * 2 + ch.val
      omega)
  have h126 : t_v126 (ix5 b m g k ch) = t_v125 (ix5 0 0 0 k ch) :=
    broadcastInDim_apply _ _ _ (ix5 b m g k ch) (ix5 0 0 0 k ch) (fun a => by
      match a with | ⟨0, _⟩ => rfl | ⟨1, _⟩ => rfl | ⟨2, _⟩ => rfl | ⟨3, _⟩ => rfl | ⟨4, _⟩ => rfl)
  have h125 : t_v125 (ix5 0 0 0 k ch) = t_cst (ix2 k ch) :=
    shapeCast_apply _ _ (ix5 0 0 0 k ch) (ix2 k ch) (by
      rw [Shape.rowMajor_val_two, Shape.rowMajor_val_five]
      show k.val * 2 + ch.val = (((0 * 1 + 0) * 1 + 0) * 4 + k.val) * 2 + ch.val
      omega)
  unfold t_v127
  rw [addf_apply, h124, h126, h125, t_cst_apply, t_v123_apply]
  rfl

/-- Mean offset channel `ch` of group `g` of pair `m`. -/
theorem t_v131_apply (a1 : S64x2x256x256.Idx → EReal) (a6 : S64x2048x2x4.Idx → BitVec 32) (b : Fin 64) (m : Fin 2048) (g : Fin 2)
    (ch : Fin 2) : t_v131 a1 a6 (ix5 b m g 0 ch) = Spec.mean4 (Canon.oR (t_v14 a1) (t_v109 a6) ch b m g) := by
  have hR : S64x2048x2x4x2.Reduces [3] S64x2048x2x2 := by decide
  have h129 : t_v129 a1 a6 (ix5 b m g 0 ch) = t_v128 a1 a6 (ix4 b m g ch) :=
    broadcastInDim_apply _ _ _ (ix5 b m g 0 ch) (ix4 b m g ch) (fun a => by
      match a with | ⟨0, _⟩ => rfl | ⟨1, _⟩ => rfl | ⟨2, _⟩ => rfl | ⟨3, _⟩ => rfl)
  have h128 : t_v128 a1 a6 (ix4 b m g ch) = Ideal.ofBits .f32 0x00000000#32 + ∑ k : Fin 4, t_v127 a1 a6 (ix5 b m g k ch) := by
    show Ideal.hostReduceAdd reducesTo_S64x2048x2x4x2_S64x2048x2x2_d3 (t_v127 a1 a6) (Ideal.ofBits .f32 0x00000000#32) (ix4 b m g ch) = _
    rw [Ideal.hostReduceAdd_single _ hR]
    congr 1
  show Ideal.div (t_v129 a1 a6 (ix5 b m g 0 ch)) Spec.k4 = _
  rw [h129, h128, Ideal.ofBits_zero_f32, zero_add]
  unfold Spec.mean4
  refine congrArg (Ideal.div · Spec.k4) (Finset.sum_congr rfl fun k _ => ?_)
  exact t_v127_apply a1 a6 b m g k ch

end Cert.RefValue

end
-- ==== Proof.LibRefScatter.lean ====
/-
  A left fold of point updates, read at an index.  Each step `n` of the fold either names a target index `tgt n` and
  replaces the value there by `f` of the old value and the step's datum `g n`, or names none and changes nothing.
  An index no step names keeps its value; an index exactly one step names, in a list without repeats, ends at `f` of
  its first value and that step's datum.  The host scatter is such a fold over the update indices in row-major order.
-/
import Idealize.ShloMosaic.PureOps.ShapeOps
import Mathlib.Data.List.Nodup
import Mathlib.Data.List.FinRange
import Mathlib.Tactic.DefEqTransformations

namespace Cert.LibRefScatter

open Idealize.ShloMosaic

variable {ι I α : Type} [DecidableEq I]

/-- One point update. -/
def step (f : α → α → α) (tgt : ι → Option I) (g : ι → α) (r : I → α) (n : ι) : I → α :=
  match tgt n with
  | some i => fun i' => if i' = i then f (r i) (g n) else r i'
  | none => r

theorem step_of_ne (f : α → α → α) (tgt : ι → Option I) (g : ι → α) (r : I → α) (n : ι) (i' : I) (h : tgt n ≠ some i') :
    step f tgt g r n i' = r i' := by
  unfold step
  cases ht : tgt n with
  | none => rfl
  | some i =>
    show (if i' = i then f (r i) (g n) else r i') = r i'
    rw [if_neg]
    intro e
    exact h (by rw [ht, e])

theorem step_of_eq (f : α → α → α) (tgt : ι → Option I) (g : ι → α) (r : I → α) (n : ι) (i' : I) (h : tgt n = some i') :
    step f tgt g r n i' = f (r i') (g n) := by
  unfold step
  rw [h]
  show (if i' = i' then f (r i') (g n) else r i') = _
  rw [if_pos rfl]

/-- An index no step of the list names keeps its value. -/
theorem foldl_step_miss (f : α → α → α) (tgt : ι → Option I) (g : ι → α) (i' : I) :
    ∀ (L : List ι) (x : I → α), (∀ n ∈ L, tgt n ≠ some i') → (L.foldl (step f tgt g) x) i' = x i'
  | [], _, _ => rfl
  | n :: L, x, h => by
    rw [List.foldl_cons, foldl_step_miss f tgt g i' L _ (fun k hk => h k (List.mem_cons_of_mem _ hk))]
    exact step_of_ne f tgt g x n i' (h n List.mem_cons_self)

/-- An index exactly one step of a list without repeats names ends at `f` of its first value and that step's datum. -/
theorem foldl_step_hit (f : α → α → α) (tgt : ι → Option I) (g : ι → α) (i' : I) (n0 : ι) (h0 : tgt n0 = some i') :
    ∀ (L : List ι) (x : I → α), n0 ∈ L → (∀ n ∈ L, tgt n = some i' → n = n0) → L.Nodup →
      (L.foldl (step f tgt g) x) i' = f (x i') (g n0)
  | [], _, hmem, _, _ => absurd hmem List.not_mem_nil
  | n :: L, x, hmem, huniq, hnd => by
    rw [List.foldl_cons]
    have hnd' := List.nodup_cons.mp hnd
    by_cases hn : n = n0
    · subst hn
      rw [foldl_step_miss f tgt g i' L _ (fun k hk hk' => hnd'.1 (huniq k (List.mem_cons_of_mem _ hk) hk' ▸ hk))]
      exact step_of_eq f tgt g x n i' h0
    · have hmem' : n0 ∈ L := (List.mem_cons.mp hmem).resolve_left (fun e => hn e.symm)
      rw [foldl_step_hit f tgt g i' n0 h0 L _ hmem' (fun k hk => huniq k (List.mem_cons_of_mem _ hk)) hnd'.2]
      refine congrArg (f · (g n0)) (step_of_ne f tgt g x n i' fun e => hn (huniq n List.mem_cons_self e))

variable {s si u : Shape} {w : Nat}

/-- The host scatter as that fold. -/
theorem scatter_eq_foldl (d : ScatterDims s si u) (f : α → α → α) (x : s.Idx → α) (idx : IVec si w) (upd : u.Idx → α) :
    Host.scatter d f x idx upd
      = (List.finRange u.numel).foldl
          (step f (fun n => d.resultIdx? (u.rowMajor.symm n) idx) (fun n => upd (u.rowMajor.symm n))) x := by
  unfold Host.scatter
  refine congrArg (fun F => List.foldl F x (List.finRange u.numel)) ?_
  funext r n
  unfold step
  beta_reduce
  cases d.resultIdx? (u.rowMajor.symm n) idx with
  | none => rfl
  | some i =>
    funext i'
    show (if i' = i then _ else _) = (if i' = i then _ else _)
    congr

/-- The host scatter at an index no update lands on. -/
theorem scatter_apply_miss (d : ScatterDims s si u) (f : α → α → α) (x : s.Idx → α) (idx : IVec si w) (upd : u.Idx → α)
    (i' : s.Idx) (h : ∀ j : u.Idx, d.resultIdx? j idx ≠ some i') : Host.scatter d f x idx upd i' = x i' := by
  rw [scatter_eq_foldl]
  exact foldl_step_miss f _ _ i' _ x fun n _ => h _

/-- The host scatter at an index exactly one update lands on. -/
theorem scatter_apply_hit (d : ScatterDims s si u) (f : α → α → α) (x : s.Idx → α) (idx : IVec si w) (upd : u.Idx → α)
    (i' : s.Idx) (j0 : u.Idx) (h0 : d.resultIdx? j0 idx = some i') (huniq : ∀ j : u.Idx, d.resultIdx? j idx = some i' → j = j0) :
    Host.scatter d f x idx upd i' = f (x i') (upd j0) := by
  rw [scatter_eq_foldl]
  have e : u.rowMajor.symm (u.rowMajor j0) = j0 := Equiv.symm_apply_apply _ _
  have := foldl_step_hit f (fun n => d.resultIdx? (u.rowMajor.symm n) idx) (fun n => upd (u.rowMajor.symm n)) i'
    (u.rowMajor j0) (by show d.resultIdx? (u.rowMajor.symm (u.rowMajor j0)) idx = _; rw [e]; exact h0)
    (List.finRange u.numel) x (List.mem_finRange _)
    (fun n _ hn => by
      have := huniq _ hn
      rw [← this]; exact (Equiv.apply_symm_apply _ _).symm)
    (List.nodup_finRange _)
  rw [this]
  show f (x i') (upd (u.rowMajor.symm (u.rowMajor j0))) = _
  rw [e]

end Cert.LibRefScatter
-- ==== Proof.RefRepelScatter.lean ====
/-
  The reference's scatter-add of the shift onto the second group's mean offsets, read at an index: every update
  lands in group 1 with its other coordinates kept, so group 0 keeps its means and group 1 gains the shift.
-/
import proofs.«139320_j2216203125376_2_alg».proof.Proof.RefRepelMean
import proofs.«139320_j2216203125376_2_alg».proof.Proof.LibRefScatter

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-- Every update lands in group 1, its other coordinates kept. -/
theorem resultIdx_eq (b : Fin 64) (m : Fin 2048) (u : Fin 1) (ch : Fin 2) :
    scatter_S64x2048x2x1x2_S1_S64x2048x1x2_0123_2_2_0.resultIdx? (ix4 b m u ch) t_v133
      = some (ix5 b m (1 : Fin 2) u ch) := by
  have hs : ∀ a : Fin 5,
      scatter_S64x2048x2x1x2_S1_S64x2048x1x2_0123_2_2_0.start (ix4 b m u ch) t_v133 a
        + (scatter_S64x2048x2x1x2_S1_S64x2048x1x2_0123_2_2_0.window (ix4 b m u ch) a : ℤ)
      = ((ix5 b m (1 : Fin 2) u ch a).val : ℤ) := by
    intro a
    match a with
    | ⟨0, _⟩ => show (0 : ℤ) + ((b.val : ℕ) : ℤ) = ((b.val : ℕ) : ℤ); exact Int.zero_add _
    | ⟨1, _⟩ => show (0 : ℤ) + ((m.val : ℕ) : ℤ) = ((m.val : ℕ) : ℤ); exact Int.zero_add _
    | ⟨2, _⟩ => show (1#32 : BitVec 32).toInt + ((0 : ℕ) : ℤ) = ((1 : ℕ) : ℤ); decide
    | ⟨3, _⟩ => show (0 : ℤ) + ((u.val : ℕ) : ℤ) = ((u.val : ℕ) : ℤ); exact Int.zero_add _
    | ⟨4, _⟩ => show (0 : ℤ) + ((ch.val : ℕ) : ℤ) = ((ch.val : ℕ) : ℤ); exact Int.zero_add _
  have hb : ∀ a : Fin 5,
      0 ≤ scatter_S64x2048x2x1x2_S1_S64x2048x1x2_0123_2_2_0.start (ix4 b m u ch) t_v133 a
            + (scatter_S64x2048x2x1x2_S1_S64x2048x1x2_0123_2_2_0.window (ix4 b m u ch) a : ℤ)
        ∧ scatter_S64x2048x2x1x2_S1_S64x2048x1x2_0123_2_2_0.start (ix4 b m u ch) t_v133 a
            + (scatter_S64x2048x2x1x2_S1_S64x2048x1x2_0123_2_2_0.window (ix4 b m u ch) a : ℤ)
          < (S64x2048x2x1x2.size a : ℤ) := by
    intro a
    rw [hs a]
    exact ⟨Int.natCast_nonneg _, by exact_mod_cast (ix5 b m (1 : Fin 2) u ch a).isLt⟩
  unfold ScatterDims.resultIdx?
  rw [dif_pos hb]
  refine congrArg some (funext fun a => Fin.ext ?_)
  show (scatter_S64x2048x2x1x2_S1_S64x2048x1x2_0123_2_2_0.start (ix4 b m u ch) t_v133 a
        + (scatter_S64x2048x2x1x2_S1_S64x2048x1x2_0123_2_2_0.window (ix4 b m u ch) a : ℤ)).toNat = _
  rw [hs a]
  exact Int.toNat_natCast _

/-- The shift broadcast over the unit group axis. -/
theorem t_v132_apply (a4 : S64x2048x2.Idx → EReal) (b : Fin 64) (m : Fin 2048) (ch : Fin 2) :
    t_v132 a4 (ix4 b m (0 : Fin 1) ch) = a4 (ix3 b m ch) :=
  broadcastInDim_apply _ _ _ (ix4 b m (0 : Fin 1) ch) (ix3 b m ch) (fun a => by
    match a with | ⟨0, _⟩ => rfl | ⟨1, _⟩ => rfl | ⟨2, _⟩ => rfl)

/-- Group 0 keeps its mean offsets. -/
theorem t_v134_apply_zero (a1 : S64x2x256x256.Idx → EReal) (a6 : S64x2048x2x4.Idx → BitVec 32) (a4 : S64x2048x2.Idx → EReal)
    (b : Fin 64) (m : Fin 2048) (ch : Fin 2) :
    t_v134 a1 a6 a4 (ix5 b m (0 : Fin 2) (0 : Fin 1) ch) = t_v131 a1 a6 (ix5 b m (0 : Fin 2) (0 : Fin 1) ch) := by
  unfold t_v134
  refine LibRefScatter.scatter_apply_miss _ _ _ _ _ _ fun j => ?_
  obtain ⟨jb, jm, ju, jc, rfl⟩ : ∃ (jb : Fin 64) (jm : Fin 2048) (ju : Fin 1) (jc : Fin 2), j = ix4 jb jm ju jc :=
    ⟨j 0, j 1, j 2, j 3, eq_ix4 j⟩
  rw [resultIdx_eq]
  intro e
  have h2 : (1 : ℕ) = 0 := congrArg Fin.val (congrFun (Option.some.inj e) (2 : Fin 5))
  exact absurd h2 (by decide)

/-- Group 1 gains the shift. -/
theorem t_v134_apply_one (a1 : S64x2x256x256.Idx → EReal) (a6 : S64x2048x2x4.Idx → BitVec 32) (a4 : S64x2048x2.Idx → EReal)
    (b : Fin 64) (m : Fin 2048) (ch : Fin 2) :
    t_v134 a1 a6 a4 (ix5 b m (1 : Fin 2) (0 : Fin 1) ch)
      = t_v131 a1 a6 (ix5 b m (1 : Fin 2) (0 : Fin 1) ch) + a4 (ix3 b m ch) := by
  unfold t_v134
  refine (LibRefScatter.scatter_apply_hit _ _ _ _ _ _ (ix4 b m (0 : Fin 1) ch) (resultIdx_eq b m 0 ch) fun j hj => ?_).trans ?_
  · obtain ⟨jb, jm, ju, jc, rfl⟩ : ∃ (jb : Fin 64) (jm : Fin 2048) (ju : Fin 1) (jc : Fin 2), j = ix4 jb jm ju jc :=
      ⟨j 0, j 1, j 2, j 3, eq_ix4 j⟩
    rw [resultIdx_eq] at hj
    have e := Option.some.inj hj
    have h0 := congrArg Fin.val (congrFun e (0 : Fin 5))
    have h1 := congrArg Fin.val (congrFun e (1 : Fin 5))
    have h3 := congrArg Fin.val (congrFun e (3 : Fin 5))
    have h4 := congrArg Fin.val (congrFun e (4 : Fin 5))
    funext a; apply Fin.ext
    match a with
    | ⟨0, _⟩ => exact h0
    | ⟨1, _⟩ => exact h1
    | ⟨2, _⟩ => exact h3
    | ⟨3, _⟩ => exact h4
  · show t_v131 a1 a6 (ix5 b m (1 : Fin 2) (0 : Fin 1) ch) + t_v132 a4 (ix4 b m (0 : Fin 1) ch) = _
    rw [t_v132_apply]

end Cert.RefValue

end
-- ==== Proof.RefRepelBox.lean ====
/-
  The reference's repel half between the means and the box arithmetic, read at an index: the exponential of the mean
  height and the two mean offsets are laid side by side along a last axis of three, the two groups are cut apart, and
  each group's three components are cut out again.  At pair `m` the six values are, for group 0, the exponential of
  the mean height and the two mean offsets, and for group 1 the same with the shift added to the offsets.
-/
import proofs.«139320_j2216203125376_2_alg».proof.Proof.RefRepelScatter

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-- The first of the three components is the exponential of the mean height. -/
theorem t_v136_apply_h (a0 : S64x1x256x256.Idx → EReal) (a1 : S64x2x256x256.Idx → EReal) (a4 : S64x2048x2.Idx → EReal) (a6 : S64x2048x2x4.Idx → BitVec 32) (b : Fin 64) (m : Fin 2048) (g : Fin 2) :
    t_v136 a0 a1 a4 a6 (ix5 b m g (0 : Fin 1) (0 : Fin 3)) = t_v135 a0 a6 (ix5 b m g (0 : Fin 1) (0 : Fin 1)) :=
  concatenate_pair_apply_left (t := S64x2048x2x1x3) (s₁ := S64x2048x2x1x1) (s₂ := S64x2048x2x1x2) 4 (t_v135 a0 a6) (t_v134 a1 a6 a4)
    concatenates_S64x2048x2x1x1_S64x2048x2x1x2_S64x2048x2x1x3_d4 (ix5 b m g (0 : Fin 1) (0 : Fin 3)) rfl
    (ix5 b m g (0 : Fin 1) (0 : Fin 1)) (fun b' => by
      match b' with | ⟨0, _⟩ => rfl | ⟨1, _⟩ => rfl | ⟨2, _⟩ => rfl | ⟨3, _⟩ => rfl | ⟨4, _⟩ => rfl)

/-- The other two are the mean offsets after the scatter. -/
theorem t_v136_apply_o (a0 : S64x1x256x256.Idx → EReal) (a1 : S64x2x256x256.Idx → EReal) (a4 : S64x2048x2.Idx → EReal) (a6 : S64x2048x2x4.Idx → BitVec 32) (b : Fin 64) (m : Fin 2048) (g : Fin 2) (ch : Fin 2) (c3 : Fin 3) (hc : ch.val + 1 = c3.val) :
    t_v136 a0 a1 a4 a6 (ix5 b m g (0 : Fin 1) c3) = t_v134 a1 a6 a4 (ix5 b m g (0 : Fin 1) ch) :=
  concatenate_pair_apply_right (t := S64x2048x2x1x3) (s₁ := S64x2048x2x1x1) (s₂ := S64x2048x2x1x2) 4 (t_v135 a0 a6) (t_v134 a1 a6 a4)
    concatenates_S64x2048x2x1x1_S64x2048x2x1x2_S64x2048x2x1x3_d4 (ix5 b m g (0 : Fin 1) c3) rfl rfl
    (ix5 b m g (0 : Fin 1) ch) (fun b' hb' => by
      match b' with
      | ⟨0, _⟩ => rfl | ⟨1, _⟩ => rfl | ⟨2, _⟩ => rfl | ⟨3, _⟩ => rfl
      | ⟨4, _⟩ => exact absurd rfl hb') hc

/-- Group 0 cut out, its unit group axis dropped. -/
theorem t_v138_apply (a0 : S64x1x256x256.Idx → EReal) (a1 : S64x2x256x256.Idx → EReal) (a4 : S64x2048x2.Idx → EReal) (a6 : S64x2048x2x4.Idx → BitVec 32) (b : Fin 64) (m : Fin 2048) (c3 : Fin 3) :
    t_v138 a0 a1 a4 a6 (ix4 b m (0 : Fin 1) c3) = t_v136 a0 a1 a4 a6 (ix5 b m (0 : Fin 2) (0 : Fin 1) c3) := by
  have h : t_v138 a0 a1 a4 a6 (ix4 b m (0 : Fin 1) c3) = t_v137 a0 a1 a4 a6 (ix5 b m (0 : Fin 1) (0 : Fin 1) c3) :=
    shapeCast_apply _ _ (ix4 b m (0 : Fin 1) c3) (ix5 b m (0 : Fin 1) (0 : Fin 1) c3) (by
      rw [Shape.rowMajor_val_five, Shape.rowMajor_val_four]
      show (((b.val * 2048 + m.val) * 1 + 0) * 1 + 0) * 3 + c3.val = ((b.val * 2048 + m.val) * 1 + 0) * 3 + c3.val
      omega)
  rw [h]
  exact extractStridedSlice_apply ![0, 0, 0, 0, 0] (t_v136 a0 a1 a4 a6) slices_S64x2048x2x1x3_S64x2048x1x1x3_0_0_0_0_0
    (ix5 b m (0 : Fin 1) (0 : Fin 1) c3) (ix5 b m (0 : Fin 2) (0 : Fin 1) c3) (fun a => by
      match a with
      | ⟨0, _⟩ => exact (Nat.zero_add _).symm | ⟨1, _⟩ => exact (Nat.zero_add _).symm | ⟨2, _⟩ => rfl
      | ⟨3, _⟩ => rfl | ⟨4, _⟩ => exact (Nat.zero_add _).symm)

/-- Group 1 cut out, its unit group axis dropped. -/
theorem t_v140_apply (a0 : S64x1x256x256.Idx → EReal) (a1 : S64x2x256x256.Idx → EReal) (a4 : S64x2048x2.Idx → EReal) (a6 : S64x2048x2x4.Idx → BitVec 32) (b : Fin 64) (m : Fin 2048) (c3 : Fin 3) :
    t_v140 a0 a1 a4 a6 (ix4 b m (0 : Fin 1) c3) = t_v136 a0 a1 a4 a6 (ix5 b m (1 : Fin 2) (0 : Fin 1) c3) := by
  have h : t_v140 a0 a1 a4 a6 (ix4 b m (0 : Fin 1) c3) = t_v139 a0 a1 a4 a6 (ix5 b m (0 : Fin 1) (0 : Fin 1) c3) :=
    shapeCast_apply _ _ (ix4 b m (0 : Fin 1) c3) (ix5 b m (0 : Fin 1) (0 : Fin 1) c3) (by
      rw [Shape.rowMajor_val_five, Shape.rowMajor_val_four]
      show (((b.val * 2048 + m.val) * 1 + 0) * 1 + 0) * 3 + c3.val = ((b.val * 2048 + m.val) * 1 + 0) * 3 + c3.val
      omega)
  rw [h]
  exact extractStridedSlice_apply ![0, 0, 1, 0, 0] (t_v136 a0 a1 a4 a6) slices_S64x2048x2x1x3_S64x2048x1x1x3_0_0_1_0_0
    (ix5 b m (0 : Fin 1) (0 : Fin 1) c3) (ix5 b m (1 : Fin 2) (0 : Fin 1) c3) (fun a => by
      match a with
      | ⟨0, _⟩ => exact (Nat.zero_add _).symm | ⟨1, _⟩ => exact (Nat.zero_add _).symm | ⟨2, _⟩ => rfl
      | ⟨3, _⟩ => rfl | ⟨4, _⟩ => exact (Nat.zero_add _).symm)

/-- One component of a `[64, 2048, 1, 3]` array cut out and its unit axis dropped. -/
theorem comp_apply (X : S64x2048x1x3.Idx → EReal) (o : Nat) (hS : S64x2048x1x3.Slices ![0, 0, 0, o] S64x2048x1x1)
    (b : Fin 64) (m : Fin 2048) (c3 : Fin 3) (hc : c3.val = o) :
    shapeCast S64x2048x1 (extractStridedSlice S64x2048x1x1 ![0, 0, 0, o] X hS) shapeCasts_S64x2048x1x1_S64x2048x1 (ix3 b m (0 : Fin 1))
      = X (ix4 b m (0 : Fin 1) c3) := by
  have h : shapeCast S64x2048x1 (extractStridedSlice S64x2048x1x1 ![0, 0, 0, o] X hS) shapeCasts_S64x2048x1x1_S64x2048x1 (ix3 b m (0 : Fin 1))
      = extractStridedSlice S64x2048x1x1 ![0, 0, 0, o] X hS (ix4 b m (0 : Fin 1) (0 : Fin 1)) :=
    shapeCast_apply _ _ (ix3 b m (0 : Fin 1)) (ix4 b m (0 : Fin 1) (0 : Fin 1)) (by
      rw [Shape.rowMajor_val_four, Shape.rowMajor_val_three]
      show ((b.val * 2048 + m.val) * 1 + 0) * 1 + 0 = (b.val * 2048 + m.val) * 1 + 0
      omega)
  rw [h]
  exact extractStridedSlice_apply ![0, 0, 0, o] X hS (ix4 b m (0 : Fin 1) (0 : Fin 1)) (ix4 b m (0 : Fin 1) c3) (fun a => by
    match a with
    | ⟨0, _⟩ => exact (Nat.zero_add _).symm | ⟨1, _⟩ => exact (Nat.zero_add _).symm | ⟨2, _⟩ => rfl
    | ⟨3, _⟩ => show c3.val = o + 0; omega)

variable (a0 : S64x1x256x256.Idx → EReal) (a1 : S64x2x256x256.Idx → EReal) (a4 : S64x2048x2.Idx → EReal) (a6 : S64x2048x2x4.Idx → BitVec 32) (b : Fin 64) (m : Fin 2048)

/-- Group 0: the exponential of the mean height, and the two mean offsets. -/
theorem t_v142_apply : t_v142 a0 a1 a4 a6 (ix3 b m (0 : Fin 1)) = Ideal.exp (Spec.mean4 (Canon.hR (t_v4 a0) (t_v109 a6) b m 0)) := by
  refine (comp_apply (t_v138 a0 a1 a4 a6) 0 slices_S64x2048x1x3_S64x2048x1x1_0_0_0_0 b m (0 : Fin 3) rfl).trans ?_
  rw [t_v138_apply, t_v136_apply_h, t_v135_apply]

theorem t_v144_apply : t_v144 a0 a1 a4 a6 (ix3 b m (0 : Fin 1)) = Spec.mean4 (Canon.oR (t_v14 a1) (t_v109 a6) 0 b m 0) := by
  refine (comp_apply (t_v138 a0 a1 a4 a6) 1 slices_S64x2048x1x3_S64x2048x1x1_0_0_0_1 b m (1 : Fin 3) rfl).trans ?_
  rw [t_v138_apply, t_v136_apply_o a0 a1 a4 a6 b m 0 (0 : Fin 2) (1 : Fin 3) rfl, t_v134_apply_zero, t_v131_apply]

theorem t_v146_apply : t_v146 a0 a1 a4 a6 (ix3 b m (0 : Fin 1)) = Spec.mean4 (Canon.oR (t_v14 a1) (t_v109 a6) 1 b m 0) := by
  refine (comp_apply (t_v138 a0 a1 a4 a6) 2 slices_S64x2048x1x3_S64x2048x1x1_0_0_0_2 b m (2 : Fin 3) rfl).trans ?_
  rw [t_v138_apply, t_v136_apply_o a0 a1 a4 a6 b m 0 (1 : Fin 2) (2 : Fin 3) rfl, t_v134_apply_zero, t_v131_apply]

/-- Group 1: the same, the shift added to the offsets. -/
theorem t_v148_apply : t_v148 a0 a1 a4 a6 (ix3 b m (0 : Fin 1)) = Ideal.exp (Spec.mean4 (Canon.hR (t_v4 a0) (t_v109 a6) b m 1)) := by
  refine (comp_apply (t_v140 a0 a1 a4 a6) 0 slices_S64x2048x1x3_S64x2048x1x1_0_0_0_0 b m (0 : Fin 3) rfl).trans ?_
  rw [t_v140_apply, t_v136_apply_h, t_v135_apply]

theorem t_v150_apply : t_v150 a0 a1 a4 a6 (ix3 b m (0 : Fin 1))
    = Spec.mean4 (Canon.oR (t_v14 a1) (t_v109 a6) 0 b m 1) + a4 (ix3 b m (0 : Fin 2)) := by
  refine (comp_apply (t_v140 a0 a1 a4 a6) 1 slices_S64x2048x1x3_S64x2048x1x1_0_0_0_1 b m (1 : Fin 3) rfl).trans ?_
  rw [t_v140_apply, t_v136_apply_o a0 a1 a4 a6 b m 1 (0 : Fin 2) (1 : Fin 3) rfl, t_v134_apply_one, t_v131_apply]

theorem t_v152_apply : t_v152 a0 a1 a4 a6 (ix3 b m (0 : Fin 1))
    = Spec.mean4 (Canon.oR (t_v14 a1) (t_v109 a6) 1 b m 1) + a4 (ix3 b m (1 : Fin 2)) := by
  refine (comp_apply (t_v140 a0 a1 a4 a6) 2 slices_S64x2048x1x3_S64x2048x1x1_0_0_0_2 b m (2 : Fin 3) rfl).trans ?_
  rw [t_v140_apply, t_v136_apply_o a0 a1 a4 a6 b m 1 (1 : Fin 2) (2 : Fin 3) rfl, t_v134_apply_one, t_v131_apply]

end Cert.RefValue

end
-- ==== Proof.RefRepel.lean ====
/-
  The reference's repel term, read at an index: the box arithmetic of the two groups' mean boxes is the
  specification's intersection over union, so pair `m` of batch `b` holds the repel term of its eight corners; the
  masked, normalized term follows.
-/
import proofs.«139320_j2216203125376_2_alg».proof.Proof.RefRepelBox

set_option synthInstance.maxSize 4096

noncomputable section

namespace Cert.RefValue

open Idealize.ShloMosaic Idealize.ShloMosaic.ValueIdx Cert.ReferenceIdeal Cert.ReferenceIdeal.Facts₀

variable [Cert.ReferenceIdeal.Facts]

/-! The scalar constants, broadcast: 0.41, 2 and 1e-6 as the specification names them; the integer 0 made a float. -/
theorem t_v154_apply (j : S64x2048x1.Idx) : t_v154 j = Spec.c41 := rfl
theorem t_v157_apply (j : S64x2048x1.Idx) : t_v157 j = Spec.c41 := rfl
theorem t_v166_apply (j : S64x2048x1.Idx) : t_v166 j = Spec.c41 := rfl
theorem t_v171_apply (j : S64x2048x1.Idx) : t_v171 j = Spec.c41 := rfl
theorem t_v184_apply (j : S64x2048x1.Idx) : t_v184 j = Spec.c41 := rfl
theorem t_v189_apply (j : S64x2048x1.Idx) : t_v189 j = Spec.c41 := rfl
theorem t_v159_apply (j : S64x2048x1.Idx) : t_v159 j = Spec.k2 := rfl
theorem t_v162_apply (j : S64x2048x1.Idx) : t_v162 j = Spec.k2 := rfl
theorem t_v168_apply (j : S64x2048x1.Idx) : t_v168 j = Spec.k2 := rfl
theorem t_v173_apply (j : S64x2048x1.Idx) : t_v173 j = Spec.k2 := rfl
theorem t_v177_apply (j : S64x2048x1.Idx) : t_v177 j = Spec.k2 := rfl
theorem t_v180_apply (j : S64x2048x1.Idx) : t_v180 j = Spec.k2 := rfl
theorem t_v186_apply (j : S64x2048x1.Idx) : t_v186 j = Spec.k2 := rfl
theorem t_v191_apply (j : S64x2048x1.Idx) : t_v191 j = Spec.k2 := rfl
theorem t_v202_apply (j : S64x2048x1.Idx) : t_v202 j = Spec.e6 := rfl

theorem sitofp_zero : (((0#32 : BitVec 32).toInt : ℝ) : EReal) = 0 := by
  rw [show (0#32 : BitVec 32).toInt = 0 from by decide]
  simp

theorem t_call7_v1_apply (j : S64x2048x1.Idx) : t_call7_v1 j = 0 := by
  show (((0#32 : BitVec 32).toInt : ℝ) : EReal) = 0
  exact sitofp_zero

theorem t_call8_v1_apply (j : S64x2048x1.Idx) : t_call8_v1 j = 0 := by
  show (((0#32 : BitVec 32).toInt : ℝ) : EReal) = 0
  exact sitofp_zero

variable (a0 : S64x1x256x256.Idx → EReal) (a1 : S64x2x256x256.Idx → EReal) (a4 : S64x2048x2.Idx → EReal) (a6 : S64x2048x2x4.Idx → BitVec 32)

/-- The box arithmetic at an index is the intersection over union of the six values it reads. -/
theorem t_v204_box (j : S64x2048x1.Idx) :
    t_v204 a0 a1 a4 a6 j
      = Spec.iou (t_v142 a0 a1 a4 a6 j) (t_v144 a0 a1 a4 a6 j) (t_v146 a0 a1 a4 a6 j)
          (t_v148 a0 a1 a4 a6 j) (t_v150 a0 a1 a4 a6 j) (t_v152 a0 a1 a4 a6 j) := by
  simp only [t_v204, t_v203, t_v201, t_v200, t_v199, t_v198, t_v197, t_v196, t_v195, t_v194, t_v193, t_v192, t_v190, t_v188, t_v187, t_v185, t_v183, t_v182, t_v181, t_v179, t_v178, t_v176, t_v175, t_v174, t_v172, t_v170, t_v169, t_v167, t_v165, t_v164, t_v163, t_v161, t_v160, t_v158, t_v156, t_v155, t_v153,
    hostDivf_apply, addf_apply, subf_apply, mulf_apply, maximumf_apply, minimumf_apply,
    t_v154_apply, t_v157_apply, t_v166_apply, t_v171_apply, t_v184_apply, t_v189_apply, t_v159_apply, t_v162_apply, t_v168_apply, t_v173_apply, t_v177_apply, t_v180_apply, t_v186_apply, t_v191_apply, t_v202_apply, t_call7_v1_apply, t_call8_v1_apply]
  rfl

/-- Pair `m` of batch `b` holds the repel term of its two groups of four corners. -/
theorem t_v204_apply (b : Fin 64) (m : Fin 2048) :
    t_v204 a0 a1 a4 a6 (ix3 b m (0 : Fin 1)) = Canon.cR (t_v4 a0) (t_v14 a1) (t_v109 a6) a4 b m := by
  rw [t_v204_box, t_v142_apply, t_v144_apply, t_v146_apply, t_v148_apply, t_v150_apply, t_v152_apply]
  rfl

/-- The masked term, divided by the count scalar. -/
theorem t_v208_apply (a8 : S64x2048x1.Idx → BitVec 1) (d' : S_.Idx → EReal) (b : Fin 64) (m : Fin 2048) :
    t_v208 a0 a1 a4 a6 a8 d' (ix3 b m (0 : Fin 1))
      = Scalar.select (a8 (ix3 b m (0 : Fin 1)))
          (Ideal.div (Canon.cR (t_v4 a0) (t_v14 a1) (t_v109 a6) a4 b m) (d' ix0)) 0 := by
  have h206 : t_v206 d' (ix3 b m (0 : Fin 1)) = d' ix0 := broadcastInDim_scalar_apply _ d' _
  have h9 : t_call9_v1 (ix3 b m (0 : Fin 1)) = 0 := by
    show Ideal.ofBits .f32 0x00000000#32 = 0
    exact Ideal.ofBits_zero_f32
  unfold t_v208
  rw [select_apply, h9]
  unfold t_v207
  rw [hostDivf_apply, h206, t_v204_apply]

end Cert.RefValue

end
-- ==== Proof.Final.lean ====
/-
  From memories that agree on the arguments, the reference's result term and the kernel program's last boundary
  contents of its result buffer are the same extended real: each is the common form of the two masked totals over the
  two counts plus 1e-4, at its own memory's argument arrays, and those arrays agree.
-/
import proofs.«139320_j2216203125376_2_alg».proof.Proof.Bridge
import proofs.«139320_j2216203125376_2_alg».proof.Proof.KerEntry
import proofs.«139320_j2216203125376_2_alg».proof.Proof.RefAttract
import proofs.«139320_j2216203125376_2_alg».proof.Proof.RefRepel

set_option maxRecDepth 16384

noncomputable section

namespace Cert.Final

open Idealize.ShloMosaic Idealize.ShloMosaic.TcCoe Idealize.SL.Sem Idealize.ShloMosaic.ValueIdx

/-- The kernel program's result in the common form of its own argument arrays. -/
theorem ker_common (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W12 m ρ c (Proc.devRef .tc Cert.KernelIdeal.main_v52) : Cert.KernelIdeal.S_.Idx → EReal) ix0
      = Cert.Bridge.common (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
  Cert.Bridge.ker_value m ρ c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    (Cert.KerValue.V9_v11 m ρ c) (Cert.KerValue.V9_v15 m ρ c) (Cert.KerValue.V9_v17 m ρ c) (Cert.KerValue.V9_v28 m ρ c)
    (Cert.KerValue.V9_v33 m ρ c) (Cert.KerValue.V9_v36 m ρ c) (Cert.KerValue.V9_v37 m ρ c) (Cert.KerValue.V9_v40 m ρ c)
    (Cert.KerValue.V9_v43 m ρ c)

/-- The reference's result term in the common form of its argument arrays. -/
theorem ref_common (a0 : Cert.ReferenceIdeal.S64x1x256x256.Idx → EReal) (a1 : Cert.ReferenceIdeal.S64x2x256x256.Idx → EReal)
    (a4 : Cert.ReferenceIdeal.S64x2048x2.Idx → EReal) (a5 : Cert.ReferenceIdeal.S64x4096x4.Idx → BitVec 32)
    (a6 : Cert.ReferenceIdeal.S64x2048x2x4.Idx → BitVec 32) (a7 : Cert.ReferenceIdeal.S64x4096x4.Idx → BitVec 1)
    (a8 : Cert.ReferenceIdeal.S64x2048x1.Idx → BitVec 1) :
    Cert.ReferenceIdeal.RefRun.r_v210 a0 a1 a4 a5 a6 a7 a8 ix0 = Cert.Bridge.common a0 a1 a4 a5 a6 a7 a8 :=
  Cert.Bridge.ref_value a0 a1 a4 a5 a6 a7 a8
    (fun d b n cc => by rw [Cert.RefValue.t_v104_apply, Cert.RefValue.t_v98_apply])
    (fun d b mm => Cert.RefValue.t_v208_apply a0 a1 a4 a6 a8 d b mm)

end Cert.Final

end
-- ==== Proof.RefRunTac.lean ====
/-
  A rewriting loop that finishes reading a fold of host operations where the one-pass simplification stops (under the
  pair constructor of a concatenation's operand list): each operation's result at its own buffer is its function of
  its operands' contents, at any other reference what was there.
-/
import Idealize.ShloMosaic.Lib.StableHlo.Run

namespace Cert.ReferenceIdeal.RefRun

open Idealize.ShloMosaic Idealize.ShloMosaic.StableHlo

/-- Rewrites, one occurrence at a time and until none applies, each operation's result at its own result buffer to its
    function's value and at any other reference to what was there (the references told apart by computation). -/
macro "after_results_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

end Cert.ReferenceIdeal.RefRun
-- ==== Proof.RefRunReadA1.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunA1
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

/-- Contents moved to a typed reference's buffer and back are the contents. -/
theorem ofBuf_toBuf_A1 {T : BufTy} (x : StableHlo.TRef sig T) (v : T.Contents (Elt Ideal)) : x.ofBuf (x.toBuf v) = v := by
  obtain ⟨r, rfl, _, _⟩ := x
  rfl
/-- Read at the call's argument buffer `main_v5`, the transport along the buffer's type equation is the identity. -/
theorem ofBuf_v5_A1 (p : main_v5.ty = (⟨S64x65536x1, .f32⟩ : BufTy)) (q) (r) (v : main_v5.ty.Contents (Elt Ideal)) :
    (StableHlo.TRef.of main_v5 p q r).ofBuf v = v := rfl
/-- Read at the call's argument buffer `main_v6`, the transport along the buffer's type equation is the identity. -/
theorem ofBuf_v6_A1 (p : main_v6.ty = (⟨S64x16384x1, .i32⟩ : BufTy)) (q) (r) (v : main_v6.ty.Contents (Elt Ideal)) :
    (StableHlo.TRef.of main_v6 p q r).ofBuf v = v := rfl
/-- Written to the call's result buffer `main_v7`, the transport along the buffer's type equation is the identity. -/
theorem toBuf_v7_A1 (p : main_v7.ty = (⟨S64x16384x1, .f32⟩ : BufTy)) (q) (r) (v : (⟨S64x16384x1, .f32⟩ : BufTy).Contents (Elt Ideal)) :
    (StableHlo.TRef.of main_v7 p q r).toBuf v = v := rfl

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readA1 (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_arg7 : V (Proc.devRef .tc main_arg7) = a7)
    (h_arg5 : V (Proc.devRef .tc main_arg5) = a5)
    (h_arg0 : V (Proc.devRef .tc main_arg0) = a0) :
    after opsA1 V (Proc.devRef .tc main_cst) = t_cst
    ∧ after opsA1 V (Proc.devRef .tc main_v2) = (r_v2 a7)
    ∧ after opsA1 V (Proc.devRef .tc main_v8) = (t_v8 a0 a5)
    ∧ after opsA1 V (Proc.devRef .tc main_v12) = (t_v12 a0 a5) := by
  after_results_simp
  refine ⟨?_, ?_, ?_, ?_⟩
  · rfl
  · rw [h_arg7]
    rfl
  · rw [h_arg5, h_arg0]
    simp only [ofBuf_toBuf_A1, ofBuf_v5_A1, ofBuf_v6_A1, toBuf_v7_A1]
    rfl
  · rw [h_arg5, h_arg0]
    simp only [ofBuf_toBuf_A1, ofBuf_v5_A1, ofBuf_v6_A1, toBuf_v7_A1]
    rfl

end Cert.ReferenceIdeal.RefRun

end
-- ==== Proof.RefRunReadA2.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunA2
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

/-- Contents moved to a typed reference's buffer and back are the contents. -/
theorem ofBuf_toBuf_A2 {T : BufTy} (x : StableHlo.TRef sig T) (v : T.Contents (Elt Ideal)) : x.ofBuf (x.toBuf v) = v := by
  obtain ⟨r, rfl, _, _⟩ := x
  rfl
/-- Read at the call's argument buffer `main_v15`, the transport along the buffer's type equation is the identity. -/
theorem ofBuf_v15_A2 (p : main_v15.ty = (⟨S64x65536x2, .f32⟩ : BufTy)) (q) (r) (v : main_v15.ty.Contents (Elt Ideal)) :
    (StableHlo.TRef.of main_v15 p q r).ofBuf v = v := rfl
/-- Read at the call's argument buffer `main_v16`, the transport along the buffer's type equation is the identity. -/
theorem ofBuf_v16_A2 (p : main_v16.ty = (⟨S64x16384x1, .i32⟩ : BufTy)) (q) (r) (v : main_v16.ty.Contents (Elt Ideal)) :
    (StableHlo.TRef.of main_v16 p q r).ofBuf v = v := rfl
/-- Written to the call's result buffer `main_v17`, the transport along the buffer's type equation is the identity. -/
theorem toBuf_v17_A2 (p : main_v17.ty = (⟨S64x16384x2, .f32⟩ : BufTy)) (q) (r) (v : (⟨S64x16384x2, .f32⟩ : BufTy).Contents (Elt Ideal)) :
    (StableHlo.TRef.of main_v17 p q r).toBuf v = v := rfl

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readA2 (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_arg5 : V (Proc.devRef .tc main_arg5) = a5)
    (h_arg1 : V (Proc.devRef .tc main_arg1) = a1)
    (h_cst : V (Proc.devRef .tc main_cst) = t_cst) :
    after opsA2 V (Proc.devRef .tc main_v21) = (t_v21 a1 a5)
    ∧ after opsA2 V (Proc.devRef .tc main_v25) = (t_v25 a1 a5) := by
  after_results_simp
  refine ⟨?_, ?_⟩
  · rw [h_arg5, h_arg1, h_cst]
    simp only [ofBuf_toBuf_A2, ofBuf_v15_A2, ofBuf_v16_A2, toBuf_v17_A2]
    rfl
  · rw [h_arg5, h_arg1, h_cst]
    simp only [ofBuf_toBuf_A2, ofBuf_v15_A2, ofBuf_v16_A2, toBuf_v17_A2]
    rfl

end Cert.ReferenceIdeal.RefRun

end
-- ==== Proof.RefRunReadA3.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunA3
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readA3 (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_v8 : V (Proc.devRef .tc main_v8) = (t_v8 a0 a5))
    (h_v21 : V (Proc.devRef .tc main_v21) = (t_v21 a1 a5))
    (h_v12 : V (Proc.devRef .tc main_v12) = (t_v12 a0 a5))
    (h_v25 : V (Proc.devRef .tc main_v25) = (t_v25 a1 a5)) :
    after opsA3 V (Proc.devRef .tc main_v31) = (t_v31 a0 a1 a5)
    ∧ after opsA3 V (Proc.devRef .tc main_v33) = (t_v33 a0 a1 a5)
    ∧ after opsA3 V (Proc.devRef .tc main_v35) = (t_v35 a0 a1 a5)
    ∧ after opsA3 V (Proc.devRef .tc main_v37) = (t_v37 a0 a1 a5)
    ∧ after opsA3 V (Proc.devRef .tc main_v39) = (t_v39 a0 a1 a5)
    ∧ after opsA3 V (Proc.devRef .tc main_v41) = (t_v41 a0 a1 a5)
    ∧ after opsA3 V (Proc.devRef .tc main_v44) = (t_v44 a0 a1 a5)
    ∧ after opsA3 V (Proc.devRef .tc main_v47) = (t_v47 a0 a1 a5)
    ∧ after opsA3 V (Proc.devRef .tc main_v50) = (t_v50 a0 a1 a5) := by
  after_results_simp
  refine ⟨?_, ?_, ?_, ?_, ?_, ?_, ?_, ?_, ?_⟩
  · after_results_rw
    rw [h_v8, h_v21]
    rfl
  · after_results_rw
    rw [h_v8, h_v21]
    rfl
  · after_results_rw
    rw [h_v8, h_v21]
    rfl
  · after_results_rw
    rw [h_v12, h_v25]
    rfl
  · after_results_rw
    rw [h_v12, h_v25]
    rfl
  · after_results_rw
    rw [h_v12, h_v25]
    rfl
  · after_results_rw
    rw [h_v8, h_v21]
    rfl
  · after_results_rw
    rw [h_v12, h_v25]
    rfl
  · after_results_rw
    rw [h_v8, h_v21]
    rfl

end Cert.ReferenceIdeal.RefRun

end
-- ==== Proof.RefRunReadB.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunB
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readB (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_v37 : V (Proc.devRef .tc main_v37) = (t_v37 a0 a1 a5))
    (h_v39 : V (Proc.devRef .tc main_v39) = (t_v39 a0 a1 a5))
    (h_v50 : V (Proc.devRef .tc main_v50) = (t_v50 a0 a1 a5))
    (h_v31 : V (Proc.devRef .tc main_v31) = (t_v31 a0 a1 a5))
    (h_v35 : V (Proc.devRef .tc main_v35) = (t_v35 a0 a1 a5))
    (h_v41 : V (Proc.devRef .tc main_v41) = (t_v41 a0 a1 a5))
    (h_v33 : V (Proc.devRef .tc main_v33) = (t_v33 a0 a1 a5))
    (h_v47 : V (Proc.devRef .tc main_v47) = (t_v47 a0 a1 a5))
    (h_v44 : V (Proc.devRef .tc main_v44) = (t_v44 a0 a1 a5)) :
    after opsB V (Proc.devRef .tc main_v92) = (t_v92 a0 a1 a5)
    ∧ after opsB V (Proc.devRef .tc main_v95) = (t_v95 a0 a1 a5)
    ∧ after opsB V (Proc.devRef .tc main_v96) = t_v96 := by
  after_results_simp
  refine ⟨?_, ?_, ?_⟩
  · rw [h_v37, h_v39, h_v50, h_v31, h_v35, h_v41, h_v33]
    rfl
  · rw [h_v37, h_v39, h_v50, h_v31, h_v35, h_v41, h_v33, h_v47, h_v44]
    rfl
  · rfl

end Cert.ReferenceIdeal.RefRun

end
-- ==== Proof.RefRunReadC1.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunC1
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readC1 (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_v95 : V (Proc.devRef .tc main_v95) = (t_v95 a0 a1 a5))
    (h_v96 : V (Proc.devRef .tc main_v96) = t_v96)
    (h_v92 : V (Proc.devRef .tc main_v92) = (t_v92 a0 a1 a5))
    (h_v2 : V (Proc.devRef .tc main_v2) = (r_v2 a7))
    (h_arg7 : V (Proc.devRef .tc main_arg7) = a7) :
    after opsC1 V (Proc.devRef .tc main_v105) = (r_v105 a0 a1 a5 a7) := by
  after_results_simp
  rw [h_v95, h_v96, h_v92, h_v2, h_arg7]
  rfl

end Cert.ReferenceIdeal.RefRun

end
-- ==== Proof.RefRunReadC2.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunC2
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readC2 (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_arg8 : V (Proc.devRef .tc main_arg8) = a8) :
    after opsC2 V (Proc.devRef .tc main_v108) = (r_v108 a8) := by
  after_results_simp
  rw [h_arg8]
  rfl

end Cert.ReferenceIdeal.RefRun

end
-- ==== Proof.RefRunReadC3.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunC3
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

/-- Contents moved to a typed reference's buffer and back are the contents. -/
theorem ofBuf_toBuf_C3 {T : BufTy} (x : StableHlo.TRef sig T) (v : T.Contents (Elt Ideal)) : x.ofBuf (x.toBuf v) = v := by
  obtain ⟨r, rfl, _, _⟩ := x
  rfl

/-- At a buffer whose type is the value's by computation the transport is the identity. -/
theorem ofBuf_v112_C3 (p : main_v112.ty = (⟨S64x16384x1, .i32⟩ : BufTy)) (q) (r) (v : main_v112.ty.Contents (Elt Ideal)) :
    (StableHlo.TRef.of main_v112 p q r).ofBuf v = v := rfl
theorem ofBuf_v111_C3 (p : main_v111.ty = (⟨S64x65536x1, .f32⟩ : BufTy)) (q) (r) (v : main_v111.ty.Contents (Elt Ideal)) :
    (StableHlo.TRef.of main_v111 p q r).ofBuf v = v := rfl
theorem toBuf_v113_C3 (p : main_v113.ty = (⟨S64x16384x1, .f32⟩ : BufTy)) (q) (r) (v : (⟨S64x16384x1, .f32⟩ : BufTy).Contents (Elt Ideal)) :
    (StableHlo.TRef.of main_v113 p q r).toBuf v = v := rfl

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readC3 (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_arg6 : V (Proc.devRef .tc main_arg6) = a6)
    (h_arg0 : V (Proc.devRef .tc main_arg0) = a0) :
    after opsC3 V (Proc.devRef .tc main_v118) = (t_v118 a0 a6) := by
  after_results_simp
  rw [h_arg6, h_arg0]
  simp only [ofBuf_toBuf_C3, ofBuf_v112_C3, ofBuf_v111_C3, toBuf_v113_C3]
  rfl

end Cert.ReferenceIdeal.RefRun

end
-- ==== Proof.RefRunReadC4.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunC4
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

/-- Contents moved to a typed reference's buffer and back are the contents. -/
theorem ofBuf_toBuf_C4 {T : BufTy} (x : StableHlo.TRef sig T) (v : T.Contents (Elt Ideal)) : x.ofBuf (x.toBuf v) = v := by
  obtain ⟨r, rfl, _, _⟩ := x
  rfl

/-- At a buffer whose type is the value's by computation the transport is the identity. -/
theorem ofBuf_v122_C4 (p : main_v122.ty = (⟨S64x16384x1, .i32⟩ : BufTy)) (q) (r) (v : main_v122.ty.Contents (Elt Ideal)) :
    (StableHlo.TRef.of main_v122 p q r).ofBuf v = v := rfl
theorem ofBuf_v121_C4 (p : main_v121.ty = (⟨S64x65536x2, .f32⟩ : BufTy)) (q) (r) (v : main_v121.ty.Contents (Elt Ideal)) :
    (StableHlo.TRef.of main_v121 p q r).ofBuf v = v := rfl
theorem toBuf_v123_C4 (p : main_v123.ty = (⟨S64x16384x2, .f32⟩ : BufTy)) (q) (r) (v : (⟨S64x16384x2, .f32⟩ : BufTy).Contents (Elt Ideal)) :
    (StableHlo.TRef.of main_v123 p q r).toBuf v = v := rfl

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readC4 (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_arg6 : V (Proc.devRef .tc main_arg6) = a6)
    (h_arg1 : V (Proc.devRef .tc main_arg1) = a1)
    (h_cst : V (Proc.devRef .tc main_cst) = t_cst) :
    after opsC4 V (Proc.devRef .tc main_v131) = (t_v131 a1 a6) := by
  after_results_simp
  rw [h_arg6, h_arg1, h_cst]
  simp only [ofBuf_toBuf_C4, ofBuf_v122_C4, ofBuf_v121_C4, toBuf_v123_C4]
  rfl

end Cert.ReferenceIdeal.RefRun

end
-- ==== Proof.RefRunReadC5.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunC5
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readC5 (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_arg4 : V (Proc.devRef .tc main_arg4) = a4)
    (h_v131 : V (Proc.devRef .tc main_v131) = (t_v131 a1 a6))
    (h_v118 : V (Proc.devRef .tc main_v118) = (t_v118 a0 a6)) :
    after opsC5 V (Proc.devRef .tc main_v140) = (t_v140 a0 a1 a4 a6)
    ∧ after opsC5 V (Proc.devRef .tc main_v142) = (t_v142 a0 a1 a4 a6)
    ∧ after opsC5 V (Proc.devRef .tc main_v144) = (t_v144 a0 a1 a4 a6)
    ∧ after opsC5 V (Proc.devRef .tc main_v146) = (t_v146 a0 a1 a4 a6) := by
  after_results_simp
  refine ⟨?_, ?_, ?_, ?_⟩
  · after_results_rw
    rw [h_arg4, h_v131, h_v118]
    rfl
  · after_results_rw
    rw [h_arg4, h_v131, h_v118]
    rfl
  · after_results_rw
    rw [h_arg4, h_v131, h_v118]
    rfl
  · after_results_rw
    rw [h_arg4, h_v131, h_v118]
    rfl

end Cert.ReferenceIdeal.RefRun

end
-- ==== Proof.RefRunReadD.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunD
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readD (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_v140 : V (Proc.devRef .tc main_v140) = (t_v140 a0 a1 a4 a6))
    (h_v142 : V (Proc.devRef .tc main_v142) = (t_v142 a0 a1 a4 a6))
    (h_v144 : V (Proc.devRef .tc main_v144) = (t_v144 a0 a1 a4 a6))
    (h_v146 : V (Proc.devRef .tc main_v146) = (t_v146 a0 a1 a4 a6)) :
    after opsD V (Proc.devRef .tc main_v152) = (t_v152 a0 a1 a4 a6)
    ∧ after opsD V (Proc.devRef .tc main_v155) = (t_v155 a0 a1 a4 a6)
    ∧ after opsD V (Proc.devRef .tc main_v158) = (t_v158 a0 a1 a4 a6)
    ∧ after opsD V (Proc.devRef .tc main_v165) = (t_v165 a0 a1 a4 a6)
    ∧ after opsD V (Proc.devRef .tc main_v176) = (t_v176 a0 a1 a4 a6)
    ∧ after opsD V (Proc.devRef .tc main_v183) = (t_v183 a0 a1 a4 a6)
    ∧ after opsD V (Proc.devRef .tc main_v188) = (t_v188 a0 a1 a4 a6)
    ∧ after opsD V (Proc.devRef .tc main_v192) = (t_v192 a0 a1 a4 a6) := by
  after_results_simp
  refine ⟨?_, ?_, ?_, ?_, ?_, ?_, ?_, ?_⟩
  · rw [h_v140]
    rfl
  · rw [h_v142]
    rfl
  · rw [h_v140]
    rfl
  · rw [h_v140, h_v142, h_v144]
    rfl
  · rw [h_v140, h_v142, h_v146]
    rfl
  · rw [h_v140, h_v142, h_v144]
    rfl
  · rw [h_v142, h_v146]
    rfl
  · rw [h_v140]
    rfl

end Cert.ReferenceIdeal.RefRun

end
-- ==== Proof.RefRunReadE.lean ====
/-
  What the operations of this chunk leave in the buffers read later, as the program's own terms of the argument arrays,
  given that the buffers the chunk reads hold theirs.
-/
import proofs.«139320_j2216203125376_2_alg».proof.Proof.RefRunLib
import proofs.«139320_j2216203125376_2_alg».proof.Proof.RefRunE
import proofs.«139320_j2216203125376_2_alg».proof.Proof.RefRunTerms
import proofs.«139320_j2216203125376_2_alg».proof.Proof.RefRunTac

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

-- one simplification pass over every operation of the chunk; the terms are deep
set_option maxRecDepth 16384 in
set_option maxHeartbeats 4000000 in
/-- From a valuation whose buffers read here hold the program's terms of the argument arrays, the buffers written here and
    read later hold theirs: each operation's result is its function of its operands' contents, composed, and the composed
    term is the definition's by unfolding. -/
theorem readE (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_v152 : V (Proc.devRef .tc main_v152) = (t_v152 a0 a1 a4 a6))
    (h_v192 : V (Proc.devRef .tc main_v192) = (t_v192 a0 a1 a4 a6))
    (h_v188 : V (Proc.devRef .tc main_v188) = (t_v188 a0 a1 a4 a6))
    (h_v183 : V (Proc.devRef .tc main_v183) = (t_v183 a0 a1 a4 a6))
    (h_v165 : V (Proc.devRef .tc main_v165) = (t_v165 a0 a1 a4 a6))
    (h_v176 : V (Proc.devRef .tc main_v176) = (t_v176 a0 a1 a4 a6))
    (h_v155 : V (Proc.devRef .tc main_v155) = (t_v155 a0 a1 a4 a6))
    (h_v158 : V (Proc.devRef .tc main_v158) = (t_v158 a0 a1 a4 a6))
    (h_v108 : V (Proc.devRef .tc main_v108) = (r_v108 a8))
    (h_arg8 : V (Proc.devRef .tc main_arg8) = a8)
    (h_v105 : V (Proc.devRef .tc main_v105) = (r_v105 a0 a1 a5 a7)) :
    after opsE V (Proc.devRef .tc main_v210) = (r_v210 a0 a1 a4 a5 a6 a7 a8) := by
  after_results_simp
  rw [h_v152, h_v192, h_v188, h_v183, h_v165, h_v176, h_v155, h_v158, h_v108, h_arg8, h_v105]
  rfl

end Cert.ReferenceIdeal.RefRun

end
-- ==== Proof.RefRunRes.lean ====
/-
  The reference program's result as the program's own terms of the argument arrays: the fold of the 360 operations is
  read chunk by chunk, each chunk's written buffers from the buffers it reads, the buffers in between kept.
-/
import proofs.«139320_j2216203125376_2_alg».proof.Proof.RefRunLib
import proofs.«139320_j2216203125376_2_alg».proof.Proof.RefRun
import proofs.«139320_j2216203125376_2_alg».proof.Proof.RefRunReadA1
import proofs.«139320_j2216203125376_2_alg».proof.Proof.RefRunReadA2
import proofs.«139320_j2216203125376_2_alg».proof.Proof.RefRunReadA3
import proofs.«139320_j2216203125376_2_alg».proof.Proof.RefRunReadB
import proofs.«139320_j2216203125376_2_alg».proof.Proof.RefRunReadC1
import proofs.«139320_j2216203125376_2_alg».proof.Proof.RefRunReadC2
import proofs.«139320_j2216203125376_2_alg».proof.Proof.RefRunReadC3
import proofs.«139320_j2216203125376_2_alg».proof.Proof.RefRunReadC4
import proofs.«139320_j2216203125376_2_alg».proof.Proof.RefRunReadC5
import proofs.«139320_j2216203125376_2_alg».proof.Proof.RefRunReadD
import proofs.«139320_j2216203125376_2_alg».proof.Proof.RefRunReadE

noncomputable section

namespace Cert.ReferenceIdeal.RefRun

open Cert.RefValue Cert.ReferenceIdeal Cert.ReferenceIdeal.Gen Idealize.ShloMosaic Idealize.ShloMosaic.TcCoe Idealize.SL.Sem Idealize.ShloMosaic.StableHlo

theorem after_P0 (V : Valuation τ sig (Elt Ideal)) : after opsP0 V = after opsA3 (after opsA2 (after opsA1 V)) := by
  unfold opsP0; rw [after_app, after_app]
theorem after_P1 (V : Valuation τ sig (Elt Ideal)) : after opsP1 V = after opsB V := rfl
theorem after_P2 (V : Valuation τ sig (Elt Ideal)) :
    after opsP2 V = after opsC5 (after opsC4 (after opsC3 (after opsC2 (after opsC1 V)))) := by
  unfold opsP2; rw [after_app, after_app, after_app, after_app]
theorem after_P3 (V : Valuation τ sig (Elt Ideal)) : after opsP3 V = after opsD V := rfl
theorem after_P4 (V : Valuation τ sig (Elt Ideal)) : after opsP4 V = after opsE V := rfl

/-- From any valuation, the fold of @main's operations leaves in the result buffer the program's term of what the
    valuation holds at the seven argument buffers the program reads. -/
theorem res_of (V : Valuation τ sig (Elt Ideal)) (a0 : S64x1x256x256.Idx → EReal) (a1 : S64x2x256x256.Idx → EReal) (a4 : S64x2048x2.Idx → EReal) (a5 : S64x4096x4.Idx → BitVec 32) (a6 : S64x2048x2x4.Idx → BitVec 32) (a7 : S64x4096x4.Idx → BitVec 1) (a8 : S64x2048x1.Idx → BitVec 1)
    (h_arg0 : V (Proc.devRef .tc main_arg0) = a0)
    (h_arg1 : V (Proc.devRef .tc main_arg1) = a1)
    (h_arg4 : V (Proc.devRef .tc main_arg4) = a4)
    (h_arg5 : V (Proc.devRef .tc main_arg5) = a5)
    (h_arg6 : V (Proc.devRef .tc main_arg6) = a6)
    (h_arg7 : V (Proc.devRef .tc main_arg7) = a7)
    (h_arg8 : V (Proc.devRef .tc main_arg8) = a8) :
    after ops V (Proc.devRef .tc main_v210) = r_v210 a0 a1 a4 a5 a6 a7 a8 := by
  rw [after_ops, after_P0, after_P1, after_P2, after_P3, after_P4]
  have k0_arg0 := (keep opsA1_writes main_arg0 (by decide) _).trans h_arg0
  have k0_arg1 := (keep opsA1_writes main_arg1 (by decide) _).trans h_arg1
  have k0_arg4 := (keep opsA1_writes main_arg4 (by decide) _).trans h_arg4
  have k0_arg5 := (keep opsA1_writes main_arg5 (by decide) _).trans h_arg5
  have k0_arg6 := (keep opsA1_writes main_arg6 (by decide) _).trans h_arg6
  have k0_arg7 := (keep opsA1_writes main_arg7 (by decide) _).trans h_arg7
  have k0_arg8 := (keep opsA1_writes main_arg8 (by decide) _).trans h_arg8
  obtain ⟨f_cst, f_v2, f_v8, f_v12⟩ := readA1 _ a0 a1 a4 a5 a6 a7 a8 h_arg7 h_arg5 h_arg0
  have k1_arg0 := (keep opsA2_writes main_arg0 (by decide) _).trans k0_arg0
  have k1_arg1 := (keep opsA2_writes main_arg1 (by decide) _).trans k0_arg1
  have k1_arg4 := (keep opsA2_writes main_arg4 (by decide) _).trans k0_arg4
  have k1_arg6 := (keep opsA2_writes main_arg6 (by decide) _).trans k0_arg6
  have k1_arg7 := (keep opsA2_writes main_arg7 (by decide) _).trans k0_arg7
  have k1_arg8 := (keep opsA2_writes main_arg8 (by decide) _).trans k0_arg8
  have k1_cst := (keep opsA2_writes main_cst (by decide) _).trans f_cst
  have k1_v2 := (keep opsA2_writes main_v2 (by decide) _).trans f_v2
  have k1_v8 := (keep opsA2_writes main_v8 (by decide) _).trans f_v8
  have k1_v12 := (keep opsA2_writes main_v12 (by decide) _).trans f_v12
  obtain ⟨f_v21, f_v25⟩ := readA2 _ a0 a1 a4 a5 a6 a7 a8 k0_arg5 k0_arg1 f_cst
  have k2_arg0 := (keep opsA3_writes main_arg0 (by decide) _).trans k1_arg0
  have k2_arg1 := (keep opsA3_writes main_arg1 (by decide) _).trans k1_arg1
  have k2_arg4 := (keep opsA3_writes main_arg4 (by decide) _).trans k1_arg4
  have k2_arg6 := (keep opsA3_writes main_arg6 (by decide) _).trans k1_arg6
  have k2_arg7 := (keep opsA3_writes main_arg7 (by decide) _).trans k1_arg7
  have k2_arg8 := (keep opsA3_writes main_arg8 (by decide) _).trans k1_arg8
  have k2_cst := (keep opsA3_writes main_cst (by decide) _).trans k1_cst
  have k2_v2 := (keep opsA3_writes main_v2 (by decide) _).trans k1_v2
  obtain ⟨f_v31, f_v33, f_v35, f_v37, f_v39, f_v41, f_v44, f_v47, f_v50⟩ := readA3 _ a0 a1 a4 a5 a6 a7 a8 k1_v8 f_v21 k1_v12 f_v25
  have k3_arg0 := (keep opsB_writes main_arg0 (by decide) _).trans k2_arg0
  have k3_arg1 := (keep opsB_writes main_arg1 (by decide) _).trans k2_arg1
  have k3_arg4 := (keep opsB_writes main_arg4 (by decide) _).trans k2_arg4
  have k3_arg6 := (keep opsB_writes main_arg6 (by decide) _).trans k2_arg6
  have k3_arg7 := (keep opsB_writes main_arg7 (by decide) _).trans k2_arg7
  have k3_arg8 := (keep opsB_writes main_arg8 (by decide) _).trans k2_arg8
  have k3_cst := (keep opsB_writes main_cst (by decide) _).trans k2_cst
  have k3_v2 := (keep opsB_writes main_v2 (by decide) _).trans k2_v2
  obtain ⟨f_v92, f_v95, f_v96⟩ := readB _ a0 a1 a4 a5 a6 a7 a8 f_v37 f_v39 f_v50 f_v31 f_v35 f_v41 f_v33 f_v47 f_v44
  have k4_arg0 := (keep opsC1_writes main_arg0 (by decide) _).trans k3_arg0
  have k4_arg1 := (keep opsC1_writes main_arg1 (by decide) _).trans k3_arg1
  have k4_arg4 := (keep opsC1_writes main_arg4 (by decide) _).trans k3_arg4
  have k4_arg6 := (keep opsC1_writes main_arg6 (by decide) _).trans k3_arg6
  have k4_arg8 := (keep opsC1_writes main_arg8 (by decide) _).trans k3_arg8
  have k4_cst := (keep opsC1_writes main_cst (by decide) _).trans k3_cst
  have f_v105 := readC1 _ a0 a1 a4 a5 a6 a7 a8 f_v95 f_v96 f_v92 k3_v2 k3_arg7
  have k5_arg0 := (keep opsC2_writes main_arg0 (by decide) _).trans k4_arg0
  have k5_arg1 := (keep opsC2_writes main_arg1 (by decide) _).trans k4_arg1
  have k5_arg4 := (keep opsC2_writes main_arg4 (by decide) _).trans k4_arg4
  have k5_arg6 := (keep opsC2_writes main_arg6 (by decide) _).trans k4_arg6
  have k5_arg8 := (keep opsC2_writes main_arg8 (by decide) _).trans k4_arg8
  have k5_cst := (keep opsC2_writes main_cst (by decide) _).trans k4_cst
  have k5_v105 := (keep opsC2_writes main_v105 (by decide) _).trans f_v105
  have f_v108 := readC2 _ a0 a1 a4 a5 a6 a7 a8 k4_arg8
  have k6_arg1 := (keep opsC3_writes main_arg1 (by decide) _).trans k5_arg1
  have k6_arg4 := (keep opsC3_writes main_arg4 (by decide) _).trans k5_arg4
  have k6_arg6 := (keep opsC3_writes main_arg6 (by decide) _).trans k5_arg6
  have k6_arg8 := (keep opsC3_writes main_arg8 (by decide) _).trans k5_arg8
  have k6_cst := (keep opsC3_writes main_cst (by decide) _).trans k5_cst
  have k6_v105 := (keep opsC3_writes main_v105 (by decide) _).trans k5_v105
  have k6_v108 := (keep opsC3_writes main_v108 (by decide) _).trans f_v108
  have f_v118 := readC3 _ a0 a1 a4 a5 a6 a7 a8 k5_arg6 k5_arg0
  have k7_arg4 := (keep opsC4_writes main_arg4 (by decide) _).trans k6_arg4
  have k7_arg8 := (keep opsC4_writes main_arg8 (by decide) _).trans k6_arg8
  have k7_v105 := (keep opsC4_writes main_v105 (by decide) _).trans k6_v105
  have k7_v108 := (keep opsC4_writes main_v108 (by decide) _).trans k6_v108
  have k7_v118 := (keep opsC4_writes main_v118 (by decide) _).trans f_v118
  have f_v131 := readC4 _ a0 a1 a4 a5 a6 a7 a8 k6_arg6 k6_arg1 k6_cst
  have k8_arg8 := (keep opsC5_writes main_arg8 (by decide) _).trans k7_arg8
  have k8_v105 := (keep opsC5_writes main_v105 (by decide) _).trans k7_v105
  have k8_v108 := (keep opsC5_writes main_v108 (by decide) _).trans k7_v108
  obtain ⟨f_v140, f_v142, f_v144, f_v146⟩ := readC5 _ a0 a1 a4 a5 a6 a7 a8 k7_arg4 f_v131 k7_v118
  have k9_arg8 := (keep opsD_writes main_arg8 (by decide) _).trans k8_arg8
  have k9_v105 := (keep opsD_writes main_v105 (by decide) _).trans k8_v105
  have k9_v108 := (keep opsD_writes main_v108 (by decide) _).trans k8_v108
  obtain ⟨f_v152, f_v155, f_v158, f_v165, f_v176, f_v183, f_v188, f_v192⟩ := readD _ a0 a1 a4 a5 a6 a7 a8 f_v140 f_v142 f_v144 f_v146
  have f_v210 := readE _ a0 a1 a4 a5 a6 a7 a8 f_v152 f_v192 f_v188 f_v183 f_v165 f_v176 f_v155 f_v158 k9_v108 k9_arg8 k9_v105
  exact f_v210

/-- The result buffer after the run, on core `c` from the memory `m`, is the program's term of the argument arrays
    `m` holds on that core. -/
theorem RES_eq (m : (ℓ : Loc nD τ sig) → Buf (Elt Ideal) ℓ) (c : Dev nD) :
    RES (F := Ideal) m c
      = r_v210 (m ((c.tc : Thread nD τ).loc main_arg0))
        (m ((c.tc : Thread nD τ).loc main_arg1))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8)) :=
  res_of (launchContents m c) _ _ _ _ _ _ _ rfl rfl rfl rfl rfl rfl rfl

end Cert.ReferenceIdeal.RefRun

end
-- ==== Proof.ValueEq.lean ====
/-
  From memories that agree on the seven argument arrays the programs read, the reference's result buffer after its run
  and the kernel program's result buffer at its last boundary hold the same extended real.  The reference's buffer is
  its program's term of its own argument arrays; that term and the kernel program's contents are each the common form
  (the two masked totals, each over its mask count plus 1e-4) of their own memory's arrays; the arrays agree.  Both
  buffers have a single entry, so equality of the contents is equality at that entry.
-/
import proofs.«139320_j2216203125376_2_alg».proof.Proof.Final
import proofs.«139320_j2216203125376_2_alg».proof.Proof.RefRunRes

set_option maxRecDepth 16384

noncomputable section

namespace Cert.ValueEq

open Idealize.ShloMosaic Idealize.ShloMosaic.TcCoe Idealize.SL.Sem Idealize.ShloMosaic.ValueIdx

/-- From memories agreeing on the arguments, the reference's result is the kernel program's. -/
theorem value_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) :
    Cert.ReferenceIdeal.RefRun.RES (F := Ideal) m' c
      = Cert.KernelIdeal.Gen.W12 m ρ c (Proc.devRef .tc Cert.KernelIdeal.main_v52) := by
  have hc : Cert.Bridge.common (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = Cert.Bridge.common (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
    rw [h0, h1, h4, h5, h6, h7, h8]
  have e2 : ∀ j : Cert.ReferenceIdeal.S_.Idx,
      Cert.ReferenceIdeal.RefRun.r_v210 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) j
        = (Cert.KernelIdeal.Gen.W12 m ρ c (Proc.devRef .tc Cert.KernelIdeal.main_v52) : Cert.KernelIdeal.S_.Idx → EReal) j := by
    intro j
    obtain rfl : j = ix0 := eq_ix0 j
    exact (Cert.Final.ref_common _ _ _ _ _ _ _).trans (hc.trans (Cert.Final.ker_common m ρ c).symm)
  exact (Cert.ReferenceIdeal.RefRun.RES_eq m' c).trans (funext e2)

end Cert.ValueEq

end
-- ==== Proof.lean ====
/-
  The certificate of a masked intersection-over-union loss.

  Both programs gather, for every batch member, heights and offsets of box corners from two tables at index words
  (negative words counted from the end of a row, words outside the row answered by the fill value), build boxes
  `(exp h, y, x)` of aspect 0.41, and add up masked terms: `1 - iou` of each corner's box against the box of the four
  corners' means (attract), and `iou` of the mean boxes of two groups of four corners, the second shifted (repel).
  The reference divides every term by the mask count plus 1e-4 and adds everything up at once; the kernel program lays
  the gathered arrays out corner-major, adds up batch member by batch member in two grid kernels that accumulate into a
  one-element block, and divides the two totals once at the end.

  The two agree on the extended reals with no finiteness assumption.  Halving by the product with 1/2 (and the mean by
  the product with 1/4 in the second kernel) is the quotient by 2 (by 4) on every extended real, since division by a
  nonzero real is the product with its reciprocal.  Sums of extended reals may be regrouped freely.  The one law that
  needs care is moving the division out of the masked sum: the divisor is a count of at most 2^20 mask bits plus a
  positive constant, hence a positive real, and multiplication by a nonnegative real distributes over every finite sum
  of extended reals, infinite terms included.  The mask test of the kernels, "the bit as a float exceeds one half",
  holds exactly when the bit is set.

  The frames of the two kernel programs are the generated ones; the reference's frame is its run with the result
  dropped; the idealization rewrote nothing, so there is nothing to preserve.
-/
import proofs.«139320_j2216203125376_2_alg».proof.Defs
import proofs.«139320_j2216203125376_2_alg».proof.Proof.Gen.Kernel
import proofs.«139320_j2216203125376_2_alg».proof.Proof.Gen.Kernel.Skeleton
import proofs.«139320_j2216203125376_2_alg».proof.Proof.Gen.Kernel.Launch
import proofs.«139320_j2216203125376_2_alg».proof.Proof.Gen.Kernel.Points
import proofs.«139320_j2216203125376_2_alg».proof.Proof.Gen.Kernel.Frame
import proofs.«139320_j2216203125376_2_alg».proof.Proof.Gen.KernelIdeal
import proofs.«139320_j2216203125376_2_alg».proof.Proof.Gen.KernelIdeal.Skeleton
import proofs.«139320_j2216203125376_2_alg».proof.Proof.Gen.KernelIdeal.Launch
import proofs.«139320_j2216203125376_2_alg».proof.Proof.Gen.KernelIdeal.Points
import proofs.«139320_j2216203125376_2_alg».proof.Proof.Gen.KernelIdeal.Frame
import proofs.«139320_j2216203125376_2_alg».proof.Proof.Gen.ReferenceIdeal
import proofs.«139320_j2216203125376_2_alg».proof.Proof.Gen.Pre_finite_inputs
import proofs.«139320_j2216203125376_2_alg».proof.Proof.KerRun
import proofs.«139320_j2216203125376_2_alg».proof.Proof.RefRun
import proofs.«139320_j2216203125376_2_alg».proof.Proof.ValueEq
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs and keeps its arguments. -/
theorem frame_p : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_pi : Cert.frame_KernelIdeal (hKernelIdeal := Cert.KernelIdeal.Gen.facts)
    (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2)
    (Cert.ReferenceIdeal.RefRun.run (F := Ideal) m ρ)

/-- The two idealized programs, from memories agreeing on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v52),
    Cert.KernelIdeal.KerRun.run (F := Ideal) m ρ, ?_⟩
  exact (θ_run (Cert.ReferenceIdeal.defs (F := Ideal)) _ _).mono
    (fun _ h c => ⟨(h c).1.trans (Cert.ValueEq.value_eq m ρ m' c (hagree c).1 (hagree c).2.1 (hagree c).2.2.2.2.1
      (hagree c).2.2.2.2.2.1 (hagree c).2.2.2.2.2.2.1 (hagree c).2.2.2.2.2.2.2.1 (hagree c).2.2.2.2.2.2.2.2), (h c).2⟩)
    (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
